-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S1024 : Shape := ⟨1, ![1024]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1024x200 : S_.BroadcastsInDim S1024x200 (![] : Fin 0 → Fin S1024x200.rank)
  reducesTo_S1024x200_S_d0_1 : S1024x200.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg0 : IVec S1024x200 32) (main_arg1 : IVec S1024 32) (main_v13 : IVec S_ 1) (main_v15 : IVec S1024x200 1) (main_c_5 : IVec S_ 32) : IVec S_ 1 :=
  let main_v16 : IVec S1024x200 32 := broadcastInDim S1024x200 ![] bcast_S_S1024x200 main_c_5
  let main_v17 : IVec S1024x200 1 := cmpi .sle main_arg0 main_v16
  let main_v18 : IVec S1024x200 1 := andi main_v15 main_v17
  let main_c_6 : IVec S_ 1 := constantI S_ 1 1#1
  let main_v19 : IVec S_ 1 := (fun x v => Host.reduce IntOp.andi x v reducesTo_S1024x200_S_d0_1 h_S_) main_v18 main_c_6
  let main_v20 : IVec S_ 1 := andi main_v13 main_v19
  let main_c_7 : IVec S_ 32 := constantI S_ 32 0#32
  let main_v21 : IVec S1024 32 := broadcastInDim S1024 ![] bcast_S_S1024 main_c_7
  let main_v22 : IVec S1024 1 := cmpi .sge main_arg1 main_v21
  let main_c_8 : IVec S_ 32 := constantI S_ 32 200#32
  let main_v23 : IVec S1024 32 := broadcastInDim S1024 ![] bcast_S_S1024 main_c_8
  let main_v24 : IVec S1024 1 := cmpi .sle main_arg1 main_v23
  let main_v25 : IVec S1024 1 := andi main_v22 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v20 main_v26
  main_v27

def fn {F : FTy → Type} [FloatOps F] (main_arg0 : IVec S1024x200 32) (main_arg1 : IVec S1024 32) (main_arg2 : FVec F S100000x128 .f32) (main_arg3 : FVec F S128x128 .f32) (main_arg4 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S1024x200 32 := broadcastInDim S1024x200 ![] bcast_S_S1024x200 main_c_4
  let main_v15 : IVec S1024x200 1 := cmpi .sge main_arg0 main_v14
  let main_c_5 : IVec S_ 32 := constantI S_ 32 99999#32
  fn_part1 (F := F) main_arg0 main_arg1 main_v13 main_v15 main_c_5
-- ==== Kernel.lean ====
abbrev S1024x200 : Shape := ⟨2, ![1024, 200]⟩
abbrev S1024 : Shape := ⟨1, ![1024]⟩
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S20000x128 : Shape := ⟨2, ![20000, 128]⟩
abbrev S32x100x64 : Shape := ⟨3, ![32, 100, 64]⟩
abbrev S32x100x64x128 : Shape := ⟨4, ![32, 100, 64, 128]⟩
abbrev S100x64 : Shape := ⟨2, ![100, 64]⟩
abbrev S10x64x128 : Shape := ⟨3, ![10, 64, 128]⟩
abbrev S_ : Shape := ⟨0, ![]⟩
abbrev S1x100x64 : Shape := ⟨3, ![1, 100, 64]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S1x1x64x128 : Shape := ⟨4, ![1, 1, 64, 128]⟩
abbrev S1024x200x128 : Shape := ⟨3, ![1024, 200, 128]⟩

abbrev nBuf : Table → Nat
  | .hbm => 10
  | .local .tc .vmem => 6
  | .local .scVector .vmem => 2
  | _ => 0

abbrev bufTy : (tb : Table) → Fin (nBuf tb) → BufTy
  | .hbm, ⟨0, _⟩ => ⟨S1024x200, .i32⟩
  | .hbm, ⟨1, _⟩ => ⟨S1024, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S100000x128, .f32⟩
  | .hbm, ⟨7, _⟩ => ⟨S32x100x64, .i32⟩
  | .hbm, ⟨8, _⟩ => ⟨S32x100x64x128, .f32⟩
  | .hbm, ⟨9, _⟩ => ⟨S1024x200x128, .f32⟩
  | .local .tc .vmem, ⟨0, _⟩ => ⟨S20000x128, .f32⟩
  | .local .tc .vmem, ⟨1, _⟩ => ⟨S20000x128, .f32⟩
  | .local .tc .vmem, ⟨2, _⟩ => ⟨S128x128, .f32⟩
  | .local .tc .vmem, ⟨3, _⟩ => ⟨S1x128, .f32⟩
  | .local .tc .vmem, ⟨4, _⟩ => ⟨S20000x128, .f32⟩
  | .local .tc .vmem, ⟨5, _⟩ => ⟨S20000x128, .f32⟩
  | .local .scVector .vmem, ⟨0, _⟩ => ⟨S100x64, .i32⟩
  | .local .scVector .vmem, ⟨1, _⟩ => ⟨S10x64x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v1_scv : Ref sig .scVector := ⟨.hbm, 6, rfl⟩
abbrev main_v2_scv : Ref sig .scVector := ⟨.hbm, 7, rfl⟩
abbrev main_v3_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_656_r0 : BitVec 32 := 0#32
  let c0_i32_657_r0 : BitVec 32 := 0#32
  ![v1.toNat, 0, 0]
def k1_off2 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_45 : BitVec 32 := 0#32
  let c0_i32_48 : BitVec 32 := 0#32
  let c0_i32_49 : BitVec 32 := 0#32
  ![v1.toNat, 0, 0, 0]
def k1_off3 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_68 : BitVec 32 := 1#32
  let c0_i32_71 : BitVec 32 := 0#32
  let c0_i32_72 : BitVec 32 := 0#32
  ![v1.toNat, 1, 0, 0]
def k1_off4 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_91 : BitVec 32 := 2#32
  let c0_i32_94 : BitVec 32 := 0#32
  let c0_i32_95 : BitVec 32 := 0#32
  ![v1.toNat, 2, 0, 0]
def k1_off5 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_114 : BitVec 32 := 3#32
  let c0_i32_117 : BitVec 32 := 0#32
  let c0_i32_118 : BitVec 32 := 0#32
  ![v1.toNat, 3, 0, 0]
def k1_off6 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_137 : BitVec 32 := 4#32
  let c0_i32_140 : BitVec 32 := 0#32
  let c0_i32_141 : BitVec 32 := 0#32
  ![v1.toNat, 4, 0, 0]
def k1_off7 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_170 : BitVec 32 := 5#32
  let c0_i32_173 : BitVec 32 := 0#32
  let c0_i32_174 : BitVec 32 := 0#32
  ![v1.toNat, 5, 0, 0]
def k1_off8 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_203 : BitVec 32 := 6#32
  let c0_i32_206 : BitVec 32 := 0#32
  let c0_i32_207 : BitVec 32 := 0#32
  ![v1.toNat, 6, 0, 0]
def k1_off9 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_236 : BitVec 32 := 7#32
  let c0_i32_239 : BitVec 32 := 0#32
  let c0_i32_240 : BitVec 32 := 0#32
  ![v1.toNat, 7, 0, 0]
def k1_off10 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_269 : BitVec 32 := 8#32
  let c0_i32_272 : BitVec 32 := 0#32
  let c0_i32_273 : BitVec 32 := 0#32
  ![v1.toNat, 8, 0, 0]
def k1_off11 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32_302 : BitVec 32 := 9#32
  let c0_i32_305 : BitVec 32 := 0#32
  let c0_i32_306 : BitVec 32 := 0#32
  ![v1.toNat, 9, 0, 0]
@[reducible] def k1_t1_loop : Scf.Loop 32 :=
  let c1_i32_328 : BitVec 32 := 1#32
  let c8_i32_329 : BitVec 32 := 8#32
  let v260 : BitVec 32 := Scalar.addi c1_i32_328 c8_i32_329
  let c1_i32_330 : BitVec 32 := 1#32
  ⟨c1_i32_328, v260, c1_i32_330⟩
def k1_off12 (k1_t1 : Fin k1_t1_loop.trips) (c0_i32_657 : BitVec 32) : Fin 2 → Nat :=
  let c1_i32_328 : BitVec 32 := 1#32
  let c1_i32_330 : BitVec 32 := 1#32
  let arg27 : BitVec 32 := Scf.iv c1_i32_328 c1_i32_330 k1_t1
  let c10_i32_656 : BitVec 32 := 10#32
  let v523 : BitVec 32 := Scalar.muli arg27 c10_i32_656
  let v524 : BitVec 32 := Scalar.addi v523 c0_i32_657
  let c0_i32_661 : BitVec 32 := 0#32
  ![v524.toNat, 0]
def k1_off13 (i : grid1.Coords) (k1_t1 : Fin k1_t1_loop.trips) (c0_i32_657 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_328 : BitVec 32 := 1#32
  let c1_i32_330 : BitVec 32 := 1#32
  let arg27 : BitVec 32 := Scf.iv c1_i32_328 c1_i32_330 k1_t1
  let c10_i32_656 : BitVec 32 := 10#32
  let v523 : BitVec 32 := Scalar.muli arg27 c10_i32_656
  let v524 : BitVec 32 := Scalar.addi v523 c0_i32_657
  let c0_i32_667 : BitVec 32 := 0#32
  let c0_i32_668 : BitVec 32 := 0#32
  ![v1.toNat, v524.toNat, 0, 0]
def k1_off14 (i : grid1.Coords) (k1_t1 : Fin k1_t1_loop.trips) (c0_i32_657 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_328 : BitVec 32 := 1#32
  let c1_i32_330 : BitVec 32 := 1#32
  let arg27 : BitVec 32 := Scf.iv c1_i32_328 c1_i32_330 k1_t1
  let c10_i32_656 : BitVec 32 := 10#32
  let v523 : BitVec 32 := Scalar.muli arg27 c10_i32_656
  let v524 : BitVec 32 := Scalar.addi v523 c0_i32_657
  let c6_i32_673 : BitVec 32 := 6#32
  let v538 : BitVec 32 := Scalar.addi v524 c6_i32_673
  let c0_i32_677 : BitVec 32 := 0#32
  let c0_i32_678 : BitVec 32 := 0#32
  ![v1.toNat, v538.toNat, 0, 0]
def k1_off15 (k1_t1 : Fin k1_t1_loop.trips) (c0_i32_657 : BitVec 32) : Fin 2 → Nat :=
  let c1_i32_328 : BitVec 32 := 1#32
  let c1_i32_330 : BitVec 32 := 1#32
  let arg27 : BitVec 32 := Scf.iv c1_i32_328 c1_i32_330 k1_t1
  let c10_i32_656 : BitVec 32 := 10#32
  let v523 : BitVec 32 := Scalar.muli arg27 c10_i32_656
  let v524 : BitVec 32 := Scalar.addi v523 c0_i32_657
  let c6_i32_673 : BitVec 32 := 6#32
  let v538 : BitVec 32 := Scalar.addi v524 c6_i32_673
  let c0_i32_686 : BitVec 32 := 0#32
  ![v538.toNat, 0]
def k1_off16 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c90_i32_339 : BitVec 32 := 90#32
  let c0_i32_342 : BitVec 32 := 0#32
  let c0_i32_343 : BitVec 32 := 0#32
  ![v1.toNat, 90, 0, 0]
def k1_off17 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c86_i32 : BitVec 32 := 86#32
  let c0_i32_351 : BitVec 32 := 0#32
  let c0_i32_352 : BitVec 32 := 0#32
  ![v1.toNat, 86, 0, 0]
def k1_off18 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c91_i32_370 : BitVec 32 := 91#32
  let c0_i32_373 : BitVec 32 := 0#32
  let c0_i32_374 : BitVec 32 := 0#32
  ![v1.toNat, 91, 0, 0]
def k1_off19 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c87_i32 : BitVec 32 := 87#32
  let c0_i32_382 : BitVec 32 := 0#32
  let c0_i32_383 : BitVec 32 := 0#32
  ![v1.toNat, 87, 0, 0]
def k1_off20 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c92_i32_401 : BitVec 32 := 92#32
  let c0_i32_404 : BitVec 32 := 0#32
  let c0_i32_405 : BitVec 32 := 0#32
  ![v1.toNat, 92, 0, 0]
def k1_off21 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c88_i32 : BitVec 32 := 88#32
  let c0_i32_413 : BitVec 32 := 0#32
  let c0_i32_414 : BitVec 32 := 0#32
  ![v1.toNat, 88, 0, 0]
def k1_off22 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c93_i32_432 : BitVec 32 := 93#32
  let c0_i32_435 : BitVec 32 := 0#32
  let c0_i32_436 : BitVec 32 := 0#32
  ![v1.toNat, 93, 0, 0]
def k1_off23 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c89_i32 : BitVec 32 := 89#32
  let c0_i32_444 : BitVec 32 := 0#32
  let c0_i32_445 : BitVec 32 := 0#32
  ![v1.toNat, 89, 0, 0]
def k1_off24 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c94_i32_463 : BitVec 32 := 94#32
  let c0_i32_466 : BitVec 32 := 0#32
  let c0_i32_467 : BitVec 32 := 0#32
  ![v1.toNat, 94, 0, 0]
def k1_off25 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c95_i32_479 : BitVec 32 := 95#32
  let c0_i32_482 : BitVec 32 := 0#32
  let c0_i32_483 : BitVec 32 := 0#32
  ![v1.toNat, 95, 0, 0]
def k1_off26 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_496 : BitVec 32 := 96#32
  let c0_i32_499 : BitVec 32 := 0#32
  let c0_i32_500 : BitVec 32 := 0#32
  ![v1.toNat, 96, 0, 0]
def k1_off27 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c97_i32_513 : BitVec 32 := 97#32
  let c0_i32_516 : BitVec 32 := 0#32
  let c0_i32_517 : BitVec 32 := 0#32
  ![v1.toNat, 97, 0, 0]
def k1_off28 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32_530 : BitVec 32 := 98#32
  let c0_i32_533 : BitVec 32 := 0#32
  let c0_i32_534 : BitVec 32 := 0#32
  ![v1.toNat, 98, 0, 0]
def k1_off29 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c99_i32_547 : BitVec 32 := 99#32
  let c0_i32_550 : BitVec 32 := 0#32
  let c0_i32_551 : BitVec 32 := 0#32
  ![v1.toNat, 99, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  inb_S20000x128_S20000x128_0_0 : ∀ a, (![0, 0] : Fin 2 → Nat) a + S20000x128.size a ≤ S20000x128.size a
  h_S20000x128 : 0 < S20000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20000x128 : S1x128.Broadcasts S20000x128
  shapeCasts_S1024x200_S32x100x64 : S1024x200.ShapeCasts S32x100x64
  squeezes_S1x100x64_S100x64 : S1x100x64.Squeezes S100x64
  inb_S10x64x128_S1x64x128_0_0_0 : ∀ a, (![0, 0, 0] : Fin 3 → Nat) a + S1x64x128.size a ≤ S10x64x128.size a
  squeezes_S1x64x128_S64x128 : S1x64x128.Squeezes S64x128
  inb_S100x64_S1x64_0_0 : ∀ a, (![0, 0] : Fin 2 → Nat) a + S1x64.size a ≤ S100x64.size a
  squeezes_S1x64_S64 : S1x64.Squeezes S64
  inb_S100000x128_S100000x128_0_0 : ∀ a, (![0, 0] : Fin 2 → Nat) a + S100000x128.size a ≤ S100000x128.size a
  gathers_S100000x128_S64x128 : S100000x128.Gathers 0 S64x128
  inb_S10x64x128_S1x64x128_1_0_0 : ∀ a, (![1, 0, 0] : Fin 3 → Nat) a + S1x64x128.size a ≤ S10x64x128.size a
  inb_S100x64_S1x64_1_0 : ∀ a, (![1, 0] : Fin 2 → Nat) a + S1x64.size a ≤ S100x64.size a
  inb_S10x64x128_S1x64x128_2_0_0 : ∀ a, (![2, 0, 0] : Fin 3 → Nat) a + S1x64x128.size a ≤ S10x64x128.size a
  inb_S100x64_S1x64_2_0 : ∀ a, (![2, 0] : Fin 2 → Nat) a + S1x64.size a ≤ S100x64.size a
  inb_S10x64x128_S1x64x128_3_0_0 : ∀ a, (![3, 0, 0] : Fin 3 → Nat) a + S1x64x128.size a ≤ S10x64x128.size a
  inb_S100x64_S1x64_3_0 : ∀ a, (![3, 0] : Fin 2 → Nat) a + S1x64.size a ≤ S100x64.size a
  inb_S10x64x128_S1x64x128_4_0_0 : ∀ a, (![4, 0, 0] : Fin 3 → Nat) a + S1x64x128.size a ≤ S10x64x128.size a
  inb_S100x64_S1x64_4_0 : ∀ a, (![4, 0] : Fin 2 → Nat) a + S1x64.size a ≤ S100x64.size a
  inb_S10x64x128_S1x64x128_5_0_0 : ∀ a, (![5, 0, 0] : Fin 3 → Nat) a + S1x64x128.size a ≤ S10x64x128.size a
  inb_S100x64_S1x64_5_0 : ∀ a, (![5, 0] : Fin 2 → Nat) a + S1x64.size a ≤ S100x64.size a
  squeezes_S1x1x64x128_S64x128 : S1x1x64x128.Squeezes S64x128
  inb_S10x64x128_S1x64x128_6_0_0 : ∀ a, (![6, 0, 0] : Fin 3 → Nat) a + S1x64x128.size a ≤ S10x64x128.size a
  inb_S100x64_S1x64_6_0 : ∀ a, (![6, 0] : Fin 2 → Nat) a + S1x64.size a ≤ S100x64.size a
  inb_S10x64x128_S1x64x128_7_0_0 : ∀ a, (![7, 0, 0] : Fin 3 → Nat) a + S1x64x128.size a ≤ S10x64x128.size a
  inb_S100x64_S1x64_7_0 : ∀ a, (![7, 0] : Fin 2 → Nat) a + S1x64.size a ≤ S100x64.size a
  inb_S10x64x128_S1x64x128_8_0_0 : ∀ a, (![8, 0, 0] : Fin 3 → Nat) a + S1x64x128.size a ≤ S10x64x128.size a
  inb_S100x64_S1x64_8_0 : ∀ a, (![8, 0] : Fin 2 → Nat) a + S1x64.size a ≤ S100x64.size a
  inb_S10x64x128_S1x64x128_9_0_0 : ∀ a, (![9, 0, 0] : Fin 3 → Nat) a + S1x64x128.size a ≤ S10x64x128.size a
  inb_S100x64_S1x64_9_0 : ∀ a, (![9, 0] : Fin 2 → Nat) a + S1x64.size a ≤ S100x64.size a
  inb_S100x64_S1x64_10_0 : ∀ a, (![10, 0] : Fin 2 → Nat) a + S1x64.size a ≤ S100x64.size a
  inb_S100x64_S1x64_11_0 : ∀ a, (![11, 0] : Fin 2 → Nat) a + S1x64.size a ≤ S100x64.size a
  inb_S100x64_S1x64_12_0 : ∀ a, (![12, 0] : Fin 2 → Nat) a + S1x64.size a ≤ S100x64.size a
  inb_S100x64_S1x64_13_0 : ∀ a, (![13, 0] : Fin 2 → Nat) a + S1x64.size a ≤ S100x64.size a
  inb_S100x64_S1x64_14_0 : ∀ a, (![14, 0] : Fin 2 → Nat) a + S1x64.size a ≤ S100x64.size a
  inb_S100x64_S1x64_15_0 : ∀ a, (![15, 0] : Fin 2 → Nat) a + S1x64.size a ≤ S100x64.size a
  inb_S100x64_S1x64_90_0 : ∀ a, (![90, 0] : Fin 2 → Nat) a + S1x64.size a ≤ S100x64.size a
  inb_S100x64_S1x64_96_0 : ∀ a, (![96, 0] : Fin 2 → Nat) a + S1x64.size a ≤ S100x64.size a
  inb_S100x64_S1x64_91_0 : ∀ a, (![91, 0] : Fin 2 → Nat) a + S1x64.size a ≤ S100x64.size a
  inb_S100x64_S1x64_97_0 : ∀ a, (![97, 0] : Fin 2 → Nat) a + S1x64.size a ≤ S100x64.size a
  inb_S100x64_S1x64_92_0 : ∀ a, (![92, 0] : Fin 2 → Nat) a + S1x64.size a ≤ S100x64.size a
  inb_S100x64_S1x64_98_0 : ∀ a, (![98, 0] : Fin 2 → Nat) a + S1x64.size a ≤ S100x64.size a
  inb_S100x64_S1x64_93_0 : ∀ a, (![93, 0] : Fin 2 → Nat) a + S1x64.size a ≤ S100x64.size a
  inb_S100x64_S1x64_99_0 : ∀ a, (![99, 0] : Fin 2 → Nat) a + S1x64.size a ≤ S100x64.size a
  inb_S100x64_S1x64_94_0 : ∀ a, (![94, 0] : Fin 2 → Nat) a + S1x64.size a ≤ S100x64.size a
  inb_S100x64_S1x64_95_0 : ∀ a, (![95, 0] : Fin 2 → Nat) a + S1x64.size a ≤ S100x64.size a
  shapeCasts_S32x100x64x128_S1024x200x128 : S32x100x64x128.ShapeCasts S1024x200x128
  dot_S20000x128_S128x128_S20000x128_1_1_0_0_n_n_wf : DotDims.WF S20000x128 S128x128 S20000x128 [1] [1] [0] [0] [] []
  hcc1_scratch2 : 6 + S_.numel ≤ 27
  hcc1_scratch3 : 7 + S_.numel ≤ 27
  hcc1_scratch4 : 8 + S_.numel ≤ 27
  hcc1_scratch5 : 9 + S_.numel ≤ 27
  hcc1_scratch6 : 10 + S_.numel ≤ 27
  hcc1_scratch7 : 11 + S_.numel ≤ 27
  hcc1_scratch8 : 12 + S_.numel ≤ 27
  hcc1_scratch9 : 13 + S_.numel ≤ 27
  hcc1_scratch10 : 14 + S_.numel ≤ 27
  hcc1_scratch11 : 15 + S_.numel ≤ 27
  hcc1_scratch12 : 16 + S_.numel ≤ 27
  hcc1_scratch13 : 17 + S_.numel ≤ 27
  hcc1_scratch14 : 18 + S_.numel ≤ 27
  hcc1_scratch15 : 19 + S_.numel ≤ 27
  hcc1_scratch16 : 20 + S_.numel ≤ 27
  hcc1_scratch17 : 21 + S_.numel ≤ 27
  hcc1_scratch18 : 22 + S_.numel ≤ 27
  hcc1_scratch19 : 23 + S_.numel ≤ 27
  hcc1_scratch20 : 24 + S_.numel ≤ 27
  hcc1_scratch21 : 25 + S_.numel ≤ 27
  hcc1_scoped0 : 26 + S_.numel ≤ 27
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x128.size a ≤ S100000x128.size a
  hwx0_3 : ∀ i : grid0.Coords, EltTy.bits .f32 = 32 ∨ (Rect.block (s := S100000x128) S20000x128.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ a, (k1_off1 i) a + S1x100x64.size a ≤ S32x100x64.size a
  k1_off2_inb : ∀ i : grid1.Coords, ∀ a, (k1_off2 i) a + S1x1x64x128.size a ≤ S32x100x64x128.size a
  k1_off3_inb : ∀ i : grid1.Coords, ∀ a, (k1_off3 i) a + S1x1x64x128.size a ≤ S32x100x64x128.size a
  k1_off4_inb : ∀ i : grid1.Coords, ∀ a, (k1_off4 i) a + S1x1x64x128.size a ≤ S32x100x64x128.size a
  k1_off5_inb : ∀ i : grid1.Coords, ∀ a, (k1_off5 i) a + S1x1x64x128.size a ≤ S32x100x64x128.size a
  k1_off6_inb : ∀ i : grid1.Coords, ∀ a, (k1_off6 i) a + S1x1x64x128.size a ≤ S32x100x64x128.size a
  k1_off7_inb : ∀ i : grid1.Coords, ∀ a, (k1_off7 i) a + S1x1x64x128.size a ≤ S32x100x64x128.size a
  k1_off8_inb : ∀ i : grid1.Coords, ∀ a, (k1_off8 i) a + S1x1x64x128.size a ≤ S32x100x64x128.size a
  k1_off9_inb : ∀ i : grid1.Coords, ∀ a, (k1_off9 i) a + S1x1x64x128.size a ≤ S32x100x64x128.size a
  k1_off10_inb : ∀ i : grid1.Coords, ∀ a, (k1_off10 i) a + S1x1x64x128.size a ≤ S32x100x64x128.size a
  k1_off11_inb : ∀ i : grid1.Coords, ∀ a, (k1_off11 i) a + S1x1x64x128.size a ≤ S32x100x64x128.size a
  k1_t1_ok : k1_t1_loop.OK
  k1_off12_inb : ∀ k1_t1 : Fin k1_t1_loop.trips, ∀ (r : Fin 10), ∀ a, (k1_off12 k1_t1 (BitVec.ofNat 32 r.val)) a + S1x64.size a ≤ S100x64.size a
  k1_off13_inb : ∀ (i : grid1.Coords) (k1_t1 : Fin k1_t1_loop.trips), ∀ (r : Fin 10), ∀ a, (k1_off13 i k1_t1 (BitVec.ofNat 32 r.val)) a + S1x1x64x128.size a ≤ S32x100x64x128.size a
  k1_off14_inb : ∀ (i : grid1.Coords) (k1_t1 : Fin k1_t1_loop.trips), ∀ (r : Fin 10), ∀ a, (k1_off14 i k1_t1 (BitVec.ofNat 32 r.val)) a + S1x1x64x128.size a ≤ S32x100x64x128.size a
  k1_off15_inb : ∀ k1_t1 : Fin k1_t1_loop.trips, ∀ (r : Fin 10), ∀ a, (k1_off15 k1_t1 (BitVec.ofNat 32 r.val)) a + S1x64.size a ≤ S100x64.size a
  k1_off16_inb : ∀ i : grid1.Coords, ∀ a, (k1_off16 i) a + S1x1x64x128.size a ≤ S32x100x64x128.size a
  k1_off17_inb : ∀ i : grid1.Coords, ∀ a, (k1_off17 i) a + S1x1x64x128.size a ≤ S32x100x64x128.size a
  k1_off18_inb : ∀ i : grid1.Coords, ∀ a, (k1_off18 i) a + S1x1x64x128.size a ≤ S32x100x64x128.size a
  k1_off19_inb : ∀ i : grid1.Coords, ∀ a, (k1_off19 i) a + S1x1x64x128.size a ≤ S32x100x64x128.size a
  k1_off20_inb : ∀ i : grid1.Coords, ∀ a, (k1_off20 i) a + S1x1x64x128.size a ≤ S32x100x64x128.size a
  k1_off21_inb : ∀ i : grid1.Coords, ∀ a, (k1_off21 i) a + S1x1x64x128.size a ≤ S32x100x64x128.size a
  k1_off22_inb : ∀ i : grid1.Coords, ∀ a, (k1_off22 i) a + S1x1x64x128.size a ≤ S32x100x64x128.size a
  k1_off23_inb : ∀ i : grid1.Coords, ∀ a, (k1_off23 i) a + S1x1x64x128.size a ≤ S32x100x64x128.size a
  k1_off24_inb : ∀ i : grid1.Coords, ∀ a, (k1_off24 i) a + S1x1x64x128.size a ≤ S32x100x64x128.size a
  k1_off25_inb : ∀ i : grid1.Coords, ∀ a, (k1_off25 i) a + S1x1x64x128.size a ≤ S32x100x64x128.size a
  k1_off26_inb : ∀ i : grid1.Coords, ∀ a, (k1_off26 i) a + S1x1x64x128.size a ≤ S32x100x64x128.size a
  k1_off27_inb : ∀ i : grid1.Coords, ∀ a, (k1_off27 i) a + S1x1x64x128.size a ≤ S32x100x64x128.size a
  k1_off28_inb : ∀ i : grid1.Coords, ∀ a, (k1_off28 i) a + S1x1x64x128.size a ≤ S32x100x64x128.size a
  k1_off29_inb : ∀ i : grid1.Coords, ∀ a, (k1_off29 i) a + S1x1x64x128.size a ≤ S32x100x64x128.size a

variable [Facts₀]

abbrev cc1_scratch2 : DmaSems sig S_ := SemArray.consecutive 6 S_ hcc1_scratch2
abbrev cc1_scratch3 : DmaSems sig S_ := SemArray.consecutive 7 S_ hcc1_scratch3
abbrev cc1_scratch4 : DmaSems sig S_ := SemArray.consecutive 8 S_ hcc1_scratch4
abbrev cc1_scratch5 : DmaSems sig S_ := SemArray.consecutive 9 S_ hcc1_scratch5
abbrev cc1_scratch6 : DmaSems sig S_ := SemArray.consecutive 10 S_ hcc1_scratch6
abbrev cc1_scratch7 : DmaSems sig S_ := SemArray.consecutive 11 S_ hcc1_scratch7
abbrev cc1_scratch8 : DmaSems sig S_ := SemArray.consecutive 12 S_ hcc1_scratch8
abbrev cc1_scratch9 : DmaSems sig S_ := SemArray.consecutive 13 S_ hcc1_scratch9
abbrev cc1_scratch10 : DmaSems sig S_ := SemArray.consecutive 14 S_ hcc1_scratch10
abbrev cc1_scratch11 : DmaSems sig S_ := SemArray.consecutive 15 S_ hcc1_scratch11
abbrev cc1_scratch12 : DmaSems sig S_ := SemArray.consecutive 16 S_ hcc1_scratch12
abbrev cc1_scratch13 : DmaSems sig S_ := SemArray.consecutive 17 S_ hcc1_scratch13
abbrev cc1_scratch14 : DmaSems sig S_ := SemArray.consecutive 18 S_ hcc1_scratch14
abbrev cc1_scratch15 : DmaSems sig S_ := SemArray.consecutive 19 S_ hcc1_scratch15
abbrev cc1_scratch16 : DmaSems sig S_ := SemArray.consecutive 20 S_ hcc1_scratch16
abbrev cc1_scratch17 : DmaSems sig S_ := SemArray.consecutive 21 S_ hcc1_scratch17
abbrev cc1_scratch18 : DmaSems sig S_ := SemArray.consecutive 22 S_ hcc1_scratch18
abbrev cc1_scratch19 : DmaSems sig S_ := SemArray.consecutive 23 S_ hcc1_scratch19
abbrev cc1_scratch20 : DmaSems sig S_ := SemArray.consecutive 24 S_ hcc1_scratch20
abbrev cc1_scratch21 : DmaSems sig S_ := SemArray.consecutive 25 S_ hcc1_scratch21
abbrev cc1_scoped0 : DmaSems sig S_ := SemArray.consecutive 26 S_ hcc1_scoped0
def dot_S20000x128_S128x128_S20000x128_1_1_0_0_n_n : DotDims S20000x128 S128x128 S20000x128 where
  lhsContracting := [1]
  rhsContracting := [1]
  lhsNonContracting := [0]
  rhsNonContracting := [0]
  lhsBatch := []
  rhsBatch := []
  wf := dot_S20000x128_S128x128_S20000x128_1_1_0_0_n_n_wf

abbrev win0_0 : Pipeline.Window sig grid0 :=
  Pipeline.Window.ofSpec (Memref.whole main_arg2) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S20000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x200 : Shape := ⟨2, ![1024, 200]⟩
abbrev S1024 : Shape := ⟨1, ![1024]⟩
abbrev S100000x128 : Shape := ⟨2, ![100000, 128]⟩
abbrev S128x128 : Shape := ⟨2, ![128, 128]⟩
abbrev S128 : Shape := ⟨1, ![128]⟩
abbrev S204800 : Shape := ⟨1, ![204800]⟩
abbrev S_ : Shape := ⟨0, ![]⟩
abbrev S204800x1 : Shape := ⟨2, ![204800, 1]⟩
abbrev S1 : Shape := ⟨1, ![1]⟩
abbrev S1x1 : Shape := ⟨2, ![1, 1]⟩
abbrev S204800x128 : Shape := ⟨2, ![204800, 128]⟩
abbrev S1x128 : Shape := ⟨2, ![1, 128]⟩
abbrev S1024x200x128 : Shape := ⟨3, ![1024, 200, 128]⟩

abbrev nBuf : Space → Nat
  | .hbm => 35
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S204800, .i32⟩
  | .hbm, ⟨6, _⟩ => ⟨S_, .i32⟩
  | .hbm, ⟨7, _⟩ => ⟨S204800, .i32⟩
  | .hbm, ⟨8, _⟩ => ⟨S204800, .i1⟩
  | .hbm, ⟨9, _⟩ => ⟨S_, .i32⟩
  | .hbm, ⟨10, _⟩ => ⟨S204800, .i32⟩
  | .hbm, ⟨11, _⟩ => ⟨S204800, .i32⟩
  | .hbm, ⟨12, _⟩ => ⟨S204800, .i32⟩
  | .hbm, ⟨13, _⟩ => ⟨S204800x1, .i32⟩
  | .hbm, ⟨14, _⟩ => ⟨S1, .i32⟩
  | .hbm, ⟨15, _⟩ => ⟨S_, .i32⟩
  | .hbm, ⟨16, _⟩ => ⟨S204800x1, .i32⟩
  | .hbm, ⟨17, _⟩ => ⟨S204800x1, .i1⟩
  | .hbm, ⟨18, _⟩ => ⟨S1x1, .i32⟩
  | .hbm, ⟨19, _⟩ => ⟨S204800x1, .i32⟩
  | .hbm, ⟨20, _⟩ => ⟨S204800x1, .i1⟩
  | .hbm, ⟨21, _⟩ => ⟨S204800x1, .i1⟩
  | .hbm, ⟨22, _⟩ => ⟨S_, .i1⟩
  | .hbm, ⟨23, _⟩ => ⟨S204800, .i1⟩
  | .hbm, ⟨24, _⟩ => ⟨S204800x128, .f32⟩
  | .hbm, ⟨25, _⟩ => ⟨S204800x128, .i1⟩
  | .hbm, ⟨26, _⟩ => ⟨S_, .f32⟩
  | .hbm, ⟨27, _⟩ => ⟨S204800x128, .f32⟩
  | .hbm, ⟨28, _⟩ => ⟨S204800x128, .f32⟩
  | .hbm, ⟨29, _⟩ => ⟨S128x128, .f32⟩
  | .hbm, ⟨30, _⟩ => ⟨S204800x128, .f32⟩
  | .hbm, ⟨31, _⟩ => ⟨S1x128, .f32⟩
  | .hbm, ⟨32, _⟩ => ⟨S204800x128, .f32⟩
  | .hbm, ⟨33, _⟩ => ⟨S204800x128, .f32⟩
  | .hbm, ⟨34, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  shapeCasts_S1024x200_S204800 : S1024x200.ShapeCasts S204800
  bcast_S_S204800 : S_.BroadcastsInDim S204800 (![] : Fin 0 → Fin S204800.rank)
  bcast_S204800_S204800x1_0 : S204800.BroadcastsInDim S204800x1 (![0] : Fin 1 → Fin S204800x1.rank)
  bcast_S_S204800x1 : S_.BroadcastsInDim S204800x1 (![] : Fin 0 → Fin S204800x1.rank)
  bcast_S1_S1x1_1 : S1.BroadcastsInDim S1x1 (![1] : Fin 1 → Fin S1x1.rank)
  bcast_S1x1_S204800x1_0_1 : S1x1.BroadcastsInDim S204800x1 (![0, 1] : Fin 2 → Fin S204800x1.rank)
  reducesTo_S204800x1_S204800_d1 : S204800x1.ReducesTo [1] S204800
  h_S_ : 0 < S_.numel
  bcast_S204800_S204800x128_0 : S204800.BroadcastsInDim S204800x128 (![0] : Fin 1 → Fin S204800x128.rank)
  bcast_S_S204800x128 : S_.BroadcastsInDim S204800x128 (![] : Fin 0 → Fin S204800x128.rank)
  transposes_S128x128_S128x128_1_0 : S128x128.Transposes [1, 0] S128x128
  bcast_S128_S1x128_1 : S128.BroadcastsInDim S1x128 (![1] : Fin 1 → Fin S1x128.rank)
  bcast_S1x128_S204800x128_0_1 : S1x128.BroadcastsInDim S204800x128 (![0, 1] : Fin 2 → Fin S204800x128.rank)
  shapeCasts_S204800x128_S1024x200x128 : S204800x128.ShapeCasts S1024x200x128
  gather_S100000x128_S204800x1_S204800x128_1_0_n_n_0_1_1128_wf : GatherDims.WF S100000x128 S204800x1 S204800x128 [1] [0] [] [0] [] 1 ![1, 128]
  dot_S204800x128_S128x128_S204800x128_1_0_0_1_n_n_wf : DotDims.WF S204800x128 S128x128 S204800x128 [1] [0] [0] [1] [] []

variable [Facts₀]

def gather_S100000x128_S204800x1_S204800x128_1_0_n_n_0_1_1128 : GatherDims S100000x128 S204800x1 S204800x128 where
  offsetDims := [1]
  collapsedSliceDims := [0]
  operandBatchingDims := []
  startIndicesBatchingDims := []
  startIndexMap := [0]
  indexVectorDim := 1
  sliceSizes := ![1, 128]
  wf := gather_S100000x128_S204800x1_S204800x128_1_0_n_n_0_1_1128_wf
def dot_S204800x128_S128x128_S204800x128_1_0_0_1_n_n : DotDims S204800x128 S128x128 S204800x128 where
  lhsContracting := [1]
  rhsContracting := [0]
  lhsNonContracting := [0]
  rhsNonContracting := [1]
  lhsBatch := []
  rhsBatch := []
  wf := dot_S204800x128_S128x128_S204800x128_1_0_0_1_n_n_wf

class Facts : Prop extends Facts₀ where

variable [Facts]
-- ==== Proof.RefRun.lean ====
/-
  The reference program's run, written out: @main with its two module-local functions unfolded at their calls is one
  straight line of thirty host operations; every weakly fair execution of it terminates with the result buffer at the
  operations' composed pure term of the arguments' launch contents, and the arguments unchanged.

  The composed term is named stage by stage (flatIds … refTerm), so that the value proof can read each stage at an index.
-/
import proofs.«207285_g25512105738892_cont_9to1_353_29_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- @main's thirty operations, the called functions' operations standing in their calls' places. -/
abbrev ops : List (HloOp τ sig (Elt F)) :=
  [ reshape main_arg0 main_v0 rfl shapeCasts_S1024x200_S204800,
    TRef.nullary main_call0.c (constantI S_ 32 0#32),
    TRef.unary main_call0.c main_call0.v0 (broadcastInDim S204800 ![] bcast_S_S204800),
    TRef.binary (TRef.of (T := ⟨S204800, .i32⟩) main_v0) main_call0.v0 main_call0.v1 (cmpi .slt),
    TRef.nullary main_call0.c_0 (constantI S_ 32 100000#32),
    TRef.unary main_call0.c_0 main_call0.v2 (broadcastInDim S204800 ![] bcast_S_S204800),
    TRef.binary (TRef.of (T := ⟨S204800, .i32⟩) main_v0) main_call0.v2 main_call0.v3 addi,
    TRef.ternary main_call0.v1 main_call0.v3 (TRef.of (T := ⟨S204800, .i32⟩) main_v0) main_call0.call0.v0 select,
    TRef.unary main_call0.call0.v0 main_call0.v5 (broadcastInDim S204800x1 ![0] bcast_S204800_S204800x1_0),
    TRef.nullary main_call0.c_1 (constantI S1 32 99999#32),
    TRef.nullary main_call0.c_2 (constantI S_ 32 0#32),
    TRef.unary main_call0.c_2 main_call0.v6 (broadcastInDim S204800x1 ![] bcast_S_S204800x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S204800x1 ![0, 1] bcast_S1x1_S204800x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S204800x1_S204800_d1 h_S_),
    TRef.binary (TRef.of (T := ⟨S100000x128, .f32⟩) main_arg2) main_call0.v5 main_call0.v13 (fun x i => Host.gather gather_S100000x128_S204800x1_S204800x128_1_0_n_n_0_1_1128 x i),
    TRef.unary main_call0.v12 main_call0.v14 (broadcastInDim S204800x128 ![0] bcast_S204800_S204800x128_0),
    TRef.nullary main_call0.cst (constant S_ .f32 0x7FC00000#32),
    TRef.unary main_call0.cst main_call0.v15 (broadcastInDim S204800x128 ![] bcast_S_S204800x128),
    TRef.ternary main_call0.v14 main_call0.v13 main_call0.v15 main_call0.v16 select,
    unary main_arg3 main_v2 ((transpose S128x128 [1, 0] · transposes_S128x128_S128x128_1_0) : (⟨S128x128, .f32⟩ : BufTy).Contents (Elt F) → (⟨S128x128, .f32⟩ : BufTy).Contents (Elt F)),
    binary main_v1 main_v2 main_v3 ((fun l r => Host.dotGeneral dot_S204800x128_S128x128_S204800x128_1_0_0_1_n_n none l r) : (⟨S204800x128, .f32⟩ : BufTy).Contents (Elt F) → (⟨S128x128, .f32⟩ : BufTy).Contents (Elt F) → (⟨S204800x128, .f32⟩ : BufTy).Contents (Elt F)),
    unary main_arg4 main_v4 (broadcastInDim S1x128 ![1] bcast_S128_S1x128_1 : (⟨S128, .f32⟩ : BufTy).Contents (Elt F) → (⟨S1x128, .f32⟩ : BufTy).Contents (Elt F)),
    unary main_v4 main_v5 (broadcastInDim S204800x128 ![0, 1] bcast_S1x128_S204800x128_0_1 : (⟨S1x128, .f32⟩ : BufTy).Contents (Elt F) → (⟨S204800x128, .f32⟩ : BufTy).Contents (Elt F)),
    binary main_v3 main_v5 main_v6 (addf : (⟨S204800x128, .f32⟩ : BufTy).Contents (Elt F) → (⟨S204800x128, .f32⟩ : BufTy).Contents (Elt F) → (⟨S204800x128, .f32⟩ : BufTy).Contents (Elt F)),
    reshape main_v6 main_v7 rfl shapeCasts_S204800x128_S1024x200x128 ]

set_option maxRecDepth 2048 in
/-- @main is that straight line: the called functions' definitions unfolded at their calls and the records at their fields,
    both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., binary_bufs_sub .., unary_bufs_sub .., unary_bufs_sub .., binary_bufs_sub .., reshape_bufs_sub ..⟩

/-! ## The composed term, stage by stage -/

/-- The word ids in one line: entry `200 a + l` is the id at `(a, l)`. -/
def flatIds (ids : IVec S1024x200 32) : IVec S204800 32 := shapeCast S204800 ids shapeCasts_S1024x200_S204800

/-- The index normalisation of a take: a negative id is moved up by the number of rows of the table. -/
def normIds (ids : IVec S1024x200 32) : IVec S204800 32 :=
  select (cmpi .slt (flatIds ids) (broadcastInDim S204800 ![] bcast_S_S204800 (constantI S_ 32 0#32)))
    (addi (flatIds ids) (broadcastInDim S204800 ![] bcast_S_S204800 (constantI S_ 32 100000#32))) (flatIds ids)

/-- The gather's start indices: the normalised ids as a column. -/
def startIdx (ids : IVec S1024x200 32) : IVec S204800x1 32 :=
  broadcastInDim S204800x1 ![0] bcast_S204800_S204800x1_0 (normIds ids)

/-- Per entry of the line, whether its normalised id is a row of the table: `0 ≤ id ≤ 99999`, signed. -/
def inRange (ids : IVec S1024x200 32) : IVec S204800 1 :=
  Host.reduce IntOp.andi
    (andi (cmpi .sge (startIdx ids) (broadcastInDim S204800x1 ![] bcast_S_S204800x1 (constantI S_ 32 0#32)))
      (cmpi .sle (startIdx ids)
        (broadcastInDim S204800x1 ![0, 1] bcast_S1x1_S204800x1_0_1 (broadcastInDim S1x1 ![1] bcast_S1_S1x1_1 (constantI S1 32 99999#32)))))
    (constantI S_ 1 1#1) reducesTo_S204800x1_S204800_d1 h_S_

/-- The rows taken: per entry of the line the table's row at its (clamped) start index where the id is a row, and the
    not-a-number constant where it is not. -/
def rows (T : FVec F S100000x128 .f32) (ids : IVec S1024x200 32) : FVec F S204800x128 .f32 :=
  select (broadcastInDim S204800x128 ![0] bcast_S204800_S204800x128_0 (inRange ids))
    (Host.gather gather_S100000x128_S204800x1_S204800x128_1_0_n_n_0_1_1128 T (startIdx ids))
    (broadcastInDim S204800x128 ![] bcast_S_S204800x128 (constant S_ .f32 0x7FC00000#32))

/-- The projection of the taken rows: rows · Wᵀ + b, still over the line. -/
def refFlat (ids : IVec S1024x200 32) (T : FVec F S100000x128 .f32) (W : FVec F S128x128 .f32) (b : FVec F S128 .f32) :
    FVec F S204800x128 .f32 :=
  addf
    (Host.dotGeneral dot_S204800x128_S128x128_S204800x128_1_0_0_1_n_n none (rows T ids)
      (transpose S128x128 [1, 0] W transposes_S128x128_S128x128_1_0))
    (broadcastInDim S204800x128 ![0, 1] bcast_S1x128_S204800x128_0_1 (broadcastInDim S1x128 ![1] bcast_S128_S1x128_1 b))

/-- The reference's result as a function of its arguments' contents. -/
def refTerm (ids : IVec S1024x200 32) (T : FVec F S100000x128 .f32) (W : FVec F S128x128 .f32) (b : FVec F S128 .f32) :
    FVec F S1024x200x128 .f32 :=
  shapeCast S1024x200x128 (refFlat ids T W b) shapeCasts_S204800x128_S1024x200x128

/-! ## The run -/

attribute [local irreducible] Host.reduce Host.gather in
set_option maxRecDepth 8192 in
set_option maxHeartbeats 1000000 in
/-- On every device, for any float values, from any memory with zero counters: every weakly fair execution of @main
    terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = refTerm (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v7).trans (by after_results_simp; unfold refTerm refFlat rows inRange startIdx normIds flatIds; rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.Proof.Ref

end
-- ==== Proof.Spec.lean ====
/-
  The function both programs compute, index by index, over the extended reals.

  An output entry (a, l, p) — sentence a, position l, projected feature p — depends on ONE row of the embedding table, the row
  named by the word id at (a, l):

      out (a, l, p) = (∑ k, table (id (a, l), k) * W (p, k)) + b p .

  The kernel projects every row of the table first and then moves rows; the reference moves rows first and then projects them:
  the same sum of the same 128 products, in the same order, plus the same bias entry. No law of the extended reals beyond reading
  each side at an index is needed, and finiteness of the float inputs is not used.

  The word id is read as a natural number; it is reduced modulo the number of rows only so that this function is total: where every
  id is a row of the table (the certificate's precondition) the reduction is the identity.
-/
import Idealize.ShloMosaic.PureOps.Ideal
import Idealize.ShloMosaic.Lib.ValueIdx

noncomputable section

namespace Cert.Proof.Spec

open Idealize.ShloMosaic Idealize.ShloMosaic.ValueIdx

abbrev SIds : Shape := ⟨2, ![1024, 200]⟩
abbrev STab : Shape := ⟨2, ![100000, 128]⟩
abbrev SW : Shape := ⟨2, ![128, 128]⟩
abbrev SB : Shape := ⟨1, ![128]⟩
abbrev SOut : Shape := ⟨3, ![1024, 200, 128]⟩

/-- The row of the table a word id names. -/
def row (v : BitVec 32) : Fin 100000 := ⟨v.toNat % 100000, Nat.mod_lt _ (by decide)⟩

theorem row_val_of_lt {v : BitVec 32} (h : v.toNat < 100000) : (row v).val = v.toNat := Nat.mod_eq_of_lt h

/-- One projected row of the table: entry p of (table row v) · Wᵀ + b. -/
def proj (T : STab.Idx → EReal) (W : SW.Idx → EReal) (b : SB.Idx → EReal) (v : Fin 100000) (p : Fin 128) : EReal :=
  (∑ k : Fin 128, T (ix2 v k) * W (ix2 p k)) + b (ix1 p)

/-- The result array: at (a, l, p) the projected row of the word id at (a, l). -/
def out (ids : SIds.Idx → BitVec 32) (T : STab.Idx → EReal) (W : SW.Idx → EReal) (b : SB.Idx → EReal) : SOut.Idx → EReal :=
  fun i => proj T W b (row (ids (ix2 (i 0) (i 1)))) (i 2)

theorem out_apply (ids : SIds.Idx → BitVec 32) (T : STab.Idx → EReal) (W : SW.Idx → EReal) (b : SB.Idx → EReal)
    (a : Fin 1024) (l : Fin 200) (p : Fin 128) :
    out ids T W b (ix3 a l p) = (∑ k : Fin 128, T (ix2 (row (ids (ix2 a l))) k) * W (ix2 p k)) + b (ix1 p) := rfl

end Cert.Proof.Spec

end
-- ==== Proof.RefValue.lean ====
/-
  The reference's composed term, read index by index, is the shared function where every word id is a row of the table.

  At an output entry (a, l, p): the reshapes only renumber (entry 200 a + l of the line of ids is the id at (a, l), and row
  200 a + l of the projected line is the output's (a, l)); with 0 ≤ id ≤ 99999 the signed test id < 0 fails, so the
  normalisation keeps the id; the in-range mask is true, so the select keeps the gathered row and the not-a-number constant
  is never read; the gather's clamp into [0, 99999] is the identity; the product with the transposed weight is
  ∑ k, row k * W (p, k); the bias is broadcast along the line.
-/
import proofs.«207285_g25512105738892_cont_9to1_353_29_alg».proof.Proof.RefRun
import proofs.«207285_g25512105738892_cont_9to1_353_29_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section
namespace Cert.Proof.Ref
open Cert.ReferenceIdeal Cert.ReferenceIdeal.Gen Idealize.ShloMosaic Idealize.ShloMosaic.ValueIdx Idealize.ShloMosaic.TcCoe Idealize.SL.Sem

/-! ## The gather at an index -/
/-- The gather read at `(n, k)`: the table at the row its start index `idx (n, 0)` names, read signed and clamped into
    `[0, 99999]`, column `k`. -/
theorem gather_apply {α : Type} (x : S100000x128.Idx → α) (idx : IVec S204800x1 32) (n : Fin 204800) (k : Fin 128) :
    Host.gather gather_S100000x128_S204800x1_S204800x128_1_0_n_n_0_1_1128 x idx (ix2 n k)
      = x (ix2 ⟨min (idx (ix2 n 0)).toInt.toNat 99999, by omega⟩ k) := by
  unfold Host.gather
  congr 1
  funext a
  refine Fin.ext ?_
  match a with
  | ⟨0, _⟩ =>
    show GatherDims.start gather_S100000x128_S204800x1_S204800x128_1_0_n_n_0_1_1128 (ix2 n k) idx 0
        + GatherDims.batchCoord gather_S100000x128_S204800x1_S204800x128_1_0_n_n_0_1_1128 (ix2 n k) 0
        + GatherDims.offCoord gather_S100000x128_S204800x1_S204800x128_1_0_n_n_0_1_1128 (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S204800x1_S204800x128_1_0_n_n_0_1_1128.startIndexMap from List.mem_singleton.mpr rfl)]
    have hsi : gather_S100000x128_S204800x1_S204800x128_1_0_n_n_0_1_1128.siIdx (ix2 n k)
        ⟨List.idxOf (0 : Fin 2) gather_S100000x128_S204800x1_S204800x128_1_0_n_n_0_1_1128.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show GatherDims.start gather_S100000x128_S204800x1_S204800x128_1_0_n_n_0_1_1128 (ix2 n k) idx 1
        + GatherDims.batchCoord gather_S100000x128_S204800x1_S204800x128_1_0_n_n_0_1_1128 (ix2 n k) 1
        + GatherDims.offCoord gather_S100000x128_S204800x1_S204800x128_1_0_n_n_0_1_1128 (ix2 n k) 1 = _
    rw [GatherDims.batchCoord_eq_zero _ _ _ List.not_mem_nil]
    unfold GatherDims.start
    rw [dif_neg (show (1 : Fin 2) ∉ gather_S100000x128_S204800x1_S204800x128_1_0_n_n_0_1_1128.startIndexMap from by decide)]
    simp only [Nat.add_zero, Nat.zero_add]
    rfl

/-! ## Word facts -/

theorem toInt_of_lt {v : BitVec 32} (h : v.toNat < 100000) : v.toInt = (v.toNat : Int) :=
  BitVec.toInt_eq_toNat_of_lt (by omega)

theorem slt_zero_of_lt {v : BitVec 32} (h : v.toNat < 100000) : IntOp.cmpi .slt v 0#32 = 0#1 := by
  have : v.slt 0#32 = false := by
    rw [BitVec.slt, toInt_of_lt h]; simp
  simp only [IntOp.cmpi, this]; rfl

theorem sge_zero_of_lt {v : BitVec 32} (h : v.toNat < 100000) : IntOp.cmpi .sge v 0#32 = 1#1 := by
  have : (0#32).sle v = true := by
    rw [BitVec.sle, toInt_of_lt h]; simp
  simp only [IntOp.cmpi, this]; rfl

theorem sle_max_of_lt {v : BitVec 32} (h : v.toNat < 100000) : IntOp.cmpi .sle v 99999#32 = 1#1 := by
  have : v.sle 99999#32 = true := by
    rw [BitVec.sle, toInt_of_lt h]; simp; omega
  simp only [IntOp.cmpi, this]; rfl

theorem clamp_of_lt {v : BitVec 32} (h : v.toNat < 100000) : min v.toInt.toNat 99999 = v.toNat := by
  rw [toInt_of_lt h]; simp; omega

/-! ## The stages at an index -/

theorem flatIds_apply (ids : IVec S1024x200 32) (a : Fin 1024) (l : Fin 200) (hn : a.val * 200 + l.val < 204800) :
    flatIds ids (ix1 ⟨a.val * 200 + l.val, hn⟩) = ids (ix2 a l) :=
  shapeCast_apply ids _ _ _ (by rw [Shape.rowMajor_val_two, Shape.rowMajor_val_one]; rfl)

theorem normIds_apply (ids : IVec S1024x200 32) (n : Fin 204800) (h : (flatIds ids (ix1 n)).toNat < 100000) :
    normIds ids (ix1 n) = flatIds ids (ix1 n) := by
  show Scalar.select (IntOp.cmpi .slt (flatIds ids (ix1 n)) 0#32) _ _ = _
  rw [slt_zero_of_lt h, select_zero]

theorem startIdx_apply (ids : IVec S1024x200 32) (n : Fin 204800) : startIdx ids (ix2 n 0) = normIds ids (ix1 n) :=
  broadcastInDim_apply _ _ _ _ (ix1 n) fun a => match a with | ⟨0, _⟩ => rfl

/-- A reduction by `and`, from `true`, of an array that is `true` everywhere is `true` everywhere. -/
theorem reduce_and_of_all_one {s t u : Shape} {axes : List (Fin s.rank)} (x : IVec s 1) (init : IVec u 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize ((List.finRange s.numel).filter fun n => h.drop (s.rowMajor.symm n) = j) = L
  induction L with
  | nil => rfl
  | cons n L ih => rw [List.foldl_cons, hx]; exact ih

theorem inRange_apply (ids : IVec S1024x200 32) (hn : ∀ n : Fin 204800, (flatIds ids (ix1 n)).toNat < 100000) (n : Fin 204800) :
    inRange ids (ix1 n) = 1#1 := by
  unfold inRange
  refine reduce_and_of_all_one _ _ _ _ (fun i => ?_) rfl _
  obtain ⟨q, z, rfl⟩ : ∃ (q : Fin 204800) (z : Fin 1), i = ix2 q z := ⟨i 0, i 1, eq_ix2 i⟩
  obtain rfl : z = 0 := Subsingleton.elim _ _
  show IntOp.andi (IntOp.cmpi .sge (startIdx ids (ix2 q 0)) 0#32) (IntOp.cmpi .sle (startIdx ids (ix2 q 0)) 99999#32) = 1#1
  rw [startIdx_apply, normIds_apply ids q (hn q), sge_zero_of_lt (hn q), sle_max_of_lt (hn q)]
  rfl

theorem rows_apply {T : FVec Ideal S100000x128 .f32} (ids : IVec S1024x200 32)
    (hn : ∀ n : Fin 204800, (flatIds ids (ix1 n)).toNat < 100000) (n : Fin 204800) (k : Fin 128) :
    rows T ids (ix2 n k) = T (ix2 (Spec.row (flatIds ids (ix1 n))) k) := by
  unfold rows
  rw [select_apply, broadcastInDim_apply _ _ (inRange ids) (ix2 n k) (ix1 n) (fun a => match a with | ⟨0, _⟩ => rfl),
    inRange_apply ids hn n, select_one, gather_apply]
  refine congrArg T (congrArg (fun r => ix2 r k) (Fin.ext ?_))
  show min (startIdx ids (ix2 n 0)).toInt.toNat 99999 = (Spec.row (flatIds ids (ix1 n))).val
  rw [startIdx_apply, normIds_apply ids n (hn n), Spec.row_val_of_lt (hn n)]
  exact clamp_of_lt (hn n)

theorem bias_apply (b : FVec Ideal S128 .f32) (n : Fin 204800) (p : Fin 128) :
    broadcastInDim S204800x128 ![0, 1] bcast_S1x128_S204800x128_0_1 (broadcastInDim S1x128 ![1] bcast_S128_S1x128_1 b) (ix2 n p)
      = b (ix1 p) := by
  rw [broadcastInDim_apply _ _ _ (ix2 n p) (ix2 (0 : Fin 1) p) (fun a => match a with | ⟨0, _⟩ => rfl | ⟨1, _⟩ => rfl),
    broadcastInDim_apply _ _ b (ix2 (0 : Fin 1) p) (ix1 p) (fun a => match a with | ⟨0, _⟩ => rfl)]

/-- The dimension numbers of the product: rows of the left operand against rows of the transposed weight. -/
abbrev D := dot_S204800x128_S128x128_S204800x128_1_0_0_1_n_n

theorem contr_rank : D.contr.rank = 1 := rfl
theorem contr_size : D.contr.size ⟨0, by rw [contr_rank]; exact Nat.one_pos⟩ = 128 := rfl

theorem dot_apply (L : FVec Ideal S204800x128 .f32) (R : FVec Ideal S128x128 .f32) (n : Fin 204800) (p : Fin 128) :
    Host.dotGeneral D none L R (ix2 n p) = ∑ k : Fin 128, L (ix2 n k) * R (ix2 k p) := by
  show FloatOps.dotGeneral D none .single L R (ix2 n p) = _
  rw [Ideal.dotGeneral_apply, ← Equiv.sum_comp (contrEquiv1 D 128 contr_rank contr_size).symm]
  refine Finset.sum_congr rfl fun k _ => ?_
  have hk := contrEquiv1_symm_val D 128 contr_rank contr_size k
  have hl : D.lhsIdx (ix2 n p) ((contrEquiv1 D 128 contr_rank contr_size).symm k) = ix2 n k := by
    funext a; refine Fin.ext ?_
    match a with
    | ⟨0, _⟩ => rfl
    | ⟨1, _⟩ => exact hk
  have hr : D.rhsIdx (ix2 n p) ((contrEquiv1 D 128 contr_rank contr_size).symm k) = ix2 k p := by
    funext a; refine Fin.ext ?_
    match a with
    | ⟨0, _⟩ => exact hk
    | ⟨1, _⟩ => rfl
  rw [hl, hr]

open Cert.ReferenceIdeal in
/-- every id a row of the table, as natural numbers -/
def IdsOK (ids : S1024x200.Idx → BitVec 32) : Prop := ∀ j, (ids j).toNat < 100000

theorem flat_lt (ids : IVec S1024x200 32) (h : IdsOK ids) (n : Fin 204800) : (flatIds ids (ix1 n)).toNat < 100000 := h _

/-- Under the precondition the reference's composed term is the shared function. -/
theorem refTerm_eq (ids : IVec S1024x200 32) (T : FVec Ideal S100000x128 .f32) (W : FVec Ideal S128x128 .f32)
    (b : FVec Ideal S128 .f32) (h : IdsOK ids) : refTerm ids T W b = Spec.out ids T W b := by
  funext i
  obtain ⟨a, l, p, rfl⟩ : ∃ (a : Fin 1024) (l : Fin 200) (p : Fin 128), i = ix3 a l p := ⟨i 0, i 1, i 2, eq_ix3 i⟩
  have hn : a.val * 200 + l.val < 204800 := by have := a.isLt; have := l.isLt; omega
  rw [Spec.out_apply]
  unfold refTerm
  rw [shapeCast_apply (refFlat ids T W b) _ (ix3 a l p) (ix2 ⟨a.val * 200 + l.val, hn⟩ p)
    (by rw [Shape.rowMajor_val_two, Shape.rowMajor_val_three]; rfl)]
  unfold refFlat
  have hs : (∑ k : Fin 128, rows T ids (ix2 ⟨a.val * 200 + l.val, hn⟩ k)
        * transpose S128x128 [1, 0] W transposes_S128x128_S128x128_1_0 (ix2 k p))
      = ∑ k : Fin 128, T (ix2 (Spec.row (ids (ix2 a l))) k) * W (ix2 p k) :=
    Finset.sum_congr rfl fun k _ => by
      rw [rows_apply ids (flat_lt ids h), flatIds_apply ids a l hn, transpose_ix2_apply]
  rw [addf_apply, dot_apply, bias_apply, hs]

/-! ## The run, at the shared function -/

open Cert.ReferenceIdeal in
/-- At the ideal instance, from any memory with zero counters whose word ids are rows of the table: every weakly fair
    execution of the reference terminates with its result the shared function of the arguments, and the arguments unchanged. -/
theorem run_ref (m : (ℓ : Loc nD τ sig) → Buf (Elt Ideal) ℓ) (ρ : Dev nD → PrngReg)
    (hids : ∀ c : Dev nD, IdsOK (m ((c.tc : Thread nD τ).loc main_arg0))) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v7)
            = Cert.Proof.Spec.out (m ((c.tc : Thread nD τ).loc main_arg0)) (m ((c.tc : Thread nD τ).loc main_arg2))
                (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run _ _ _).mono (fun _ h c => ⟨(h c).1.trans (refTerm_eq _ _ _ _ (hids c)), (h c).2⟩) (run m ρ)

end Cert.Proof.Ref
end
-- ==== Proof.PreIds.lean ====
/-
  The certificate's precondition, read at the word ids: every id, compared as a signed word with 0 and with 99999, lies between
  them, so as a natural number it is below 100000 — a row of the table. The precondition is the conjunction of five
  whole-array tests; the fourth is the test of the ids, a conjunction over all of them of the two comparisons at one id.
-/
import proofs.«207285_g25512105738892_cont_9to1_353_29_alg».proof.Pre_input_domain
import Idealize.ShloMosaic.Lib.ReduceAll
import Idealize.ShloMosaic.Lib.ValueIdx

noncomputable section

namespace Cert.Proof.PreIds

open Idealize.ShloMosaic Cert.Pre_input_domain

variable {F : FTy → Type} [FloatOps F] [Cert.Pre_input_domain.Facts]

instance : Subsingleton S_.Idx := ⟨fun a b => funext fun d => d.elim0⟩

/-- A conjunction of two one-bit words is one exactly when both are. -/
theorem and_one : ∀ a b : BitVec 1, IntOp.andi a b = 1#1 ↔ a = 1#1 ∧ b = 1#1 := by decide

/-- A word that is at least 0 and at most 99999 as a signed word is below 100000 as a natural number. -/
theorem toNat_lt_of_cmp (v : BitVec 32) (h0 : IntOp.cmpi .sge v 0#32 = 1#1) (h1 : IntOp.cmpi .sle v 99999#32 = 1#1) : v.toNat < 100000 := by
  have ofBool_eq_one (p : Bool) : (BitVec.ofBool p = 1#1) ↔ p = true := by cases p <;> decide
  simp only [IntOp.cmpi, ofBool_eq_one, BitVec.sle_eq_decide, decide_eq_true_eq, BitVec.toInt_eq_toNat_cond, BitVec.toNat_ofNat,
    Nat.reducePow, Nat.reduceMod] at h0 h1
  omega

/-- Under the precondition every word id is a row of the table. -/
theorem ids_lt (a0 : IVec S1024x200 32) (a1 : IVec S1024 32) (a2 : FVec F S100000x128 .f32) (a3 : FVec F S128x128 .f32) (a4 : FVec F S128 .f32)
    (h : Cert.Pre_input_domain.fn (F := F) a0 a1 a2 a3 a4 = fun _ => 1#1) : ∀ j : S1024x200.Idx, (a0 j).toNat < 100000 := by
  intro j
  have e := congrFun h ValueIdx.ix0
  dsimp only [fn, fn_part1] at e
  simp only [andi] at e
  obtain ⟨e1, -⟩ := (and_one _ _).1 e
  obtain ⟨-, e2⟩ := (and_one _ _).1 e1
  have e3 := Host.reduce_andi_all _ _ _ _ _ e2 j
  obtain ⟨e4, e5⟩ := (and_one _ _).1 e3
  simp only [cmpi, broadcastInDim, constantI] at e4 e5
  exact toNat_lt_of_cmp _ e4 e5

end Cert.Proof.PreIds

end
-- ==== Proof.RefClaims.lean ====
/-
  The reference's share of the certificate's claims, in the claims' own spelling: under the precondition every word id is a
  row of the table; the reference runs and leaves its arguments unchanged; and its result is the shared function of its
  arguments.
-/
import proofs.«207285_g25512105738892_cont_9to1_353_29_alg».proof.Defs
import proofs.«207285_g25512105738892_cont_9to1_353_29_alg».proof.Proof.RefValue
import proofs.«207285_g25512105738892_cont_9to1_353_29_alg».proof.Proof.PreIds
import proofs.«207285_g25512105738892_cont_9to1_353_29_alg».proof.Proof.Gen.ReferenceIdeal
import proofs.«207285_g25512105738892_cont_9to1_353_29_alg».proof.Proof.Gen.Pre_input_domain

noncomputable section

namespace Cert.Proof.RefClaims

open Idealize.ShloMosaic Idealize.ShloMosaic.TcCoe Idealize.SL.Sem

/-- The precondition, read at the reference's first argument: every word id is a row of the table. -/
theorem ids_ok_of_pre (m : (ℓ : Loc Cert.ReferenceIdeal.nD Cert.ReferenceIdeal.τ Cert.ReferenceIdeal.sig) → Buf (Elt Ideal) ℓ)
    (h : Cert.Pre_ReferenceIdeal (hPre_input_domain := Cert.Pre_input_domain.Gen.facts) m) :
    ∀ c : Dev Cert.ReferenceIdeal.nD, Cert.Proof.Ref.IdsOK (m ((c.tc : Thread Cert.ReferenceIdeal.nD Cert.ReferenceIdeal.τ).loc Cert.ReferenceIdeal.main_arg0)) :=
  fun c => Cert.Proof.PreIds.ids_lt (F := Ideal) _ _ _ _ _ (h c)

/-- The reference runs and its arguments end unchanged: the run at the shared function, the value dropped. -/
theorem frame_ri : Cert.frame_ReferenceIdeal (hReferenceIdeal := Cert.ReferenceIdeal.Gen.facts) (hPre_input_domain := Cert.Pre_input_domain.Gen.facts) :=
  fun m g hpre => (θ_run _ _ _).mono (fun _ h c => (h c).2) (Cert.Proof.Ref.run_ref m g (ids_ok_of_pre m hpre))

/-- The reference's half of the value claim: from a memory whose word ids are rows of the table, the reference ends with its
    result the shared function of its arguments and its arguments unchanged. -/
theorem ref_half (m' : (ℓ : Loc Cert.ReferenceIdeal.nD Cert.ReferenceIdeal.τ Cert.ReferenceIdeal.sig) → Buf (Elt Ideal) ℓ)
    (g' : Dev Cert.ReferenceIdeal.nD → PrngReg)
    (hids : ∀ c : Dev Cert.ReferenceIdeal.nD, Cert.Proof.Ref.IdsOK (m' ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = Cert.Proof.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  Cert.Proof.Ref.run_ref m' g' hids

end Cert.Proof.RefClaims

end
-- ==== Proof.KI.Res.lean ====
/-
  What the SparseCore call's handshakes carry, and the pieces each vector subcore works on.

  The call gathers rows of the projected table (the array `main_v1`, 100000 rows of 128) by the word ids (the array `main_v2`,
  32 x 100 x 64: worker, chunk, lane) into the result (the array `main_v3`, 32 x 100 x 64 x 128). Worker `w = 2 s + c` is vector
  subcore `s` of SparseCore `c`. It needs: row `w` of the ids; a read share of the whole table (every worker reads all of it,
  at once: the full share cut into one read token per worker); and block `w` of the result, which it hands back holding, at
  (w, j, l, p), entry p of the table's row named by the id at (w, j, l) — the whole-array function `outArr`.

  Everything here is stated for ANY contents `Pc` of the table and `Ic` of the ids: pure data movement does not look at them.
-/
import proofs.«207285_g25512105738892_cont_9to1_353_29_alg».proof.Proof.Gen.KernelIdeal
import proofs.«207285_g25512105738892_cont_9to1_353_29_alg».proof.Proof.Spec
import Idealize.ShloMosaic.Lib.SparseCore.Launch
import Idealize.ShloMosaic.Lib.Transfers

noncomputable section

namespace Cert.Proof.KI.Res

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

variable {U : Type} [URA U]

local notation "𝕄" => MT nD τ sig (HIx 1) (Elt F) ℕ U ℕ

/-! ## The three arrays, and the workers -/

abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

/-- Worker `2 s + c`. -/
def wid (c : Fin 2) (s : Fin 16) : Fin 32 := ⟨2 * s.val + c.val, by omega⟩

theorem idiv : 32 ∣ S32x100x64.size 0 := ⟨1, rfl⟩
theorem odiv : 32 ∣ S32x100x64x128.size 0 := ⟨1, rfl⟩
/-- Row `w` of the ids, block `w` of the result: the parts along the worker axis. -/
abbrev irow (w : Fin 32) : Rect S32x100x64 := Rect.part (s := S32x100x64) (a₀ := 0) idiv w
abbrev orow (w : Fin 32) : Rect S32x100x64x128 := Rect.part (s := S32x100x64x128) (a₀ := 0) odiv w
abbrev iRowSet (w : Fin 32) : Finset S32x100x64.Idx := ((Memref.whole main_v2_scv : Memref sig .scVector .hbm S32x100x64 .i32).view.slice (irow w)).set
abbrev oRowSet (w : Fin 32) : Finset S32x100x64x128.Idx := ((Memref.whole main_v3_scv : Memref sig .scVector .hbm S32x100x64x128 .f32).view.slice (orow w)).set

/-- Worker `w`'s read token of the table: the full share cut into 32 tokens (and a remainder nobody uses). -/
abbrev tq (w : Fin 32) : PosShare TreeShare := shareTok fullShare 32 w

/-- The result as one whole-array function of the table's and the ids' contents. -/
def outArr (Pc : S100000x128.Idx → Elt F .f32) (Ic : S32x100x64.Idx → BitVec 32) : S32x100x64x128.Idx → Elt F .f32 :=
  fun x => Pc (ix2 (Cert.Proof.Spec.row (Ic (ix3 (x 0) (x 1) (x 2)))) (x 3))

/-! ## What the handshakes carry -/

variable (m : (ℓ : Loc nD τ sig) → Buf (Elt F) ℓ)
variable (Pc : (d : Dev nD) → Buf (Elt F) (tLoc d)) (Ic : (d : Dev nD) → Buf (Elt F) (iLoc d))

abbrev iRowPts (d : Dev nD) (w : Fin 32) : sProp 𝕄 := iLoc d ↦[iRowSet w]{fullShare} Ic d
abbrev tShPts (d : Dev nD) (w : Fin 32) : sProp 𝕄 := tLoc d ↦{tq w} Pc d
abbrev oRowPts (d : Dev nD) (w : Fin 32) (f : Buf (Elt F) (oLoc d)) : sProp 𝕄 := oLoc d ↦[oRowSet w]{fullShare} f

/-- What worker `w` is handed: its row of the ids, its token of the table, its block of the result as launched. -/
abbrev tileGo (d : Dev nD) (w : Fin 32) : sProp 𝕄 := iprop(iRowPts Ic d w ∗ tShPts Pc d w ∗ oRowPts d w (m (oLoc d)))
/-- What it hands back: the same, its block of the result at the gathered rows. -/
abbrev tileTd (d : Dev nD) (w : Fin 32) : sProp 𝕄 := iprop(iRowPts Ic d w ∗ tShPts Pc d w ∗ oRowPts d w (outArr (Pc d) (Ic d)))

/-! ## A vector subcore's coordinates -/

theorem bound_zero : grid1.bound 0 = 2 := rfl
theorem bound_one : grid1.bound 1 = 16 := rfl
/-- The SparseCore and the vector subcore a grid point of the kernel names, and its worker number. -/
abbrev cV (L : grid1.Coords) : Fin τ.nSC := (L 0).castLE hcore1
abbrev jV (L : grid1.Coords) : Fin τ.nSub := (L 1).castLE hsub1
abbrev widL (L : grid1.Coords) : Fin 32 := wid (Fin.cast bound_zero (L 0)) (Fin.cast bound_one (L 1))
/-- The grid point of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))
theorem widL_val (L : grid1.Coords) : (widL L).val = 2 * (L 1).val + (L 0).val := rfl

/-- A SparseCore is handed its sixteen workers' pieces and hands them back. -/
def P : (K (F := F)).Pay (nD := nD) (Val := Elt F) (Name := ℕ) (U := U) where
  st := fun q d c => match q with | 0 => bigSep Finset.univ fun s : Fin 16 => tileGo m Pc Ic d (wid (Fin.cast nCore_zero c) s)
  dn := fun q d c => match q with | 0 => bigSep Finset.univ fun s : Fin 16 => tileTd Pc Ic d (wid (Fin.cast nCore_zero c) s)
  go := fun q d c s => match q with | 0 => tileGo m Pc Ic d (wid (Fin.cast nCore_zero c) (Fin.cast nSub_zero s))
  td := fun q d c s => match q with | 0 => tileTd Pc Ic d (wid (Fin.cast nCore_zero c) (Fin.cast nSub_zero s))
  x := fun _ _ => iprop(emp)

end Cert.Proof.KI.Res

end
-- ==== Proof.KI.RegionBody.lean ====
/-
  The projection kernel's body on whole staging buffers.

  The body loads the table's block, the weights and the bias, and stores into the result's buffer the payload
  (the block times the transposed weights, plus the bias broadcast along the rows). It also loads the result's buffer before
  storing to it; that value is never used. So from the three inputs at contents x, w, b and the result's buffer at anything,
  it runs to the inputs unchanged and the result's buffer at the one store read back as a whole.
-/
import proofs.«207285_g25512105738892_cont_9to1_353_29_alg».proof.Proof.KI.Res
import proofs.«207285_g25512105738892_cont_9to1_353_29_alg».proof.Proof.Gen.KernelIdeal.Skeleton
import Idealize.ShloMosaic.Lib.Pipeline.FrameBody
import Idealize.ShloMosaic.Lib.Ring
import Idealize.ShloMosaic.Lib.Tactic
set_option maxRecDepth 16384

noncomputable section

namespace Cert.Proof.KI.Region

open Cert.KernelIdeal Cert.KernelIdeal.Gen Cert.Proof.KI.Res

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

/-! ## The body's accesses -/

abbrev rX : Rect S20000x128 := Rect.unit (s := S20000x128) ![0, 0] S20000x128.size inb_S20000x128_S20000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The result's buffer after the body: its one store, of the payload of the three loads. -/
def outBlk (x : Vec F S20000x128 .f32) (w : Vec F S128x128 .f32) (b : Vec F S1x128 .f32) : Vec F S20000x128 .f32 :=
  View.canon [⟨rX, k0_pay1 (View.ld x rX) (View.ld w rW) (View.ld b rB)⟩]

/-- The store fills the buffer. -/
theorem cover_out (p0 : Vec F S20000x128 .f32) (y : S20000x128.Idx) :
    ∃ pc ∈ ([⟨rX, p0⟩] : List (View.Piece (Elt F) S20000x128 .f32)), y ∈ pc.1.set :=
  View.cover_of_tiled [⟨rX, p0⟩] S20000x128.size (by rfl) y

/-! ## The body's triple -/

set_option maxHeartbeats 1000000 in
theorem sound_kernel (c : Dev nD) (E : Set ℕ) (i : grid0.Coords)
    (arg1 : Memref sig .tc .vmem S20000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S20000x128 .f32) (harg4 : arg4.IsWhole)
    (x : Vec F S20000x128 .f32) (w : Vec F S128x128 .f32) (b : Vec F S1x128 .f32) (Kc : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outBlk x w b)) -∗ Kc ⟨⟩))
      ⊢ wp frame (wpE (defs₀ (F := F)) Variants.none c none) E (cc0__proj_body i arg1 harg1 arg2 harg2 arg3 harg3 arg4 harg4) Kc := by
  simp only [cc0__proj_body_eq_skeleton]; unfold cc0__proj_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Proof.KI.Region

end
-- ==== Proof.KI.RegionDat.lean ====
/-
  The projection pipeline's proof data on a core, and its body obligation.

  The arrays are read off a valuation V of the core's buffers as the region finds them. After the body at point t each input's
  staging buffer holds its block (block t of the table; the whole weights; the whole bias) and the result's holds the body's
  store of those. The invariant carries nothing (no scoped buffer is left over, no table is prefetched). While the region
  runs the thread owes what it owed before it (the start signals of the call to come), and the pairs its waits have
  recorded stay at level zero: the pipeline's own waits are at the index of level zero.
-/
import proofs.«207285_g25512105738892_cont_9to1_353_29_alg».proof.Proof.KI.RegionBody
import proofs.«207285_g25512105738892_cont_9to1_353_29_alg».proof.Proof.Gen.KernelIdeal.Launch
import proofs.«207285_g25512105738892_cont_9to1_353_29_alg».proof.Proof.Gen.KernelIdeal.Points
import Idealize.ShloMosaic.Lib.Pipeline.FrameBody
import Idealize.ShloMosaic.Lib.SparseCore.Launch
set_option maxRecDepth 16384

noncomputable section

namespace Cert.Proof.KI.Region

open Cert.KernelIdeal Cert.KernelIdeal.Gen Cert.Proof.KI.Res

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the thread owes while the region runs -/

/-- The start signals of the SparseCore call to come. -/
abbrev owedTc (c : Dev nD) : CellTallies nD τ sig (HIx 1) := (K (F := F)).Otc c 0

/-- The pairs at level zero. -/
abbrev recTc (c : Dev nD) : Set (SemLoc sig × HIx 1) := {p | (K (F := F)).lev (T c, p.1) p.2 ≤ 8 * 0}

/-- Nothing is owed at the index of level zero. -/
theorem owedTc_none (c : Dev nD) (g : GSem nD τ sig) : owedTc (F := F) c g none = 0 := by
  by_contra h
  have := SparseCore.Cfg.lev_of_Otc_pos (K := K (F := F)) (Nat.pos_of_ne_zero h)
  rw [SparseCore.Cfg.lev_none] at this; omega

/-! ## The proof data -/

def dat0 (c : Dev nD) : Dat τ (Elt F) (HIx 1) ℕ U ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := iprop(emp)
  q _ := fullShare
  owed _ := owedTc (F := F) c
  recorded _ := recTc (F := F) c

theorem A_eq (c : Dev nD) (w : Fin cfg0.W) : (dat0 (U := U) V c).A w = V c (Pipeline.arrRef spec0 w) := by
  dsimp only [dat0]

theorem after0 (c : Dev nD) (t : Fin cfg0.N) : (dat0 (U := U) V c).after 0 t = iblk V c 0 t := by dsimp only [dat0]
theorem after1 (c : Dev nD) (t : Fin cfg0.N) : (dat0 (U := U) V c).after 1 t = iblk V c 1 t := by dsimp only [dat0]
theorem after2 (c : Dev nD) (t : Fin cfg0.N) : (dat0 (U := U) V c).after 2 t = iblk V c 2 t := by dsimp only [dat0]
theorem after3 (c : Dev nD) (t : Fin cfg0.N) :
    (dat0 (U := U) V c).after 3 t = outBlk (iblk V c 0 t) (iblk V c 1 t) (iblk V c 2 t) := by dsimp only [dat0]

/-- Each input's current staging buffer holds its block at every point, fetched there or not: an input that is not
    fetched at a point has not moved. -/
theorem before0 (c : Dev nD) (t : Fin cfg0.N) (d) : (dat0 (U := U) V c).before 0 t d = iblk V c 0 t :=
  ((dat0 (U := U) V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat0 (U := U) V c).before 1 t d = iblk V c 1 t :=
  ((dat0 (U := U) V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat0 (U := U) V c).before 2 t d = iblk V c 2 t :=
  ((dat0 (U := U) V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dat0 (U := U) V c).Φ t.castSucc ∗ (dat0 (U := U) V c).owesAt none t.castSucc
    ∗ (∃ d, owns (c : Thread nD τ) (st0_0 t) fullShare ((dat0 (U := U) V c).before 0 t d))
    ∗ (∃ d, owns (c : Thread nD τ) (st0_1 t) fullShare ((dat0 (U := U) V c).before 1 t d))
    ∗ (∃ d, owns (c : Thread nD τ) (st0_2 t) fullShare ((dat0 (U := U) V c).before 2 t d))
    ∗ (∃ d, owns (c : Thread nD τ) (st0_3 t) fullShare ((dat0 (U := U) V c).before 3 t d)))

def bodyPost (c : Dev nD) (t : Fin cfg0.N) : sProp 𝕄 :=
  iprop((dat0 (U := U) V c).Φ t.succ ∗ (dat0 (U := U) V c).owesAt none t.succ
    ∗ owns (c : Thread nD τ) (st0_0 t) fullShare ((dat0 (U := U) V c).after 0 t)
    ∗ owns (c : Thread nD τ) (st0_1 t) fullShare ((dat0 (U := U) V c).after 1 t)
    ∗ owns (c : Thread nD τ) (st0_2 t) fullShare ((dat0 (U := U) V c).after 2 t)
    ∗ owns (c : Thread nD τ) (st0_3 t) fullShare ((dat0 (U := U) V c).after 3 t))

/-- The body at any point: the inputs' buffers hold their blocks, the invariant and what the thread owes pass through. -/
theorem sound_body (c : Dev nD) (t : Fin cfg0.N) :
    bodyPre (U := U) V c t ⊢ wp frame (wpE (defs₀ (F := F)) Variants.none c none) Set.univ (bodyAt0 t) (fun _ => bodyPost (U := U) V c t) := by
  unfold bodyPre bodyPost bodyAt0
  simp only [before0, before1, before2]
  rw [show (dat0 (U := U) V c).Φ t.succ = (dat0 (U := U) V c).Φ t.castSucc from rfl,
    show (dat0 (U := U) V c).owesAt none t.succ = (dat0 (U := U) V c).owesAt none t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat0 (F := F) (U := U) V c) (defs₀ (F := F)) Variants.none none Set.univ := fun t => by
  rw [bigSep_W0, bigSep_W0]
  exact sound_body V c t

end Cert.Proof.KI.Region

end
-- ==== Proof.KI.RegionArr.lean ====
/-
  The projected table as one function of the three arrays, and the result array after the region.

  The grid's five points write the five blocks of 20000 rows, point t the payload of block t of the table, the weights and the
  bias. Row v of the result therefore lies in block v / 20000 at row v % 20000, and the blocks cover the array.
-/
import proofs.«207285_g25512105738892_cont_9to1_353_29_alg».proof.Proof.KI.RegionDat
import Idealize.ShloMosaic.Lib.Pipeline.Value
import Idealize.ShloMosaic.Lib.ValueIdx
set_option maxRecDepth 16384

noncomputable section

namespace Cert.Proof.KI.Region

open Cert.KernelIdeal Cert.KernelIdeal.Gen Cert.Proof.KI.Res

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

/-- Block `t` of the table: rows `20000 t` to `20000 t + 19999`. -/
def xblk (X : S100000x128.Idx → Elt F .f32) (t : Fin 5) : Vec F S20000x128 .f32 :=
  fun y => X (ix2 (⟨t.val * 20000 + (y 0).val, by have h : (y 0).val < 20000 := (y 0).isLt; have := t.isLt; show _ < 100000; omega⟩ : Fin 100000) (⟨(y 1).val, (y 1).isLt⟩ : Fin 128))

/-- The projected table: row `v` lies in block `v / 20000` at row `v % 20000`, and each block is the body's payload of
    the table's block, the weights and the bias. -/
def projArr (X : S100000x128.Idx → Elt F .f32) (Wt : S128x128.Idx → Elt F .f32) (B1 : S1x128.Idx → Elt F .f32) : S100000x128.Idx → Elt F .f32 :=
  fun i => k0_pay1 (xblk X ⟨(i 0).val / 20000, by have h : (i 0).val < 100000 := (i 0).isLt; show _ < 5; omega⟩) Wt B1
    (ix2 (⟨(i 0).val % 20000, Nat.mod_lt _ (by decide)⟩ : Fin 20000) (⟨(i 1).val, (i 1).isLt⟩ : Fin 128))

/-- The projected table at an element of block `t`: the payload of block `t` at the element's place in the block. -/
theorem projArr_blk (X : S100000x128.Idx → Elt F .f32) (Wt : S128x128.Idx → Elt F .f32) (B1 : S1x128.Idx → Elt F .f32)
    (t : Fin 5) (j : S20000x128.Idx) (i : S100000x128.Idx)
    (h0 : (i 0).val = t.val * 20000 + (j 0).val) (h1 : (i 1).val = (j 1).val) :
    projArr X Wt B1 i = k0_pay1 (xblk X t) Wt B1 j := by
  have hj0 : (j 0).val < 20000 := (j 0).isLt
  have ht : (⟨(i 0).val / 20000, by have h : (i 0).val < 100000 := (i 0).isLt; show _ < 5; omega⟩ : Fin 5) = t := Fin.ext (by show (i 0).val / 20000 = t.val; omega)
  have hj : (ix2 (⟨(i 0).val % 20000, Nat.mod_lt _ (by decide)⟩ : Fin 20000) (⟨(i 1).val, (i 1).isLt⟩ : Fin 128) : S20000x128.Idx) = j := by
    funext a
    match a with
    | ⟨0, _⟩ => exact Fin.ext (by show (i 0).val % 20000 = (j 0).val; omega)
    | ⟨1, _⟩ => exact Fin.ext h1
  unfold projArr
  rw [ht, hj]

variable (V : (c : Dev nD) → (b : Ref sig .tc) → Buf (Elt F) ((c : Thread nD τ).loc b))

/-- A point of the grid as a number below five. -/
def pt (t : Fin cfg0.N) : Fin 5 := ⟨t.val, Nat.lt_of_lt_of_eq t.isLt N_0⟩

theorem hz : (![0, 0] : Fin 2 → Nat) = fun _ => 0 := funext fun a => by fin_cases a <;> rfl

/-- The printed index maps, decided over the grid: the table's and the result's block index is the point along the rows,
    zero along the columns; the weights' and the bias's is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The table's block at point `t` is block `t`. -/
theorem iblk0_eq (c : Dev nD) (t : Fin cfg0.N) :
    (iblk V c 0 t : Vec F S20000x128 .f32) = xblk (V c main_arg2) (pt t) := by
  obtain ⟨e0, e1, -⟩ := idx_facts t
  funext y
  show V c main_arg2 (((cfg0.win 0).blk t).view.emb y) = V c main_arg2 _
  refine congrArg (V c main_arg2) ?_
  funext a; apply Fin.ext
  match a with
  | ⟨0, _⟩ => show win0_0.index t (0 : Fin 2) * 20000 + 1 * (y 0).val = t.val * 20000 + (y 0).val; rw [e0]; omega
  | ⟨1, _⟩ => show win0_0.index t (1 : Fin 2) * 128 + 1 * (y 1).val = (y 1).val; rw [e1]; omega

/-- The weights' block at every point is the whole array. -/
theorem iblk1_eq (c : Dev nD) (t : Fin cfg0.N) : (iblk V c 1 t : Vec F S128x128 .f32) = V c main_arg3 := by
  obtain ⟨-, -, e0, e1, -⟩ := idx_facts t
  funext y
  show V c main_arg3 (((cfg0.win 1).blk t).view.emb y) = V c main_arg3 y
  refine congrArg (V c main_arg3) ?_
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias's block at every point is the whole array. -/
theorem iblk2_eq (c : Dev nD) (t : Fin cfg0.N) : (iblk V c 2 t : Vec F S1x128 .f32) = V c main_v0 := by
  obtain ⟨-, -, -, -, e0, e1, -⟩ := idx_facts t
  funext y
  show V c main_v0 (((cfg0.win 2).blk t).view.emb y) = V c main_v0 y
  refine congrArg (V c main_v0) ?_
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point `t` writes back is block `t` of the projected table. -/
theorem flushed3_eq [∀ e, Nonempty (Elt F e)] (c : Dev nD) (t : Fin cfg0.N) :
    (dat0 (U := U) V c).flushed 3 t
      = ((cfg0.win 3).blk t).view.read (Elt F) (projArr (V c main_arg2) (V c main_arg3) (V c main_v0) : S100000x128.Idx → Elt F .f32) := by
  show (cfg0.win 3).cut (grid0.coords t) ((dat0 (U := U) V c).after 3 t) = _
  rw [after3]
  unfold outBlk
  rw [View.canon_unit_zero hz]
  simp only [View.ld_unit_zero (S := S20000x128) hz, View.ld_unit_zero (S := S128x128) hz, View.ld_unit_zero (S := S1x128) hz]
  obtain ⟨-, -, -, -, -, -, e0, e1⟩ := idx_facts t
  have e : k0_pay1 (iblk V c 0 t) (iblk V c 1 t) (iblk V c 2 t)
      = k0_pay1 (xblk (V c main_arg2) (pt t)) (V c main_arg3) (V c main_v0) := by
    rw [iblk0_eq, iblk1_eq, iblk2_eq]
  funext j
  show k0_pay1 (iblk V c 0 t) (iblk V c 1 t) (iblk V c 2 t) j
    = (projArr (V c main_arg2) (V c main_arg3) (V c main_v0) : S100000x128.Idx → Elt F .f32) (((cfg0.win 3).blk t).view.emb j)
  rw [e]
  refine (projArr_blk (V c main_arg2) (V c main_arg3) (V c main_v0) (pt t) j _ ?_ ?_).symm
  · show win0_3.index t (0 : Fin 2) * 20000 + 1 * (j 0).val = t.val * 20000 + (j 0).val; rw [e0]; omega
  · show win0_3.index t (1 : Fin 2) * 128 + 1 * (j 1).val = (j 1).val; rw [e1]; omega

/-- An index of the result is in point `t`'s block iff each coordinate is in the block's range on its axis. -/
theorem mem_blk3 (t : Fin cfg0.N) (i : S100000x128.Idx) :
    i ∈ ((cfg0.win 3).blk t).view.set ↔ ∀ a : Fin 2, win0_3.index t a * S20000x128.size a ≤ (i a).val ∧ (i a).val < win0_3.index t a * S20000x128.size a + S20000x128.size a := by
  show i ∈ ((View.whole main_v1).slice (win0_3.rect t)).set ↔ _
  rw [View.set_slice_whole, Rect.mem_set_unit]
  exact Iff.rfl

/-- Every row lies in the block of the point its number divided by 20000 names. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 20000, by rw [show cfg0.N = 5 from N_0]; omega⟩
  obtain ⟨-, -, -, -, -, -, e0, e1⟩ := idx_facts t
  refine ⟨t, flush0_3 t, ?_⟩
  rw [mem_blk3]
  intro a
  match a with
  | ⟨0, _⟩ =>
    show win0_3.index t (0 : Fin 2) * 20000 ≤ (i 0).val ∧ (i 0).val < win0_3.index t (0 : Fin 2) * 20000 + 20000
    rw [e0]; show (i 0).val / 20000 * 20000 ≤ (i 0).val ∧ (i 0).val < (i 0).val / 20000 * 20000 + 20000; omega
  | ⟨1, _⟩ =>
    show win0_3.index t (1 : Fin 2) * 128 ≤ (i 1).val ∧ (i 1).val < win0_3.index t (1 : Fin 2) * 128 + 128
    rw [e1]; omega

/-- The result array after the last point is the projected table of the three arrays as the region finds them. -/
theorem final3 [∀ e, Nonempty (Elt F e)] (c : Dev nD) :
    (dat0 (U := U) V c).arrAt 3 cfg0.N = (projArr (V c main_arg2) (V c main_arg3) (V c main_v0) : S100000x128.Idx → Elt F .f32) :=
  (dat0 (U := U) V c).arrAt_eq_of_cover 3 _ (fun t _ => flushed3_eq V c t) cover3

end Cert.Proof.KI.Region

end
-- ==== Proof.RegionValue.lean ====
/-
  The projected table read at an index, at the ideal values.

  Entry (v, p) of the projected table is the inner product of row v of the table with row p of the weights, plus entry p of
  the bias: the body's payload at row v % 20000 of block v / 20000 is a matrix product accumulated into zero (a sum over the
  one contracted axis), plus the bias broadcast along the rows.
-/
import proofs.«207285_g25512105738892_cont_9to1_353_29_alg».proof.Proof.KI.RegionArr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.RegionValue

open Cert.KernelIdeal Cert.KernelIdeal.Gen Cert.Proof.KI.Region
open Idealize.ShloMosaic Idealize.ShloMosaic.ValueIdx

/-- The body's payload at row `r`, column `p` of a block: the inner product of the block's row `r` with the weights' row
    `p`, plus the bias at `p`. -/
theorem pay_apply (x : Vec Ideal S20000x128 .f32) (w : Vec Ideal S128x128 .f32) (b : Vec Ideal S1x128 .f32) (r : Fin 20000) (p : Fin 128) :
    k0_pay1 (F := Ideal) x w b (ix2 r p) = (∑ k : Fin 128, x (ix2 r k) * w (ix2 p k)) + b (ix2 (0 : Fin 1) p) := by
  unfold k0_pay1
  rw [addf_apply]
  refine congrArg₂ (· + ·) ?_ ?_
  · refine (Ideal.matmul_constant_zero_apply dot_S20000x128_S128x128_S20000x128_1_1_0_0_n_n none x w (ix2 r p)).trans ?_
    rw [← Equiv.sum_comp (contrEquiv1 dot_S20000x128_S128x128_S20000x128_1_1_0_0_n_n 128 rfl rfl).symm]
    refine Finset.sum_congr rfl fun k _ => ?_
    have hl : dot_S20000x128_S128x128_S20000x128_1_1_0_0_n_n.lhsIdx (ix2 r p) ((contrEquiv1 dot_S20000x128_S128x128_S20000x128_1_1_0_0_n_n 128 rfl rfl).symm k) = ix2 r k := by
      funext a
      match a with
      | ⟨0, _⟩ => exact Fin.ext (by first | rfl | simp [DotDims.lhsIdx, dot_S20000x128_S128x128_S20000x128_1_1_0_0_n_n])
      | ⟨1, _⟩ =>
        exact Fin.ext ((dot_S20000x128_S128x128_S20000x128_1_1_0_0_n_n.lhsIdx_val_of_single (cl := (1 : Fin 2)) rfl (ix2 r p) _).trans
          (contrEquiv1_symm_val dot_S20000x128_S128x128_S20000x128_1_1_0_0_n_n 128 rfl rfl k))
    have hr : dot_S20000x128_S128x128_S20000x128_1_1_0_0_n_n.rhsIdx (ix2 r p) ((contrEquiv1 dot_S20000x128_S128x128_S20000x128_1_1_0_0_n_n 128 rfl rfl).symm k) = ix2 p k := by
      funext a
      match a with
      | ⟨0, _⟩ => exact Fin.ext (by first | rfl | simp [DotDims.rhsIdx, dot_S20000x128_S128x128_S20000x128_1_1_0_0_n_n])
      | ⟨1, _⟩ =>
        exact Fin.ext ((dot_S20000x128_S128x128_S20000x128_1_1_0_0_n_n.rhsIdx_val_of_single (cr := (1 : Fin 2)) rfl (ix2 r p) _).trans
          (contrEquiv1_symm_val dot_S20000x128_S128x128_S20000x128_1_1_0_0_n_n 128 rfl rfl k))
    rw [hl, hr]
  · rw [shapeCast_self]
    exact broadcastTo_apply b broadcasts_S1x128_S20000x128 (ix2 r p) (ix2 (0 : Fin 1) p) (fun a => by
      match a with
      | ⟨0, _⟩ => rfl
      | ⟨1, _⟩ => rfl)

theorem projArr_apply (X : S100000x128.Idx → Elt Ideal .f32) (Wt : S128x128.Idx → Elt Ideal .f32) (B1 : S1x128.Idx → Elt Ideal .f32)
    (v : Fin 100000) (p : Fin 128) :
    projArr (F := Ideal) X Wt B1 (ix2 v p) = (∑ k : Fin 128, X (ix2 v k) * Wt (ix2 p k)) + B1 (ix2 (0 : Fin 1) p) := by
  have hv : v.val < 100000 := v.isLt
  rw [projArr_blk X Wt B1 ⟨v.val / 20000, by omega⟩ (ix2 (⟨v.val % 20000, Nat.mod_lt _ (by decide)⟩ : Fin 20000) p) (ix2 v p)
    (by show v.val = v.val / 20000 * 20000 + v.val % 20000; omega) rfl, pay_apply]
  refine congrArg₂ (· + ·) (Finset.sum_congr rfl fun k _ => ?_) rfl
  refine congrArg₂ (· * ·) ?_ rfl
  show X (ix2 _ _) = X (ix2 v k)
  refine congrArg X ?_
  funext a
  match a with
  | ⟨0, _⟩ => exact Fin.ext (by show v.val / 20000 * 20000 + v.val % 20000 = v.val; omega)
  | ⟨1, _⟩ => rfl

end Cert.Proof.RegionValue

end
-- ==== Proof.KI.Split.lean ====
/-
  The three arrays of the SparseCore call as the 32 workers' pieces: the ids and the result are the disjoint union of their
  32 rows along the worker axis; the table's full share is 32 read tokens and a remainder; and the two SparseCores' sixteen
  workers each are the 32 workers, worker 2 s + c being subcore s of SparseCore c.
-/
import proofs.«207285_g25512105738892_cont_9to1_353_29_alg».proof.Proof.KI.Res

noncomputable section

namespace Cert.Proof.KI.Split

open Cert.KernelIdeal Cert.KernelIdeal.Gen Cert.Proof.KI.Res

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} {U : Type} [URA U]

local notation "𝕄" => MT nD τ sig (HIx 1) (Elt F) ℕ U ℕ

/-! ## Workers and (SparseCore, subcore) pairs -/

/-- Worker 2 s + c is subcore s of SparseCore c. -/
def widEquiv : Fin 2 × Fin 16 ≃ Fin 32 where
  toFun x := wid x.1 x.2
  invFun w := (⟨w.val % 2, Nat.mod_lt _ (by decide)⟩, ⟨w.val / 2, by have := w.isLt; omega⟩)
  left_inv x := by
    obtain ⟨c, s⟩ := x
    have hc := c.isLt; have hs := s.isLt
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

theorem bigSep_workers (Φ : Fin 32 → sProp 𝕄) :
    (bigSep Finset.univ fun c : Fin 2 => bigSep Finset.univ fun s : Fin 16 => Φ (wid c s)) = bigSep Finset.univ Φ := by
  rw [bigSep_univ_equiv widEquiv Φ, bigSep_univ_prod (fun x : Fin 2 × Fin 16 => Φ (widEquiv x))]
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## Rows of the ids and of the result -/

theorem iRowSet_eq (w : Fin 32) : iRowSet w = (irow w).set := by
  show ((View.whole (main_v2_scv : Ref sig .scVector)).slice (irow w)).set = _
  rw [View.set_slice]; exact Finset.map_refl
theorem oRowSet_eq (w : Fin 32) : oRowSet w = (orow w).set := by
  show ((View.whole (main_v3_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-! ## The three arrays are the workers' pieces and the table's remainder -/

variable (m : (ℓ : Loc nD τ sig) → Buf (Elt F) ℓ)
variable (Pc : (d : Dev nD) → Buf (Elt F) (tLoc d)) (Ic : (d : Dev nD) → Buf (Elt F) (iLoc d))

/-- A worker's pieces with its block of the result at `f`. -/
abbrev pieces (d : Dev nD) (f : Buf (Elt F) (oLoc d)) (w : Fin 32) : sProp 𝕄 := iprop(iRowPts (U := U) Ic d w ∗ tShPts (U := U) Pc d w ∗ oRowPts (U := U) d w f)

theorem arrays_pieces (d : Dev nD) (f : Buf (Elt F) (oLoc d)) :
    (iprop((tLoc d ↦{fullShare} Pc d) ∗ (iLoc d ↦{fullShare} Ic d) ∗ (oLoc d ↦{fullShare} f)) : sProp 𝕄)
      ⊣⊢ iprop((tLoc d ↦{shareDrop fullShare 32} Pc d) ∗ bigSep Finset.univ (pieces (U := U) Pc Ic d f)) := by
  unfold pieces iRowPts tShPts oRowPts
  rw [bigSep_sep', bigSep_sep', iPts_rows, oPts_rows]
  have ht := pointsTo_toks (nD := nD) (τ := τ) (sig := sig) (Ix := HIx 1) (Val := Elt F) (Name := ℕ) (U := U) (Lvl := ℕ)
    (ℓ := tLoc d) (S := Finset.univ) (f := Pc d) fullShare 32
  constructor
  · iintro ⟨Ht, Hi, Ho⟩
    ihave Ht' := ht.1 $$ Ht
    icases Ht' with ⟨Hd, Hts⟩
    isplitl [Hd]; · iexact Hd
    isplitl [Hi]; · iexact Hi
    isplitl [Hts]; · iexact Hts
    iexact Ho
  · iintro ⟨Hd, Hi, Hts, Ho⟩
    isplitl [Hd Hts]
    · iapply ht.2; isplitl [Hd]; · iexact Hd
      iexact Hts
    isplitl [Hi]; · iexact Hi
    iexact Ho

/-- What the call takes for the two SparseCores is the 32 workers' pieces as launched, -/
theorem st_eq (d : Dev nD) :
    (bigSep Finset.univ fun c : Fin ((K (F := F)).nCore 0) => (P (U := U) m Pc Ic).st 0 d c) = bigSep Finset.univ (pieces (U := U) Pc Ic d (m (oLoc d))) := by
  rw [← bigSep_workers (pieces (U := U) Pc Ic d (m (oLoc d)))]
  exact bigSep_cores (F := F) (fun c => bigSep Finset.univ fun s : Fin 16 => pieces (U := U) Pc Ic d (m (oLoc d)) (wid c s))
/-- and what it hands back is the 32 workers' pieces with the result gathered. -/
theorem dn_eq (d : Dev nD) :
    (bigSep Finset.univ fun c : Fin ((K (F := F)).nCore 0) => (P (U := U) m Pc Ic).dn 0 d c) = bigSep Finset.univ (pieces (U := U) Pc Ic d (outArr (Pc d) (Ic d))) := by
  rw [← bigSep_workers (pieces (U := U) Pc Ic d (outArr (Pc d) (Ic d)))]
  exact bigSep_cores (F := F) (fun c => bigSep Finset.univ fun s : Fin 16 => pieces (U := U) Pc Ic d (outArr (Pc d) (Ic d)) (wid c s))

end Cert.Proof.KI.Split

end
-- ==== Proof.KI.LaunchSC.lean ====
/-
  The SparseCore call's obligations to the launch theorem: the side conditions of the configuration, one vector subcore's task
  (the kernel's body lifted through the body tables), and how a SparseCore's operands are its sixteen workers' pieces.
-/
import proofs.«207285_g25512105738892_cont_9to1_353_29_alg».proof.Proof.KI.Res
import Idealize.ShloMosaic.Lib.Pipeline.Kit
import Idealize.ShloMosaic.Lib.Tactic

noncomputable section

namespace Cert.Proof.KI.LaunchSC

open Cert.KernelIdeal Cert.KernelIdeal.Gen Cert.Proof.KI.Res

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U]

local notation "𝕄" => MT nD τ sig (HIx 1) (Elt F) ℕ U ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]
variable (m : (ℓ : Loc nD τ sig) → Buf (Elt F) ℓ)
variable (Pc : (d : Dev nD) → Buf (Elt F) (tLoc d)) (Ic : (d : Dev nD) → Buf (Elt F) (iLoc d))

instance P_storable : (P (F := F) (U := U) m Pc Ic).IsStorable where
  st q d c := match q with
    | 0 => (inferInstance : BI.Storable (upEmb : UEmb _ 𝕄) (bigSep Finset.univ fun s : Fin 16 => tileGo (U := U) m Pc Ic d (wid (Fin.cast nCore_zero c) s)))
  dn q d c := match q with
    | 0 => (inferInstance : BI.Storable (upEmb : UEmb _ 𝕄) (bigSep Finset.univ fun s : Fin 16 => tileTd (U := U) Pc Ic d (wid (Fin.cast nCore_zero c) s)))
  go q d c s := match q with
    | 0 => (inferInstance : BI.Storable (upEmb : UEmb _ 𝕄) (tileGo (U := U) m Pc Ic d (wid (Fin.cast nCore_zero c) (Fin.cast nSub_zero s))))
  td q d c s := match q with
    | 0 => (inferInstance : BI.Storable (upEmb : UEmb _ 𝕄) (tileTd (U := U) Pc Ic d (wid (Fin.cast nCore_zero c) (Fin.cast nSub_zero s))))

/-- The kernel on the grid point `L`, on the whole arrays and the subcore's scratch, as the body table calls it. -/
abbrev kernelAt (L : grid1.Coords) : Prog (TpuEff nD τ sig (Elt F) Λ₀ (.scVector ((L 0).castLE hcore1) ((L 1).castLE hsub1))) PUnit :=
  cc1_gather_kernel L (Memref.whole main_v1_scv) (Memref.isWhole_whole _) (Memref.whole main_v2_scv) (Memref.isWhole_whole _) (Memref.whole main_v3_scv) (Memref.isWhole_whole _)
    (Memref.whole cc1_scratch0) (Memref.isWhole_whole _) (Memref.whole cc1_scratch1) (Memref.isWhole_whole _)
    cc1_scratch2 cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scratch19 cc1_scratch20 cc1_scratch21 cc1_scoped0

/-- One worker's task: from its pieces and its subcore's scoped storage to its pieces back, its block of the result at the
    gathered rows, whatever the subcore owes and has recorded. -/
def BodyStmt : Prop :=
  ∀ (d : Dev nD) (L : grid1.Coords) (O : CellTallies nD τ sig (HIx 1)) (W : Waits sig (HIx 1)), (∀ g, O g none = 0) →
    iprop(levAts (K (F := F)).L (K (F := F)).lev ∗ emp ∗ tileGo (U := U) m Pc Ic d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kernelAt (F := F) L)
          fun _ => iprop(tileTd (U := U) Pc Ic d (widL L) ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 1 () = SparseCore.onTile hcore1 hsub1 (fun c s => kernelAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : BodyStmt (U := U) m Pc Ic) : (K (F := F)).TileObl (D (F := F)) 𝒱 (P (U := U) m Pc Ic) v₀ 0 := by
  intro d c i O W hO _ _
  simp only [show (P (U := U) m Pc Ic).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P (U := U) m Pc Ic) 0 := by
  intro d c
  show (bigSep Finset.univ fun s : Fin 16 => tileGo (U := U) m Pc Ic d (wid (Fin.cast nCore_zero c) s)) ⊢ |={Set.univ}=> iprop(
      (bigSep Finset.univ fun i : Fin ((K (F := F)).nSub 0) => tileGo (U := U) m Pc Ic d (wid (Fin.cast nCore_zero c) (Fin.cast nSub_zero i)))
      ∗ ((bigSep Finset.univ fun i : Fin ((K (F := F)).nSub 0) => tileTd (U := U) Pc Ic d (wid (Fin.cast nCore_zero c) (Fin.cast nSub_zero i)))
          -∗ (bigSep Finset.univ fun s : Fin 16 => tileTd (U := U) Pc Ic d (wid (Fin.cast nCore_zero c) s))))
  rw [bigSep_tasks (F := F) (fun s => tileGo (U := U) m Pc Ic d (wid (Fin.cast nCore_zero c) s)),
    bigSep_tasks (F := F) (fun s => tileTd (U := U) Pc Ic d (wid (Fin.cast nCore_zero c) s))]
  iintro H; imodintro
  isplitl [H]; · iexact H
  iintro H; iexact H

end Cert.Proof.KI.LaunchSC

end
-- ==== Proof.KI.MainTail.lean ====
/-
  @main on the TensorCore after the projection: the ids regrouped per worker (a host layout change), the SparseCore call (the
  table, the regrouped ids and the result handed to the 32 workers piece by piece and taken back with the result gathered), and
  the result laid out as [1024, 200, 128]. The table is at ANY contents `Pc`; the ids' regrouping is `Icv`; what the last
  buffer holds in the end is `outFin`, a pure term of the table's contents and the ids.
-/
import proofs.«207285_g25512105738892_cont_9to1_353_29_alg».proof.Proof.KI.Split
import proofs.«207285_g25512105738892_cont_9to1_353_29_alg».proof.Proof.KI.LaunchSC
import Idealize.ShloMosaic.Lib.StableHlo.Run

noncomputable section

namespace Cert.Proof.KI.MainTail

open Cert.KernelIdeal Cert.KernelIdeal.Gen Cert.Proof.KI.Res Cert.Proof.KI.Split

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Transfers (shareTok shareDrop)

variable {F : FTy → Type} [FloatOps F] {U : Type} [URA U]

local notation "𝕄" => MT nD τ sig (HIx 1) (Elt F) ℕ U ℕ

variable (EH : Emb (URounds (GSem nD τ sig) ℕ) (MT nD τ sig (HIx 1) (Elt F) ℕ U ℕ))
variable (m : (ℓ : Loc nD τ sig) → Buf (Elt F) ℓ)

abbrev a0Loc (d : Dev nD) : Loc nD τ sig := (SparseCore.T d).loc main_arg0
abbrev v4Loc (d : Dev nD) : Loc nD τ sig := (SparseCore.T d).loc main_v4

abbrev a0' : DevRef τ sig := Proc.devRef .tc (main_arg0 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The ids regrouped per worker, and the result laid out per sentence. -/
abbrev opIds : HloOp τ sig (Elt F) := StableHlo.reshape main_arg0 main_v2 rfl shapeCasts_S1024x200_S32x100x64
abbrev opOut : HloOp τ sig (Elt F) := StableHlo.reshape main_v3 main_v4 rfl shapeCasts_S32x100x64x128_S1024x200x128

/-- The regrouped ids, as a pure term of the launch memory. -/
def Icv (d : Dev nD) : Buf (Elt F) (iLoc d) := shapeCast S32x100x64 (m (a0Loc d)) shapeCasts_S1024x200_S32x100x64
/-- What the result buffer holds in the end. -/
def outFin (Pc : Buf (Elt F) (tLoc (0 : Dev nD))) (ids : S1024x200.Idx → BitVec 32) : S1024x200x128.Idx → Elt F .f32 :=
  shapeCast S1024x200x128 (outArr Pc (shapeCast S32x100x64 ids shapeCasts_S1024x200_S32x100x64)) shapeCasts_S32x100x64x128_S1024x200x128

/-- The rest of @main after the projection. -/
def mainTail (d : Dev nD) : Prog (TpuEff nD τ sig (Elt F) (SparseCore.Sig (ΛP (F := F)) 1) .tc) PUnit := do
  hlo rfl (StableHlo.reshape main_arg0 main_v2 rfl shapeCasts_S1024x200_S32x100x64) (fun _ => .ret ⟨⟩)
  sc.run d 0
  hlo rfl (StableHlo.reshape main_v3 main_v4 rfl shapeCasts_S32x100x64x128_S1024x200x128) (fun _ => .ret ⟨⟩)
  pure ⟨⟩

omit [FloatOps F] in
theorem held_two (d : Dev nD) (x y : Ref sig .tc) (hne : (Proc.devRef .tc x : DevRef τ sig) ≠ Proc.devRef .tc y) (W : Valuation τ sig (Elt F)) :
    (held (T d) {(Proc.devRef .tc x : DevRef τ sig), Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (by simpa using hne), bigSep_singleton]

/-- The launch valuation, and the one before the last layout change: the gathered result in `main_v3`. -/
def V0 (d : Dev nD) : Valuation τ sig (Elt F) := fun b => m (d, b)
def V3 (d : Dev nD) (f : Buf (Elt F) (oLoc d)) : Valuation τ sig (Elt F) := Function.update (V0 m d) v3' f

theorem V3_v3 (d : Dev nD) (f : Buf (Elt F) (oLoc d)) : V3 m d f v3' = f := Function.update_self _ _ _
theorem V3_v4 (d : Dev nD) (f : Buf (Elt F) (oLoc d)) : V3 m d f v4' = m (v4Loc d) := Function.update_of_ne (show v4' ≠ v3' by decide) _ _

theorem ids_result (d : Dev nD) : (opIds (F := F)).result (V0 m d) v2' = Icv m d :=
  (StableHlo.reshape_result' (x := main_arg0) (y := main_v2) rfl shapeCasts_S1024x200_S32x100x64 _ _ (V0 m d)).trans rfl
theorem ids_result_ne (d : Dev nD) : (opIds (F := F)).result (V0 m d) a0' = m (a0Loc d) :=
  StableHlo.reshape_result_ne' (x := main_arg0) (y := main_v2) rfl shapeCasts_S1024x200_S32x100x64 _ _ (V0 m d) (r := main_arg0) (by decide)
theorem out_result (d : Dev nD) (f : Buf (Elt F) (oLoc d)) :
    (opOut (F := F)).result (V3 m d f) v4' = shapeCast S1024x200x128 f shapeCasts_S32x100x64x128_S1024x200x128 :=
  (StableHlo.reshape_result' (x := main_v3) (y := main_v4) rfl shapeCasts_S32x100x64x128_S1024x200x128 _ _ (V3 m d f)).trans
    (by rw [V3_v3]; rfl)

/-- The two buffers of each layout change, before it and after it. -/
theorem held_ids_pre (d : Dev nD) :
    (held (T d) (opIds (F := F)).bufs (V0 m d) : sProp 𝕄) = iprop((a0Loc d ↦{fullShare} m (a0Loc d)) ∗ (iLoc d ↦{fullShare} m (iLoc d))) := by
  rw [show (opIds (F := F)).bufs = {a0', v2'} from rfl, held_two d main_arg0 main_v2 (by decide)]; rfl
theorem held_ids_post (d : Dev nD) :
    (held (T d) (opIds (F := F)).bufs ((opIds (F := F)).result (V0 m d)) : sProp 𝕄) = iprop((a0Loc d ↦{fullShare} m (a0Loc d)) ∗ (iLoc d ↦{fullShare} Icv m d)) := by
  rw [show (opIds (F := F)).bufs = {a0', v2'} from rfl, held_two d main_arg0 main_v2 (by decide), ids_result, ids_result_ne]
theorem held_out_pre (d : Dev nD) (f : Buf (Elt F) (oLoc d)) :
    (held (T d) (opOut (F := F)).bufs (V3 m d f) : sProp 𝕄) = iprop((oLoc d ↦{fullShare} f) ∗ (v4Loc d ↦{fullShare} m (v4Loc d))) := by
  rw [show (opOut (F := F)).bufs = {v3', v4'} from rfl, held_two d main_v3 main_v4 (by decide), V3_v3, V3_v4]
theorem held_out_post (d : Dev nD) (f : Buf (Elt F) (oLoc d)) :
    (held (T d) (opOut (F := F)).bufs ((opOut (F := F)).result (V3 m d f)) : sProp 𝕄)
      = iprop((oLoc d ↦{fullShare} (opOut (F := F)).result (V3 m d f) v3') ∗ (v4Loc d ↦{fullShare} shapeCast S1024x200x128 f shapeCasts_S32x100x64x128_S1024x200x128)) := by
  rw [show (opOut (F := F)).bufs = {v3', v4'} from rfl, held_two d main_v3 main_v4 (by decide), out_result]

variable (Pc : (d : Dev nD) → Buf (Elt F) (tLoc d))

/-- @main's tail on device `d`: from the ids, the table at `Pc d`, and the three later buffers as launched, to the ids
    unchanged and the last buffer at the gathered rows. -/
theorem main_tail (κ : GSem nD τ sig → ℕ) (d : Dev nD) (R : sProp 𝕄) :
    iprop((K (F := F)).ctx EH (P (U := U) m Pc (Icv m)) κ ∗ (K (F := F)).tcSt EH d 0 ∗ boundary (SparseCore.T d : Thread nD τ)
        ∗ (a0Loc d ↦{fullShare} m (a0Loc d)) ∗ (tLoc d ↦{fullShare} Pc d) ∗ (iLoc d ↦{fullShare} m (iLoc d))
        ∗ (oLoc d ↦{fullShare} m (oLoc d)) ∗ (v4Loc d ↦{fullShare} m (v4Loc d)) ∗ R)
      ⊢ wp frame (wpE ((K (F := F)).defs (D (F := F))) 𝒱 (SparseCore.T d) none) Set.univ (mainTail (F := F) d)
          fun _ => iprop((K (F := F)).tcSt EH d 1 ∗ (a0Loc d ↦{fullShare} m (a0Loc d)) ∗ (tLoc d ↦{fullShare} Pc d)
            ∗ (v4Loc d ↦{fullShare} shapeCast S1024x200x128 (outArr (Pc d) (Icv m d)) shapeCasts_S32x100x64x128_S1024x200x128) ∗ R) := by
  simp only [mainTail, wp_bind, wp_pure]
  iintro ⟨#Hctx, Hst, Hb, Ha0, Ht, Hi, Ho, Hv4, HR⟩
  -- the ids regrouped
  iapply (wp_hlo_within 𝒱 (SparseCore.T d) none Set.univ (op := opIds) (S := (opIds (F := F)).bufs) (Finset.Subset.refl _) (V := V0 m d)) $$ [Hb Ha0 Hi]
  · isplitl [Hb]; · iexact Hb
    rw [held_ids_pre]
    isplitl [Ha0]; · iexact Ha0
    iexact Hi
  iintro ⟨Hb, Hheld⟩
  rw [wp_ret]; imodintro
  ihave Hh := (Entails.of_eq (held_ids_post (F := F) (U := U) m d)) $$ Hheld
  icases Hh with ⟨Ha0, Hi⟩
  -- the call: the three arrays to the 32 workers and back
  ihave Hall := (arrays_pieces (U := U) Pc (Icv m) d (m (oLoc d))).1 $$ [Ht Hi Ho]
  · isplitl [Ht]; · iexact Ht
    isplitl [Hi]; · iexact Hi
    iexact Ho
  icases Hall with ⟨Hrem, Hps⟩
  iapply ((K (F := F)).wp_run (D (F := F)) 𝒱 (EH := EH) (P := P (U := U) m Pc (Icv m)) κ d 0) $$ [Hst Hps Hb Ha0 Hrem Hv4 HR]
  isplitr; · iexact Hctx
  isplitl [Hst]; · iexact Hst
  isplitl [Hps]
  · rw [st_eq]; iexact Hps
  iintro ⟨Hst, Hdn⟩
  ihave Hdn' := (Entails.of_eq (dn_eq (U := U) m Pc (Icv m) d)) $$ Hdn
  ihave Hall := (arrays_pieces (U := U) Pc (Icv m) d (outArr (Pc d) (Icv m d))).2 $$ [Hrem Hdn']
  · isplitl [Hrem]; · iexact Hrem
    iexact Hdn'
  icases Hall with ⟨Ht, Hi, Ho⟩
  -- the result laid out per sentence
  iapply (wp_hlo_within 𝒱 (SparseCore.T d) none Set.univ (op := opOut) (S := (opOut (F := F)).bufs) (Finset.Subset.refl _) (V := V3 m d (outArr (Pc d) (Icv m d)))) $$ [Hb Ho Hv4]
  · isplitl [Hb]; · iexact Hb
    rw [held_out_pre]
    isplitl [Ho]; · iexact Ho
    iexact Hv4
  iintro ⟨Hb, Hheld⟩
  ihave Hh := (Entails.of_eq (held_out_post (F := F) (U := U) m d _)) $$ Hheld
  icases Hh with ⟨-, Hv4⟩
  rw [wp_ret]; imodintro; imodintro
  isplitl [Hst]; · iexact Hst
  isplitl [Ha0]; · iexact Ha0
  isplitl [Ht]; · iexact Ht
  isplitl [Hv4]; · iexact Hv4
  iexact HR

end Cert.Proof.KI.MainTail

end
-- ==== Proof.KI.Ghost.lean ====
/-
  The ghost algebra of the certificate and the launch element's two halves.

  The SparseCore handshakes keep their rounds in one component, the TensorCore pipeline's staging cells keep theirs in a
  second, and a third holds the transfer counters. The launch element is the pair of the two libraries' initial elements
  (beside the unit of the counters); owning it is owning each half through its embedding, and the pipeline's half funds
  the staging cells' ghost state and duty tokens of every core.
-/
import proofs.«207285_g25512105738892_cont_9to1_353_29_alg».proof.Proof.KI.Res
import proofs.«207285_g25512105738892_cont_9to1_353_29_alg».proof.Proof.Gen.KernelIdeal.Launch
import Idealize.ShloMosaic.Lib.Pipeline.Kit
import Idealize.ShloMosaic.Lib.Pipeline.Sound
import Idealize.ShloMosaic.Lib.Transfers
import Idealize.ShloMosaic.Lib.SparseCore.Launch

noncomputable section

namespace Cert.Proof.KI.Ghost

open Cert.KernelIdeal Cert.KernelIdeal.Gen Cert.Proof.KI.Res

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The handshakes' rounds, the staging cells' rounds, and both beside the transfer counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The prefetched tables' admissible contents: the pipeline has no table. -/
abbrev adm : (p : Fin 1) → (pcfgs (F := F) p).Adm := fun p => (cfgs p).toPCfg_adm

/-- The handshakes' component embedded, -/
def EH : Emb UH 𝕄 := embL
/-- and the staging cells'. -/
def EP : Emb UP 𝕄 := (Emb.inl : Emb UP (UP × Counters)).trans embR

instance EH_landsIn : (EH (F := F)).LandsIn (upEmb : UEmb _ 𝕄) := by unfold EH; infer_instance
instance EP_landsIn : (EP (F := F)).LandsIn (upEmb : UEmb _ 𝕄) := by unfold EP embR; infer_instance

/-- The launch element: each library's initial element, the counters at their unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

set_option backward.isDefEq.respectTransparency.types false in
/-- Owning the launch element is owning the handshakes' initial element and, on every core, the pipeline's staging cells'
    ghost state and duty tokens. -/
theorem ghost_split :
    (ownU (u₀ (F := F)) : sProp 𝕄) ⊢ |={Set.univ}=> iprop(BI.own (EH (F := F) (initOf (K (F := F)).hsCells (K (F := F)).hsToks))
      ∗ bigSep Finset.univ fun d : Dev nD =>
          iprop(Pipeline.cellsGhost (Pipeline.pin (pcfgs (F := F)) adm) (EP (F := F)) 0 d ∗ Pipeline.toksInit (Pipeline.pin (pcfgs (F := F)) adm) (EP (F := F)) 0 d)) := by
  have hfund := Pipeline.fund_ghost (nD := nD) (τ := τ) (Ix := HIx 1) (Val := Elt F) (Name := ℕ) (U := UU) (Lvl := ℕ)
    (Pipeline.pin (pcfgs (F := F)) adm) (EP (F := F)) cellOf_inj
  have hone : ∀ Φ : Fin 1 → sProp 𝕄, bigSep Finset.univ Φ = Φ 0 := fun Φ => by
    rw [show (Finset.univ : Finset (Fin 1)) = {0} from rfl, BI.bigSep_singleton]
  simp only [hone] at hfund
  have h1 := ownU_pair (nD := nD) (τ := τ) (sig := sig) (Ix := HIx 1) (Val := Elt F) (Name := ℕ) (Lvl := ℕ)
    (initOf (K (F := F)).hsCells (K (F := F)).hsToks : UH)
    ((initOf (Pipeline.cells (nD := nD) (τ := τ) cfgs cellOf_inj) (Pipeline.launchToks (nD := nD) (τ := τ) cfgs cellOf_inj), (1 : Counters)) : UP × Counters)
  have h2 := own_pair_emb (embR : Emb (UP × Counters) 𝕄)
    (initOf (Pipeline.cells (nD := nD) (τ := τ) cfgs cellOf_inj) (Pipeline.launchToks (nD := nD) (τ := τ) cfgs cellOf_inj)) (1 : Counters)
  have hconv : (BI.own (((Emb.inl : Emb UP (UP × Counters)).trans (embR : Emb (UP × Counters) 𝕄))
        (initOf (Pipeline.cells (nD := nD) (τ := τ) cfgs cellOf_inj) (Pipeline.launchToks (nD := nD) (τ := τ) cfgs cellOf_inj))) : sProp 𝕄)
      ⊢ BI.own (EP (F := F) (initOf (Pipeline.cells (nD := nD) (τ := τ) (Pipeline.pin (pcfgs (F := F)) adm) cellOf_inj)
          (Pipeline.launchToks (nD := nD) (τ := τ) (Pipeline.pin (pcfgs (F := F)) adm) cellOf_inj))) := .rfl
  simp only [hone]
  unfold u₀
  iintro Hu
  ihave H := h1 $$ Hu
  icases H with ⟨HH, HR⟩
  ihave H2 := h2 $$ HR
  icases H2 with ⟨HP, -⟩
  ihave HP' := hconv $$ HP
  imod hfund $$ HP' with ⟨HG, HT⟩
  imodintro
  isplitl [HH]; · iexact HH
  isplitl [HG] <;> iassumption

end Cert.Proof.KI.Ghost

end
-- ==== Proof.KI.Region.lean ====
/-
  The projection region as a segment of the main program.

  It is entered holding the four arrays whole (the table, the weights, the bias, and the result at anything) and what the
  thread owes; it is left holding the three inputs unchanged, the result at the projected table, and the same debt. Nothing
  else is needed: the invariant is empty, no other buffer takes part, and the pipeline's own waits are at the index of
  level zero, below every unit the thread owes.
-/
import proofs.«207285_g25512105738892_cont_9to1_353_29_alg».proof.Proof.KI.RegionArr
import Idealize.ShloMosaic.Lib.Pipeline.RegionsLoop
import Idealize.ShloMosaic.Lib.Pipeline.FrameSuffix
set_option maxRecDepth 16384

noncomputable section

namespace Cert.Proof.KI.Region

open Cert.KernelIdeal Cert.KernelIdeal.Gen Cert.Proof.KI.Res

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

variable (V : (c : Dev nD) → (b : Ref sig .tc) → Buf (Elt F) ((c : Thread nD τ).loc b))

/-- The prefetched tables' admissible contents: the pipeline has no table. -/
abbrev adm : (p : Fin 1) → (pcfgs (F := F) p).Adm := fun p => (cfgs p).toPCfg_adm

/-- The proof data of the one pipeline. -/
def pdats : (p : Fin 1) → (c : Dev nD) → Dat τ (Elt F) (HIx 1) ℕ U ℕ (Pipeline.pin (pcfgs (F := F)) adm p) c
  | ⟨0, _⟩ => fun c => dat0 V c

/-- What the thread owes, as its handshake state holds it before the first call. -/
abbrev owesTc (c : Dev nD) : sProp 𝕄 := iprop(∃ W, ⌜(K (F := F)).WBelow (T c) W (8 * 0)⌝ ∗ owes (T c) ((K (F := F)).Otc c 0) W)

/-- The region is entered from the four arrays at the valuation, -/
abbrev pre0 (c : Dev nD) : sProp 𝕄 :=
  iprop((((c : Thread nD τ).loc main_arg2) ↦{fullShare} V c main_arg2) ∗ (((c : Thread nD τ).loc main_arg3) ↦{fullShare} V c main_arg3)
    ∗ (((c : Thread nD τ).loc main_v0) ↦{fullShare} V c main_v0) ∗ (((c : Thread nD τ).loc main_v1) ↦{fullShare} V c main_v1) ∗ owesTc (F := F) c)

/-- and left with the result at the projected table. -/
abbrev post0 (c : Dev nD) : sProp 𝕄 :=
  iprop((((c : Thread nD τ).loc main_arg2) ↦{fullShare} V c main_arg2) ∗ (((c : Thread nD τ).loc main_arg3) ↦{fullShare} V c main_arg3)
    ∗ (((c : Thread nD τ).loc main_v0) ↦{fullShare} V c main_v0)
    ∗ (((c : Thread nD τ).loc main_v1) ↦{fullShare} (projArr (V c main_arg2) (V c main_arg3) (V c main_v0) : S100000x128.Idx → Elt F .f32)) ∗ owesTc (F := F) c)

theorem post0_eq (c : Dev nD) : (post0 (U := U) V c : sProp 𝕄)
    = iprop((((c : Thread nD τ).loc main_arg2) ↦{fullShare} V c main_arg2) ∗ (((c : Thread nD τ).loc main_arg3) ↦{fullShare} V c main_arg3)
    ∗ (((c : Thread nD τ).loc main_v0) ↦{fullShare} V c main_v0)
    ∗ (((c : Thread nD τ).loc main_v1) ↦{fullShare} (projArr (V c main_arg2) (V c main_arg3) (V c main_v0) : S100000x128.Idx → Elt F .f32)) ∗ owesTc (F := F) c) := rfl

/-- The wait evidence: the pipeline's cells are waited on at the index of level zero, where the thread owes nothing. -/
theorem hwaits0 (c : Dev nD) :
    (levAts (K (F := F)).L (K (F := F)).lev : sProp 𝕄) ⊢ Pipeline.cellsWaits (Pipeline.pin (pcfgs (F := F)) adm) (pdats (U := U) V) (none : HIx 1) 0 c :=
  Pipeline.cellsWaits_of_cut (Pipeline.pin (pcfgs (F := F)) adm) (pdats (U := U) V) (none : HIx 1) 0 c (L := (K (F := F)).L) (lev := (K (F := F)).lev) 0
    (owedTc (F := F) c) (fun _ => rfl) (fun _ _ => Finset.mem_univ _) (fun _ _ => le_rfl)
    (fun g i h => ⟨Finset.mem_univ _, by
      cases i with
      | none => rw [owedTc_none] at h; exact absurd h (Nat.lt_irrefl 0)
      | some q => exact (K (F := F)).lev_some_pos g q⟩)

/-- The pipeline's arrays at contents `G` are the four buffers whole at `G`. -/
theorem arrays0 (c : Dev nD) (G : (w : Fin cfg0.W) → Buf (Elt F) ((cfg0.win w).arr.view.loc (c.tc : Thread nD τ))) :
    ((dat0 (U := U) V c).arrays G : sProp 𝕄)
      = iprop((((c : Thread nD τ).loc main_arg2) ↦{fullShare} G 0) ∗ (((c : Thread nD τ).loc main_arg3) ↦{fullShare} G 1)
          ∗ (((c : Thread nD τ).loc main_v0) ↦{fullShare} G 2) ∗ (((c : Thread nD τ).loc main_v1) ↦{fullShare} G 3)) := by
  unfold Dat.arrays
  rw [bigSep_W0]
  rw [(launch0.arr_whole 0).set_eq_univ, (launch0.arr_whole 1).set_eq_univ, (launch0.arr_whole 2).set_eq_univ, (launch0.arr_whole 3).set_eq_univ,
    (dat0 (U := U) V c).share_full (fun _ => rfl) 0, (dat0 (U := U) V c).share_full (fun _ => rfl) 1,
    (dat0 (U := U) V c).share_full (fun _ => rfl) 2, (dat0 (U := U) V c).share_full (fun _ => rfl) 3]

/-- The recorded pairs the pipeline hands back sit at level zero: those it was handed, and its own waits' at the index of
    level zero. -/
theorem wbelow_of_bound (c : Dev nD) (W : Waits sig (HIx 1))
    (hW : (↑W : Set (SemLoc sig × HIx 1)) ⊆ (dat0 (U := U) V c).bound none (Fin.last cfg0.N)) : (K (F := F)).WBelow (T c) W (8 * 0) := by
  intro p hp
  rcases hW hp with h | ⟨w, s, rfl⟩
  · exact h
  · exact le_rfl

set_option backward.isDefEq.respectTransparency.types false in
def R0 : Pipeline.RegionSeg (pcfgs (F := F)) adm (pdats (U := U) V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits := hwaits0 V
  pre c := pre0 V c
  post c := post0 V c
  X c := iprop(emp)
  Y c := iprop(emp)
  Z c := iprop(emp)
  hentry c := by
    rw [Pipeline.ownSems0_none, show pdats (U := U) V 0 c = dat0 V c from rfl, arrays0]
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats (U := U) V 0 c).Φ 0 = iprop(emp) from rfl]
    iintro -; iempintro
  hout c := by
    rw [Pipeline.ownSems0_none, show (pdats (U := U) V 0 c).Φ (Fin.last _) = iprop(emp) from rfl,
      show Pipeline.scopedRest (Ix := HIx 1) (Name := ℕ) (U := U) (Lvl := ℕ) (Val := Elt F) (Pipeline.pin (pcfgs (F := F)) adm 0).spec c
        = Pipeline.scopedRest (Ix := HIx 1) (Name := ℕ) (U := U) (Lvl := ℕ) (Val := Elt F) spec0 c from rfl, scopedRest0_eq]
    iintro -
    isplitr; · iempintro
    isplitr <;> iempintro
  hexit c := by
    rw [show pdats (U := U) V 0 c = dat0 V c from rfl, arrays0,
      (dat0 (U := U) V c).arrAt_in 0 rfl, (dat0 (U := U) V c).arrAt_in 1 rfl, (dat0 (U := U) V c).arrAt_in 2 rfl,
      show (dat0 (U := U) V c).arrAt 3 (Pipeline.pin (pcfgs (F := F)) adm 0).N
        = (projArr (V c main_arg2) (V c main_arg3) (V c main_v0) : S100000x128.Idx → Elt F .f32) from final3 V c, A_eq, A_eq, A_eq]
    iintro ⟨⟨H0, H1, H2, H3⟩, HO, -, -⟩
    imodintro
    isplitl [H0]; · iexact H0
    isplitl [H1]; · iexact H1
    isplitl [H2]; · iexact H2
    isplitl [H3]; · iexact H3
    unfold Pipeline.Dat.owesAt Pipeline.owesWithin
    icases HO with ⟨%W, %hW, HO⟩; iexists W; isplitr; · ipureintro; exact wbelow_of_bound V c W hW
    iexact HO

theorem R0_pre (c : Dev nD) : (R0 (U := U) V).pre c = pre0 V c := rfl
theorem R0_post (c : Dev nD) : (R0 (U := U) V).post c = post0 V c := rfl

end Cert.Proof.KI.Region

end
-- ==== Proof.KI.RegionEntry.lean ====
/-
  The projection region entered from the main program of the SparseCore launch.

  The main program names the region's label through the launch's extended label table. A proof about a program under the
  pipeline's own table is a proof about the lifted program under the extended one; the call of the region, continued by a
  return, is lifted to the printed call, and the rest of the main program follows it.
-/
import proofs.«207285_g25512105738892_cont_9to1_353_29_alg».proof.Proof.KI.Region
import Idealize.ShloMosaic.Lib.SparseCore.Threads
set_option maxRecDepth 16384

noncomputable section

namespace Cert.Proof.KI.Region

open Cert.KernelIdeal Cert.KernelIdeal.Gen Cert.Proof.KI.Res

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

variable (V : (c : Dev nD) → (b : Ref sig .tc) → Buf (Elt F) ((c : Thread nD τ).loc b))

set_option backward.isDefEq.respectTransparency.types false in
theorem wp_region [∀ e, Nonempty (Elt F e)] (EP : Emb (URounds (GSem nD τ sig) Unit) 𝕄) [EP.LandsIn (upEmb : UEmb _ 𝕄)] (d : Dev nD) {α : Type}
    (k : PUnit → Prog (TpuEff nD τ sig (Elt F) (SparseCore.Sig (ΛP (F := F)) 1) .tc) α) (Q : α → sProp 𝕄) :
    iprop((iprop(boundary (T d) ∗ post0 V d) -∗ wp frame (wpE ((K (F := F)).defs D) 𝒱 (T d) none) Set.univ (k ⟨⟩) Q)
        ∗ boundary (T d) ∗ pre0 V d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (T d) none) Set.univ (.op (.customCall (SparseCore.inner (Pipeline.entry 0)) ()) k) Q := by
  have hwp := (R0 (U := U) V).wp (pcfgs (F := F)) adm (pdats V) none cellOf_inj EP defs₀ 𝒱₀ (K (F := F)).L (K (F := F)).lev d none (fun _ h => nomatch h)
    (fun u => .ret u) (fun x => wp frame (wpE ((K (F := F)).defs D) 𝒱 (T d) none) Set.univ (k x) Q)
  rw [R0_pre, R0_post] at hwp
  have hlift := (K (F := F)).wp_liftProg D 𝒱 (T d) (Set.univ : Set ℕ) none
    (.op (.customCall (Pipeline.entry (0 : Fin 1)) ()) fun u => .ret u) (fun x => wp frame (wpE ((K (F := F)).defs D) 𝒱 (T d) none) Set.univ (k x) Q)
  rw [show (Prog.op (.customCall (SparseCore.inner (Pipeline.entry (0 : Fin 1))) ()) k : Prog (TpuEff nD τ sig (Elt F) (SparseCore.Sig (ΛP (F := F)) 1) .tc) α)
      = (SparseCore.liftProg (Q := 1) (Prog.op (.customCall (Pipeline.entry (0 : Fin 1)) ()) fun u => .ret u) >>= k) from rfl, wp_bind]
  refine BIBase.Entails.trans ?_ hlift
  refine BIBase.Entails.trans ?_ hwp
  iintro ⟨Hk, Hbd, Hpre, Hla, Hg, Ht⟩
  isplitl [Hk]
  · iintro H; rw [wp_ret]; imodintro; iapply Hk; iexact H
  isplitl [Hbd]; · iexact Hbd
  isplitl [Hpre]; · iexact Hpre
  isplitl [Hla]; · iexact Hla
  isplitl [Hg] <;> iassumption

end Cert.Proof.KI.Region

end
-- ==== Proof.KI.Main.lean ====
/-
  The whole program's run. @main on the TensorCore: the bias laid out as a row (a host layout change), the projection of the whole
  table (the TensorCore kernel's region), then the tail — the ids regrouped, the SparseCore call, the result laid out per sentence.
  The run ends with the five arguments as launched and the result buffer at one pure term of them: at (a, l, p), entry p of the
  projected row of the table named by the id at (a, l).
-/
import proofs.«207285_g25512105738892_cont_9to1_353_29_alg».proof.Proof.KI.MainTail
import proofs.«207285_g25512105738892_cont_9to1_353_29_alg».proof.Proof.KI.Ghost
import proofs.«207285_g25512105738892_cont_9to1_353_29_alg».proof.Proof.KI.RegionEntry

noncomputable section

namespace Cert.Proof.KI.Main

open Cert.KernelIdeal Cert.KernelIdeal.Gen Cert.Proof.KI.Res Cert.Proof.KI.Split Cert.Proof.KI.MainTail Cert.Proof.KI.LaunchSC
open Cert.Proof.KI.Ghost Cert.Proof.KI.Region

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev b1Loc (d : Dev nD) : Loc nD τ sig := (SparseCore.T d).loc main_v0

abbrev a4' : DevRef τ sig := Proc.devRef .tc (main_arg4 : Ref sig .tc)
abbrev v0' : DevRef τ sig := Proc.devRef .tc (main_v0 : Ref sig .tc)

/-- The bias laid out as a row. -/
abbrev opB : HloOp τ sig (Elt F) := StableHlo.reshape main_arg4 main_v0 rfl shapeCasts_S128_S1x128

/-- The bias row, the projected table and the result, as pure terms of the launch memory. -/
def B1v (d : Dev nD) : Buf (Elt F) (b1Loc d) := shapeCast S1x128 (m (a4Loc d)) shapeCasts_S128_S1x128
def Pcv (d : Dev nD) : Buf (Elt F) (tLoc d) := projArr (m (a2Loc d)) (m (a3Loc d)) (B1v m d)
def outv (d : Dev nD) : Buf (Elt F) (v4Loc d) :=
  shapeCast S1024x200x128 (outArr (Pcv m d) (Icv m d)) shapeCasts_S32x100x64x128_S1024x200x128

/-- The arrays as the projection finds them: the launch memory after the bias was laid out. -/
def Vr (c : Dev nD) (b : Ref sig .tc) : Buf (Elt F) ((c : Thread nD τ).loc b) := (opB (F := F)).result (V0 m c) (Proc.devRef .tc b)

theorem Vr_a2 (c : Dev nD) : Vr m c main_arg2 = m (a2Loc c) :=
  StableHlo.reshape_result_ne' (x := main_arg4) (y := main_v0) rfl shapeCasts_S128_S1x128 _ _ (V0 m c) (r := main_arg2) (by decide)
theorem Vr_a3 (c : Dev nD) : Vr m c main_arg3 = m (a3Loc c) :=
  StableHlo.reshape_result_ne' (x := main_arg4) (y := main_v0) rfl shapeCasts_S128_S1x128 _ _ (V0 m c) (r := main_arg3) (by decide)
theorem Vr_v1 (c : Dev nD) : Vr m c main_v1 = m (tLoc c) :=
  StableHlo.reshape_result_ne' (x := main_arg4) (y := main_v0) rfl shapeCasts_S128_S1x128 _ _ (V0 m c) (r := main_v1) (by decide)
theorem Vr_a4 (c : Dev nD) : (opB (F := F)).result (V0 m c) a4' = m (a4Loc c) :=
  StableHlo.reshape_result_ne' (x := main_arg4) (y := main_v0) rfl shapeCasts_S128_S1x128 _ _ (V0 m c) (r := main_arg4) (by decide)
theorem Vr_v0 (c : Dev nD) : Vr m c main_v0 = B1v m c :=
  (StableHlo.reshape_result' (x := main_arg4) (y := main_v0) rfl shapeCasts_S128_S1x128 _ _ (V0 m c)).trans rfl

theorem held_b_pre (d : Dev nD) :
    (held (T d) (opB (F := F)).bufs (V0 m d) : sProp 𝕄) = iprop((a4Loc d ↦{fullShare} m (a4Loc d)) ∗ (b1Loc d ↦{fullShare} m (b1Loc d))) := by
  rw [show (opB (F := F)).bufs = {a4', v0'} from rfl, held_two d main_arg4 main_v0 (by decide)]; rfl
theorem held_b_post (d : Dev nD) :
    (held (T d) (opB (F := F)).bufs ((opB (F := F)).result (V0 m d)) : sProp 𝕄) = iprop((a4Loc d ↦{fullShare} m (a4Loc d)) ∗ (b1Loc d ↦{fullShare} B1v m d)) := by
  rw [show (opB (F := F)).bufs = {a4', v0'} from rfl, held_two d main_arg4 main_v0 (by decide), Vr_a4]
  exact congrArg (fun f => iprop((a4Loc d ↦{fullShare} m (a4Loc d)) ∗ (b1Loc d ↦{fullShare} f))) (Vr_v0 m d)

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (a4Loc d ↦{fullShare} W main_arg4) ∗ (b1Loc d ↦{fullShare} W main_v0) ∗ (tLoc d ↦{fullShare} W main_v1)
      ∗ (iLoc d ↦{fullShare} W main_v2) ∗ (oLoc d ↦{fullShare} W main_v3) ∗ (v4Loc d ↦{fullShare} W main_v4)) := by
  unfold unscopedBufs
  rw [show (Finset.univ.filter fun b : Ref sig .tc => ¬ b.isScoped) = {main_arg0, main_arg1, main_arg2, main_arg3, main_arg4, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- @main is the bias' layout change, the projection's region, and the tail. -/
theorem main_eq (d : Dev nD) : main (F := F) d
    = (hlo rfl (StableHlo.reshape main_arg4 main_v0 rfl shapeCasts_S128_S1x128) (fun _ => Prog.ret PUnit.unit) >>= fun _ =>
        (Prog.op (.customCall (SparseCore.inner (Pipeline.entry 0)) ()) fun x => Prog.ret x) >>= fun _ => mainTail (F := F) d) := rfl

/-- What the launch hands @main of the pipeline's ghost state: its staging cells' and their duty tokens. -/
abbrev Gd (d : Dev nD) : sProp 𝕄 :=
  iprop(Pipeline.cellsGhost (Pipeline.pin (pcfgs (F := F)) Cert.Proof.KI.Ghost.adm) (EP (F := F)) 0 d ∗ Pipeline.toksInit (Pipeline.pin (pcfgs (F := F)) Cert.Proof.KI.Ghost.adm) (EP (F := F)) 0 d)

/-- What @main leaves the claim: the five arguments as launched, the result. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d))
    ∗ (a4Loc d ↦{fullShare} m (a4Loc d)) ∗ (v4Loc d ↦{fullShare} outv m d))

/-- What the projection's region is entered with and what it leaves, at the launch memory. -/
theorem pre0_at (d : Dev nD) : (pre0 (F := F) (U := UU) (Vr m) d : sProp 𝕄)
    = iprop((a2Loc d ↦{fullShare} m (a2Loc d)) ∗ (a3Loc d ↦{fullShare} m (a3Loc d)) ∗ (b1Loc d ↦{fullShare} B1v m d) ∗ (tLoc d ↦{fullShare} m (tLoc d)) ∗ owesTc (F := F) d) := by
  unfold pre0; rw [Vr_a2, Vr_a3, Vr_v0, Vr_v1]
theorem post0_at (d : Dev nD) : (post0 (F := F) (U := UU) (Vr m) d : sProp 𝕄)
    = iprop((a2Loc d ↦{fullShare} m (a2Loc d)) ∗ (a3Loc d ↦{fullShare} m (a3Loc d)) ∗ (b1Loc d ↦{fullShare} B1v m d) ∗ (tLoc d ↦{fullShare} Pcv m d) ∗ owesTc (F := F) d) := by
  rw [post0_eq, Vr_a2, Vr_a3, Vr_v0]; rfl

/-- The TensorCore's state before the first call is what it owes and the rest. -/
theorem tcSt_split (d : Dev nD) : ∃ R : sProp 𝕄, (K (F := F)).tcSt (EH (F := F)) d 0 = iprop(owesTc (F := F) d ∗ R) := ⟨_, rfl⟩

set_option maxRecDepth 16384 in
theorem hmain [∀ e, Nonempty (Elt F e)] (κ : GSem nD τ sig → ℕ) (d : Dev nD) :
    iprop((K (F := F)).ctx (EH (F := F)) (P (U := UU) m (Pcv m) (Icv m)) κ ∗ (K (F := F)).tcSt (EH (F := F)) d 0 ∗ (K (F := F)).tcRes m ρ d ∗ Gd (F := F) d)
      ⊢ wp frame (wpE ((K (F := F)).defs (D (F := F))) 𝒱 (SparseCore.T d) none) Set.univ (main d)
          fun _ => iprop((K (F := F)).tcSt (EH (F := F)) d 1 ∗ FIN m d) := by
  obtain ⟨R, hR⟩ := tcSt_split (F := F) d
  unfold SparseCore.Cfg.tcRes
  rw [unscopedBufs_eq, main_eq, hR]
  simp only [wp_bind]
  iintro ⟨#Hctx, ⟨HO, Hrest⟩, ⟨Hb, ⟨Ha0, Ha1, Ha2, Ha3, Ha4, Hv0, Hv1, Hv2, Hv3, Hv4⟩, -, -⟩, ⟨Hcg, Htk⟩⟩
  -- the bias laid out as a row
  iapply (wp_hlo_within 𝒱 (SparseCore.T d) none Set.univ (op := opB) (S := (opB (F := F)).bufs) (Finset.Subset.refl _) (V := V0 m d)) $$ [Hb Ha4 Hv0]
  · isplitl [Hb]; · iexact Hb
    rw [held_b_pre]
    isplitl [Ha4]; · iexact Ha4
    iexact Hv0
  iintro ⟨Hb, Hheld⟩
  rw [wp_ret]; imodintro
  ihave Hh := (Entails.of_eq (held_b_post (F := F) m d)) $$ Hheld
  icases Hh with ⟨Ha4, Hv0⟩
  -- the projection: the region, entered with the table, the weights, the bias row and the result buffer
  ihave Hlev := (SparseCore.Cfg.ctx_levAts (K := K (F := F)) (EH := EH (F := F)) (P := P (U := UU) m (Pcv m) (Icv m)) κ) $$ Hctx
  iapply (wp_region (F := F) (U := UU) (Vr m) (EP (F := F)) d (fun x => Prog.ret x) _) $$ [Hb Ha2 Ha3 Hv0 Hv1 HO Hlev Hcg Htk Hrest Ha0 Ha1 Ha4 Hv2 Hv3 Hv4]
  isplitl [Hrest Ha0 Ha1 Ha4 Hv2 Hv3 Hv4]
  · iintro ⟨Hb, Hpost⟩
    rw [wp_ret]; imodintro
    ihave Hp := (Entails.of_eq (post0_at (F := F) m d)) $$ Hpost
    icases Hp with ⟨Ha2, Ha3, Hv0, Hv1, HO⟩
    ihave Hst := (Entails.of_eq hR.symm) $$ [HO Hrest]
    · isplitl [HO]; · iexact HO
      iexact Hrest
    iapply (wp_mono frame _ _ (fun _ => (?_ : iprop(_ ∗ _ ∗ _ ∗ _ ∗ (iprop((a1Loc d ↦{fullShare} m (a1Loc d)) ∗ (a2Loc d ↦{fullShare} m (a2Loc d)) ∗ (a3Loc d ↦{fullShare} m (a3Loc d)) ∗ (a4Loc d ↦{fullShare} m (a4Loc d))) : sProp 𝕄)) ⊢ _)))
    rotate_left
    · iapply (main_tail (F := F) (U := UU) (EH (F := F)) m (Pcv m) κ d iprop((a1Loc d ↦{fullShare} m (a1Loc d)) ∗ (a2Loc d ↦{fullShare} m (a2Loc d)) ∗ (a3Loc d ↦{fullShare} m (a3Loc d)) ∗ (a4Loc d ↦{fullShare} m (a4Loc d))))
      isplitr; · iexact Hctx
      isplitl [Hst]; · iexact Hst
      isplitl [Hb]; · iexact Hb
      isplitl [Ha0]; · iexact Ha0
      isplitl [Hv1]; · iexact Hv1
      isplitl [Hv2]; · iexact Hv2
      isplitl [Hv3]; · iexact Hv3
      isplitl [Hv4]; · iexact Hv4
      isplitl [Ha1]; · iexact Ha1
      isplitl [Ha2]; · iexact Ha2
      isplitl [Ha3]; · iexact Ha3
      iexact Ha4
    · iintro ⟨Hst, Ha0, -, Hv4, Ha1, Ha2, Ha3, Ha4⟩
      isplitl [Hst]; · iexact Hst
      isplitl [Ha0]; · iexact Ha0
      isplitl [Ha1]; · iexact Ha1
      isplitl [Ha2]; · iexact Ha2
      isplitl [Ha3]; · iexact Ha3
      isplitl [Ha4]; · iexact Ha4
      iexact Hv4
  isplitl [Hb]; · iexact Hb
  isplitl [Ha2 Ha3 Hv0 Hv1 HO]
  · rw [pre0_at]
    isplitl [Ha2]; · iexact Ha2
    isplitl [Ha3]; · iexact Ha3
    isplitl [Hv0]; · iexact Hv0
    isplitl [Hv1]; · iexact Hv1
    iexact HO
  isplitl [Hlev]; · iexact Hlev
  isplitl [Hcg]; · iexact Hcg
  iexact Htk

/-! ## The final assertion reads the claim off the final memory -/

def fq (d : Dev nD) (s' : Phys nD τ sig (Elt F)) : Prop :=
  s'.mem.mem (v4Loc d) = outv m d ∧ s'.mem.mem (a0Loc d) = m (a0Loc d) ∧ s'.mem.mem (a1Loc d) = m (a1Loc d) ∧ s'.mem.mem (a2Loc d) = m (a2Loc d)
    ∧ s'.mem.mem (a3Loc d) = m (a3Loc d) ∧ s'.mem.mem (a4Loc d) = m (a4Loc d)

omit [FloatOps F] in
/-- A buffer held whole at full share holds, in the state, what the points-to says. -/
theorem agree1 (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro ⟨HSI, H⟩
  ihave X := (persistent_entails_right (SI_pointsTo_agree (st := s') (ℓ := ℓ) (I := Finset.univ) (q := fullShare) (f := f))) $$ [HSI H]
  · isplitl [HSI] <;> iassumption
  icases X with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave X := (agree1 (F := F) s' (a0Loc d) _) $$ [HSI H0]; · isplitl [HSI] <;> iassumption
  icases X with ⟨%h0, HSI⟩
  ihave X := (agree1 (F := F) s' (a1Loc d) _) $$ [HSI H1]; · isplitl [HSI] <;> iassumption
  icases X with ⟨%h1, HSI⟩
  ihave X := (agree1 (F := F) s' (a2Loc d) _) $$ [HSI H2]; · isplitl [HSI] <;> iassumption
  icases X with ⟨%h2, HSI⟩
  ihave X := (agree1 (F := F) s' (a3Loc d) _) $$ [HSI H3]; · isplitl [HSI] <;> iassumption
  icases X with ⟨%h3, HSI⟩
  ihave X := (agree1 (F := F) s' (a4Loc d) _) $$ [HSI H4]; · isplitl [HSI] <;> iassumption
  icases X with ⟨%h4, HSI⟩
  ihave X := (agree1 (F := F) s' (v4Loc d) _) $$ [HSI H5]; · isplitl [HSI] <;> iassumption
  icases X with ⟨%h5, -⟩
  ipureintro; exact ⟨h5, h0, h1, h2, h3, h4⟩

/-! ## The launch element -/

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => Gd (F := F) d)
        ∗ bigSep Finset.univ fun thr : Thread nD τ => bigSep Finset.univ fun q : Fin 1 => (P (U := UU) m (Pcv m) (Icv m)).x q thr) := by
  refine (ghost_split (F := F)).trans (fupd_mono ?_)
  iintro ⟨HH, HG⟩
  isplitl [HH]; · iexact HH
  isplitl [HG]; · iexact HG
  rw [show (bigSep Finset.univ fun thr : Thread nD τ => bigSep Finset.univ fun q : Fin 1 => (P (U := UU) (F := F) m (Pcv m) (Icv m)).x q thr) = bigSep Finset.univ fun _ => iprop(emp) from
    bigSep_congr fun _ _ => bigSep_univ_of_subsingleton (0 : Fin 1), bigSep_emp']
  iempintro

/-! ## The run -/

/-- The post of the run: the result at its pure term, the five arguments unchanged. -/
def QC : PUnit × MemSt nD τ sig (Elt F) → Prop := fun r => ∀ c : Dev nD,
  r.2.mem (v4Loc c) = outv m c ∧ r.2.mem (a0Loc c) = m (a0Loc c) ∧ r.2.mem (a1Loc c) = m (a1Loc c) ∧ r.2.mem (a2Loc c) = m (a2Loc c)
    ∧ r.2.mem (a3Loc c) = m (a3Loc c) ∧ r.2.mem (a4Loc c) = m (a4Loc c)

theorem run_main [∀ e, Nonempty (Elt F e)] (hbody : BodyStmt (U := UU) m (Pcv m) (Icv m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH (F := F)) (P := P (U := UU) m (Pcv m) (Icv m)) facts v₀
    (fun q hq => match q with | 0 => nomatch hq)
    (fun q _ => match q with | 0 => tileObl m (Pcv m) (Icv m) hbody)
    (fun q _ => match q with | 0 => SparseCore.Cfg.VecSplit.of_plain (vecSplit m (Pcv m) (Icv m)))
    m ρ main (Gd (F := F)) (FIN m) (u₀ (F := F)) (sep_elim_left.trans (hu₀ m)) (hmain m ρ) (fq m) (hfin m) (QC m) (fun _ h => h)

end Cert.Proof.KI.Main

end
-- ==== Proof.OutValue.lean ====
/-
  The two layout changes around the gather, read at an entry. The kernel regroups the [1024, 200] ids as [32, 100, 64] (worker, chunk,
  lane) and the [32, 100, 64, 128] result as [1024, 200, 128]; both keep the row-major order, so position n = 200 a + l of the ids is
  (n / 6400, n % 6400 / 64, n % 64) and the result at (a, l, p) is the gathered array at (that triple, p): the table's contents at the
  row of the id at (a, l), entry p. True of any contents of the table.
-/
import proofs.«207285_g25512105738892_cont_9to1_353_29_alg».proof.Proof.KI.Res
import Idealize.ShloMosaic.Lib.Pipeline.Value

noncomputable section

namespace Cert.Proof.OutValue

open Cert.KernelIdeal Idealize.ShloMosaic Idealize.ShloMosaic.ValueIdx Cert.Proof.KI.Res

variable {α : Type}

/-- Position n of the flat ids as (worker, chunk, lane). -/
theorem split_flat (n : ℕ) (hn : n < 204800) : (n / 6400 * 100 + n % 6400 / 64) * 64 + n % 64 = n := by omega

theorem out_apply (Pc : S100000x128.Idx → α) (ids : S1024x200.Idx → BitVec 32)
    (h1 : S1024x200.ShapeCasts S32x100x64) (h2 : S32x100x64x128.ShapeCasts S1024x200x128) (a : Fin 1024) (l : Fin 200) (p : Fin 128) :
    shapeCast S1024x200x128 (fun x : S32x100x64x128.Idx => Pc (ix2 (Cert.Proof.Spec.row (shapeCast S32x100x64 ids h1 (ix3 (x 0) (x 1) (x 2)))) (x 3))) h2 (ix3 a l p)
      = Pc (ix2 (Cert.Proof.Spec.row (ids (ix2 a l))) p) := by
  have hn : a.val * 200 + l.val < 204800 := by have := a.isLt; have := l.isLt; omega
  have e := split_flat (a.val * 200 + l.val) hn
  let w : Fin 32 := ⟨(a.val * 200 + l.val) / 6400, by omega⟩
  let j : Fin 100 := ⟨(a.val * 200 + l.val) % 6400 / 64, by omega⟩
  let q : Fin 64 := ⟨(a.val * 200 + l.val) % 64, by omega⟩
  rw [shapeCast_apply _ h2 (ix3 a l p) (ix4 w j q p) (by
    rw [Shape.rowMajor_val_four, Shape.rowMajor_val_three]
    show (((a.val * 200 + l.val) / 6400 * 100 + (a.val * 200 + l.val) % 6400 / 64) * 64 + (a.val * 200 + l.val) % 64) * 128 + p.val
      = (a.val * 200 + l.val) * 128 + p.val
    rw [e])]
  show Pc (ix2 (Cert.Proof.Spec.row (shapeCast S32x100x64 ids h1 (ix3 w j q))) p) = _
  rw [shapeCast_apply _ h1 (ix3 w j q) (ix2 a l) (by
    rw [Shape.rowMajor_val_two, Shape.rowMajor_val_three]
    show a.val * 200 + l.val = ((a.val * 200 + l.val) / 6400 * 100 + (a.val * 200 + l.val) % 6400 / 64) * 64 + (a.val * 200 + l.val) % 64
    rw [e])]

end Cert.Proof.OutValue

end
-- ==== Proof.KernelValue.lean ====
/-
  The kernel's result is the specification, at the ideal instance: once a projected row of the table, read at an entry, is the sum
  of the 128 products plus the bias entry, the result buffer — the gathered rows laid out per sentence — is at (a, l, p) that sum
  for the row the id at (a, l) names. The bias row [1, 128] is the bias [128] laid out again: its entry (0, p) is the bias' entry p.
-/
import proofs.«207285_g25512105738892_cont_9to1_353_29_alg».proof.Proof.OutValue
import Idealize.ShloMosaic.PureOps.Ideal

noncomputable section

namespace Cert.Proof.KernelValue

open Cert.KernelIdeal Idealize.ShloMosaic Idealize.ShloMosaic.ValueIdx Cert.Proof.KI.Res

/-- The bias row's entry (0, p) is the bias' entry p. -/
theorem biasRow_apply {α : Type} (b : S128.Idx → α) (hb : S128.ShapeCasts S1x128) (p : Fin 128) :
    shapeCast S1x128 b hb (ix2 (0 : Fin 1) p) = b (ix1 p) :=
  shapeCast_apply b hb (ix2 (0 : Fin 1) p) (ix1 p) (by
    rw [Shape.rowMajor_val_one, Shape.rowMajor_val_two]
    show p.val = 0 * 128 + p.val
    omega)

theorem out_eq_spec (ids : S1024x200.Idx → BitVec 32) (X : S100000x128.Idx → EReal) (Wt : S128x128.Idx → EReal) (b : S128.Idx → EReal)
    (hb : S128.ShapeCasts S1x128) (h1 : S1024x200.ShapeCasts S32x100x64) (h2 : S32x100x64x128.ShapeCasts S1024x200x128)
    (Pc : S100000x128.Idx → EReal)
    (hP : ∀ (v : Fin 100000) (p : Fin 128), Pc (ix2 v p) = (∑ k : Fin 128, X (ix2 v k) * Wt (ix2 p k)) + shapeCast S1x128 b hb (ix2 (0 : Fin 1) p)) :
    shapeCast S1024x200x128 (outArr (F := Ideal) Pc (shapeCast S32x100x64 ids h1)) h2 = Cert.Proof.Spec.out ids X Wt b := by
  funext i
  obtain ⟨a, l, p, rfl⟩ : ∃ (a : Fin 1024) (l : Fin 200) (p : Fin 128), i = ix3 a l p := ⟨i 0, i 1, i 2, eq_ix3 i⟩
  rw [Cert.Proof.Spec.out_apply]
  refine (Cert.Proof.OutValue.out_apply Pc ids h1 h2 a l p).trans ?_
  rw [hP, biasRow_apply]

end Cert.Proof.KernelValue

end
-- ==== Proof.KernelClaims.lean ====
/-
  The kernel's share of the certificate's claims, in the claims' own spelling, and the value claim assembled from both halves.

  The whole program's run ends with the result buffer at one pure term of the arguments — the gathered rows of the projected table,
  laid out per sentence — and the arguments unchanged. Where a projected row, read at an entry, is the sum of the 128 products plus
  the bias entry, that term is the shared function of the arguments; the reference ends at the same function of its own arguments,
  which agree with the kernel's. The two facts taken as hypotheses here are stated as propositions of their own: one worker's task
  of the SparseCore kernel (for ids that are rows of the table), and a projected row read at an entry.
-/
import proofs.«207285_g25512105738892_cont_9to1_353_29_alg».proof.Defs
import proofs.«207285_g25512105738892_cont_9to1_353_29_alg».proof.Proof.KI.Main
import proofs.«207285_g25512105738892_cont_9to1_353_29_alg».proof.Proof.KernelValue
import proofs.«207285_g25512105738892_cont_9to1_353_29_alg».proof.Proof.PreIds
import proofs.«207285_g25512105738892_cont_9to1_353_29_alg».proof.Proof.RefClaims

noncomputable section

namespace Cert.Proof.KernelClaims

open Cert.KernelIdeal Cert.KernelIdeal.Gen Idealize.ShloMosaic Idealize.ShloMosaic.TcCoe Idealize.ShloMosaic.ValueIdx Idealize.SL.Sem
open Cert.Proof.KI.Res Cert.Proof.KI.MainTail Cert.Proof.KI.LaunchSC Cert.Proof.KI.Region Cert.Proof.KI.Main

/-- One worker's task, for any contents of the table and any regrouped ids that are rows of the table: what the proof of the
    SparseCore kernel's body provides. -/
abbrev TileStmt : Prop :=
  ∀ (m : (ℓ : Loc nD τ sig) → Buf (Elt Ideal) ℓ) (Pc : (d : Dev nD) → Buf (Elt Ideal) (tLoc d)) (Ic : (d : Dev nD) → Buf (Elt Ideal) (iLoc d)),
    (∀ d j, (Ic d j).toNat < 100000) → BodyStmt (U := Cert.Proof.KI.Ghost.UU) m Pc Ic

/-- A projected row of the table read at an entry: what the value proof of the TensorCore kernel provides. -/
abbrev ProjStmt : Prop :=
  ∀ (X : S100000x128.Idx → EReal) (Wt : S128x128.Idx → EReal) (B1 : S1x128.Idx → EReal) (v : Fin 100000) (p : Fin 128),
    projArr (F := Ideal) X Wt B1 (ix2 v p) = (∑ k : Fin 128, X (ix2 v k) * Wt (ix2 p k)) + B1 (ix2 (0 : Fin 1) p)

/-- Every entry of the regrouped ids is an entry of the ids. -/
theorem hIc_of_ids {F : FTy → Type} [FloatOps F] (m : (ℓ : Loc nD τ sig) → Buf (Elt F) ℓ) (d : Dev nD)
    (h : ∀ j, (m (a0Loc d) j).toNat < 100000) : ∀ j, (Icv m d j).toNat < 100000 :=
  fun j => h (Shape.reshapeEquiv shapeCasts_S1024x200_S32x100x64 j)

/-- Under the precondition the regrouped ids are rows of the table. -/
theorem hIc_of_pre (m : (ℓ : Loc nD τ sig) → Buf (Elt Ideal) ℓ)
    (hpre : Cert.Pre_KernelIdeal (hPre_input_domain := Cert.Pre_input_domain.Gen.facts) m) :
    ∀ d j, (Icv m d j).toNat < 100000 :=
  fun d => hIc_of_ids m d (Cert.Proof.PreIds.ids_lt (F := Ideal) _ _ _ _ _ (hpre d))

/-- The kernel runs and its arguments end unchanged. -/
theorem frame_ki (hTile : TileStmt) :
    Cert.frame_KernelIdeal (hKernelIdeal := Cert.KernelIdeal.Gen.facts) (hPre_input_domain := Cert.Pre_input_domain.Gen.facts) :=
  fun m g hpre => (θ_run _ _ _).mono (fun _ h c => (h c).2)
    (run_main (F := Ideal) m g (hTile m (Pcv m) (Icv m) (hIc_of_pre m hpre)))

/-- The kernel's result term is the shared function of its arguments. -/
theorem outv_eq (hProj : ProjStmt) (m : (ℓ : Loc nD τ sig) → Buf (Elt Ideal) ℓ) (c : Dev nD) :
    outv m c = Cert.Proof.Spec.out (m (a0Loc c)) (m (a2Loc c)) (m (a3Loc c)) (m (a4Loc c)) :=
  Cert.Proof.KernelValue.out_eq_spec (m (a0Loc c)) (m (a2Loc c)) (m (a3Loc c)) (m (a4Loc c)) shapeCasts_S128_S1x128
    shapeCasts_S1024x200_S32x100x64 shapeCasts_S32x100x64x128_S1024x200x128 _ (fun v p => hProj _ _ _ v p)

/-- The kernel's half of the value claim: under the precondition the kernel ends with its result the shared function of its
    arguments and its arguments unchanged. -/
theorem kernel_half (hTile : TileStmt) (hProj : ProjStmt)
    (m : (ℓ : Loc Cert.KernelIdeal.nD Cert.KernelIdeal.τ Cert.KernelIdeal.sig) → Buf (Elt Ideal) ℓ) (g : Dev Cert.KernelIdeal.nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = Cert.Proof.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun _ h c => ⟨(h c).1.trans (outv_eq hProj m c), (h c).2⟩)
    (run_main (F := Ideal) m g (hTile m (Pcv m) (Icv m) (hIc_of_pre m hpre)))

/-- The value claim: from memories agreeing on the arguments, under the precondition, both programs end with the shared
    function of the arguments as their result and their arguments unchanged. -/
theorem algebraic (hTile : TileStmt) (hProj : ProjStmt) :
    Cert.algebraic_KernelIdeal_ReferenceIdeal (hKernelIdeal := Cert.KernelIdeal.Gen.facts) (hReferenceIdeal := Cert.ReferenceIdeal.Gen.facts)
      (hPre_input_domain := Cert.Pre_input_domain.Gen.facts) :=
  fun m g m' g' hpre hagree =>
    ⟨fun c => Cert.Proof.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
      kernel_half hTile hProj m g hpre,
      (θ_run _ _ _).mono (fun _ h c => ⟨(h c).1.trans (by rw [(hagree c).1, (hagree c).2.2.1, (hagree c).2.2.2.1, (hagree c).2.2.2.2]), (h c).2⟩)
        (Cert.Proof.RefClaims.ref_half m' g' fun c =>
          Eq.mpr (congrArg Cert.Proof.Ref.IdsOK (hagree c).1) (Cert.Proof.PreIds.ids_lt (F := Ideal) _ _ _ _ _ (hpre c)))⟩

end Cert.Proof.KernelClaims

end
-- ==== Proof.KB.Res.lean ====
/-
  What the SparseCore call's handshakes carry, and the pieces each vector subcore works on.

  The call gathers rows of the projected table (the array `main_v1`, 100000 rows of 128) by the word ids (the array `main_v2`,
  32 x 100 x 64: worker, chunk, lane) into the result (the array `main_v3`, 32 x 100 x 64 x 128). Worker `w = 2 s + c` is vector
  subcore `s` of SparseCore `c`. It needs: row `w` of the ids; a read share of the whole table (every worker reads all of it,
  at once: the full share cut into one read token per worker); and block `w` of the result, which it hands back holding, at
  (w, j, l, p), entry p of the table's row named by the id at (w, j, l) — the whole-array function `outArr`.

  Everything here is stated for ANY contents `Pc` of the table and `Ic` of the ids: pure data movement does not look at them.
-/
import proofs.«207285_g25512105738892_cont_9to1_353_29_alg».proof.Proof.Gen.Kernel
import proofs.«207285_g25512105738892_cont_9to1_353_29_alg».proof.Proof.Spec
import Idealize.ShloMosaic.Lib.SparseCore.Launch
import Idealize.ShloMosaic.Lib.Transfers

noncomputable section

namespace Cert.Proof.KB.Res

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

variable {U : Type} [URA U]

local notation "𝕄" => MT nD τ sig (HIx 1) (Elt F) ℕ U ℕ

/-! ## The three arrays, and the workers -/

abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

/-- Worker `2 s + c`. -/
def wid (c : Fin 2) (s : Fin 16) : Fin 32 := ⟨2 * s.val + c.val, by omega⟩

theorem idiv : 32 ∣ S32x100x64.size 0 := ⟨1, rfl⟩
theorem odiv : 32 ∣ S32x100x64x128.size 0 := ⟨1, rfl⟩
/-- Row `w` of the ids, block `w` of the result: the parts along the worker axis. -/
abbrev irow (w : Fin 32) : Rect S32x100x64 := Rect.part (s := S32x100x64) (a₀ := 0) idiv w
abbrev orow (w : Fin 32) : Rect S32x100x64x128 := Rect.part (s := S32x100x64x128) (a₀ := 0) odiv w
abbrev iRowSet (w : Fin 32) : Finset S32x100x64.Idx := ((Memref.whole main_v2_scv : Memref sig .scVector .hbm S32x100x64 .i32).view.slice (irow w)).set
abbrev oRowSet (w : Fin 32) : Finset S32x100x64x128.Idx := ((Memref.whole main_v3_scv : Memref sig .scVector .hbm S32x100x64x128 .f32).view.slice (orow w)).set

/-- Worker `w`'s read token of the table: the full share cut into 32 tokens (and a remainder nobody uses). -/
abbrev tq (w : Fin 32) : PosShare TreeShare := shareTok fullShare 32 w

/-- The result as one whole-array function of the table's and the ids' contents. -/
def outArr (Pc : S100000x128.Idx → Elt F .f32) (Ic : S32x100x64.Idx → BitVec 32) : S32x100x64x128.Idx → Elt F .f32 :=
  fun x => Pc (ix2 (Cert.Proof.Spec.row (Ic (ix3 (x 0) (x 1) (x 2)))) (x 3))

/-! ## What the handshakes carry -/

variable (m : (ℓ : Loc nD τ sig) → Buf (Elt F) ℓ)
variable (Pc : (d : Dev nD) → Buf (Elt F) (tLoc d)) (Ic : (d : Dev nD) → Buf (Elt F) (iLoc d))

abbrev iRowPts (d : Dev nD) (w : Fin 32) : sProp 𝕄 := iLoc d ↦[iRowSet w]{fullShare} Ic d
abbrev tShPts (d : Dev nD) (w : Fin 32) : sProp 𝕄 := tLoc d ↦{tq w} Pc d
abbrev oRowPts (d : Dev nD) (w : Fin 32) (f : Buf (Elt F) (oLoc d)) : sProp 𝕄 := oLoc d ↦[oRowSet w]{fullShare} f

/-- What worker `w` is handed: its row of the ids, its token of the table, its block of the result as launched. -/
abbrev tileGo (d : Dev nD) (w : Fin 32) : sProp 𝕄 := iprop(iRowPts Ic d w ∗ tShPts Pc d w ∗ oRowPts d w (m (oLoc d)))
/-- What it hands back: the same, its block of the result at the gathered rows. -/
abbrev tileTd (d : Dev nD) (w : Fin 32) : sProp 𝕄 := iprop(iRowPts Ic d w ∗ tShPts Pc d w ∗ oRowPts d w (outArr (Pc d) (Ic d)))

/-! ## A vector subcore's coordinates -/

theorem bound_zero : grid1.bound 0 = 2 := rfl
theorem bound_one : grid1.bound 1 = 16 := rfl
/-- The SparseCore and the vector subcore a grid point of the kernel names, and its worker number. -/
abbrev cV (L : grid1.Coords) : Fin τ.nSC := (L 0).castLE hcore1
abbrev jV (L : grid1.Coords) : Fin τ.nSub := (L 1).castLE hsub1
abbrev widL (L : grid1.Coords) : Fin 32 := wid (Fin.cast bound_zero (L 0)) (Fin.cast bound_one (L 1))
/-- The grid point of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))
theorem widL_val (L : grid1.Coords) : (widL L).val = 2 * (L 1).val + (L 0).val := rfl

/-- A SparseCore is handed its sixteen workers' pieces and hands them back. -/
def P : (K (F := F)).Pay (nD := nD) (Val := Elt F) (Name := ℕ) (U := U) where
  st := fun q d c => match q with | 0 => bigSep Finset.univ fun s : Fin 16 => tileGo m Pc Ic d (wid (Fin.cast nCore_zero c) s)
  dn := fun q d c => match q with | 0 => bigSep Finset.univ fun s : Fin 16 => tileTd Pc Ic d (wid (Fin.cast nCore_zero c) s)
  go := fun q d c s => match q with | 0 => tileGo m Pc Ic d (wid (Fin.cast nCore_zero c) (Fin.cast nSub_zero s))
  td := fun q d c s => match q with | 0 => tileTd Pc Ic d (wid (Fin.cast nCore_zero c) (Fin.cast nSub_zero s))
  x := fun _ _ => iprop(emp)

end Cert.Proof.KB.Res

end
-- ==== Proof.KB.Split.lean ====
/-
  The three arrays of the SparseCore call as the 32 workers' pieces: the ids and the result are the disjoint union of their
  32 rows along the worker axis; the table's full share is 32 read tokens and a remainder; and the two SparseCores' sixteen
  workers each are the 32 workers, worker 2 s + c being subcore s of SparseCore c.
-/
import proofs.«207285_g25512105738892_cont_9to1_353_29_alg».proof.Proof.KB.Res

noncomputable section

namespace Cert.Proof.KB.Split

open Cert.Kernel Cert.Kernel.Gen Cert.Proof.KB.Res

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} {U : Type} [URA U]

local notation "𝕄" => MT nD τ sig (HIx 1) (Elt F) ℕ U ℕ

/-! ## Workers and (SparseCore, subcore) pairs -/

/-- Worker 2 s + c is subcore s of SparseCore c. -/
def widEquiv : Fin 2 × Fin 16 ≃ Fin 32 where
  toFun x := wid x.1 x.2
  invFun w := (⟨w.val % 2, Nat.mod_lt _ (by decide)⟩, ⟨w.val / 2, by have := w.isLt; omega⟩)
  left_inv x := by
    obtain ⟨c, s⟩ := x
    have hc := c.isLt; have hs := s.isLt
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

theorem bigSep_workers (Φ : Fin 32 → sProp 𝕄) :
    (bigSep Finset.univ fun c : Fin 2 => bigSep Finset.univ fun s : Fin 16 => Φ (wid c s)) = bigSep Finset.univ Φ := by
  rw [bigSep_univ_equiv widEquiv Φ, bigSep_univ_prod (fun x : Fin 2 × Fin 16 => Φ (widEquiv x))]
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## Rows of the ids and of the result -/

theorem iRowSet_eq (w : Fin 32) : iRowSet w = (irow w).set := by
  show ((View.whole (main_v2_scv : Ref sig .scVector)).slice (irow w)).set = _
  rw [View.set_slice]; exact Finset.map_refl
theorem oRowSet_eq (w : Fin 32) : oRowSet w = (orow w).set := by
  show ((View.whole (main_v3_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-! ## The three arrays are the workers' pieces and the table's remainder -/

variable (m : (ℓ : Loc nD τ sig) → Buf (Elt F) ℓ)
variable (Pc : (d : Dev nD) → Buf (Elt F) (tLoc d)) (Ic : (d : Dev nD) → Buf (Elt F) (iLoc d))

/-- A worker's pieces with its block of the result at `f`. -/
abbrev pieces (d : Dev nD) (f : Buf (Elt F) (oLoc d)) (w : Fin 32) : sProp 𝕄 := iprop(iRowPts (U := U) Ic d w ∗ tShPts (U := U) Pc d w ∗ oRowPts (U := U) d w f)

theorem arrays_pieces (d : Dev nD) (f : Buf (Elt F) (oLoc d)) :
    (iprop((tLoc d ↦{fullShare} Pc d) ∗ (iLoc d ↦{fullShare} Ic d) ∗ (oLoc d ↦{fullShare} f)) : sProp 𝕄)
      ⊣⊢ iprop((tLoc d ↦{shareDrop fullShare 32} Pc d) ∗ bigSep Finset.univ (pieces (U := U) Pc Ic d f)) := by
  unfold pieces iRowPts tShPts oRowPts
  rw [bigSep_sep', bigSep_sep', iPts_rows, oPts_rows]
  have ht := pointsTo_toks (nD := nD) (τ := τ) (sig := sig) (Ix := HIx 1) (Val := Elt F) (Name := ℕ) (U := U) (Lvl := ℕ)
    (ℓ := tLoc d) (S := Finset.univ) (f := Pc d) fullShare 32
  constructor
  · iintro ⟨Ht, Hi, Ho⟩
    ihave Ht' := ht.1 $$ Ht
    icases Ht' with ⟨Hd, Hts⟩
    isplitl [Hd]; · iexact Hd
    isplitl [Hi]; · iexact Hi
    isplitl [Hts]; · iexact Hts
    iexact Ho
  · iintro ⟨Hd, Hi, Hts, Ho⟩
    isplitl [Hd Hts]
    · iapply ht.2; isplitl [Hd]; · iexact Hd
      iexact Hts
    isplitl [Hi]; · iexact Hi
    iexact Ho

/-- What the call takes for the two SparseCores is the 32 workers' pieces as launched, -/
theorem st_eq (d : Dev nD) :
    (bigSep Finset.univ fun c : Fin ((K (F := F)).nCore 0) => (P (U := U) m Pc Ic).st 0 d c) = bigSep Finset.univ (pieces (U := U) Pc Ic d (m (oLoc d))) := by
  rw [← bigSep_workers (pieces (U := U) Pc Ic d (m (oLoc d)))]
  exact bigSep_cores (F := F) (fun c => bigSep Finset.univ fun s : Fin 16 => pieces (U := U) Pc Ic d (m (oLoc d)) (wid c s))
/-- and what it hands back is the 32 workers' pieces with the result gathered. -/
theorem dn_eq (d : Dev nD) :
    (bigSep Finset.univ fun c : Fin ((K (F := F)).nCore 0) => (P (U := U) m Pc Ic).dn 0 d c) = bigSep Finset.univ (pieces (U := U) Pc Ic d (outArr (Pc d) (Ic d))) := by
  rw [← bigSep_workers (pieces (U := U) Pc Ic d (outArr (Pc d) (Ic d)))]
  exact bigSep_cores (F := F) (fun c => bigSep Finset.univ fun s : Fin 16 => pieces (U := U) Pc Ic d (outArr (Pc d) (Ic d)) (wid c s))

end Cert.Proof.KB.Split

end
-- ==== Proof.KB.LaunchSC.lean ====
/-
  The SparseCore call's obligations to the launch theorem: the side conditions of the configuration, one vector subcore's task
  (the kernel's body lifted through the body tables), and how a SparseCore's operands are its sixteen workers' pieces.
-/
import proofs.«207285_g25512105738892_cont_9to1_353_29_alg».proof.Proof.KB.Res
import Idealize.ShloMosaic.Lib.Pipeline.Kit
import Idealize.ShloMosaic.Lib.Tactic

noncomputable section

namespace Cert.Proof.KB.LaunchSC

open Cert.Kernel Cert.Kernel.Gen Cert.Proof.KB.Res

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U]

local notation "𝕄" => MT nD τ sig (HIx 1) (Elt F) ℕ U ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]
variable (m : (ℓ : Loc nD τ sig) → Buf (Elt F) ℓ)
variable (Pc : (d : Dev nD) → Buf (Elt F) (tLoc d)) (Ic : (d : Dev nD) → Buf (Elt F) (iLoc d))

instance P_storable : (P (F := F) (U := U) m Pc Ic).IsStorable where
  st q d c := match q with
    | 0 => (inferInstance : BI.Storable (upEmb : UEmb _ 𝕄) (bigSep Finset.univ fun s : Fin 16 => tileGo (U := U) m Pc Ic d (wid (Fin.cast nCore_zero c) s)))
  dn q d c := match q with
    | 0 => (inferInstance : BI.Storable (upEmb : UEmb _ 𝕄) (bigSep Finset.univ fun s : Fin 16 => tileTd (U := U) Pc Ic d (wid (Fin.cast nCore_zero c) s)))
  go q d c s := match q with
    | 0 => (inferInstance : BI.Storable (upEmb : UEmb _ 𝕄) (tileGo (U := U) m Pc Ic d (wid (Fin.cast nCore_zero c) (Fin.cast nSub_zero s))))
  td q d c s := match q with
    | 0 => (inferInstance : BI.Storable (upEmb : UEmb _ 𝕄) (tileTd (U := U) Pc Ic d (wid (Fin.cast nCore_zero c) (Fin.cast nSub_zero s))))

/-- The kernel on the grid point `L`, on the whole arrays and the subcore's scratch, as the body table calls it. -/
abbrev kernelAt (L : grid1.Coords) : Prog (TpuEff nD τ sig (Elt F) Λ₀ (.scVector ((L 0).castLE hcore1) ((L 1).castLE hsub1))) PUnit :=
  cc1_gather_kernel L (Memref.whole main_v1_scv) (Memref.isWhole_whole _) (Memref.whole main_v2_scv) (Memref.isWhole_whole _) (Memref.whole main_v3_scv) (Memref.isWhole_whole _)
    (Memref.whole cc1_scratch0) (Memref.isWhole_whole _) (Memref.whole cc1_scratch1) (Memref.isWhole_whole _)
    cc1_scratch2 cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scratch19 cc1_scratch20 cc1_scratch21 cc1_scoped0

/-- One worker's task: from its pieces and its subcore's scoped storage to its pieces back, its block of the result at the
    gathered rows, whatever the subcore owes and has recorded. -/
def BodyStmt : Prop :=
  ∀ (d : Dev nD) (L : grid1.Coords) (O : CellTallies nD τ sig (HIx 1)) (W : Waits sig (HIx 1)), (∀ g, O g none = 0) →
    iprop(levAts (K (F := F)).L (K (F := F)).lev ∗ emp ∗ tileGo (U := U) m Pc Ic d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kernelAt (F := F) L)
          fun _ => iprop(tileTd (U := U) Pc Ic d (widL L) ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 1 () = SparseCore.onTile hcore1 hsub1 (fun c s => kernelAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : BodyStmt (U := U) m Pc Ic) : (K (F := F)).TileObl (D (F := F)) 𝒱 (P (U := U) m Pc Ic) v₀ 0 := by
  intro d c i O W hO _ _
  simp only [show (P (U := U) m Pc Ic).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P (U := U) m Pc Ic) 0 := by
  intro d c
  show (bigSep Finset.univ fun s : Fin 16 => tileGo (U := U) m Pc Ic d (wid (Fin.cast nCore_zero c) s)) ⊢ |={Set.univ}=> iprop(
      (bigSep Finset.univ fun i : Fin ((K (F := F)).nSub 0) => tileGo (U := U) m Pc Ic d (wid (Fin.cast nCore_zero c) (Fin.cast nSub_zero i)))
      ∗ ((bigSep Finset.univ fun i : Fin ((K (F := F)).nSub 0) => tileTd (U := U) Pc Ic d (wid (Fin.cast nCore_zero c) (Fin.cast nSub_zero i)))
          -∗ (bigSep Finset.univ fun s : Fin 16 => tileTd (U := U) Pc Ic d (wid (Fin.cast nCore_zero c) s))))
  rw [bigSep_tasks (F := F) (fun s => tileGo (U := U) m Pc Ic d (wid (Fin.cast nCore_zero c) s)),
    bigSep_tasks (F := F) (fun s => tileTd (U := U) Pc Ic d (wid (Fin.cast nCore_zero c) s))]
  iintro H; imodintro
  isplitl [H]; · iexact H
  iintro H; iexact H

end Cert.Proof.KB.LaunchSC

end
-- ==== Proof.KB.MainTail.lean ====
/-
  @main on the TensorCore after the projection: the ids regrouped per worker (a host layout change), the SparseCore call (the
  table, the regrouped ids and the result handed to the 32 workers piece by piece and taken back with the result gathered), and
  the result laid out as [1024, 200, 128]. The table is at ANY contents `Pc`; the ids' regrouping is `Icv`; what the last
  buffer holds in the end is `outFin`, a pure term of the table's contents and the ids.
-/
import proofs.«207285_g25512105738892_cont_9to1_353_29_alg».proof.Proof.KB.Split
import proofs.«207285_g25512105738892_cont_9to1_353_29_alg».proof.Proof.KB.LaunchSC
import Idealize.ShloMosaic.Lib.StableHlo.Run

noncomputable section

namespace Cert.Proof.KB.MainTail

open Cert.Kernel Cert.Kernel.Gen Cert.Proof.KB.Res Cert.Proof.KB.Split

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Transfers (shareTok shareDrop)

variable {F : FTy → Type} [FloatOps F] {U : Type} [URA U]

local notation "𝕄" => MT nD τ sig (HIx 1) (Elt F) ℕ U ℕ

variable (EH : Emb (URounds (GSem nD τ sig) ℕ) (MT nD τ sig (HIx 1) (Elt F) ℕ U ℕ))
variable (m : (ℓ : Loc nD τ sig) → Buf (Elt F) ℓ)

abbrev a0Loc (d : Dev nD) : Loc nD τ sig := (SparseCore.T d).loc main_arg0
abbrev v4Loc (d : Dev nD) : Loc nD τ sig := (SparseCore.T d).loc main_v4

abbrev a0' : DevRef τ sig := Proc.devRef .tc (main_arg0 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The ids regrouped per worker, and the result laid out per sentence. -/
abbrev opIds : HloOp τ sig (Elt F) := StableHlo.reshape main_arg0 main_v2 rfl shapeCasts_S1024x200_S32x100x64
abbrev opOut : HloOp τ sig (Elt F) := StableHlo.reshape main_v3 main_v4 rfl shapeCasts_S32x100x64x128_S1024x200x128

/-- The regrouped ids, as a pure term of the launch memory. -/
def Icv (d : Dev nD) : Buf (Elt F) (iLoc d) := shapeCast S32x100x64 (m (a0Loc d)) shapeCasts_S1024x200_S32x100x64
/-- What the result buffer holds in the end. -/
def outFin (Pc : Buf (Elt F) (tLoc (0 : Dev nD))) (ids : S1024x200.Idx → BitVec 32) : S1024x200x128.Idx → Elt F .f32 :=
  shapeCast S1024x200x128 (outArr Pc (shapeCast S32x100x64 ids shapeCasts_S1024x200_S32x100x64)) shapeCasts_S32x100x64x128_S1024x200x128

/-- The rest of @main after the projection. -/
def mainTail (d : Dev nD) : Prog (TpuEff nD τ sig (Elt F) (SparseCore.Sig (ΛP (F := F)) 1) .tc) PUnit := do
  hlo rfl (StableHlo.reshape main_arg0 main_v2 rfl shapeCasts_S1024x200_S32x100x64) (fun _ => .ret ⟨⟩)
  sc.run d 0
  hlo rfl (StableHlo.reshape main_v3 main_v4 rfl shapeCasts_S32x100x64x128_S1024x200x128) (fun _ => .ret ⟨⟩)
  pure ⟨⟩

omit [FloatOps F] in
theorem held_two (d : Dev nD) (x y : Ref sig .tc) (hne : (Proc.devRef .tc x : DevRef τ sig) ≠ Proc.devRef .tc y) (W : Valuation τ sig (Elt F)) :
    (held (T d) {(Proc.devRef .tc x : DevRef τ sig), Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (by simpa using hne), bigSep_singleton]

/-- The launch valuation, and the one before the last layout change: the gathered result in `main_v3`. -/
def V0 (d : Dev nD) : Valuation τ sig (Elt F) := fun b => m (d, b)
def V3 (d : Dev nD) (f : Buf (Elt F) (oLoc d)) : Valuation τ sig (Elt F) := Function.update (V0 m d) v3' f

theorem V3_v3 (d : Dev nD) (f : Buf (Elt F) (oLoc d)) : V3 m d f v3' = f := Function.update_self _ _ _
theorem V3_v4 (d : Dev nD) (f : Buf (Elt F) (oLoc d)) : V3 m d f v4' = m (v4Loc d) := Function.update_of_ne (show v4' ≠ v3' by decide) _ _

theorem ids_result (d : Dev nD) : (opIds (F := F)).result (V0 m d) v2' = Icv m d :=
  (StableHlo.reshape_result' (x := main_arg0) (y := main_v2) rfl shapeCasts_S1024x200_S32x100x64 _ _ (V0 m d)).trans rfl
theorem ids_result_ne (d : Dev nD) : (opIds (F := F)).result (V0 m d) a0' = m (a0Loc d) :=
  StableHlo.reshape_result_ne' (x := main_arg0) (y := main_v2) rfl shapeCasts_S1024x200_S32x100x64 _ _ (V0 m d) (r := main_arg0) (by decide)
theorem out_result (d : Dev nD) (f : Buf (Elt F) (oLoc d)) :
    (opOut (F := F)).result (V3 m d f) v4' = shapeCast S1024x200x128 f shapeCasts_S32x100x64x128_S1024x200x128 :=
  (StableHlo.reshape_result' (x := main_v3) (y := main_v4) rfl shapeCasts_S32x100x64x128_S1024x200x128 _ _ (V3 m d f)).trans
    (by rw [V3_v3]; rfl)

/-- The two buffers of each layout change, before it and after it. -/
theorem held_ids_pre (d : Dev nD) :
    (held (T d) (opIds (F := F)).bufs (V0 m d) : sProp 𝕄) = iprop((a0Loc d ↦{fullShare} m (a0Loc d)) ∗ (iLoc d ↦{fullShare} m (iLoc d))) := by
  rw [show (opIds (F := F)).bufs = {a0', v2'} from rfl, held_two d main_arg0 main_v2 (by decide)]; rfl
theorem held_ids_post (d : Dev nD) :
    (held (T d) (opIds (F := F)).bufs ((opIds (F := F)).result (V0 m d)) : sProp 𝕄) = iprop((a0Loc d ↦{fullShare} m (a0Loc d)) ∗ (iLoc d ↦{fullShare} Icv m d)) := by
  rw [show (opIds (F := F)).bufs = {a0', v2'} from rfl, held_two d main_arg0 main_v2 (by decide), ids_result, ids_result_ne]
theorem held_out_pre (d : Dev nD) (f : Buf (Elt F) (oLoc d)) :
    (held (T d) (opOut (F := F)).bufs (V3 m d f) : sProp 𝕄) = iprop((oLoc d ↦{fullShare} f) ∗ (v4Loc d ↦{fullShare} m (v4Loc d))) := by
  rw [show (opOut (F := F)).bufs = {v3', v4'} from rfl, held_two d main_v3 main_v4 (by decide), V3_v3, V3_v4]
theorem held_out_post (d : Dev nD) (f : Buf (Elt F) (oLoc d)) :
    (held (T d) (opOut (F := F)).bufs ((opOut (F := F)).result (V3 m d f)) : sProp 𝕄)
      = iprop((oLoc d ↦{fullShare} (opOut (F := F)).result (V3 m d f) v3') ∗ (v4Loc d ↦{fullShare} shapeCast S1024x200x128 f shapeCasts_S32x100x64x128_S1024x200x128)) := by
  rw [show (opOut (F := F)).bufs = {v3', v4'} from rfl, held_two d main_v3 main_v4 (by decide), out_result]

variable (Pc : (d : Dev nD) → Buf (Elt F) (tLoc d))

/-- @main's tail on device `d`: from the ids, the table at `Pc d`, and the three later buffers as launched, to the ids
    unchanged and the last buffer at the gathered rows. -/
theorem main_tail (κ : GSem nD τ sig → ℕ) (d : Dev nD) (R : sProp 𝕄) :
    iprop((K (F := F)).ctx EH (P (U := U) m Pc (Icv m)) κ ∗ (K (F := F)).tcSt EH d 0 ∗ boundary (SparseCore.T d : Thread nD τ)
        ∗ (a0Loc d ↦{fullShare} m (a0Loc d)) ∗ (tLoc d ↦{fullShare} Pc d) ∗ (iLoc d ↦{fullShare} m (iLoc d))
        ∗ (oLoc d ↦{fullShare} m (oLoc d)) ∗ (v4Loc d ↦{fullShare} m (v4Loc d)) ∗ R)
      ⊢ wp frame (wpE ((K (F := F)).defs (D (F := F))) 𝒱 (SparseCore.T d) none) Set.univ (mainTail (F := F) d)
          fun _ => iprop((K (F := F)).tcSt EH d 1 ∗ (a0Loc d ↦{fullShare} m (a0Loc d)) ∗ (tLoc d ↦{fullShare} Pc d)
            ∗ (v4Loc d ↦{fullShare} shapeCast S1024x200x128 (outArr (Pc d) (Icv m d)) shapeCasts_S32x100x64x128_S1024x200x128) ∗ R) := by
  simp only [mainTail, wp_bind, wp_pure]
  iintro ⟨#Hctx, Hst, Hb, Ha0, Ht, Hi, Ho, Hv4, HR⟩
  -- the ids regrouped
  iapply (wp_hlo_within 𝒱 (SparseCore.T d) none Set.univ (op := opIds) (S := (opIds (F := F)).bufs) (Finset.Subset.refl _) (V := V0 m d)) $$ [Hb Ha0 Hi]
  · isplitl [Hb]; · iexact Hb
    rw [held_ids_pre]
    isplitl [Ha0]; · iexact Ha0
    iexact Hi
  iintro ⟨Hb, Hheld⟩
  rw [wp_ret]; imodintro
  ihave Hh := (Entails.of_eq (held_ids_post (F := F) (U := U) m d)) $$ Hheld
  icases Hh with ⟨Ha0, Hi⟩
  -- the call: the three arrays to the 32 workers and back
  ihave Hall := (arrays_pieces (U := U) Pc (Icv m) d (m (oLoc d))).1 $$ [Ht Hi Ho]
  · isplitl [Ht]; · iexact Ht
    isplitl [Hi]; · iexact Hi
    iexact Ho
  icases Hall with ⟨Hrem, Hps⟩
  iapply ((K (F := F)).wp_run (D (F := F)) 𝒱 (EH := EH) (P := P (U := U) m Pc (Icv m)) κ d 0) $$ [Hst Hps Hb Ha0 Hrem Hv4 HR]
  isplitr; · iexact Hctx
  isplitl [Hst]; · iexact Hst
  isplitl [Hps]
  · rw [st_eq]; iexact Hps
  iintro ⟨Hst, Hdn⟩
  ihave Hdn' := (Entails.of_eq (dn_eq (U := U) m Pc (Icv m) d)) $$ Hdn
  ihave Hall := (arrays_pieces (U := U) Pc (Icv m) d (outArr (Pc d) (Icv m d))).2 $$ [Hrem Hdn']
  · isplitl [Hrem]; · iexact Hrem
    iexact Hdn'
  icases Hall with ⟨Ht, Hi, Ho⟩
  -- the result laid out per sentence
  iapply (wp_hlo_within 𝒱 (SparseCore.T d) none Set.univ (op := opOut) (S := (opOut (F := F)).bufs) (Finset.Subset.refl _) (V := V3 m d (outArr (Pc d) (Icv m d)))) $$ [Hb Ho Hv4]
  · isplitl [Hb]; · iexact Hb
    rw [held_out_pre]
    isplitl [Ho]; · iexact Ho
    iexact Hv4
  iintro ⟨Hb, Hheld⟩
  ihave Hh := (Entails.of_eq (held_out_post (F := F) (U := U) m d _)) $$ Hheld
  icases Hh with ⟨-, Hv4⟩
  rw [wp_ret]; imodintro; imodintro
  isplitl [Hst]; · iexact Hst
  isplitl [Ha0]; · iexact Ha0
  isplitl [Ht]; · iexact Ht
  isplitl [Hv4]; · iexact Hv4
  iexact HR

end Cert.Proof.KB.MainTail

end
-- ==== Proof.KB.Ghost.lean ====
/-
  The ghost algebra of the certificate and the launch element's two halves.

  The SparseCore handshakes keep their rounds in one component, the TensorCore pipeline's staging cells keep theirs in a
  second, and a third holds the transfer counters. The launch element is the pair of the two libraries' initial elements
  (beside the unit of the counters); owning it is owning each half through its embedding, and the pipeline's half funds
  the staging cells' ghost state and duty tokens of every core.
-/
import proofs.«207285_g25512105738892_cont_9to1_353_29_alg».proof.Proof.KB.Res
import proofs.«207285_g25512105738892_cont_9to1_353_29_alg».proof.Proof.Gen.Kernel.Launch
import Idealize.ShloMosaic.Lib.Pipeline.Kit
import Idealize.ShloMosaic.Lib.Pipeline.Sound
import Idealize.ShloMosaic.Lib.Transfers
import Idealize.ShloMosaic.Lib.SparseCore.Launch

noncomputable section

namespace Cert.Proof.KB.Ghost

open Cert.Kernel Cert.Kernel.Gen Cert.Proof.KB.Res

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The handshakes' rounds, the staging cells' rounds, and both beside the transfer counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The prefetched tables' admissible contents: the pipeline has no table. -/
abbrev adm : (p : Fin 1) → (pcfgs (F := F) p).Adm := fun p => (cfgs p).toPCfg_adm

/-- The handshakes' component embedded, -/
def EH : Emb UH 𝕄 := embL
/-- and the staging cells'. -/
def EP : Emb UP 𝕄 := (Emb.inl : Emb UP (UP × Counters)).trans embR

instance EH_landsIn : (EH (F := F)).LandsIn (upEmb : UEmb _ 𝕄) := by unfold EH; infer_instance
instance EP_landsIn : (EP (F := F)).LandsIn (upEmb : UEmb _ 𝕄) := by unfold EP embR; infer_instance

/-- The launch element: each library's initial element, the counters at their unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

set_option backward.isDefEq.respectTransparency.types false in
/-- Owning the launch element is owning the handshakes' initial element and, on every core, the pipeline's staging cells'
    ghost state and duty tokens. -/
theorem ghost_split :
    (ownU (u₀ (F := F)) : sProp 𝕄) ⊢ |={Set.univ}=> iprop(BI.own (EH (F := F) (initOf (K (F := F)).hsCells (K (F := F)).hsToks))
      ∗ bigSep Finset.univ fun d : Dev nD =>
          iprop(Pipeline.cellsGhost (Pipeline.pin (pcfgs (F := F)) adm) (EP (F := F)) 0 d ∗ Pipeline.toksInit (Pipeline.pin (pcfgs (F := F)) adm) (EP (F := F)) 0 d)) := by
  have hfund := Pipeline.fund_ghost (nD := nD) (τ := τ) (Ix := HIx 1) (Val := Elt F) (Name := ℕ) (U := UU) (Lvl := ℕ)
    (Pipeline.pin (pcfgs (F := F)) adm) (EP (F := F)) cellOf_inj
  have hone : ∀ Φ : Fin 1 → sProp 𝕄, bigSep Finset.univ Φ = Φ 0 := fun Φ => by
    rw [show (Finset.univ : Finset (Fin 1)) = {0} from rfl, BI.bigSep_singleton]
  simp only [hone] at hfund
  have h1 := ownU_pair (nD := nD) (τ := τ) (sig := sig) (Ix := HIx 1) (Val := Elt F) (Name := ℕ) (Lvl := ℕ)
    (initOf (K (F := F)).hsCells (K (F := F)).hsToks : UH)
    ((initOf (Pipeline.cells (nD := nD) (τ := τ) cfgs cellOf_inj) (Pipeline.launchToks (nD := nD) (τ := τ) cfgs cellOf_inj), (1 : Counters)) : UP × Counters)
  have h2 := own_pair_emb (embR : Emb (UP × Counters) 𝕄)
    (initOf (Pipeline.cells (nD := nD) (τ := τ) cfgs cellOf_inj) (Pipeline.launchToks (nD := nD) (τ := τ) cfgs cellOf_inj)) (1 : Counters)
  have hconv : (BI.own (((Emb.inl : Emb UP (UP × Counters)).trans (embR : Emb (UP × Counters) 𝕄))
        (initOf (Pipeline.cells (nD := nD) (τ := τ) cfgs cellOf_inj) (Pipeline.launchToks (nD := nD) (τ := τ) cfgs cellOf_inj))) : sProp 𝕄)
      ⊢ BI.own (EP (F := F) (initOf (Pipeline.cells (nD := nD) (τ := τ) (Pipeline.pin (pcfgs (F := F)) adm) cellOf_inj)
          (Pipeline.launchToks (nD := nD) (τ := τ) (Pipeline.pin (pcfgs (F := F)) adm) cellOf_inj))) := .rfl
  simp only [hone]
  unfold u₀
  iintro Hu
  ihave H := h1 $$ Hu
  icases H with ⟨HH, HR⟩
  ihave H2 := h2 $$ HR
  icases H2 with ⟨HP, -⟩
  ihave HP' := hconv $$ HP
  imod hfund $$ HP' with ⟨HG, HT⟩
  imodintro
  isplitl [HH]; · iexact HH
  isplitl [HG] <;> iassumption

end Cert.Proof.KB.Ghost

end
-- ==== Proof.KB.RegionBody.lean ====
/-
  The projection kernel's body on whole staging buffers.

  The body loads the table's block, the weights and the bias, and stores into the result's buffer the payload
  (the block times the transposed weights, plus the bias broadcast along the rows). It also loads the result's buffer before
  storing to it; that value is never used. So from the three inputs at contents x, w, b and the result's buffer at anything,
  it runs to the inputs unchanged and the result's buffer at the one store read back as a whole.
-/
import proofs.«207285_g25512105738892_cont_9to1_353_29_alg».proof.Proof.KB.Res
import proofs.«207285_g25512105738892_cont_9to1_353_29_alg».proof.Proof.Gen.Kernel.Skeleton
import Idealize.ShloMosaic.Lib.Pipeline.FrameBody
import Idealize.ShloMosaic.Lib.Ring
import Idealize.ShloMosaic.Lib.Tactic
set_option maxRecDepth 16384

noncomputable section

namespace Cert.Proof.KB.Region

open Cert.Kernel Cert.Kernel.Gen Cert.Proof.KB.Res

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

/-! ## The body's accesses -/

abbrev rX : Rect S20000x128 := Rect.unit (s := S20000x128) ![0, 0] S20000x128.size inb_S20000x128_S20000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The result's buffer after the body: its one store, of the payload of the three loads. -/
def outBlk (x : Vec F S20000x128 .f32) (w : Vec F S128x128 .f32) (b : Vec F S1x128 .f32) : Vec F S20000x128 .f32 :=
  View.canon [⟨rX, k0_pay1 (View.ld x rX) (View.ld w rW) (View.ld b rB)⟩]

/-- The store fills the buffer. -/
theorem cover_out (p0 : Vec F S20000x128 .f32) (y : S20000x128.Idx) :
    ∃ pc ∈ ([⟨rX, p0⟩] : List (View.Piece (Elt F) S20000x128 .f32)), y ∈ pc.1.set :=
  View.cover_of_tiled [⟨rX, p0⟩] S20000x128.size (by rfl) y

/-! ## The body's triple -/

set_option maxHeartbeats 1000000 in
theorem sound_kernel (c : Dev nD) (E : Set ℕ) (i : grid0.Coords)
    (arg1 : Memref sig .tc .vmem S20000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S20000x128 .f32) (harg4 : arg4.IsWhole)
    (x : Vec F S20000x128 .f32) (w : Vec F S128x128 .f32) (b : Vec F S1x128 .f32) (Kc : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outBlk x w b)) -∗ Kc ⟨⟩))
      ⊢ wp frame (wpE (defs₀ (F := F)) Variants.none c none) E (cc0__proj_body i arg1 harg1 arg2 harg2 arg3 harg3 arg4 harg4) Kc := by
  simp only [cc0__proj_body_eq_skeleton]; unfold cc0__proj_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Proof.KB.Region

end
-- ==== Proof.KB.RegionDat.lean ====
/-
  The projection pipeline's proof data on a core, and its body obligation.

  The arrays are read off a valuation V of the core's buffers as the region finds them. After the body at point t each input's
  staging buffer holds its block (block t of the table; the whole weights; the whole bias) and the result's holds the body's
  store of those. The invariant carries nothing (no scoped buffer is left over, no table is prefetched). While the region
  runs the thread owes what it owed before it (the start signals of the call to come), and the pairs its waits have
  recorded stay at level zero: the pipeline's own waits are at the index of level zero.
-/
import proofs.«207285_g25512105738892_cont_9to1_353_29_alg».proof.Proof.KB.RegionBody
import proofs.«207285_g25512105738892_cont_9to1_353_29_alg».proof.Proof.Gen.Kernel.Launch
import proofs.«207285_g25512105738892_cont_9to1_353_29_alg».proof.Proof.Gen.Kernel.Points
import Idealize.ShloMosaic.Lib.Pipeline.FrameBody
import Idealize.ShloMosaic.Lib.SparseCore.Launch
set_option maxRecDepth 16384

noncomputable section

namespace Cert.Proof.KB.Region

open Cert.Kernel Cert.Kernel.Gen Cert.Proof.KB.Res

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the thread owes while the region runs -/

/-- The start signals of the SparseCore call to come. -/
abbrev owedTc (c : Dev nD) : CellTallies nD τ sig (HIx 1) := (K (F := F)).Otc c 0

/-- The pairs at level zero. -/
abbrev recTc (c : Dev nD) : Set (SemLoc sig × HIx 1) := {p | (K (F := F)).lev (T c, p.1) p.2 ≤ 8 * 0}

/-- Nothing is owed at the index of level zero. -/
theorem owedTc_none (c : Dev nD) (g : GSem nD τ sig) : owedTc (F := F) c g none = 0 := by
  by_contra h
  have := SparseCore.Cfg.lev_of_Otc_pos (K := K (F := F)) (Nat.pos_of_ne_zero h)
  rw [SparseCore.Cfg.lev_none] at this; omega

/-! ## The proof data -/

def dat0 (c : Dev nD) : Dat τ (Elt F) (HIx 1) ℕ U ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := iprop(emp)
  q _ := fullShare
  owed _ := owedTc (F := F) c
  recorded _ := recTc (F := F) c

theorem A_eq (c : Dev nD) (w : Fin cfg0.W) : (dat0 (U := U) V c).A w = V c (Pipeline.arrRef spec0 w) := by
  dsimp only [dat0]

theorem after0 (c : Dev nD) (t : Fin cfg0.N) : (dat0 (U := U) V c).after 0 t = iblk V c 0 t := by dsimp only [dat0]
theorem after1 (c : Dev nD) (t : Fin cfg0.N) : (dat0 (U := U) V c).after 1 t = iblk V c 1 t := by dsimp only [dat0]
theorem after2 (c : Dev nD) (t : Fin cfg0.N) : (dat0 (U := U) V c).after 2 t = iblk V c 2 t := by dsimp only [dat0]
theorem after3 (c : Dev nD) (t : Fin cfg0.N) :
    (dat0 (U := U) V c).after 3 t = outBlk (iblk V c 0 t) (iblk V c 1 t) (iblk V c 2 t) := by dsimp only [dat0]

/-- Each input's current staging buffer holds its block at every point, fetched there or not: an input that is not
    fetched at a point has not moved. -/
theorem before0 (c : Dev nD) (t : Fin cfg0.N) (d) : (dat0 (U := U) V c).before 0 t d = iblk V c 0 t :=
  ((dat0 (U := U) V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat0 (U := U) V c).before 1 t d = iblk V c 1 t :=
  ((dat0 (U := U) V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat0 (U := U) V c).before 2 t d = iblk V c 2 t :=
  ((dat0 (U := U) V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dat0 (U := U) V c).Φ t.castSucc ∗ (dat0 (U := U) V c).owesAt none t.castSucc
    ∗ (∃ d, owns (c : Thread nD τ) (st0_0 t) fullShare ((dat0 (U := U) V c).before 0 t d))
    ∗ (∃ d, owns (c : Thread nD τ) (st0_1 t) fullShare ((dat0 (U := U) V c).before 1 t d))
    ∗ (∃ d, owns (c : Thread nD τ) (st0_2 t) fullShare ((dat0 (U := U) V c).before 2 t d))
    ∗ (∃ d, owns (c : Thread nD τ) (st0_3 t) fullShare ((dat0 (U := U) V c).before 3 t d)))

def bodyPost (c : Dev nD) (t : Fin cfg0.N) : sProp 𝕄 :=
  iprop((dat0 (U := U) V c).Φ t.succ ∗ (dat0 (U := U) V c).owesAt none t.succ
    ∗ owns (c : Thread nD τ) (st0_0 t) fullShare ((dat0 (U := U) V c).after 0 t)
    ∗ owns (c : Thread nD τ) (st0_1 t) fullShare ((dat0 (U := U) V c).after 1 t)
    ∗ owns (c : Thread nD τ) (st0_2 t) fullShare ((dat0 (U := U) V c).after 2 t)
    ∗ owns (c : Thread nD τ) (st0_3 t) fullShare ((dat0 (U := U) V c).after 3 t))

/-- The body at any point: the inputs' buffers hold their blocks, the invariant and what the thread owes pass through. -/
theorem sound_body (c : Dev nD) (t : Fin cfg0.N) :
    bodyPre (U := U) V c t ⊢ wp frame (wpE (defs₀ (F := F)) Variants.none c none) Set.univ (bodyAt0 t) (fun _ => bodyPost (U := U) V c t) := by
  unfold bodyPre bodyPost bodyAt0
  simp only [before0, before1, before2]
  rw [show (dat0 (U := U) V c).Φ t.succ = (dat0 (U := U) V c).Φ t.castSucc from rfl,
    show (dat0 (U := U) V c).owesAt none t.succ = (dat0 (U := U) V c).owesAt none t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat0 (F := F) (U := U) V c) (defs₀ (F := F)) Variants.none none Set.univ := fun t => by
  rw [bigSep_W0, bigSep_W0]
  exact sound_body V c t

end Cert.Proof.KB.Region

end
-- ==== Proof.KB.RegionArr.lean ====
/-
  The projected table as one function of the three arrays, and the result array after the region.

  The grid's five points write the five blocks of 20000 rows, point t the payload of block t of the table, the weights and the
  bias. Row v of the result therefore lies in block v / 20000 at row v % 20000, and the blocks cover the array.
-/
import proofs.«207285_g25512105738892_cont_9to1_353_29_alg».proof.Proof.KB.RegionDat
import Idealize.ShloMosaic.Lib.Pipeline.Value
import Idealize.ShloMosaic.Lib.ValueIdx
set_option maxRecDepth 16384

noncomputable section

namespace Cert.Proof.KB.Region

open Cert.Kernel Cert.Kernel.Gen Cert.Proof.KB.Res

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

/-- Block `t` of the table: rows `20000 t` to `20000 t + 19999`. -/
def xblk (X : S100000x128.Idx → Elt F .f32) (t : Fin 5) : Vec F S20000x128 .f32 :=
  fun y => X (ix2 (⟨t.val * 20000 + (y 0).val, by have h : (y 0).val < 20000 := (y 0).isLt; have := t.isLt; show _ < 100000; omega⟩ : Fin 100000) (⟨(y 1).val, (y 1).isLt⟩ : Fin 128))

/-- The projected table: row `v` lies in block `v / 20000` at row `v % 20000`, and each block is the body's payload of
    the table's block, the weights and the bias. -/
def projArr (X : S100000x128.Idx → Elt F .f32) (Wt : S128x128.Idx → Elt F .f32) (B1 : S1x128.Idx → Elt F .f32) : S100000x128.Idx → Elt F .f32 :=
  fun i => k0_pay1 (xblk X ⟨(i 0).val / 20000, by have h : (i 0).val < 100000 := (i 0).isLt; show _ < 5; omega⟩) Wt B1
    (ix2 (⟨(i 0).val % 20000, Nat.mod_lt _ (by decide)⟩ : Fin 20000) (⟨(i 1).val, (i 1).isLt⟩ : Fin 128))

/-- The projected table at an element of block `t`: the payload of block `t` at the element's place in the block. -/
theorem projArr_blk (X : S100000x128.Idx → Elt F .f32) (Wt : S128x128.Idx → Elt F .f32) (B1 : S1x128.Idx → Elt F .f32)
    (t : Fin 5) (j : S20000x128.Idx) (i : S100000x128.Idx)
    (h0 : (i 0).val = t.val * 20000 + (j 0).val) (h1 : (i 1).val = (j 1).val) :
    projArr X Wt B1 i = k0_pay1 (xblk X t) Wt B1 j := by
  have hj0 : (j 0).val < 20000 := (j 0).isLt
  have ht : (⟨(i 0).val / 20000, by have h : (i 0).val < 100000 := (i 0).isLt; show _ < 5; omega⟩ : Fin 5) = t := Fin.ext (by show (i 0).val / 20000 = t.val; omega)
  have hj : (ix2 (⟨(i 0).val % 20000, Nat.mod_lt _ (by decide)⟩ : Fin 20000) (⟨(i 1).val, (i 1).isLt⟩ : Fin 128) : S20000x128.Idx) = j := by
    funext a
    match a with
    | ⟨0, _⟩ => exact Fin.ext (by show (i 0).val % 20000 = (j 0).val; omega)
    | ⟨1, _⟩ => exact Fin.ext h1
  unfold projArr
  rw [ht, hj]

variable (V : (c : Dev nD) → (b : Ref sig .tc) → Buf (Elt F) ((c : Thread nD τ).loc b))

/-- A point of the grid as a number below five. -/
def pt (t : Fin cfg0.N) : Fin 5 := ⟨t.val, Nat.lt_of_lt_of_eq t.isLt N_0⟩

theorem hz : (![0, 0] : Fin 2 → Nat) = fun _ => 0 := funext fun a => by fin_cases a <;> rfl

/-- The printed index maps, decided over the grid: the table's and the result's block index is the point along the rows,
    zero along the columns; the weights' and the bias's is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The table's block at point `t` is block `t`. -/
theorem iblk0_eq (c : Dev nD) (t : Fin cfg0.N) :
    (iblk V c 0 t : Vec F S20000x128 .f32) = xblk (V c main_arg2) (pt t) := by
  obtain ⟨e0, e1, -⟩ := idx_facts t
  funext y
  show V c main_arg2 (((cfg0.win 0).blk t).view.emb y) = V c main_arg2 _
  refine congrArg (V c main_arg2) ?_
  funext a; apply Fin.ext
  match a with
  | ⟨0, _⟩ => show win0_0.index t (0 : Fin 2) * 20000 + 1 * (y 0).val = t.val * 20000 + (y 0).val; rw [e0]; omega
  | ⟨1, _⟩ => show win0_0.index t (1 : Fin 2) * 128 + 1 * (y 1).val = (y 1).val; rw [e1]; omega

/-- The weights' block at every point is the whole array. -/
theorem iblk1_eq (c : Dev nD) (t : Fin cfg0.N) : (iblk V c 1 t : Vec F S128x128 .f32) = V c main_arg3 := by
  obtain ⟨-, -, e0, e1, -⟩ := idx_facts t
  funext y
  show V c main_arg3 (((cfg0.win 1).blk t).view.emb y) = V c main_arg3 y
  refine congrArg (V c main_arg3) ?_
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias's block at every point is the whole array. -/
theorem iblk2_eq (c : Dev nD) (t : Fin cfg0.N) : (iblk V c 2 t : Vec F S1x128 .f32) = V c main_v0 := by
  obtain ⟨-, -, -, -, e0, e1, -⟩ := idx_facts t
  funext y
  show V c main_v0 (((cfg0.win 2).blk t).view.emb y) = V c main_v0 y
  refine congrArg (V c main_v0) ?_
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point `t` writes back is block `t` of the projected table. -/
theorem flushed3_eq [∀ e, Nonempty (Elt F e)] (c : Dev nD) (t : Fin cfg0.N) :
    (dat0 (U := U) V c).flushed 3 t
      = ((cfg0.win 3).blk t).view.read (Elt F) (projArr (V c main_arg2) (V c main_arg3) (V c main_v0) : S100000x128.Idx → Elt F .f32) := by
  show (cfg0.win 3).cut (grid0.coords t) ((dat0 (U := U) V c).after 3 t) = _
  rw [after3]
  unfold outBlk
  rw [View.canon_unit_zero hz]
  simp only [View.ld_unit_zero (S := S20000x128) hz, View.ld_unit_zero (S := S128x128) hz, View.ld_unit_zero (S := S1x128) hz]
  obtain ⟨-, -, -, -, -, -, e0, e1⟩ := idx_facts t
  have e : k0_pay1 (iblk V c 0 t) (iblk V c 1 t) (iblk V c 2 t)
      = k0_pay1 (xblk (V c main_arg2) (pt t)) (V c main_arg3) (V c main_v0) := by
    rw [iblk0_eq, iblk1_eq, iblk2_eq]
  funext j
  show k0_pay1 (iblk V c 0 t) (iblk V c 1 t) (iblk V c 2 t) j
    = (projArr (V c main_arg2) (V c main_arg3) (V c main_v0) : S100000x128.Idx → Elt F .f32) (((cfg0.win 3).blk t).view.emb j)
  rw [e]
  refine (projArr_blk (V c main_arg2) (V c main_arg3) (V c main_v0) (pt t) j _ ?_ ?_).symm
  · show win0_3.index t (0 : Fin 2) * 20000 + 1 * (j 0).val = t.val * 20000 + (j 0).val; rw [e0]; omega
  · show win0_3.index t (1 : Fin 2) * 128 + 1 * (j 1).val = (j 1).val; rw [e1]; omega

/-- An index of the result is in point `t`'s block iff each coordinate is in the block's range on its axis. -/
theorem mem_blk3 (t : Fin cfg0.N) (i : S100000x128.Idx) :
    i ∈ ((cfg0.win 3).blk t).view.set ↔ ∀ a : Fin 2, win0_3.index t a * S20000x128.size a ≤ (i a).val ∧ (i a).val < win0_3.index t a * S20000x128.size a + S20000x128.size a := by
  show i ∈ ((View.whole main_v1).slice (win0_3.rect t)).set ↔ _
  rw [View.set_slice_whole, Rect.mem_set_unit]
  exact Iff.rfl

/-- Every row lies in the block of the point its number divided by 20000 names. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 20000, by rw [show cfg0.N = 5 from N_0]; omega⟩
  obtain ⟨-, -, -, -, -, -, e0, e1⟩ := idx_facts t
  refine ⟨t, flush0_3 t, ?_⟩
  rw [mem_blk3]
  intro a
  match a with
  | ⟨0, _⟩ =>
    show win0_3.index t (0 : Fin 2) * 20000 ≤ (i 0).val ∧ (i 0).val < win0_3.index t (0 : Fin 2) * 20000 + 20000
    rw [e0]; show (i 0).val / 20000 * 20000 ≤ (i 0).val ∧ (i 0).val < (i 0).val / 20000 * 20000 + 20000; omega
  | ⟨1, _⟩ =>
    show win0_3.index t (1 : Fin 2) * 128 ≤ (i 1).val ∧ (i 1).val < win0_3.index t (1 : Fin 2) * 128 + 128
    rw [e1]; omega

/-- The result array after the last point is the projected table of the three arrays as the region finds them. -/
theorem final3 [∀ e, Nonempty (Elt F e)] (c : Dev nD) :
    (dat0 (U := U) V c).arrAt 3 cfg0.N = (projArr (V c main_arg2) (V c main_arg3) (V c main_v0) : S100000x128.Idx → Elt F .f32) :=
  (dat0 (U := U) V c).arrAt_eq_of_cover 3 _ (fun t _ => flushed3_eq V c t) cover3

end Cert.Proof.KB.Region

end
-- ==== Proof.KB.Region.lean ====
/-
  The projection region as a segment of the main program.

  It is entered holding the four arrays whole (the table, the weights, the bias, and the result at anything) and what the
  thread owes; it is left holding the three inputs unchanged, the result at the projected table, and the same debt. Nothing
  else is needed: the invariant is empty, no other buffer takes part, and the pipeline's own waits are at the index of
  level zero, below every unit the thread owes.
-/
import proofs.«207285_g25512105738892_cont_9to1_353_29_alg».proof.Proof.KB.RegionArr
import Idealize.ShloMosaic.Lib.Pipeline.RegionsLoop
import Idealize.ShloMosaic.Lib.Pipeline.FrameSuffix
set_option maxRecDepth 16384

noncomputable section

namespace Cert.Proof.KB.Region

open Cert.Kernel Cert.Kernel.Gen Cert.Proof.KB.Res

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

variable (V : (c : Dev nD) → (b : Ref sig .tc) → Buf (Elt F) ((c : Thread nD τ).loc b))

/-- The prefetched tables' admissible contents: the pipeline has no table. -/
abbrev adm : (p : Fin 1) → (pcfgs (F := F) p).Adm := fun p => (cfgs p).toPCfg_adm

/-- The proof data of the one pipeline. -/
def pdats : (p : Fin 1) → (c : Dev nD) → Dat τ (Elt F) (HIx 1) ℕ U ℕ (Pipeline.pin (pcfgs (F := F)) adm p) c
  | ⟨0, _⟩ => fun c => dat0 V c

/-- What the thread owes, as its handshake state holds it before the first call. -/
abbrev owesTc (c : Dev nD) : sProp 𝕄 := iprop(∃ W, ⌜(K (F := F)).WBelow (T c) W (8 * 0)⌝ ∗ owes (T c) ((K (F := F)).Otc c 0) W)

/-- The region is entered from the four arrays at the valuation, -/
abbrev pre0 (c : Dev nD) : sProp 𝕄 :=
  iprop((((c : Thread nD τ).loc main_arg2) ↦{fullShare} V c main_arg2) ∗ (((c : Thread nD τ).loc main_arg3) ↦{fullShare} V c main_arg3)
    ∗ (((c : Thread nD τ).loc main_v0) ↦{fullShare} V c main_v0) ∗ (((c : Thread nD τ).loc main_v1) ↦{fullShare} V c main_v1) ∗ owesTc (F := F) c)

/-- and left with the result at the projected table. -/
abbrev post0 (c : Dev nD) : sProp 𝕄 :=
  iprop((((c : Thread nD τ).loc main_arg2) ↦{fullShare} V c main_arg2) ∗ (((c : Thread nD τ).loc main_arg3) ↦{fullShare} V c main_arg3)
    ∗ (((c : Thread nD τ).loc main_v0) ↦{fullShare} V c main_v0)
    ∗ (((c : Thread nD τ).loc main_v1) ↦{fullShare} (projArr (V c main_arg2) (V c main_arg3) (V c main_v0) : S100000x128.Idx → Elt F .f32)) ∗ owesTc (F := F) c)

theorem post0_eq (c : Dev nD) : (post0 (U := U) V c : sProp 𝕄)
    = iprop((((c : Thread nD τ).loc main_arg2) ↦{fullShare} V c main_arg2) ∗ (((c : Thread nD τ).loc main_arg3) ↦{fullShare} V c main_arg3)
    ∗ (((c : Thread nD τ).loc main_v0) ↦{fullShare} V c main_v0)
    ∗ (((c : Thread nD τ).loc main_v1) ↦{fullShare} (projArr (V c main_arg2) (V c main_arg3) (V c main_v0) : S100000x128.Idx → Elt F .f32)) ∗ owesTc (F := F) c) := rfl

/-- The wait evidence: the pipeline's cells are waited on at the index of level zero, where the thread owes nothing. -/
theorem hwaits0 (c : Dev nD) :
    (levAts (K (F := F)).L (K (F := F)).lev : sProp 𝕄) ⊢ Pipeline.cellsWaits (Pipeline.pin (pcfgs (F := F)) adm) (pdats (U := U) V) (none : HIx 1) 0 c :=
  Pipeline.cellsWaits_of_cut (Pipeline.pin (pcfgs (F := F)) adm) (pdats (U := U) V) (none : HIx 1) 0 c (L := (K (F := F)).L) (lev := (K (F := F)).lev) 0
    (owedTc (F := F) c) (fun _ => rfl) (fun _ _ => Finset.mem_univ _) (fun _ _ => le_rfl)
    (fun g i h => ⟨Finset.mem_univ _, by
      cases i with
      | none => rw [owedTc_none] at h; exact absurd h (Nat.lt_irrefl 0)
      | some q => exact (K (F := F)).lev_some_pos g q⟩)

/-- The pipeline's arrays at contents `G` are the four buffers whole at `G`. -/
theorem arrays0 (c : Dev nD) (G : (w : Fin cfg0.W) → Buf (Elt F) ((cfg0.win w).arr.view.loc (c.tc : Thread nD τ))) :
    ((dat0 (U := U) V c).arrays G : sProp 𝕄)
      = iprop((((c : Thread nD τ).loc main_arg2) ↦{fullShare} G 0) ∗ (((c : Thread nD τ).loc main_arg3) ↦{fullShare} G 1)
          ∗ (((c : Thread nD τ).loc main_v0) ↦{fullShare} G 2) ∗ (((c : Thread nD τ).loc main_v1) ↦{fullShare} G 3)) := by
  unfold Dat.arrays
  rw [bigSep_W0]
  rw [(launch0.arr_whole 0).set_eq_univ, (launch0.arr_whole 1).set_eq_univ, (launch0.arr_whole 2).set_eq_univ, (launch0.arr_whole 3).set_eq_univ,
    (dat0 (U := U) V c).share_full (fun _ => rfl) 0, (dat0 (U := U) V c).share_full (fun _ => rfl) 1,
    (dat0 (U := U) V c).share_full (fun _ => rfl) 2, (dat0 (U := U) V c).share_full (fun _ => rfl) 3]

/-- The recorded pairs the pipeline hands back sit at level zero: those it was handed, and its own waits' at the index of
    level zero. -/
theorem wbelow_of_bound (c : Dev nD) (W : Waits sig (HIx 1))
    (hW : (↑W : Set (SemLoc sig × HIx 1)) ⊆ (dat0 (U := U) V c).bound none (Fin.last cfg0.N)) : (K (F := F)).WBelow (T c) W (8 * 0) := by
  intro p hp
  rcases hW hp with h | ⟨w, s, rfl⟩
  · exact h
  · exact le_rfl

set_option backward.isDefEq.respectTransparency.types false in
def R0 : Pipeline.RegionSeg (pcfgs (F := F)) adm (pdats (U := U) V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits := hwaits0 V
  pre c := pre0 V c
  post c := post0 V c
  X c := iprop(emp)
  Y c := iprop(emp)
  Z c := iprop(emp)
  hentry c := by
    rw [Pipeline.ownSems0_none, show pdats (U := U) V 0 c = dat0 V c from rfl, arrays0]
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats (U := U) V 0 c).Φ 0 = iprop(emp) from rfl]
    iintro -; iempintro
  hout c := by
    rw [Pipeline.ownSems0_none, show (pdats (U := U) V 0 c).Φ (Fin.last _) = iprop(emp) from rfl,
      show Pipeline.scopedRest (Ix := HIx 1) (Name := ℕ) (U := U) (Lvl := ℕ) (Val := Elt F) (Pipeline.pin (pcfgs (F := F)) adm 0).spec c
        = Pipeline.scopedRest (Ix := HIx 1) (Name := ℕ) (U := U) (Lvl := ℕ) (Val := Elt F) spec0 c from rfl, scopedRest0_eq]
    iintro -
    isplitr; · iempintro
    isplitr <;> iempintro
  hexit c := by
    rw [show pdats (U := U) V 0 c = dat0 V c from rfl, arrays0,
      (dat0 (U := U) V c).arrAt_in 0 rfl, (dat0 (U := U) V c).arrAt_in 1 rfl, (dat0 (U := U) V c).arrAt_in 2 rfl,
      show (dat0 (U := U) V c).arrAt 3 (Pipeline.pin (pcfgs (F := F)) adm 0).N
        = (projArr (V c main_arg2) (V c main_arg3) (V c main_v0) : S100000x128.Idx → Elt F .f32) from final3 V c, A_eq, A_eq, A_eq]
    iintro ⟨⟨H0, H1, H2, H3⟩, HO, -, -⟩
    imodintro
    isplitl [H0]; · iexact H0
    isplitl [H1]; · iexact H1
    isplitl [H2]; · iexact H2
    isplitl [H3]; · iexact H3
    unfold Pipeline.Dat.owesAt Pipeline.owesWithin
    icases HO with ⟨%W, %hW, HO⟩; iexists W; isplitr; · ipureintro; exact wbelow_of_bound V c W hW
    iexact HO

theorem R0_pre (c : Dev nD) : (R0 (U := U) V).pre c = pre0 V c := rfl
theorem R0_post (c : Dev nD) : (R0 (U := U) V).post c = post0 V c := rfl

end Cert.Proof.KB.Region

end
-- ==== Proof.KB.RegionEntry.lean ====
/-
  The projection region entered from the main program of the SparseCore launch.

  The main program names the region's label through the launch's extended label table. A proof about a program under the
  pipeline's own table is a proof about the lifted program under the extended one; the call of the region, continued by a
  return, is lifted to the printed call, and the rest of the main program follows it.
-/
import proofs.«207285_g25512105738892_cont_9to1_353_29_alg».proof.Proof.KB.Region
import Idealize.ShloMosaic.Lib.SparseCore.Threads
set_option maxRecDepth 16384

noncomputable section

namespace Cert.Proof.KB.Region

open Cert.Kernel Cert.Kernel.Gen Cert.Proof.KB.Res

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

variable (V : (c : Dev nD) → (b : Ref sig .tc) → Buf (Elt F) ((c : Thread nD τ).loc b))

set_option backward.isDefEq.respectTransparency.types false in
theorem wp_region [∀ e, Nonempty (Elt F e)] (EP : Emb (URounds (GSem nD τ sig) Unit) 𝕄) [EP.LandsIn (upEmb : UEmb _ 𝕄)] (d : Dev nD) {α : Type}
    (k : PUnit → Prog (TpuEff nD τ sig (Elt F) (SparseCore.Sig (ΛP (F := F)) 1) .tc) α) (Q : α → sProp 𝕄) :
    iprop((iprop(boundary (T d) ∗ post0 V d) -∗ wp frame (wpE ((K (F := F)).defs D) 𝒱 (T d) none) Set.univ (k ⟨⟩) Q)
        ∗ boundary (T d) ∗ pre0 V d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (T d) none) Set.univ (.op (.customCall (SparseCore.inner (Pipeline.entry 0)) ()) k) Q := by
  have hwp := (R0 (U := U) V).wp (pcfgs (F := F)) adm (pdats V) none cellOf_inj EP defs₀ 𝒱₀ (K (F := F)).L (K (F := F)).lev d none (fun _ h => nomatch h)
    (fun u => .ret u) (fun x => wp frame (wpE ((K (F := F)).defs D) 𝒱 (T d) none) Set.univ (k x) Q)
  rw [R0_pre, R0_post] at hwp
  have hlift := (K (F := F)).wp_liftProg D 𝒱 (T d) (Set.univ : Set ℕ) none
    (.op (.customCall (Pipeline.entry (0 : Fin 1)) ()) fun u => .ret u) (fun x => wp frame (wpE ((K (F := F)).defs D) 𝒱 (T d) none) Set.univ (k x) Q)
  rw [show (Prog.op (.customCall (SparseCore.inner (Pipeline.entry (0 : Fin 1))) ()) k : Prog (TpuEff nD τ sig (Elt F) (SparseCore.Sig (ΛP (F := F)) 1) .tc) α)
      = (SparseCore.liftProg (Q := 1) (Prog.op (.customCall (Pipeline.entry (0 : Fin 1)) ()) fun u => .ret u) >>= k) from rfl, wp_bind]
  refine BIBase.Entails.trans ?_ hlift
  refine BIBase.Entails.trans ?_ hwp
  iintro ⟨Hk, Hbd, Hpre, Hla, Hg, Ht⟩
  isplitl [Hk]
  · iintro H; rw [wp_ret]; imodintro; iapply Hk; iexact H
  isplitl [Hbd]; · iexact Hbd
  isplitl [Hpre]; · iexact Hpre
  isplitl [Hla]; · iexact Hla
  isplitl [Hg] <;> iassumption

end Cert.Proof.KB.Region

end
-- ==== Proof.KB.Main.lean ====
/-
  The whole program's run. @main on the TensorCore: the bias laid out as a row (a host layout change), the projection of the whole
  table (the TensorCore kernel's region), then the tail — the ids regrouped, the SparseCore call, the result laid out per sentence.
  The run ends with the five arguments as launched and the result buffer at one pure term of them: at (a, l, p), entry p of the
  projected row of the table named by the id at (a, l).
-/
import proofs.«207285_g25512105738892_cont_9to1_353_29_alg».proof.Proof.KB.MainTail
import proofs.«207285_g25512105738892_cont_9to1_353_29_alg».proof.Proof.KB.Ghost
import proofs.«207285_g25512105738892_cont_9to1_353_29_alg».proof.Proof.KB.RegionEntry

noncomputable section

namespace Cert.Proof.KB.Main

open Cert.Kernel Cert.Kernel.Gen Cert.Proof.KB.Res Cert.Proof.KB.Split Cert.Proof.KB.MainTail Cert.Proof.KB.LaunchSC
open Cert.Proof.KB.Ghost Cert.Proof.KB.Region

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev b1Loc (d : Dev nD) : Loc nD τ sig := (SparseCore.T d).loc main_v0

abbrev a4' : DevRef τ sig := Proc.devRef .tc (main_arg4 : Ref sig .tc)
abbrev v0' : DevRef τ sig := Proc.devRef .tc (main_v0 : Ref sig .tc)

/-- The bias laid out as a row. -/
abbrev opB : HloOp τ sig (Elt F) := StableHlo.reshape main_arg4 main_v0 rfl shapeCasts_S128_S1x128

/-- The bias row, the projected table and the result, as pure terms of the launch memory. -/
def B1v (d : Dev nD) : Buf (Elt F) (b1Loc d) := shapeCast S1x128 (m (a4Loc d)) shapeCasts_S128_S1x128
def Pcv (d : Dev nD) : Buf (Elt F) (tLoc d) := projArr (m (a2Loc d)) (m (a3Loc d)) (B1v m d)
def outv (d : Dev nD) : Buf (Elt F) (v4Loc d) :=
  shapeCast S1024x200x128 (outArr (Pcv m d) (Icv m d)) shapeCasts_S32x100x64x128_S1024x200x128

/-- The arrays as the projection finds them: the launch memory after the bias was laid out. -/
def Vr (c : Dev nD) (b : Ref sig .tc) : Buf (Elt F) ((c : Thread nD τ).loc b) := (opB (F := F)).result (V0 m c) (Proc.devRef .tc b)

theorem Vr_a2 (c : Dev nD) : Vr m c main_arg2 = m (a2Loc c) :=
  StableHlo.reshape_result_ne' (x := main_arg4) (y := main_v0) rfl shapeCasts_S128_S1x128 _ _ (V0 m c) (r := main_arg2) (by decide)
theorem Vr_a3 (c : Dev nD) : Vr m c main_arg3 = m (a3Loc c) :=
  StableHlo.reshape_result_ne' (x := main_arg4) (y := main_v0) rfl shapeCasts_S128_S1x128 _ _ (V0 m c) (r := main_arg3) (by decide)
theorem Vr_v1 (c : Dev nD) : Vr m c main_v1 = m (tLoc c) :=
  StableHlo.reshape_result_ne' (x := main_arg4) (y := main_v0) rfl shapeCasts_S128_S1x128 _ _ (V0 m c) (r := main_v1) (by decide)
theorem Vr_a4 (c : Dev nD) : (opB (F := F)).result (V0 m c) a4' = m (a4Loc c) :=
  StableHlo.reshape_result_ne' (x := main_arg4) (y := main_v0) rfl shapeCasts_S128_S1x128 _ _ (V0 m c) (r := main_arg4) (by decide)
theorem Vr_v0 (c : Dev nD) : Vr m c main_v0 = B1v m c :=
  (StableHlo.reshape_result' (x := main_arg4) (y := main_v0) rfl shapeCasts_S128_S1x128 _ _ (V0 m c)).trans rfl

theorem held_b_pre (d : Dev nD) :
    (held (T d) (opB (F := F)).bufs (V0 m d) : sProp 𝕄) = iprop((a4Loc d ↦{fullShare} m (a4Loc d)) ∗ (b1Loc d ↦{fullShare} m (b1Loc d))) := by
  rw [show (opB (F := F)).bufs = {a4', v0'} from rfl, held_two d main_arg4 main_v0 (by decide)]; rfl
theorem held_b_post (d : Dev nD) :
    (held (T d) (opB (F := F)).bufs ((opB (F := F)).result (V0 m d)) : sProp 𝕄) = iprop((a4Loc d ↦{fullShare} m (a4Loc d)) ∗ (b1Loc d ↦{fullShare} B1v m d)) := by
  rw [show (opB (F := F)).bufs = {a4', v0'} from rfl, held_two d main_arg4 main_v0 (by decide), Vr_a4]
  exact congrArg (fun f => iprop((a4Loc d ↦{fullShare} m (a4Loc d)) ∗ (b1Loc d ↦{fullShare} f))) (Vr_v0 m d)

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (a4Loc d ↦{fullShare} W main_arg4) ∗ (b1Loc d ↦{fullShare} W main_v0) ∗ (tLoc d ↦{fullShare} W main_v1)
      ∗ (iLoc d ↦{fullShare} W main_v2) ∗ (oLoc d ↦{fullShare} W main_v3) ∗ (v4Loc d ↦{fullShare} W main_v4)) := by
  unfold unscopedBufs
  rw [show (Finset.univ.filter fun b : Ref sig .tc => ¬ b.isScoped) = {main_arg0, main_arg1, main_arg2, main_arg3, main_arg4, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- @main is the bias' layout change, the projection's region, and the tail. -/
theorem main_eq (d : Dev nD) : main (F := F) d
    = (hlo rfl (StableHlo.reshape main_arg4 main_v0 rfl shapeCasts_S128_S1x128) (fun _ => Prog.ret PUnit.unit) >>= fun _ =>
        (Prog.op (.customCall (SparseCore.inner (Pipeline.entry 0)) ()) fun x => Prog.ret x) >>= fun _ => mainTail (F := F) d) := rfl

/-- What the launch hands @main of the pipeline's ghost state: its staging cells' and their duty tokens. -/
abbrev Gd (d : Dev nD) : sProp 𝕄 :=
  iprop(Pipeline.cellsGhost (Pipeline.pin (pcfgs (F := F)) Cert.Proof.KB.Ghost.adm) (EP (F := F)) 0 d ∗ Pipeline.toksInit (Pipeline.pin (pcfgs (F := F)) Cert.Proof.KB.Ghost.adm) (EP (F := F)) 0 d)

/-- What @main leaves the claim: the five arguments as launched, the result. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d))
    ∗ (a4Loc d ↦{fullShare} m (a4Loc d)) ∗ (v4Loc d ↦{fullShare} outv m d))

/-- What the projection's region is entered with and what it leaves, at the launch memory. -/
theorem pre0_at (d : Dev nD) : (pre0 (F := F) (U := UU) (Vr m) d : sProp 𝕄)
    = iprop((a2Loc d ↦{fullShare} m (a2Loc d)) ∗ (a3Loc d ↦{fullShare} m (a3Loc d)) ∗ (b1Loc d ↦{fullShare} B1v m d) ∗ (tLoc d ↦{fullShare} m (tLoc d)) ∗ owesTc (F := F) d) := by
  unfold pre0; rw [Vr_a2, Vr_a3, Vr_v0, Vr_v1]
theorem post0_at (d : Dev nD) : (post0 (F := F) (U := UU) (Vr m) d : sProp 𝕄)
    = iprop((a2Loc d ↦{fullShare} m (a2Loc d)) ∗ (a3Loc d ↦{fullShare} m (a3Loc d)) ∗ (b1Loc d ↦{fullShare} B1v m d) ∗ (tLoc d ↦{fullShare} Pcv m d) ∗ owesTc (F := F) d) := by
  rw [post0_eq, Vr_a2, Vr_a3, Vr_v0]; rfl

/-- The TensorCore's state before the first call is what it owes and the rest. -/
theorem tcSt_split (d : Dev nD) : ∃ R : sProp 𝕄, (K (F := F)).tcSt (EH (F := F)) d 0 = iprop(owesTc (F := F) d ∗ R) := ⟨_, rfl⟩

set_option maxRecDepth 16384 in
theorem hmain [∀ e, Nonempty (Elt F e)] (κ : GSem nD τ sig → ℕ) (d : Dev nD) :
    iprop((K (F := F)).ctx (EH (F := F)) (P (U := UU) m (Pcv m) (Icv m)) κ ∗ (K (F := F)).tcSt (EH (F := F)) d 0 ∗ (K (F := F)).tcRes m ρ d ∗ Gd (F := F) d)
      ⊢ wp frame (wpE ((K (F := F)).defs (D (F := F))) 𝒱 (SparseCore.T d) none) Set.univ (main d)
          fun _ => iprop((K (F := F)).tcSt (EH (F := F)) d 1 ∗ FIN m d) := by
  obtain ⟨R, hR⟩ := tcSt_split (F := F) d
  unfold SparseCore.Cfg.tcRes
  rw [unscopedBufs_eq, main_eq, hR]
  simp only [wp_bind]
  iintro ⟨#Hctx, ⟨HO, Hrest⟩, ⟨Hb, ⟨Ha0, Ha1, Ha2, Ha3, Ha4, Hv0, Hv1, Hv2, Hv3, Hv4⟩, -, -⟩, ⟨Hcg, Htk⟩⟩
  -- the bias laid out as a row
  iapply (wp_hlo_within 𝒱 (SparseCore.T d) none Set.univ (op := opB) (S := (opB (F := F)).bufs) (Finset.Subset.refl _) (V := V0 m d)) $$ [Hb Ha4 Hv0]
  · isplitl [Hb]; · iexact Hb
    rw [held_b_pre]
    isplitl [Ha4]; · iexact Ha4
    iexact Hv0
  iintro ⟨Hb, Hheld⟩
  rw [wp_ret]; imodintro
  ihave Hh := (Entails.of_eq (held_b_post (F := F) m d)) $$ Hheld
  icases Hh with ⟨Ha4, Hv0⟩
  -- the projection: the region, entered with the table, the weights, the bias row and the result buffer
  ihave Hlev := (SparseCore.Cfg.ctx_levAts (K := K (F := F)) (EH := EH (F := F)) (P := P (U := UU) m (Pcv m) (Icv m)) κ) $$ Hctx
  iapply (wp_region (F := F) (U := UU) (Vr m) (EP (F := F)) d (fun x => Prog.ret x) _) $$ [Hb Ha2 Ha3 Hv0 Hv1 HO Hlev Hcg Htk Hrest Ha0 Ha1 Ha4 Hv2 Hv3 Hv4]
  isplitl [Hrest Ha0 Ha1 Ha4 Hv2 Hv3 Hv4]
  · iintro ⟨Hb, Hpost⟩
    rw [wp_ret]; imodintro
    ihave Hp := (Entails.of_eq (post0_at (F := F) m d)) $$ Hpost
    icases Hp with ⟨Ha2, Ha3, Hv0, Hv1, HO⟩
    ihave Hst := (Entails.of_eq hR.symm) $$ [HO Hrest]
    · isplitl [HO]; · iexact HO
      iexact Hrest
    iapply (wp_mono frame _ _ (fun _ => (?_ : iprop(_ ∗ _ ∗ _ ∗ _ ∗ (iprop((a1Loc d ↦{fullShare} m (a1Loc d)) ∗ (a2Loc d ↦{fullShare} m (a2Loc d)) ∗ (a3Loc d ↦{fullShare} m (a3Loc d)) ∗ (a4Loc d ↦{fullShare} m (a4Loc d))) : sProp 𝕄)) ⊢ _)))
    rotate_left
    · iapply (main_tail (F := F) (U := UU) (EH (F := F)) m (Pcv m) κ d iprop((a1Loc d ↦{fullShare} m (a1Loc d)) ∗ (a2Loc d ↦{fullShare} m (a2Loc d)) ∗ (a3Loc d ↦{fullShare} m (a3Loc d)) ∗ (a4Loc d ↦{fullShare} m (a4Loc d))))
      isplitr; · iexact Hctx
      isplitl [Hst]; · iexact Hst
      isplitl [Hb]; · iexact Hb
      isplitl [Ha0]; · iexact Ha0
      isplitl [Hv1]; · iexact Hv1
      isplitl [Hv2]; · iexact Hv2
      isplitl [Hv3]; · iexact Hv3
      isplitl [Hv4]; · iexact Hv4
      isplitl [Ha1]; · iexact Ha1
      isplitl [Ha2]; · iexact Ha2
      isplitl [Ha3]; · iexact Ha3
      iexact Ha4
    · iintro ⟨Hst, Ha0, -, Hv4, Ha1, Ha2, Ha3, Ha4⟩
      isplitl [Hst]; · iexact Hst
      isplitl [Ha0]; · iexact Ha0
      isplitl [Ha1]; · iexact Ha1
      isplitl [Ha2]; · iexact Ha2
      isplitl [Ha3]; · iexact Ha3
      isplitl [Ha4]; · iexact Ha4
      iexact Hv4
  isplitl [Hb]; · iexact Hb
  isplitl [Ha2 Ha3 Hv0 Hv1 HO]
  · rw [pre0_at]
    isplitl [Ha2]; · iexact Ha2
    isplitl [Ha3]; · iexact Ha3
    isplitl [Hv0]; · iexact Hv0
    isplitl [Hv1]; · iexact Hv1
    iexact HO
  isplitl [Hlev]; · iexact Hlev
  isplitl [Hcg]; · iexact Hcg
  iexact Htk

/-! ## The final assertion reads the claim off the final memory -/

def fq (d : Dev nD) (s' : Phys nD τ sig (Elt F)) : Prop :=
  s'.mem.mem (v4Loc d) = outv m d ∧ s'.mem.mem (a0Loc d) = m (a0Loc d) ∧ s'.mem.mem (a1Loc d) = m (a1Loc d) ∧ s'.mem.mem (a2Loc d) = m (a2Loc d)
    ∧ s'.mem.mem (a3Loc d) = m (a3Loc d) ∧ s'.mem.mem (a4Loc d) = m (a4Loc d)

omit [FloatOps F] in
/-- A buffer held whole at full share holds, in the state, what the points-to says. -/
theorem agree1 (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro ⟨HSI, H⟩
  ihave X := (persistent_entails_right (SI_pointsTo_agree (st := s') (ℓ := ℓ) (I := Finset.univ) (q := fullShare) (f := f))) $$ [HSI H]
  · isplitl [HSI] <;> iassumption
  icases X with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave X := (agree1 (F := F) s' (a0Loc d) _) $$ [HSI H0]; · isplitl [HSI] <;> iassumption
  icases X with ⟨%h0, HSI⟩
  ihave X := (agree1 (F := F) s' (a1Loc d) _) $$ [HSI H1]; · isplitl [HSI] <;> iassumption
  icases X with ⟨%h1, HSI⟩
  ihave X := (agree1 (F := F) s' (a2Loc d) _) $$ [HSI H2]; · isplitl [HSI] <;> iassumption
  icases X with ⟨%h2, HSI⟩
  ihave X := (agree1 (F := F) s' (a3Loc d) _) $$ [HSI H3]; · isplitl [HSI] <;> iassumption
  icases X with ⟨%h3, HSI⟩
  ihave X := (agree1 (F := F) s' (a4Loc d) _) $$ [HSI H4]; · isplitl [HSI] <;> iassumption
  icases X with ⟨%h4, HSI⟩
  ihave X := (agree1 (F := F) s' (v4Loc d) _) $$ [HSI H5]; · isplitl [HSI] <;> iassumption
  icases X with ⟨%h5, -⟩
  ipureintro; exact ⟨h5, h0, h1, h2, h3, h4⟩

/-! ## The launch element -/

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => Gd (F := F) d)
        ∗ bigSep Finset.univ fun thr : Thread nD τ => bigSep Finset.univ fun q : Fin 1 => (P (U := UU) m (Pcv m) (Icv m)).x q thr) := by
  refine (ghost_split (F := F)).trans (fupd_mono ?_)
  iintro ⟨HH, HG⟩
  isplitl [HH]; · iexact HH
  isplitl [HG]; · iexact HG
  rw [show (bigSep Finset.univ fun thr : Thread nD τ => bigSep Finset.univ fun q : Fin 1 => (P (U := UU) (F := F) m (Pcv m) (Icv m)).x q thr) = bigSep Finset.univ fun _ => iprop(emp) from
    bigSep_congr fun _ _ => bigSep_univ_of_subsingleton (0 : Fin 1), bigSep_emp']
  iempintro

/-! ## The run -/

/-- The post of the run: the result at its pure term, the five arguments unchanged. -/
def QC : PUnit × MemSt nD τ sig (Elt F) → Prop := fun r => ∀ c : Dev nD,
  r.2.mem (v4Loc c) = outv m c ∧ r.2.mem (a0Loc c) = m (a0Loc c) ∧ r.2.mem (a1Loc c) = m (a1Loc c) ∧ r.2.mem (a2Loc c) = m (a2Loc c)
    ∧ r.2.mem (a3Loc c) = m (a3Loc c) ∧ r.2.mem (a4Loc c) = m (a4Loc c)

theorem run_main [∀ e, Nonempty (Elt F e)] (hbody : BodyStmt (U := UU) m (Pcv m) (Icv m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH (F := F)) (P := P (U := UU) m (Pcv m) (Icv m)) facts v₀
    (fun q hq => match q with | 0 => nomatch hq)
    (fun q _ => match q with | 0 => tileObl m (Pcv m) (Icv m) hbody)
    (fun q _ => match q with | 0 => SparseCore.Cfg.VecSplit.of_plain (vecSplit m (Pcv m) (Icv m)))
    m ρ main (Gd (F := F)) (FIN m) (u₀ (F := F)) (sep_elim_left.trans (hu₀ m)) (hmain m ρ) (fq m) (hfin m) (QC m) (fun _ h => h)

end Cert.Proof.KB.Main

end
-- ==== Proof.KernelClaimsB.lean ====
/-
  The word-level program's frame claim, in the claim's own spelling: under the precondition the word ids are rows of the table,
  so every worker's task is the one proved, and the whole program's run ends with the five arguments as launched.
-/
import proofs.«207285_g25512105738892_cont_9to1_353_29_alg».proof.Defs
import proofs.«207285_g25512105738892_cont_9to1_353_29_alg».proof.Proof.KB.Main
import proofs.«207285_g25512105738892_cont_9to1_353_29_alg».proof.Proof.PreIds
import proofs.«207285_g25512105738892_cont_9to1_353_29_alg».proof.Proof.Gen.Pre_input_domain

noncomputable section

namespace Cert.Proof.KernelClaimsB

open Cert.Kernel Cert.Kernel.Gen Idealize.ShloMosaic Idealize.ShloMosaic.TcCoe Idealize.SL.Sem
open Cert.Proof.KB.Res Cert.Proof.KB.MainTail Cert.Proof.KB.LaunchSC Cert.Proof.KB.Main

/-- One worker's task of the word-level program, for any contents of the table and any regrouped ids that are rows of the
    table: what the proof of the SparseCore kernel's body provides. -/
abbrev TileStmt : Prop :=
  ∀ (m : (ℓ : Loc nD τ sig) → Buf (Elt Bits) ℓ) (Pc : (d : Dev nD) → Buf (Elt Bits) (tLoc d)) (Ic : (d : Dev nD) → Buf (Elt Bits) (iLoc d)),
    (∀ d j, (Ic d j).toNat < 100000) → BodyStmt (U := Cert.Proof.KB.Ghost.UU) m Pc Ic

/-- Every entry of the regrouped ids is an entry of the ids. -/
theorem hIc_of_ids {F : FTy → Type} [FloatOps F] (m : (ℓ : Loc nD τ sig) → Buf (Elt F) ℓ) (d : Dev nD)
    (h : ∀ j, (m (a0Loc d) j).toNat < 100000) : ∀ j, (Icv m d j).toNat < 100000 :=
  fun j => h (Shape.reshapeEquiv shapeCasts_S1024x200_S32x100x64 j)

/-- Under the precondition the regrouped ids are rows of the table. -/
theorem hIc_of_pre (m : (ℓ : Loc nD τ sig) → Buf (Elt Bits) ℓ)
    (hpre : Cert.Pre_Kernel (hPre_input_domain := Cert.Pre_input_domain.Gen.facts) m) :
    ∀ d j, (Icv m d j).toNat < 100000 :=
  fun d => hIc_of_ids m d (Cert.Proof.PreIds.ids_lt (F := Bits) _ _ _ _ _ (hpre d))

/-- The word-level program runs and its arguments end unchanged. -/
theorem frame_k (hTile : TileStmt) :
    Cert.frame_Kernel (hKernel := Cert.Kernel.Gen.facts) (hPre_input_domain := Cert.Pre_input_domain.Gen.facts) :=
  fun m g hpre => (θ_run _ _ _).mono (fun _ h c => (h c).2)
    (run_main (F := Bits) m g (hTile m (Pcv m) (Icv m) (hIc_of_pre m hpre)))

end Cert.Proof.KernelClaimsB

end
-- ==== Proof.KI.TileViews.lean ====
/-
  The pieces a vector subcore's task addresses, spelt as its program slices them, and the element sets they are.

  The task keeps the ids' scratch (100 rows of 64 words) by rows, the ring (10 slots of 64 x 128) by slots, and its block of
  the result (100 chunks of 64 x 128) by chunks. Each piece is named here twice: as the memref the program forms (a unit
  rectangle of the whole array at an offset function, squeezed), which is what a transfer's rule reads, and as a set of
  indices picked out by its leading coordinates, which is what the pieces are split and joined by.
-/
import proofs.«207285_g25512105738892_cont_9to1_353_29_alg».proof.Proof.KI.Res
import proofs.«207285_g25512105738892_cont_9to1_353_29_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.Tactic

noncomputable section

namespace Cert.Proof.KI.Tile

open Cert.KernelIdeal Cert.KernelIdeal.Gen
open Cert.Proof.KI.Res

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type}

/-! ## The arrays and the pieces, as the program addresses them -/

abbrev tV : Memref sig .scVector .hbm S100000x128 .f32 := Memref.whole main_v1_scv
abbrev iV : Memref sig .scVector .hbm S32x100x64 .i32 := Memref.whole main_v2_scv
abbrev oV : Memref sig .scVector .hbm S32x100x64x128 .f32 := Memref.whole main_v3_scv
abbrev xV : Memref sig .scVector .vmem S100x64 .i32 := Memref.whole cc1_scratch0
abbrev bV : Memref sig .scVector .vmem S10x64x128 .f32 := Memref.whole cc1_scratch1

/-- The whole table, as every gather names its source. -/
abbrev tAll : Memref sig .scVector .hbm S100000x128 .f32 :=
  (tV).slice (Rect.unit (s := S100000x128) ![0, 0] S100000x128.size inb_S100000x128_S100000x128_0_0) (fun _ => rfl)
/-- The worker's row of the ids. -/
abbrev iRowK (L : grid1.Coords) : Memref sig .scVector .hbm S100x64 .i32 :=
  ((iV).slice (Rect.unit (s := S32x100x64) (k1_off1 L) S1x100x64.size (k1_off1_inb L)) (fun _ => rfl)).squeeze S100x64 squeezes_S1x100x64_S100x64
/-- A row of the ids' scratch at an offset function. -/
abbrev rowM (off : Fin 2 → Nat) (h : ∀ a, off a + S1x64.size a ≤ S100x64.size a) : Memref sig .scVector .vmem S64 .i32 :=
  ((xV).slice (Rect.unit (s := S100x64) off S1x64.size h) (fun _ => rfl)).squeeze S64 squeezes_S1x64_S64
/-- A slot of the ring at an offset function. -/
abbrev slotM (off : Fin 3 → Nat) (h : ∀ a, off a + S1x64x128.size a ≤ S10x64x128.size a) : Memref sig .scVector .vmem S64x128 .f32 :=
  ((bV).slice (Rect.unit (s := S10x64x128) off S1x64x128.size h) (fun _ => rfl)).squeeze S64x128 squeezes_S1x64x128_S64x128
/-- A chunk of the result at an offset function. -/
abbrev chunkM (off : Fin 4 → Nat) (h : ∀ a, off a + S1x1x64x128.size a ≤ S32x100x64x128.size a) : Memref sig .scVector .hbm S64x128 .f32 :=
  ((oV).slice (Rect.unit (s := S32x100x64x128) off S1x1x64x128.size h) (fun _ => rfl)).squeeze S64x128 squeezes_S1x1x64x128_S64x128

/-! ## The same pieces as sets of indices -/

/-- A row of the ids' scratch, by its number. -/
def rowSet (j : ℕ) : Finset S100x64.Idx := Finset.univ.filter fun x => (x 0).val = j
/-- A slot of the ring, by its number. -/
def slotSet (b : ℕ) : Finset S10x64x128.Idx := Finset.univ.filter fun x => (x 0).val = b
/-- A chunk of a worker's block of the result, by the worker's and the chunk's numbers. -/
def chunkSet (w j : ℕ) : Finset S32x100x64x128.Idx := Finset.univ.filter fun x => (x 0).val = w ∧ (x 1).val = j

theorem set_rowM (off : Fin 2 → Nat) (h : ∀ a, off a + S1x64.size a ≤ S100x64.size a) (j : ℕ) (hoff : off = ![j, 0]) :
    (rowM off h).view.set = rowSet j := by
  subst hoff
  show (((View.whole (cc1_scratch0 : Ref sig .scVector)).slice (Rect.unit (s := S100x64) ![j, 0] S1x64.size h)).reshape S64 squeezes_S1x64_S64.numel_eq).set = _
  rw [View.set_reshape, View.set_slice_whole]
  ext x
  simp only [Rect.mem_set_unit, rowSet, Finset.mem_filter, Finset.mem_univ, true_and]
  have h1 : (x 1 : ℕ) < 64 := (x 1).isLt
  constructor
  · intro hx
    have h0 := hx (0 : Fin 2)
    have a' : j ≤ (x 0 : ℕ) := h0.1
    have b' : (x 0 : ℕ) < j + 1 := h0.2
    omega
  · intro e a
    match a with
    | (0 : Fin 2) => exact ⟨show j ≤ (x 0 : ℕ) by omega, show (x 0 : ℕ) < j + 1 by omega⟩
    | (1 : Fin 2) => exact ⟨Nat.zero_le _, show (x 1 : ℕ) < 0 + 64 by omega⟩

theorem set_slotM (off : Fin 3 → Nat) (h : ∀ a, off a + S1x64x128.size a ≤ S10x64x128.size a) (b : ℕ) (hoff : off = ![b, 0, 0]) :
    (slotM off h).view.set = slotSet b := by
  subst hoff
  show (((View.whole (cc1_scratch1 : Ref sig .scVector)).slice (Rect.unit (s := S10x64x128) ![b, 0, 0] S1x64x128.size h)).reshape S64x128 squeezes_S1x64x128_S64x128.numel_eq).set = _
  rw [View.set_reshape, View.set_slice_whole]
  ext x
  simp only [Rect.mem_set_unit, slotSet, Finset.mem_filter, Finset.mem_univ, true_and]
  have h1 : (x 1 : ℕ) < 64 := (x 1).isLt
  have h2 : (x 2 : ℕ) < 128 := (x 2).isLt
  constructor
  · intro hx
    have h0 := hx (0 : Fin 3)
    have a' : b ≤ (x 0 : ℕ) := h0.1
    have c' : (x 0 : ℕ) < b + 1 := h0.2
    omega
  · intro e a
    match a with
    | (0 : Fin 3) => exact ⟨show b ≤ (x 0 : ℕ) by omega, show (x 0 : ℕ) < b + 1 by omega⟩
    | (1 : Fin 3) => exact ⟨Nat.zero_le _, show (x 1 : ℕ) < 0 + 64 by omega⟩
    | (2 : Fin 3) => exact ⟨Nat.zero_le _, show (x 2 : ℕ) < 0 + 128 by omega⟩

theorem set_chunkM (off : Fin 4 → Nat) (h : ∀ a, off a + S1x1x64x128.size a ≤ S32x100x64x128.size a) (w j : ℕ) (hoff : off = ![w, j, 0, 0]) :
    (chunkM off h).view.set = chunkSet w j := by
  subst hoff
  show (((View.whole (main_v3_scv : Ref sig .scVector)).slice (Rect.unit (s := S32x100x64x128) ![w, j, 0, 0] S1x1x64x128.size h)).reshape S64x128 squeezes_S1x1x64x128_S64x128.numel_eq).set = _
  rw [View.set_reshape, View.set_slice_whole]
  ext x
  simp only [Rect.mem_set_unit, chunkSet, Finset.mem_filter, Finset.mem_univ, true_and]
  have h2 : (x 2 : ℕ) < 64 := (x 2).isLt
  have h3 : (x 3 : ℕ) < 128 := (x 3).isLt
  constructor
  · intro hx
    have h0 := hx (0 : Fin 4)
    have h1 := hx (1 : Fin 4)
    have a' : w ≤ (x 0 : ℕ) := h0.1
    have c' : (x 0 : ℕ) < w + 1 := h0.2
    have a2' : j ≤ (x 1 : ℕ) := h1.1
    have c2' : (x 1 : ℕ) < j + 1 := h1.2
    omega
  · rintro ⟨e, e2⟩ a
    match a with
    | (0 : Fin 4) => exact ⟨show w ≤ (x 0 : ℕ) by omega, show (x 0 : ℕ) < w + 1 by omega⟩
    | (1 : Fin 4) => exact ⟨show j ≤ (x 1 : ℕ) by omega, show (x 1 : ℕ) < j + 1 by omega⟩
    | (2 : Fin 4) => exact ⟨Nat.zero_le _, show (x 2 : ℕ) < 0 + 64 by omega⟩
    | (3 : Fin 4) => exact ⟨Nat.zero_le _, show (x 3 : ℕ) < 0 + 128 by omega⟩

end Cert.Proof.KI.Tile

end
-- ==== Proof.KI.TileInv.lean ====
/-
  What a vector subcore's task holds between two trips of its counted loop, and the canonical contents of its pieces.

  The contents are functions of the table's contents Pc and the ids' contents Ic alone:
  the ids' scratch holds the worker's row of the ids (idxC); a slot that chunk j was gathered into holds, at (l, p), entry p of
  the table's row named by id (w, j, l) (slotC j); a chunk of the result that was copied out holds outArr.
  Before trip n of the loop (n = 0 .. 8), with g = n + 1:
    six gathers are in flight, chunks 10 g .. 10 g + 5 into slots 0 .. 5 (each holding its slot, its row of the ids' scratch
    and its read token of the table), four copies out are in flight, chunks 10 g - 4 .. 10 g - 1 from slots 6 .. 9 (each holding
    its chunk and its slot); rows 10 g + 6 .. 99 of the ids' scratch are still to be lent and rows 0 .. 10 g - 1 are back;
    chunks 10 g .. 99 of the result are untouched and chunks 0 .. 10 g - 5 are written.
-/
import proofs.«207285_g25512105738892_cont_9to1_353_29_alg».proof.Proof.KI.TileViews

noncomputable section

namespace Cert.Proof.KI.Tile

open Cert.KernelIdeal Cert.KernelIdeal.Gen
open Cert.Proof.KI.Res

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]
variable {U : Type} [URA U] [CountersIn U]

local notation "𝕄" => MT nD τ sig (HIx 1) (Elt F) ℕ U ℕ

/-! ## Canonical contents -/

/-- Chunk number j as an index of the chunk axis (total in j). -/
def jF (j : ℕ) : Fin 100 := ⟨j % 100, Nat.mod_lt _ (by decide)⟩

variable (m : (ℓ : Loc nD τ sig) → Buf (Elt F) ℓ)
variable (Pc : (d : Dev nD) → Buf (Elt F) (tLoc d)) (Ic : (d : Dev nD) → Buf (Elt F) (iLoc d))
variable (d : Dev nD) (L : grid1.Coords)

/-- The ids' scratch once the worker's row of the ids has landed in it. -/
def idxC : Buf (Elt F) ((V d (cV L) (jV L)).loc cc1_scratch0) :=
  fun (x : S100x64.Idx) => Ic d (ix3 (widL L) (x 0) (x 1))

/-- A slot of the ring once chunk j has been gathered into it (the slot's number does not matter). -/
def slotC (j : ℕ) : Buf (Elt F) ((V d (cV L) (jV L)).loc cc1_scratch1) :=
  fun (y : S10x64x128.Idx) => Pc d (ix2 (Cert.Proof.Spec.row (Ic d (ix3 (widL L) (jF j) (y 1)))) (y 2))

/-! ## The pieces -/

/-- Row j of the ids' scratch. -/
def rowP (j : ℕ) : sProp 𝕄 := (V d (cV L) (jV L)).loc cc1_scratch0 ↦[rowSet j]{fullShare} idxC Ic d L
/-- Chunk j of the worker's block of the result, untouched. -/
def chunkP0 (j : ℕ) : sProp 𝕄 := oLoc d ↦[chunkSet (widL L).val j]{fullShare} m (oLoc d)
/-- Chunk j of the worker's block of the result, written. -/
def chunkP1 (j : ℕ) : sProp 𝕄 := oLoc d ↦[chunkSet (widL L).val j]{fullShare} outArr (Pc d) (Ic d)

/-- A gather in flight on a cell: chunk j into the slot at offS, by row j of the ids' scratch, reading the table at the read share q. -/
def gFl (sem : DmaSem sig) (offS : Fin 3 → Nat) (hS : ∀ a, offS a + S1x64x128.size a ≤ S10x64x128.size a) (q : PosShare TreeShare) (j : ℕ) : sProp 𝕄 :=
  Transfers.Flight countersEmb (V d (cV L) (jV L)) (SemLoc.dma sem) (default : HIx 1) 262144
    iprop((((slotM offS hS).view.loc (V d (cV L) (jV L)) ↦[(slotM offS hS).view.set]{fullShare} slotC Pc Ic d L j)
        ∗ ((xV).view.loc (V d (cV L) (jV L)) ↦[rowSet j]{fullShare} idxC Ic d L))
      ∗ ((tAll).view.loc (V d (cV L) (jV L)) ↦[(tAll).view.set]{q} Pc d))

/-- What a read share leaves behind while its gather flies: nothing of the table, under that share. -/
def tkRest (q : PosShare TreeShare) : sProp 𝕄 := (tV).view.loc (V d (cV L) (jV L)) ↦[Finset.univ \ (tAll).view.set]{q} Pc d
/-- A read share of the table, whole. -/
def tkWhole (q : PosShare TreeShare) : sProp 𝕄 := (tV).view.loc (V d (cV L) (jV L)) ↦{q} Pc d

/-- A copy out in flight on a cell: the slot at offS, holding chunk j gathered, into chunk j of the result. -/
def oFl (sem : DmaSem sig) (offS : Fin 3 → Nat) (hS : ∀ a, offS a + S1x64x128.size a ≤ S10x64x128.size a) (j : ℕ) : sProp 𝕄 :=
  Transfers.Flight countersEmb (V d (cV L) (jV L)) (SemLoc.dma sem) (default : HIx 1) 262144
    iprop((oLoc d ↦[chunkSet (widL L).val j]{fullShare} outArr (Pc d) (Ic d))
      ∗ ((slotM offS hS).view.loc (V d (cV L) (jV L)) ↦[(slotM offS hS).view.set]{fullShare} slotC Pc Ic d L j))

/-- Ten read shares of the table that together are the worker's read tokens 6 .. 15 (which share flies with which slot changes
    from trip to trip; only their sum matters). -/
def TokJoin (q0 q1 q2 q3 q4 q5 q6 q7 q8 q9 : PosShare TreeShare) : Prop :=
  ∀ f : Buf (Elt F) (tLoc d),
    (iprop((tLoc d ↦{q0} f) ∗ (tLoc d ↦{q1} f) ∗ (tLoc d ↦{q2} f) ∗ (tLoc d ↦{q3} f) ∗ (tLoc d ↦{q4} f) ∗ (tLoc d ↦{q5} f)
        ∗ (tLoc d ↦{q6} f) ∗ (tLoc d ↦{q7} f) ∗ (tLoc d ↦{q8} f) ∗ (tLoc d ↦{q9} f)) : sProp 𝕄)
      ⊢ iprop((tLoc d ↦{shareTokN (tq (widL L)) 6} f) ∗ (tLoc d ↦{shareTokN (tq (widL L)) 7} f) ∗ (tLoc d ↦{shareTokN (tq (widL L)) 8} f)
        ∗ (tLoc d ↦{shareTokN (tq (widL L)) 9} f) ∗ (tLoc d ↦{shareTokN (tq (widL L)) 10} f) ∗ (tLoc d ↦{shareTokN (tq (widL L)) 11} f)
        ∗ (tLoc d ↦{shareTokN (tq (widL L)) 12} f) ∗ (tLoc d ↦{shareTokN (tq (widL L)) 13} f) ∗ (tLoc d ↦{shareTokN (tq (widL L)) 14} f)
        ∗ (tLoc d ↦{shareTokN (tq (widL L)) 15} f))

variable (O : CellTallies nD τ sig (HIx 1)) (W : Waits sig (HIx 1))

/-- The loop's invariant before trip n. -/
def inv (n : ℕ) (_ : Unit) : sProp 𝕄 :=
  iprop(∃ q0 q1 q2 q3 q4 q5 q6 q7 q8 q9 : PosShare TreeShare, ⌜TokJoin (F := F) (U := U) d L q0 q1 q2 q3 q4 q5 q6 q7 q8 q9⌝
    ∗ Transfers.MayWaits (V d (cV L) (jV L)) (default : HIx 1) O
    ∗ gFl Pc Ic d L cc1_scratch2.sem ![0, 0, 0] inb_S10x64x128_S1x64x128_0_0_0 q0 (10 * n + 10)
    ∗ gFl Pc Ic d L cc1_scratch3.sem ![1, 0, 0] inb_S10x64x128_S1x64x128_1_0_0 q1 (10 * n + 10 + 1)
    ∗ gFl Pc Ic d L cc1_scratch4.sem ![2, 0, 0] inb_S10x64x128_S1x64x128_2_0_0 q2 (10 * n + 10 + 2)
    ∗ gFl Pc Ic d L cc1_scratch5.sem ![3, 0, 0] inb_S10x64x128_S1x64x128_3_0_0 q3 (10 * n + 10 + 3)
    ∗ gFl Pc Ic d L cc1_scratch6.sem ![4, 0, 0] inb_S10x64x128_S1x64x128_4_0_0 q4 (10 * n + 10 + 4)
    ∗ gFl Pc Ic d L cc1_scratch7.sem ![5, 0, 0] inb_S10x64x128_S1x64x128_5_0_0 q5 (10 * n + 10 + 5)
    ∗ tkRest Pc d L q0 ∗ tkRest Pc d L q1 ∗ tkRest Pc d L q2 ∗ tkRest Pc d L q3 ∗ tkRest Pc d L q4 ∗ tkRest Pc d L q5
    ∗ tkWhole Pc d L q6 ∗ tkWhole Pc d L q7 ∗ tkWhole Pc d L q8 ∗ tkWhole Pc d L q9
    ∗ oFl Pc Ic d L cc1_scratch18.sem ![6, 0, 0] inb_S10x64x128_S1x64x128_6_0_0 (10 * n + 6)
    ∗ oFl Pc Ic d L cc1_scratch19.sem ![7, 0, 0] inb_S10x64x128_S1x64x128_7_0_0 (10 * n + 6 + 1)
    ∗ oFl Pc Ic d L cc1_scratch20.sem ![8, 0, 0] inb_S10x64x128_S1x64x128_8_0_0 (10 * n + 6 + 2)
    ∗ oFl Pc Ic d L cc1_scratch21.sem ![9, 0, 0] inb_S10x64x128_S1x64x128_9_0_0 (10 * n + 6 + 3)
    ∗ semVal (V d (cV L) (jV L), SemLoc.dma cc1_scratch8.sem) 0 ∗ semVal (V d (cV L) (jV L), SemLoc.dma cc1_scratch9.sem) 0
    ∗ semVal (V d (cV L) (jV L), SemLoc.dma cc1_scratch10.sem) 0 ∗ semVal (V d (cV L) (jV L), SemLoc.dma cc1_scratch11.sem) 0
    ∗ semVal (V d (cV L) (jV L), SemLoc.dma cc1_scratch12.sem) 0 ∗ semVal (V d (cV L) (jV L), SemLoc.dma cc1_scratch13.sem) 0
    ∗ semVal (V d (cV L) (jV L), SemLoc.dma cc1_scratch14.sem) 0 ∗ semVal (V d (cV L) (jV L), SemLoc.dma cc1_scratch15.sem) 0
    ∗ semVal (V d (cV L) (jV L), SemLoc.dma cc1_scratch16.sem) 0 ∗ semVal (V d (cV L) (jV L), SemLoc.dma cc1_scratch17.sem) 0
    ∗ bigSep (Finset.Ico (10 * n + 16) 100) (rowP Ic d L) ∗ bigSep (Finset.range (10 * n + 10)) (rowP Ic d L)
    ∗ bigSep (Finset.Ico (10 * n + 10) 100) (chunkP0 m d L) ∗ bigSep (Finset.range (10 * n + 6)) (chunkP1 Pc Ic d L)
    ∗ ∃ W', ⌜∀ p ∈ W', p ∈ W ∨ p.2 = none⌝ ∗ owes (V d (cV L) (jV L)) O W')

/-! ## Taking pieces out of a run of consecutive pieces, and putting them back -/

omit [FloatOps F] [CountersIn U] in
theorem bigSep_Ico_take (R : ℕ → sProp 𝕄) {a c : ℕ} (h : a < c) :
    bigSep (Finset.Ico a c) R = iprop(R a ∗ bigSep (Finset.Ico (a + 1) c) R) := by
  have e : Finset.Ico a c = insert a (Finset.Ico (a + 1) c) := by
    ext x; simp only [Finset.mem_Ico, Finset.mem_insert]; omega
  rw [e, bigSep_insert (by simp)]
  rfl

omit [FloatOps F] [CountersIn U] in
theorem bigSep_range_put (R : ℕ → sProp 𝕄) (a : ℕ) :
    bigSep (Finset.range (a + 1)) R = iprop(R a ∗ bigSep (Finset.range a) R) := by
  rw [Finset.range_add_one, bigSep_insert Finset.notMem_range_self]
  rfl

omit [FloatOps F] [CountersIn U] in
/-- Ten consecutive pieces out of a run. -/
theorem bigSep_Ico_take10 (R : ℕ → sProp 𝕄) {a c : ℕ} (h : a + 10 ≤ c) :
    bigSep (Finset.Ico a c) R = iprop(R a ∗ R (a + 1) ∗ R (a + 2) ∗ R (a + 3) ∗ R (a + 4) ∗ R (a + 5) ∗ R (a + 6) ∗ R (a + 7) ∗ R (a + 8) ∗ R (a + 9)
      ∗ bigSep (Finset.Ico (a + 10) c) R) := by
  rw [bigSep_Ico_take R (a := a) (by omega), bigSep_Ico_take R (a := a + 1) (by omega), bigSep_Ico_take R (a := a + 2) (by omega),
    bigSep_Ico_take R (a := a + 3) (by omega), bigSep_Ico_take R (a := a + 4) (by omega), bigSep_Ico_take R (a := a + 5) (by omega),
    bigSep_Ico_take R (a := a + 6) (by omega), bigSep_Ico_take R (a := a + 7) (by omega), bigSep_Ico_take R (a := a + 8) (by omega),
    bigSep_Ico_take R (a := a + 9) (by omega)]

omit [FloatOps F] [CountersIn U] in
/-- Ten consecutive pieces onto a run from zero. -/
theorem bigSep_range_put10 (R : ℕ → sProp 𝕄) (a : ℕ) :
    bigSep (Finset.range (a + 10)) R = iprop(R (a + 9) ∗ R (a + 8) ∗ R (a + 7) ∗ R (a + 6) ∗ R (a + 5) ∗ R (a + 4) ∗ R (a + 3) ∗ R (a + 2) ∗ R (a + 1) ∗ R a
      ∗ bigSep (Finset.range a) R) := by
  rw [bigSep_range_put R (a + 9), bigSep_range_put R (a + 8), bigSep_range_put R (a + 7), bigSep_range_put R (a + 6), bigSep_range_put R (a + 5),
    bigSep_range_put R (a + 4), bigSep_range_put R (a + 3), bigSep_range_put R (a + 2), bigSep_range_put R (a + 1), bigSep_range_put R a]

/-! ## A trip's bookkeeping of the runs -/

omit [FloatOps F] [CountersIn U] in
theorem run_done_step (R : ℕ → sProp 𝕄) (a a' : ℕ) (h : a' = a + 10) :
    iprop(R (a + 9) ∗ R (a + 8) ∗ R (a + 7) ∗ R (a + 6) ∗ R (a + 5) ∗ R (a + 4) ∗ R (a + 3) ∗ R (a + 2) ∗ R (a + 1) ∗ R a
      ∗ bigSep (Finset.range a) R) = bigSep (Finset.range a') R := by
  subst h; rw [bigSep_range_put10]

omit [FloatOps F] [CountersIn U] in
theorem run_fresh_step (R : ℕ → sProp 𝕄) (a a' c : ℕ) (h : a' = a) :
    bigSep (Finset.Ico a c) R = bigSep (Finset.Ico a' c) R := by
  subst h; rfl

omit [FloatOps F] [CountersIn U] in
theorem vec2_congr {a b : ℕ} (h : a = b) : (![a, 0] : Fin 2 → ℕ) = ![b, 0] := by rw [h]
omit [FloatOps F] [CountersIn U] in
theorem vec4_congr {w a b : ℕ} (h : a = b) : (![w, a, 0, 0] : Fin 4 → ℕ) = ![w, b, 0, 0] := by rw [h]

/-! ## The pieces in the program's spelling -/

omit [FloatOps F] [CountersIn U] in
/-- A row of the ids' scratch, as the memref at an offset function that names it. -/
theorem row_conv (off : Fin 2 → Nat) (h : ∀ a, off a + S1x64.size a ≤ S100x64.size a) (j : ℕ) (hj : off = ![j, 0])
    (f : Buf (Elt F) ((V d (cV L) (jV L)).loc cc1_scratch0)) :
    ((V d (cV L) (jV L)).loc cc1_scratch0 ↦[rowSet j]{fullShare} f : sProp 𝕄)
      = (rowM off h).view.loc (V d (cV L) (jV L)) ↦[(rowM off h).view.set]{fullShare} f := by
  rw [set_rowM off h j hj]

omit [FloatOps F] [CountersIn U] in
/-- A chunk of the result, as the memref at an offset function that names it. -/
theorem chunk_conv (off : Fin 4 → Nat) (h : ∀ a, off a + S1x1x64x128.size a ≤ S32x100x64x128.size a) (w j : ℕ) (hj : off = ![w, j, 0, 0])
    (f : Buf (Elt F) (oLoc d)) :
    (oLoc d ↦[chunkSet w j]{fullShare} f : sProp 𝕄)
      = (chunkM off h).view.loc (V d (cV L) (jV L)) ↦[(chunkM off h).view.set]{fullShare} f := by
  rw [set_chunkM off h w j hj]

omit [FloatOps F] in
theorem off15_at (k : Fin k1_t1_loop.trips) (r : Fin 10) : k1_off15 k (BitVec.ofNat 32 r.val) = ![10 * k.val + 16 + r.val, 0] := by
  rw [k1_off15_eq]; congr 1; omega
omit [FloatOps F] in
theorem off13_at (k : Fin k1_t1_loop.trips) (r : Fin 10) :
    k1_off13 L k (BitVec.ofNat 32 r.val) = ![(widL L).val, 10 * k.val + 10 + r.val, 0, 0] := by
  rw [k1_off13_eq, widL_val]; congr 2; omega

/-! ## The ids are rows of the table -/

/-- Every word a gather reads off a row of the ids' scratch names a row of the table. -/
theorem hin_of (hIc : ∀ (d : Dev nD) (j : S32x100x64.Idx), (Ic d j).toNat < 100000)
    (off : Fin 2 → Nat) (h : ∀ a, off a + S1x64.size a ≤ S100x64.size a) (x : S64.Idx) :
    ((rowM off h).view.read (Elt F) (idxC Ic d L) x).toNat < S100000x128.size gathers_S100000x128_S64x128.axis := by
  rw [show (rowM off h).view.read (Elt F) (idxC Ic d L) x = idxC Ic d L ((rowM off h).view.emb x) from (View.read_apply _ _).trans (cast_eq _ _)]
  exact hIc d _

end Cert.Proof.KI.Tile

end
-- ==== Proof.KI.TilePieces.lean ====
/-
  A worker's pieces split and joined: its block of the result is its 100 chunks, the ids' scratch its 100 rows, the ring its
  10 slots — each a disjoint cover by the leading coordinates.
-/
import proofs.«207285_g25512105738892_cont_9to1_353_29_alg».proof.Proof.KI.TileViews
import proofs.«207285_g25512105738892_cont_9to1_353_29_alg».proof.Proof.KI.Split

noncomputable section

namespace Cert.Proof.KI.Tile

open Cert.KernelIdeal Cert.KernelIdeal.Gen Cert.Proof.KI.Res

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} {U : Type} [URA U]

local notation "𝕄" => MT nD τ sig (HIx 1) (Elt F) ℕ U ℕ

/-- A worker's block of the result is the entries whose first coordinate is the worker. -/
theorem mem_oRowSet (w : Fin 32) (x : S32x100x64x128.Idx) : x ∈ oRowSet w ↔ (x 0).val = w.val := by
  rw [Cert.Proof.KI.Split.oRowSet_eq]
  unfold orow Rect.part Rect.block
  rw [Rect.mem_set_unit]
  have h1 : (x 1 : ℕ) < 100 := (x 1).isLt
  have h2 : (x 2 : ℕ) < 64 := (x 2).isLt
  have h3 : (x 3 : ℕ) < 128 := (x 3).isLt
  constructor
  · intro hx
    have h0 := hx (0 : Fin 4)
    simp [Shape.partIx, Shape.partSize] at h0
    omega
  · intro e a
    match a with
    | (0 : Fin 4) => simp [Shape.partIx, Shape.partSize]; omega
    | (1 : Fin 4) => simp [Shape.partIx, Shape.partSize]; omega
    | (2 : Fin 4) => simp [Shape.partIx, Shape.partSize]; omega
    | (3 : Fin 4) => simp [Shape.partIx, Shape.partSize]; omega

theorem chunks_cover (w : Fin 32) : (Finset.univ : Finset (Fin 100)).biUnion (fun j => chunkSet w.val j.val) = oRowSet w := by
  ext x
  simp only [Finset.mem_biUnion, Finset.mem_univ, true_and, chunkSet, Finset.mem_filter, mem_oRowSet]
  constructor
  · rintro ⟨j, h, -⟩; exact h
  · intro h; exact ⟨⟨(x 1).val, (x 1).isLt⟩, h, rfl⟩
theorem chunks_disjoint (w : ℕ) : ∀ i ∈ (Finset.univ : Finset (Fin 100)), ∀ j ∈ (Finset.univ : Finset (Fin 100)), i ≠ j → Disjoint (chunkSet w i.val) (chunkSet w j.val) := by
  intro i _ j _ hij
  rw [Finset.disjoint_left]
  intro x hx hx'
  simp only [chunkSet, Finset.mem_filter, Finset.mem_univ, true_and] at hx hx'
  exact hij (Fin.ext (hx.2.symm.trans hx'.2))

theorem rows_cover : (Finset.univ : Finset (Fin 100)).biUnion (fun j => rowSet j.val) = Finset.univ := by
  ext x
  simp only [Finset.mem_biUnion, Finset.mem_univ, true_and, rowSet, Finset.mem_filter, iff_true]
  exact ⟨⟨(x 0).val, (x 0).isLt⟩, rfl⟩
theorem rows_disjoint : ∀ i ∈ (Finset.univ : Finset (Fin 100)), ∀ j ∈ (Finset.univ : Finset (Fin 100)), i ≠ j → Disjoint (rowSet i.val) (rowSet j.val) := by
  intro i _ j _ hij
  rw [Finset.disjoint_left]
  intro x hx hx'
  simp only [rowSet, Finset.mem_filter, Finset.mem_univ, true_and] at hx hx'
  exact hij (Fin.ext (hx.symm.trans hx'))

theorem slots_cover : (Finset.univ : Finset (Fin 10)).biUnion (fun b => slotSet b.val) = Finset.univ := by
  ext x
  simp only [Finset.mem_biUnion, Finset.mem_univ, true_and, slotSet, Finset.mem_filter, iff_true]
  exact ⟨⟨(x 0).val, (x 0).isLt⟩, rfl⟩
theorem slots_disjoint : ∀ i ∈ (Finset.univ : Finset (Fin 10)), ∀ j ∈ (Finset.univ : Finset (Fin 10)), i ≠ j → Disjoint (slotSet i.val) (slotSet j.val) := by
  intro i _ j _ hij
  rw [Finset.disjoint_left]
  intro x hx hx'
  simp only [slotSet, Finset.mem_filter, Finset.mem_univ, true_and] at hx hx'
  exact hij (Fin.ext (hx.symm.trans hx'))

/-- A worker's block of the result, held at one whole-array function, is its 100 chunks held at it. -/
theorem oRow_chunks (d : Dev nD) (w : Fin 32) (f : Buf (Elt F) (oLoc d)) :
    (oLoc d ↦[oRowSet w]{fullShare} f : sProp 𝕄) = bigSep Finset.univ fun j : Fin 100 => oLoc d ↦[chunkSet w.val j.val]{fullShare} f := by
  rw [← pointsTo_biUnion Finset.univ (ℓ := oLoc d) (fun j : Fin 100 => chunkSet w.val j.val) (chunks_disjoint w.val), chunks_cover]

/-- The ids' scratch of a subcore is its 100 rows, -/
theorem xPts_rows (d : Dev nD) (c : Fin τ.nSC) (i : Fin τ.nSub) (f : Buf (Elt F) ((V d c i).loc cc1_scratch0)) :
    ((V d c i).loc cc1_scratch0 ↦{fullShare} f : sProp 𝕄)
      = bigSep Finset.univ fun j : Fin 100 => (V d c i).loc cc1_scratch0 ↦[rowSet j.val]{fullShare} f := by
  rw [← pointsTo_biUnion Finset.univ (ℓ := (V d c i).loc cc1_scratch0) (fun j : Fin 100 => rowSet j.val) rows_disjoint, rows_cover]; try rfl
/-- and its ring the 10 slots. -/
theorem bPts_slots (d : Dev nD) (c : Fin τ.nSC) (i : Fin τ.nSub) (f : Buf (Elt F) ((V d c i).loc cc1_scratch1)) :
    ((V d c i).loc cc1_scratch1 ↦{fullShare} f : sProp 𝕄)
      = bigSep Finset.univ fun b : Fin 10 => (V d c i).loc cc1_scratch1 ↦[slotSet b.val]{fullShare} f := by
  rw [← pointsTo_biUnion Finset.univ (ℓ := (V d c i).loc cc1_scratch1) (fun b : Fin 10 => slotSet b.val) slots_disjoint, slots_cover]; try rfl

end Cert.Proof.KI.Tile

end
-- ==== Proof.KI.TileSetup.lean ====
/-
  A vector subcore's scoped storage, named piece by piece, and the task's arrays cut into the pieces it lends to its transfers.

  The subcore's scoped semaphores are the task's twenty-one DMA semaphores (the one of the opening copy, then the ten of the
  gathers and the ten of the copies out) and the rest; its scoped buffers are the ids' scratch, the ring and the rest. The ids'
  scratch is its hundred rows, the ring its ten slots, the worker's block of the result its hundred chunks, and the worker's
  read token of the table a remainder and sixteen smaller tokens.
-/
import proofs.«207285_g25512105738892_cont_9to1_353_29_alg».proof.Proof.KI.TileInv
import proofs.«207285_g25512105738892_cont_9to1_353_29_alg».proof.Proof.KI.TilePieces
import Idealize.ShloMosaic.Lib.Pipeline.Kit
import Idealize.ShloMosaic.Lib.Transfers

noncomputable section

namespace Cert.Proof.KI.Tile

open Cert.KernelIdeal Cert.KernelIdeal.Gen
open Cert.Proof.KI.Res

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} {U : Type} [URA U]

local notation "𝕄" => MT nD τ sig (HIx 1) (Elt F) ℕ U ℕ

/-! ## Listed elements out of a set -/

/-- The elements of a list without repetition, all in `S`, come out of a `bigSep` over `S` one by one, in the list's order. -/
theorem bigSep_take_list {M : Type} [URA M] {I : Type} [DecidableEq I] (l : List I) :
    ∀ (S : Finset I), l.Nodup → (∀ i ∈ l, i ∈ S) → ∀ (Φ : I → sProp M),
      bigSep S Φ = l.foldr (fun i acc => iprop(Φ i ∗ acc)) (bigSep (S \ l.toFinset) Φ) := by
  induction l with
  | nil => intro S _ _ Φ; rw [List.toFinset_nil, Finset.sdiff_empty]; rfl
  | cons i l ih =>
    intro S hl hsub Φ
    obtain ⟨hi, hl'⟩ := List.nodup_cons.mp hl
    rw [SparseCore.bigSep_erase' (hsub i (List.mem_cons_self ..)),
      ih (S.erase i) hl' (fun j hj => Finset.mem_erase.mpr ⟨fun e => hi (e ▸ hj), hsub j (List.mem_cons_of_mem _ hj)⟩) Φ]
    have e : S.erase i \ l.toFinset = S \ (i :: l).toFinset := by
      ext x; simp only [Finset.mem_sdiff, Finset.mem_erase, List.toFinset_cons, Finset.mem_insert, List.mem_toFinset]; tauto
    rw [e]; rfl

/-- A `bigSep` over the numbers below `n` as a type is the `bigSep` over them as a range. -/
theorem bigSep_fin_range {M : Type} [URA M] (n : ℕ) (R : ℕ → sProp M) :
    bigSep (Finset.univ : Finset (Fin n)) (fun j => R j.val) = bigSep (Finset.range n) R := by
  rw [← Nat.Iio_eq_range, ← Fin.map_valEmbedding_univ, BI.bigSep_map]; rfl

variable (d : Dev nD) (L : grid1.Coords)

/-! ## The subcore's scoped semaphores -/

/-- The task's DMA semaphores: the opening copy's, the ten gathers', the ten copies' out. -/
def semL : List (DmaSem sig) :=
  [cc1_scoped0.sem, cc1_scratch2.sem, cc1_scratch3.sem, cc1_scratch4.sem, cc1_scratch5.sem, cc1_scratch6.sem, cc1_scratch7.sem, cc1_scratch8.sem, cc1_scratch9.sem, cc1_scratch10.sem, cc1_scratch11.sem, cc1_scratch12.sem, cc1_scratch13.sem, cc1_scratch14.sem, cc1_scratch15.sem, cc1_scratch16.sem, cc1_scratch17.sem, cc1_scratch18.sem, cc1_scratch19.sem, cc1_scratch20.sem, cc1_scratch21.sem]

/-- The same as cells of the subcore. -/
def cellL : List (GSem nD τ sig) := semL.map fun s => (V d (cV L) (jV L), SemLoc.dma s)

/-- The subcore's other scoped cells. -/
def restCells : Finset (GSem nD τ sig) := ownCells (V d (cV L) (jV L)) \ (cellL d L).toFinset

theorem semL_nodup : semL.Nodup := by decide
theorem semL_scoped : ∀ s ∈ semL, (SemLoc.dma s : SemLoc sig).isScoped .scVector = true := by decide

theorem cellL_nodup : (cellL d L).Nodup :=
  semL_nodup.map fun a b h => SemLoc.dma.inj (Prod.mk.inj h).2

theorem cellL_sub : ∀ g ∈ cellL d L, g ∈ ownCells (V d (cV L) (jV L)) := by
  intro g hg
  obtain ⟨s, hs, rfl⟩ := List.mem_map.mp hg
  exact mem_ownCells.mpr ⟨rfl, semL_scoped s hs⟩

/-- The subcore's scoped semaphores at zero are the task's twenty-one at zero and the rest at zero. -/
theorem ownSems0_V :
    (ownSems0 (V d (cV L) (jV L)) : sProp 𝕄)
      = iprop(semVal (V d (cV L) (jV L), SemLoc.dma cc1_scoped0.sem) 0
          ∗ semVal (V d (cV L) (jV L), SemLoc.dma cc1_scratch2.sem) 0
          ∗ semVal (V d (cV L) (jV L), SemLoc.dma cc1_scratch3.sem) 0
          ∗ semVal (V d (cV L) (jV L), SemLoc.dma cc1_scratch4.sem) 0
          ∗ semVal (V d (cV L) (jV L), SemLoc.dma cc1_scratch5.sem) 0
          ∗ semVal (V d (cV L) (jV L), SemLoc.dma cc1_scratch6.sem) 0
          ∗ semVal (V d (cV L) (jV L), SemLoc.dma cc1_scratch7.sem) 0
          ∗ semVal (V d (cV L) (jV L), SemLoc.dma cc1_scratch8.sem) 0
          ∗ semVal (V d (cV L) (jV L), SemLoc.dma cc1_scratch9.sem) 0
          ∗ semVal (V d (cV L) (jV L), SemLoc.dma cc1_scratch10.sem) 0
          ∗ semVal (V d (cV L) (jV L), SemLoc.dma cc1_scratch11.sem) 0
          ∗ semVal (V d (cV L) (jV L), SemLoc.dma cc1_scratch12.sem) 0
          ∗ semVal (V d (cV L) (jV L), SemLoc.dma cc1_scratch13.sem) 0
          ∗ semVal (V d (cV L) (jV L), SemLoc.dma cc1_scratch14.sem) 0
          ∗ semVal (V d (cV L) (jV L), SemLoc.dma cc1_scratch15.sem) 0
          ∗ semVal (V d (cV L) (jV L), SemLoc.dma cc1_scratch16.sem) 0
          ∗ semVal (V d (cV L) (jV L), SemLoc.dma cc1_scratch17.sem) 0
          ∗ semVal (V d (cV L) (jV L), SemLoc.dma cc1_scratch18.sem) 0
          ∗ semVal (V d (cV L) (jV L), SemLoc.dma cc1_scratch19.sem) 0
          ∗ semVal (V d (cV L) (jV L), SemLoc.dma cc1_scratch20.sem) 0
          ∗ semVal (V d (cV L) (jV L), SemLoc.dma cc1_scratch21.sem) 0
          ∗ bigSep (restCells d L) fun g => semVal g 0) := by
  unfold SparseCore.Cfg.ownSems0
  rw [bigSep_take_list (cellL d L) _ (cellL_nodup d L) (cellL_sub d L)]
  unfold restCells
  simp only [cellL, semL, List.map_cons, List.map_nil, List.foldr_cons, List.foldr_nil]

/-! ## The subcore's scoped buffers -/

/-- The subcore's other scoped buffers. -/
def restRefs : Finset (DevRef τ sig) :=
  ((ownRefs (τ := τ) (.scVector (cV L) (jV L))).erase ((Proc.scVector (cV L) (jV L)).devRef cc1_scratch0)).erase
    ((Proc.scVector (cV L) (jV L)).devRef cc1_scratch1)

/-- The ids' scratch and the ring are among the subcore's own buffers: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The arrays in pieces, by runs of natural numbers -/

/-- The ids' scratch is its hundred rows. -/
theorem xPts_rowsN (f : Buf (Elt F) ((V d (cV L) (jV L)).loc cc1_scratch0)) :
    ((V d (cV L) (jV L)).loc cc1_scratch0 ↦{fullShare} f : sProp 𝕄)
      = bigSep (Finset.range 100) (fun j => (V d (cV L) (jV L)).loc cc1_scratch0 ↦[rowSet j]{fullShare} f) := by
  rw [xPts_rows d (cV L) (jV L) f]
  exact bigSep_fin_range 100 (fun j => ((V d (cV L) (jV L)).loc cc1_scratch0 ↦[rowSet j]{fullShare} f : sProp 𝕄))

/-- A worker's block of the result is its hundred chunks. -/
theorem oRow_chunksN (w : Fin 32) (f : Buf (Elt F) (oLoc d)) :
    (oLoc d ↦[oRowSet w]{fullShare} f : sProp 𝕄) = bigSep (Finset.range 100) (fun j => oLoc d ↦[chunkSet w.val j]{fullShare} f) := by
  rw [oRow_chunks d w f]
  exact bigSep_fin_range 100 (fun j => (oLoc d ↦[chunkSet w.val j]{fullShare} f : sProp 𝕄))

/-- The ring is its ten slots. -/
theorem bPts_slots10 (f : Buf (Elt F) ((V d (cV L) (jV L)).loc cc1_scratch1)) :
    ((V d (cV L) (jV L)).loc cc1_scratch1 ↦{fullShare} f : sProp 𝕄)
      = iprop(((V d (cV L) (jV L)).loc cc1_scratch1 ↦[slotSet 0]{fullShare} f)
          ∗ ((V d (cV L) (jV L)).loc cc1_scratch1 ↦[slotSet 1]{fullShare} f)
          ∗ ((V d (cV L) (jV L)).loc cc1_scratch1 ↦[slotSet 2]{fullShare} f)
          ∗ ((V d (cV L) (jV L)).loc cc1_scratch1 ↦[slotSet 3]{fullShare} f)
          ∗ ((V d (cV L) (jV L)).loc cc1_scratch1 ↦[slotSet 4]{fullShare} f)
          ∗ ((V d (cV L) (jV L)).loc cc1_scratch1 ↦[slotSet 5]{fullShare} f)
          ∗ ((V d (cV L) (jV L)).loc cc1_scratch1 ↦[slotSet 6]{fullShare} f)
          ∗ ((V d (cV L) (jV L)).loc cc1_scratch1 ↦[slotSet 7]{fullShare} f)
          ∗ ((V d (cV L) (jV L)).loc cc1_scratch1 ↦[slotSet 8]{fullShare} f)
          ∗ ((V d (cV L) (jV L)).loc cc1_scratch1 ↦[slotSet 9]{fullShare} f)) := by
  rw [bPts_slots d (cV L) (jV L) f,
    bigSep_univ_eq_bigSepL [(0 : Fin 10), 1, 2, 3, 4, 5, 6, 7, 8, 9] (by decide) (by decide)]
  rfl

/-- The worker's read token of the table is a remainder, six tokens as a run and ten more one by one. -/
theorem tok_split (w : Fin 32) (f : Buf (Elt F) (tLoc d)) :
    (tLoc d ↦{tq w} f : sProp 𝕄) ⊣⊢ iprop((tLoc d ↦{shareDrop (tq w) 16} f)
      ∗ bigSep (Finset.range 6) (fun i => tLoc d ↦{shareTokN (tq w) i} f)
      ∗ (tLoc d ↦{shareTokN (tq w) 6} f) ∗ (tLoc d ↦{shareTokN (tq w) 7} f) ∗ (tLoc d ↦{shareTokN (tq w) 8} f) ∗ (tLoc d ↦{shareTokN (tq w) 9} f) ∗ (tLoc d ↦{shareTokN (tq w) 10} f) ∗ (tLoc d ↦{shareTokN (tq w) 11} f) ∗ (tLoc d ↦{shareTokN (tq w) 12} f) ∗ (tLoc d ↦{shareTokN (tq w) 13} f) ∗ (tLoc d ↦{shareTokN (tq w) 14} f) ∗ (tLoc d ↦{shareTokN (tq w) 15} f)) := by
  have h := Transfers.pointsTo_toks_range (ℓ := tLoc d) (S := Finset.univ) (f := f) (nD := nD) (τ := τ) (sig := sig) (Ix := HIx 1) (Val := Elt F) (Name := ℕ) (U := U) (Lvl := ℕ) (tq w) 16
  rw [bigSep_range_put10 (fun i => (tLoc d ↦{shareTokN (tq w) i} f : sProp 𝕄)) 6] at h
  constructor
  · refine h.1.trans ?_
    iintro ⟨H0, H15, H14, H13, H12, H11, H10, H9, H8, H7, H6, Hr⟩
    isplitl [H0]; · iexact H0
    isplitl [Hr]; · iexact Hr
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · refine BIBase.Entails.trans ?_ h.2
    iintro ⟨H0, Hr, H6, H7, H8, H9, H10, H11, H12, H13, H14, H15⟩
    isplitl [H0]; · iexact H0
    isplitl [H15]; · iexact H15
    isplitl [H14]; · iexact H14
    isplitl [H13]; · iexact H13
    isplitl [H12]; · iexact H12
    isplitl [H11]; · iexact H11
    isplitl [H10]; · iexact H10
    isplitl [H9]; · iexact H9
    isplitl [H8]; · iexact H8
    isplitl [H7]; · iexact H7
    isplitl [H6]; · iexact H6
    iexact Hr

/-! ## The ring back from its slots -/

/-- The ten slots, each at contents of its own, are the ring whole at some contents: those that are slot `b`'s on slot `b`. -/
theorem slots_join (f0 f1 f2 f3 f4 f5 f6 f7 f8 f9 : Buf (Elt F) ((V d (cV L) (jV L)).loc cc1_scratch1)) :
    iprop(((V d (cV L) (jV L)).loc cc1_scratch1 ↦[slotSet 0]{fullShare} f0)
        ∗ ((V d (cV L) (jV L)).loc cc1_scratch1 ↦[slotSet 1]{fullShare} f1)
        ∗ ((V d (cV L) (jV L)).loc cc1_scratch1 ↦[slotSet 2]{fullShare} f2)
        ∗ ((V d (cV L) (jV L)).loc cc1_scratch1 ↦[slotSet 3]{fullShare} f3)
        ∗ ((V d (cV L) (jV L)).loc cc1_scratch1 ↦[slotSet 4]{fullShare} f4)
        ∗ ((V d (cV L) (jV L)).loc cc1_scratch1 ↦[slotSet 5]{fullShare} f5)
        ∗ ((V d (cV L) (jV L)).loc cc1_scratch1 ↦[slotSet 6]{fullShare} f6)
        ∗ ((V d (cV L) (jV L)).loc cc1_scratch1 ↦[slotSet 7]{fullShare} f7)
        ∗ ((V d (cV L) (jV L)).loc cc1_scratch1 ↦[slotSet 8]{fullShare} f8)
        ∗ ((V d (cV L) (jV L)).loc cc1_scratch1 ↦[slotSet 9]{fullShare} f9))
      ⊢ (∃ f, (V d (cV L) (jV L)).loc cc1_scratch1 ↦{fullShare} f : sProp 𝕄) := by
  let f : Buf (Elt F) ((V d (cV L) (jV L)).loc cc1_scratch1) := fun (y : S10x64x128.Idx) =>
    match (y 0).val with
    | 0 => f0 y
    | 1 => f1 y
    | 2 => f2 y
    | 3 => f3 y
    | 4 => f4 y
    | 5 => f5 y
    | 6 => f6 y
    | 7 => f7 y
    | 8 => f8 y
    | _ => f9 y
  have hmem : ∀ (b : ℕ) (y : S10x64x128.Idx), y ∈ slotSet b → (y 0).val = b := fun b y hy => (Finset.mem_filter.mp hy).2
  have h0 : ((V d (cV L) (jV L)).loc cc1_scratch1 ↦[slotSet 0]{fullShare} f0 : sProp 𝕄) = (V d (cV L) (jV L)).loc cc1_scratch1 ↦[slotSet 0]{fullShare} f :=
    pointsTo_congr fun y hy => by
      have e := hmem 0 y hy
      show f0 y = (match (y 0).val with | 0 => f0 y | 1 => f1 y | 2 => f2 y | 3 => f3 y | 4 => f4 y | 5 => f5 y | 6 => f6 y | 7 => f7 y | 8 => f8 y | _ => f9 y)
      rw [e]; rfl
  have h1 : ((V d (cV L) (jV L)).loc cc1_scratch1 ↦[slotSet 1]{fullShare} f1 : sProp 𝕄) = (V d (cV L) (jV L)).loc cc1_scratch1 ↦[slotSet 1]{fullShare} f :=
    pointsTo_congr fun y hy => by
      have e := hmem 1 y hy
      show f1 y = (match (y 0).val with | 0 => f0 y | 1 => f1 y | 2 => f2 y | 3 => f3 y | 4 => f4 y | 5 => f5 y | 6 => f6 y | 7 => f7 y | 8 => f8 y | _ => f9 y)
      rw [e]; rfl
  have h2 : ((V d (cV L) (jV L)).loc cc1_scratch1 ↦[slotSet 2]{fullShare} f2 : sProp 𝕄) = (V d (cV L) (jV L)).loc cc1_scratch1 ↦[slotSet 2]{fullShare} f :=
    pointsTo_congr fun y hy => by
      have e := hmem 2 y hy
      show f2 y = (match (y 0).val with | 0 => f0 y | 1 => f1 y | 2 => f2 y | 3 => f3 y | 4 => f4 y | 5 => f5 y | 6 => f6 y | 7 => f7 y | 8 => f8 y | _ => f9 y)
      rw [e]; rfl
  have h3 : ((V d (cV L) (jV L)).loc cc1_scratch1 ↦[slotSet 3]{fullShare} f3 : sProp 𝕄) = (V d (cV L) (jV L)).loc cc1_scratch1 ↦[slotSet 3]{fullShare} f :=
    pointsTo_congr fun y hy => by
      have e := hmem 3 y hy
      show f3 y = (match (y 0).val with | 0 => f0 y | 1 => f1 y | 2 => f2 y | 3 => f3 y | 4 => f4 y | 5 => f5 y | 6 => f6 y | 7 => f7 y | 8 => f8 y | _ => f9 y)
      rw [e]; rfl
  have h4 : ((V d (cV L) (jV L)).loc cc1_scratch1 ↦[slotSet 4]{fullShare} f4 : sProp 𝕄) = (V d (cV L) (jV L)).loc cc1_scratch1 ↦[slotSet 4]{fullShare} f :=
    pointsTo_congr fun y hy => by
      have e := hmem 4 y hy
      show f4 y = (match (y 0).val with | 0 => f0 y | 1 => f1 y | 2 => f2 y | 3 => f3 y | 4 => f4 y | 5 => f5 y | 6 => f6 y | 7 => f7 y | 8 => f8 y | _ => f9 y)
      rw [e]; rfl
  have h5 : ((V d (cV L) (jV L)).loc cc1_scratch1 ↦[slotSet 5]{fullShare} f5 : sProp 𝕄) = (V d (cV L) (jV L)).loc cc1_scratch1 ↦[slotSet 5]{fullShare} f :=
    pointsTo_congr fun y hy => by
      have e := hmem 5 y hy
      show f5 y = (match (y 0).val with | 0 => f0 y | 1 => f1 y | 2 => f2 y | 3 => f3 y | 4 => f4 y | 5 => f5 y | 6 => f6 y | 7 => f7 y | 8 => f8 y | _ => f9 y)
      rw [e]; rfl
  have h6 : ((V d (cV L) (jV L)).loc cc1_scratch1 ↦[slotSet 6]{fullShare} f6 : sProp 𝕄) = (V d (cV L) (jV L)).loc cc1_scratch1 ↦[slotSet 6]{fullShare} f :=
    pointsTo_congr fun y hy => by
      have e := hmem 6 y hy
      show f6 y = (match (y 0).val with | 0 => f0 y | 1 => f1 y | 2 => f2 y | 3 => f3 y | 4 => f4 y | 5 => f5 y | 6 => f6 y | 7 => f7 y | 8 => f8 y | _ => f9 y)
      rw [e]; rfl
  have h7 : ((V d (cV L) (jV L)).loc cc1_scratch1 ↦[slotSet 7]{fullShare} f7 : sProp 𝕄) = (V d (cV L) (jV L)).loc cc1_scratch1 ↦[slotSet 7]{fullShare} f :=
    pointsTo_congr fun y hy => by
      have e := hmem 7 y hy
      show f7 y = (match (y 0).val with | 0 => f0 y | 1 => f1 y | 2 => f2 y | 3 => f3 y | 4 => f4 y | 5 => f5 y | 6 => f6 y | 7 => f7 y | 8 => f8 y | _ => f9 y)
      rw [e]; rfl
  have h8 : ((V d (cV L) (jV L)).loc cc1_scratch1 ↦[slotSet 8]{fullShare} f8 : sProp 𝕄) = (V d (cV L) (jV L)).loc cc1_scratch1 ↦[slotSet 8]{fullShare} f :=
    pointsTo_congr fun y hy => by
      have e := hmem 8 y hy
      show f8 y = (match (y 0).val with | 0 => f0 y | 1 => f1 y | 2 => f2 y | 3 => f3 y | 4 => f4 y | 5 => f5 y | 6 => f6 y | 7 => f7 y | 8 => f8 y | _ => f9 y)
      rw [e]; rfl
  have h9 : ((V d (cV L) (jV L)).loc cc1_scratch1 ↦[slotSet 9]{fullShare} f9 : sProp 𝕄) = (V d (cV L) (jV L)).loc cc1_scratch1 ↦[slotSet 9]{fullShare} f :=
    pointsTo_congr fun y hy => by
      have e := hmem 9 y hy
      show f9 y = (match (y 0).val with | 0 => f0 y | 1 => f1 y | 2 => f2 y | 3 => f3 y | 4 => f4 y | 5 => f5 y | 6 => f6 y | 7 => f7 y | 8 => f8 y | _ => f9 y)
      rw [e]; rfl
  rw [h0, h1, h2, h3, h4, h5, h6, h7, h8, h9]
  iintro H
  iexists f
  rw [bPts_slots10]
  iexact H

/-! ## The worker's row of the ids, as the program slices it -/

/-- A worker's row of the ids is the entries whose first coordinate is the worker. -/
theorem mem_iRowSet (w : Fin 32) (x : S32x100x64.Idx) : x ∈ iRowSet w ↔ (x 0).val = w.val := by
  rw [Cert.Proof.KI.Split.iRowSet_eq]
  unfold irow Rect.part Rect.block
  rw [Rect.mem_set_unit]
  have h1 : (x 1 : ℕ) < 100 := (x 1).isLt
  have h2 : (x 2 : ℕ) < 64 := (x 2).isLt
  constructor
  · intro hx
    have h0 := hx (0 : Fin 3)
    simp [Shape.partIx, Shape.partSize] at h0
    omega
  · intro e a
    match a with
    | (0 : Fin 3) => simp [Shape.partIx, Shape.partSize]; omega
    | (1 : Fin 3) => simp [Shape.partIx, Shape.partSize]; omega
    | (2 : Fin 3) => simp [Shape.partIx, Shape.partSize]; omega

/-- The row of the ids the program slices for the task is the worker's. -/
theorem set_iRowK (L : grid1.Coords) : (iRowK L).view.set = iRowSet (widL L) := by
  show (((View.whole (main_v2_scv : Ref sig .scVector)).slice (Rect.unit (s := S32x100x64) (k1_off1 L) S1x100x64.size (k1_off1_inb L))).reshape S100x64 squeezes_S1x100x64_S100x64.numel_eq).set = _
  rw [View.set_reshape, View.set_slice_whole]
  ext x
  rw [mem_iRowSet, Rect.mem_set_unit, widL_val]
  have h0 : k1_off1 L 0 = 2 * (L 1).val + (L 0).val := by rw [k1_off1_eq L]; rfl
  have h1 : k1_off1 L 1 = 0 := by rw [k1_off1_eq L]; rfl
  have h2 : k1_off1 L 2 = 0 := by rw [k1_off1_eq L]; rfl
  have hx1 : (x 1 : ℕ) < 100 := (x 1).isLt
  have hx2 : (x 2 : ℕ) < 64 := (x 2).isLt
  constructor
  · intro hx
    have h := hx (0 : Fin 3)
    have a' : k1_off1 L 0 ≤ (x 0 : ℕ) := h.1
    have b' : (x 0 : ℕ) < k1_off1 L 0 + 1 := h.2
    omega
  · intro e a
    match a with
    | (0 : Fin 3) => exact ⟨show k1_off1 L 0 ≤ (x 0 : ℕ) by omega, show (x 0 : ℕ) < k1_off1 L 0 + 1 by omega⟩
    | (1 : Fin 3) => exact ⟨show k1_off1 L 1 ≤ (x 1 : ℕ) by omega, show (x 1 : ℕ) < k1_off1 L 1 + 100 by omega⟩
    | (2 : Fin 3) => exact ⟨show k1_off1 L 2 ≤ (x 2 : ℕ) by omega, show (x 2 : ℕ) < k1_off1 L 2 + 64 by omega⟩

/-- The same of the points-to. -/
theorem pts_iRowK (f : Buf (Elt F) (iLoc d)) :
    ((iRowK L).view.loc (V d (cV L) (jV L)) ↦[(iRowK L).view.set]{fullShare} f : sProp 𝕄) = iLoc d ↦[iRowSet (widL L)]{fullShare} f := by
  rw [set_iRowK]

end Cert.Proof.KI.Tile

end
-- ==== Proof.KI.TileEmb.lean ====
/-
  Which entry of the whole array an entry of a piece is: the program forms each piece as a unit rectangle of the whole array at
  an offset, with the leading unit axes dropped; entry (l, p) of chunk j of worker w's block of the result is entry (w, j, l, p)
  of the result, and likewise for a worker's row of the ids, a row of the ids' scratch and a slot of the ring.
-/
import proofs.«207285_g25512105738892_cont_9to1_353_29_alg».proof.Proof.KI.TileViews

noncomputable section

namespace Cert.Proof.KI.Tile

open Cert.KernelIdeal Cert.KernelIdeal.Gen Cert.Proof.KI.Res
open Idealize.ShloMosaic Idealize.ShloMosaic.ValueIdx

theorem chunkM_emb (off : Fin 4 → Nat) (h : ∀ a, off a + S1x1x64x128.size a ≤ S32x100x64x128.size a) (w : Fin 32) (j : Fin 100)
    (hoff : off = ![w.val, j.val, 0, 0]) (l : Fin 64) (p : Fin 128) : (chunkM off h).view.emb (ix2 l p) = ix4 w j l p := by
  subst hoff
  show (Rect.unit (s := S32x100x64x128) ![w.val, j.val, 0, 0] S1x1x64x128.size h).emb (Shape.reshapeEquiv squeezes_S1x1x64x128_S64x128.numel_eq (ix2 l p)) = _
  have e : Shape.reshapeEquiv squeezes_S1x1x64x128_S64x128.numel_eq (ix2 l p) = (ix4 (0 : Fin 1) (0 : Fin 1) l p : S1x1x64x128.Idx) :=
    Shape.reshapeEquiv_eq_of_rowMajor _ (by
      rw [Shape.rowMajor_val_four, Shape.rowMajor_val_two]
      show ((0 * 1 + 0) * 64 + l.val) * 128 + p.val = l.val * 128 + p.val
      omega)
  rw [e]
  funext a
  refine Fin.ext ?_
  rw [Rect.emb_apply]
  match a with
  | (0 : Fin 4) => show w.val + 1 * 0 = w.val; omega
  | (1 : Fin 4) => show j.val + 1 * 0 = j.val; omega
  | (2 : Fin 4) => show 0 + 1 * l.val = l.val; omega
  | (3 : Fin 4) => show 0 + 1 * p.val = p.val; omega

theorem slotM_emb (off : Fin 3 → Nat) (h : ∀ a, off a + S1x64x128.size a ≤ S10x64x128.size a) (b : Fin 10)
    (hoff : off = ![b.val, 0, 0]) (l : Fin 64) (p : Fin 128) : (slotM off h).view.emb (ix2 l p) = ix3 b l p := by
  subst hoff
  show (Rect.unit (s := S10x64x128) ![b.val, 0, 0] S1x64x128.size h).emb (Shape.reshapeEquiv squeezes_S1x64x128_S64x128.numel_eq (ix2 l p)) = _
  have e : Shape.reshapeEquiv squeezes_S1x64x128_S64x128.numel_eq (ix2 l p) = (ix3 (0 : Fin 1) l p : S1x64x128.Idx) :=
    Shape.reshapeEquiv_eq_of_rowMajor _ (by
      rw [Shape.rowMajor_val_three, Shape.rowMajor_val_two]
      show (0 * 64 + l.val) * 128 + p.val = l.val * 128 + p.val
      omega)
  rw [e]
  funext a
  refine Fin.ext ?_
  rw [Rect.emb_apply]
  match a with
  | (0 : Fin 3) => show b.val + 1 * 0 = b.val; omega
  | (1 : Fin 3) => show 0 + 1 * l.val = l.val; omega
  | (2 : Fin 3) => show 0 + 1 * p.val = p.val; omega

theorem rowM_emb (off : Fin 2 → Nat) (h : ∀ a, off a + S1x64.size a ≤ S100x64.size a) (j : Fin 100)
    (hoff : off = ![j.val, 0]) (l : Fin 64) : (rowM off h).view.emb (ix1 l) = ix2 j l := by
  subst hoff
  show (Rect.unit (s := S100x64) ![j.val, 0] S1x64.size h).emb (Shape.reshapeEquiv squeezes_S1x64_S64.numel_eq (ix1 l)) = _
  have e : Shape.reshapeEquiv squeezes_S1x64_S64.numel_eq (ix1 l) = (ix2 (0 : Fin 1) l : S1x64.Idx) :=
    Shape.reshapeEquiv_eq_of_rowMajor _ (by
      rw [Shape.rowMajor_val_two, Shape.rowMajor_val_one]
      show 0 * 64 + l.val = l.val
      omega)
  rw [e]
  funext a
  refine Fin.ext ?_
  rw [Rect.emb_apply]
  match a with
  | (0 : Fin 2) => show j.val + 1 * 0 = j.val; omega
  | (1 : Fin 2) => show 0 + 1 * l.val = l.val; omega

theorem iRowK_emb (L : grid1.Coords) (j : Fin 100) (l : Fin 64) : (iRowK L).view.emb (ix2 j l) = ix3 (widL L) j l := by
  show (Rect.unit (s := S32x100x64) (k1_off1 L) S1x100x64.size (k1_off1_inb L)).emb (Shape.reshapeEquiv squeezes_S1x100x64_S100x64.numel_eq (ix2 j l)) = _
  have e : Shape.reshapeEquiv squeezes_S1x100x64_S100x64.numel_eq (ix2 j l) = (ix3 (0 : Fin 1) j l : S1x100x64.Idx) :=
    Shape.reshapeEquiv_eq_of_rowMajor _ (by
      rw [Shape.rowMajor_val_three, Shape.rowMajor_val_two]
      show (0 * 100 + j.val) * 64 + l.val = j.val * 64 + l.val
      omega)
  rw [e]
  funext a
  refine Fin.ext ?_
  rw [Rect.emb_apply]
  have h0 : k1_off1 L 0 = 2 * (L 1).val + (L 0).val := by rw [k1_off1_eq L]; rfl
  have h1 : k1_off1 L 1 = 0 := by rw [k1_off1_eq L]; rfl
  have h2 : k1_off1 L 2 = 0 := by rw [k1_off1_eq L]; rfl
  match a with
  | (0 : Fin 3) => show k1_off1 L 0 + 1 * 0 = 2 * (L 1).val + (L 0).val; omega
  | (1 : Fin 3) => show k1_off1 L 1 + 1 * j.val = j.val; omega
  | (2 : Fin 3) => show k1_off1 L 2 + 1 * l.val = l.val; omega

end Cert.Proof.KI.Tile

end
-- ==== Proof.KI.TileValue.lean ====
/-
  What an indirect row gather delivers, read at an entry: the destination's entry (l, p) is the source's entry (r l, p), r l the
  row the l-th word of the offset list names; and the l-th word of a list that is row j of the ids' scratch is the scratch's
  entry (j, l).
-/
import proofs.«207285_g25512105738892_cont_9to1_353_29_alg».proof.Proof.KI.TileEmb
import Idealize.ShloMosaic.Lib.SparseCore.Stream

noncomputable section

namespace Cert.Proof.KI.Tile

open Cert.KernelIdeal Cert.KernelIdeal.Gen Cert.Proof.KI.Res
open Idealize.ShloMosaic Idealize.ShloMosaic.ValueIdx

variable {F : FTy → Type}

/-- The source index of the destination's entry (l, p): the named row, the same column. -/
theorem gathers_idx (r : Fin (S64x128.size gathers_S100000x128_S64x128.axis') → Fin (S100000x128.size gathers_S100000x128_S64x128.axis))
    (l : Fin 64) (p : Fin 128) :
    gathers_S100000x128_S64x128.idx r (ix2 l p) = (ix2 (r l) p : S100000x128.Idx) := by
  funext b
  match b with
  | (0 : Fin 2) =>
    have := Shape.Gathers.idx_axis gathers_S100000x128_S64x128 r (ix2 l p)
    exact this
  | (1 : Fin 2) =>
    refine Fin.ext ?_
    exact Shape.Gathers.idx_of_ne gathers_S100000x128_S64x128 r (ix2 l p) (1 : Fin 2) (by decide)

theorem gatherPayload_apply (g : S100000x128.Idx → Elt F .f32)
    (r : Fin (S64x128.size gathers_S100000x128_S64x128.axis') → Fin (S100000x128.size gathers_S100000x128_S64x128.axis)) (l : Fin 64) (p : Fin 128) :
    SparseCore.gatherPayload (F := F) gathers_S100000x128_S64x128 g r (ix2 l p) = g (ix2 (r l) p) := by
  unfold SparseCore.gatherPayload
  rw [gathers_idx]

/-- The l-th row an offset list of 64 words names is the l-th word, read as a natural number. -/
theorem rows_val (idx : S64.Idx → Elt F .i32) (hn : S64.numel = S64x128.size gathers_S100000x128_S64x128.axis')
    (h : ∀ x, (idx x).toNat < S100000x128.size gathers_S100000x128_S64x128.axis) (l : Fin 64) :
    (SparseCore.rows (F := F) idx hn h l).val = (idx (ix1 l)).toNat := by
  unfold SparseCore.rows
  show (idx (S64.rowMajor.symm (Fin.cast hn.symm l))).toNat = _
  congr 2
  apply S64.rowMajor.injective
  rw [Equiv.apply_symm_apply]
  refine Fin.ext ?_
  rw [Shape.rowMajor_val_one]
  rfl

end Cert.Proof.KI.Tile

end
-- ==== Proof.KI.TileVals.lean ====
/-
  What the three kinds of transfer of a worker's task leave, as the one whole-array function each piece is held at.
  The worker's row of the ids copied into the ids' scratch: entry (j, l) of the scratch is the id at (w, j, l). Chunk j gathered
  into a slot: the slot's entry (l, p) is the table's entry (r, p), r the row the l-th word of row j of the scratch names — below
  100000, so it is that id's row — : the same for every slot. A slot holding chunk j copied out to chunk (w, j) of the result: the
  result's entry (w, j, l, p) is the slot's entry (l, p), which is what the result array is to hold there.
-/
import proofs.«207285_g25512105738892_cont_9to1_353_29_alg».proof.Proof.KI.TileInv
import proofs.«207285_g25512105738892_cont_9to1_353_29_alg».proof.Proof.KI.TileValue
import Idealize.ShloMosaic.Lib.Writes
import Idealize.ShloMosaic.Lib.Pipeline.Value

noncomputable section

namespace Cert.Proof.KI.Tile

open Cert.KernelIdeal Cert.KernelIdeal.Gen
open Cert.Proof.KI.Res
open Idealize.ShloMosaic Idealize.ShloMosaic.ValueIdx
open Idealize.ShloMosaic.SparseCore (S V T)
open Idealize.SL Idealize.SL.RA Idealize.SL.BI

variable {F : FTy → Type} [FloatOps F]
variable (Pc : (d : Dev nD) → Buf (Elt F) (tLoc d)) (Ic : (d : Dev nD) → Buf (Elt F) (iLoc d))
variable (d : Dev nD) (L : grid1.Coords)

omit [FloatOps F] in
/-- Reading through a view is reading the buffer at the view's placement. -/
theorem read_at {sg : RefSig} {κ : Kind} {sp : Space} {s : Shape} {e : EltTy} (v : View sg κ sp s e) (hE : v.ty.elt = e := by rfl)
    (f : v.ty.Contents (Elt F)) (x : s.Idx) : HEq (v.read (Elt F) f x) (f (v.emb x)) := by
  rw [View.read_apply]; exact cast_heq _ _

omit [FloatOps F] in
/-- The table named whole is the table. -/
theorem tAll_emb (z : S100000x128.Idx) : (tAll).view.emb z = z := by
  show (Rect.unit (s := S100000x128) ![0, 0] S100000x128.size inb_S100000x128_S100000x128_0_0).emb z = z
  funext a
  refine Fin.ext ?_
  rw [Rect.emb_apply]
  match a with
  | (0 : Fin 2) => show 0 + 1 * (z 0).val = (z 0).val; omega
  | (1 : Fin 2) => show 0 + 1 * (z 1).val = (z 1).val; omega

omit [FloatOps F] in
/-- An entry of a slot, whichever slot: its row and column within the slot. -/
theorem slotM_emb12 (offS : Fin 3 → Nat) (hS : ∀ a, offS a + S1x64x128.size a ≤ S10x64x128.size a) (l : Fin 64) (p : Fin 128) :
    (((slotM offS hS).view.emb (ix2 l p)) 1).val = l.val ∧ (((slotM offS hS).view.emb (ix2 l p)) 2).val = p.val := by
  have e : Shape.reshapeEquiv squeezes_S1x64x128_S64x128.numel_eq (ix2 l p) = (ix3 (0 : Fin 1) l p : S1x64x128.Idx) :=
    Shape.reshapeEquiv_eq_of_rowMajor _ (by
      rw [Shape.rowMajor_val_three, Shape.rowMajor_val_two]
      show (0 * 64 + l.val) * 128 + p.val = l.val * 128 + p.val
      omega)
  have h1 := hS 1
  have h2 := hS 2
  have h1' : offS 1 + 64 ≤ 64 := h1
  have h2' : offS 2 + 128 ≤ 128 := h2
  constructor
  · show ((Rect.unit (s := S10x64x128) offS S1x64x128.size hS).emb (Shape.reshapeEquiv squeezes_S1x64x128_S64x128.numel_eq (ix2 l p)) 1).val = _
    rw [e, Rect.emb_apply]
    show offS 1 + 1 * l.val = l.val
    omega
  · show ((Rect.unit (s := S10x64x128) offS S1x64x128.size hS).emb (Shape.reshapeEquiv squeezes_S1x64x128_S64x128.numel_eq (ix2 l p)) 2).val = _
    rw [e, Rect.emb_apply]
    show offS 2 + 1 * p.val = p.val
    omega

/-- The ids' scratch after the worker's row of the ids was copied into it whole. -/
theorem idx_val (fI : Buf (Elt F) ((V d (cV L) (jV L)).loc cc1_scratch0)) :
    View.write (Elt F) (xV).view fI (ReadAs.same.apply ((iRowK L).view.read (Elt F) (Ic d))) Finset.univ = idxC Ic d L := by
  rw [ReadAs.apply_same]
  show (View.whole (cc1_scratch0 : Ref sig .scVector)).write (Elt F) fI _ Finset.univ = _
  rw [View.write_whole_univ]
  funext x
  have hr : (iRowK L).view.read (Elt F) (Ic d) x = Ic d ((iRowK L).view.emb x) := (View.read_apply _ _).trans (cast_eq _ _)
  have he : (iRowK L).view.emb x = ix3 (widL L) (x 0) (x 1) :=
    (congrArg (iRowK L).view.emb (eq_ix2 x)).trans (iRowK_emb L (x 0) (x 1))
  rw [hr, he]
  rfl

/-- A slot after the gather of chunk j by row j of the ids' scratch. -/
theorem slot_val (offS : Fin 3 → Nat) (hS : ∀ a, offS a + S1x64x128.size a ≤ S10x64x128.size a)
    (offR : Fin 2 → Nat) (hR : ∀ a, offR a + S1x64.size a ≤ S100x64.size a) (j : ℕ) (hj : j < 100) (hoffR : offR = ![j, 0])
    (fprev : Buf (Elt F) ((V d (cV L) (jV L)).loc cc1_scratch1))
    (hn : S64.numel = S64x128.size (gathers_S100000x128_S64x128).axis')
    (hin' : ∀ x, ((rowM offR hR).view.read (Elt F) (idxC Ic d L) x).toNat < S100000x128.size (gathers_S100000x128_S64x128).axis) :
    ∀ y ∈ (slotM offS hS).view.set,
      (slotM offS hS).view.writes (Elt F) fprev
        [⟨Rect.whole S64x128, SparseCore.gatherPayload gathers_S100000x128_S64x128 ((tAll).view.read (Elt F) (Pc d))
            (SparseCore.rows ((rowM offR hR).view.read (Elt F) (idxC Ic d L)) hn hin')⟩] y = slotC Pc Ic d L j y := by
  intro y hy
  obtain ⟨y', -, rfl⟩ := Finset.mem_map.mp hy
  obtain ⟨l, p, rfl⟩ : ∃ (l : Fin 64) (p : Fin 128), y' = ix2 l p := ⟨y' 0, y' 1, eq_ix2 y'⟩
  -- what the one write left at this entry is the payload there
  have hw := View.read_writes_cons_emb (Val := Elt F) (slotM offS hS).view fprev (Rect.whole S64x128)
    (SparseCore.gatherPayload gathers_S100000x128_S64x128 ((tAll).view.read (Elt F) (Pc d))
      (SparseCore.rows ((rowM offR hR).view.read (Elt F) (idxC Ic d L)) hn hin')) [] (ix2 l p)
  rw [Rect.emb_whole_apply] at hw
  have hrd : ∀ g : Buf (Elt F) ((V d (cV L) (jV L)).loc cc1_scratch1), (slotM offS hS).view.read (Elt F) g (ix2 l p) = g ((slotM offS hS).view.emb (ix2 l p)) :=
    fun g => (View.read_apply _ _).trans (cast_eq _ _)
  rw [hrd] at hw
  rw [hw, gatherPayload_apply]
  -- the payload: the table at the named row
  have ht : (tAll).view.read (Elt F) (Pc d) (ix2 (SparseCore.rows ((rowM offR hR).view.read (Elt F) (idxC Ic d L)) hn hin' l) p)
      = Pc d (ix2 (SparseCore.rows ((rowM offR hR).view.read (Elt F) (idxC Ic d L)) hn hin' l) p) := by
    refine ((View.read_apply _ _).trans (cast_eq _ _)).trans ?_
    rw [tAll_emb]
  refine ht.trans ?_
  -- the named row is the id's
  have hrow : (rowM offR hR).view.read (Elt F) (idxC Ic d L) (ix1 l) = Ic d (ix3 (widL L) (⟨j, hj⟩ : Fin 100) l) := by
    refine ((View.read_apply _ _).trans (cast_eq _ _)).trans ?_
    rw [rowM_emb offR hR (⟨j, hj⟩ : Fin 100) hoffR l]
    rfl
  have hv := rows_val (F := F) ((rowM offR hR).view.read (Elt F) (idxC Ic d L)) hn hin' l
  have hlt := hin' (ix1 l)
  rw [hrow] at hv hlt
  obtain ⟨e1, e2⟩ := slotM_emb12 offS hS l p
  unfold slotC
  have hj' : jF j = (⟨j, hj⟩ : Fin 100) := Fin.ext (Nat.mod_eq_of_lt hj)
  have ea : ((slotM offS hS).view.emb (ix2 l p)) 1 = l := Fin.ext e1
  have eb : ((slotM offS hS).view.emb (ix2 l p)) 2 = p := Fin.ext e2
  rw [hj', ea, eb]
  congr 2
  refine Fin.ext ?_
  exact hv.trans (Cert.Proof.Spec.row_val_of_lt hlt).symm

/-- A chunk of the result after the copy out of a slot holding chunk j gathered. -/
theorem chunk_val (off : Fin 4 → Nat) (h : ∀ a, off a + S1x1x64x128.size a ≤ S32x100x64x128.size a) (j : ℕ) (hj : j < 100)
    (hoff : off = ![(widL L).val, j, 0, 0])
    (offS : Fin 3 → Nat) (hS : ∀ a, offS a + S1x64x128.size a ≤ S10x64x128.size a)
    (fO : Buf (Elt F) (oLoc d)) (fs : Buf (Elt F) ((V d (cV L) (jV L)).loc cc1_scratch1))
    (hfs : ∀ y ∈ (slotM offS hS).view.set, fs y = slotC Pc Ic d L j y) :
    ∀ z ∈ (chunkM off h).view.set,
      (chunkM off h).view.writes (Elt F) fO [⟨Rect.whole S64x128, ReadAs.same.apply ((slotM offS hS).view.read (Elt F) fs)⟩] z
        = outArr (Pc d) (Ic d) z := by
  intro z hz
  obtain ⟨z', -, rfl⟩ := Finset.mem_map.mp hz
  obtain ⟨l, p, rfl⟩ : ∃ (l : Fin 64) (p : Fin 128), z' = ix2 l p := ⟨z' 0, z' 1, eq_ix2 z'⟩
  have hw := View.read_writes_cons_emb (Val := Elt F) (chunkM off h).view fO (Rect.whole S64x128)
    (ReadAs.same.apply ((slotM offS hS).view.read (Elt F) fs)) [] (ix2 l p)
  rw [Rect.emb_whole_apply] at hw
  have hrd : ∀ g : Buf (Elt F) (oLoc d), (chunkM off h).view.read (Elt F) g (ix2 l p) = g ((chunkM off h).view.emb (ix2 l p)) :=
    fun g => (View.read_apply _ _).trans (cast_eq _ _)
  rw [hrd] at hw
  rw [hw, ReadAs.apply_same]
  have hs : (slotM offS hS).view.read (Elt F) fs (ix2 l p) = fs ((slotM offS hS).view.emb (ix2 l p)) := (View.read_apply _ _).trans (cast_eq _ _)
  rw [hs, hfs _ (View.emb_mem_set _ _)]
  obtain ⟨e1, e2⟩ := slotM_emb12 offS hS l p
  have ea : ((slotM offS hS).view.emb (ix2 l p)) 1 = l := Fin.ext e1
  have eb : ((slotM offS hS).view.emb (ix2 l p)) 2 = p := Fin.ext e2
  have hj' : jF j = (⟨j, hj⟩ : Fin 100) := Fin.ext (Nat.mod_eq_of_lt hj)
  rw [chunkM_emb off h (widL L) (⟨j, hj⟩ : Fin 100) hoff l p]
  unfold slotC outArr
  rw [hj', ea, eb]

end Cert.Proof.KI.Tile

end
-- ==== Proof.KI.TileTrip.lean ====
/-
  One trip of the task's counted loop, from the invariant before it to the invariant after it.

  The trip waits for the ten gathers of chunks 10 g .. 10 g + 9 (g the trip's number plus one), copies each slot out to its chunk,
  waits for the copy out of the slot six ahead and gathers the chunk ten after that slot's into it. Stepping through the
  trip's transfers is mechanical; what is written here is how each transfer left in flight, and each piece a wait hands back, is
  the invariant's canonical one: a slot a gather landed in holds slotC, a chunk a copy landed in holds outArr.
-/
import proofs.«207285_g25512105738892_cont_9to1_353_29_alg».proof.Proof.KI.TileInv
import proofs.«207285_g25512105738892_cont_9to1_353_29_alg».proof.Proof.KI.TileVals

noncomputable section

namespace Cert.Proof.KI.Tile

open Cert.KernelIdeal Cert.KernelIdeal.Gen
open Cert.Proof.KI.Res

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]
variable {U : Type} [URA U] [CountersIn U]

local notation "𝕄" => MT nD τ sig (HIx 1) (Elt F) ℕ U ℕ

variable (m : (ℓ : Loc nD τ sig) → Buf (Elt F) ℓ)
variable (Pc : (d : Dev nD) → Buf (Elt F) (tLoc d)) (Ic : (d : Dev nD) → Buf (Elt F) (iLoc d))
variable (d : Dev nD) (L : grid1.Coords)

/-! ## What the run leaves, as the invariant states it -/

/-- The value a gather lands in a slot, the payload under any name. -/
theorem slot_valP (offS : Fin 3 → Nat) (hS : ∀ a, offS a + S1x64x128.size a ≤ S10x64x128.size a)
    (offR : Fin 2 → Nat) (hR : ∀ a, offR a + S1x64.size a ≤ S100x64.size a) (j : ℕ) (hj : j < 100) (hoffR : offR = ![j, 0])
    (fprev : Buf (Elt F) ((V d (cV L) (jV L)).loc cc1_scratch1))
    (hn : S64.numel = S64x128.size (gathers_S100000x128_S64x128).axis')
    (hin' : ∀ x, ((rowM offR hR).view.read (Elt F) (idxC Ic d L) x).toNat < S100000x128.size (gathers_S100000x128_S64x128).axis)
    (pay : S64x128.Idx → Elt F .f32)
    (hpay : pay = SparseCore.gatherPayload gathers_S100000x128_S64x128 ((tAll).view.read (Elt F) (Pc d))
        (SparseCore.rows ((rowM offR hR).view.read (Elt F) (idxC Ic d L)) hn hin'))
    (rest : List (View.Piece (Elt F) S64x128 .f32)) :
    ∀ y ∈ (slotM offS hS).view.set, (slotM offS hS).view.writes (Elt F) fprev (⟨Rect.whole S64x128, pay⟩ :: rest) y = slotC Pc Ic d L j y := by
  subst hpay
  exact slot_val Pc Ic d L offS hS offR hR j hj hoffR ((slotM offS hS).view.writes (Elt F) fprev rest) hn hin'

/-- A gather the run left in flight is the invariant's: the slot will hold the chunk gathered. -/
theorem gFl_of (sem : DmaSem sig) (offS : Fin 3 → Nat) (hS : ∀ a, offS a + S1x64x128.size a ≤ S10x64x128.size a) (q : PosShare TreeShare) (j : ℕ) (hj : j < 100)
    (offR : Fin 2 → Nat) (hR : ∀ a, offR a + S1x64.size a ≤ S100x64.size a) (hoffR : offR = ![j, 0])
    (fprev : Buf (Elt F) ((V d (cV L) (jV L)).loc cc1_scratch1))
    (hn : S64.numel = S64x128.size (gathers_S100000x128_S64x128).axis')
    (hin' : ∀ x, ((rowM offR hR).view.read (Elt F) (idxC Ic d L) x).toNat < S100000x128.size (gathers_S100000x128_S64x128).axis)
    (pay : S64x128.Idx → Elt F .f32)
    (hpay : pay = SparseCore.gatherPayload gathers_S100000x128_S64x128 ((tAll).view.read (Elt F) (Pc d))
        (SparseCore.rows ((rowM offR hR).view.read (Elt F) (idxC Ic d L)) hn hin'))
    (rest : List (View.Piece (Elt F) S64x128 .f32)) :
    (Transfers.Flight countersEmb (V d (cV L) (jV L)) (SemLoc.dma sem) (default : HIx 1) 262144
      iprop((((slotM offS hS).view.loc (V d (cV L) (jV L)) ↦[(slotM offS hS).view.set]{fullShare}
            (slotM offS hS).view.writes (Elt F) fprev (⟨Rect.whole S64x128, pay⟩ :: rest))
          ∗ ((rowM offR hR).view.loc (V d (cV L) (jV L)) ↦[(rowM offR hR).view.set]{fullShare} idxC Ic d L))
        ∗ ((tAll).view.loc (V d (cV L) (jV L)) ↦[(tAll).view.set]{q} Pc d)) : sProp 𝕄)
      ⊢ gFl Pc Ic d L sem offS hS q j := by
  unfold gFl
  refine Transfers.Flight_mono countersEmb _ ?_
  rw [pointsTo_congr (slot_valP Pc Ic d L offS hS offR hR j hj hoffR fprev hn hin' pay hpay rest), ← row_conv d L offR hR j hoffR]

/-- A copy out the run left in flight is the invariant's: the chunk will hold the result. -/
theorem oFl_of (sem : DmaSem sig) (offS : Fin 3 → Nat) (hS : ∀ a, offS a + S1x64x128.size a ≤ S10x64x128.size a) (j : ℕ) (hj : j < 100)
    (off : Fin 4 → Nat) (h : ∀ a, off a + S1x1x64x128.size a ≤ S32x100x64x128.size a) (hoff : off = ![(widL L).val, j, 0, 0])
    (fO : Buf (Elt F) (oLoc d)) (fs : Buf (Elt F) ((V d (cV L) (jV L)).loc cc1_scratch1))
    (hfs : ∀ y ∈ (slotM offS hS).view.set, fs y = slotC Pc Ic d L j y)
    (pay : S64x128.Idx → Elt F .f32) (hpay : pay = ReadAs.same.apply ((slotM offS hS).view.read (Elt F) fs)) :
    (Transfers.Flight countersEmb (V d (cV L) (jV L)) (SemLoc.dma sem) (default : HIx 1) 262144
      iprop(((chunkM off h).view.loc (V d (cV L) (jV L)) ↦[(chunkM off h).view.set]{fullShare}
            (chunkM off h).view.writes (Elt F) fO [⟨Rect.whole S64x128, pay⟩])
        ∗ ((slotM offS hS).view.loc (V d (cV L) (jV L)) ↦[(slotM offS hS).view.set]{fullShare} fs)) : sProp 𝕄)
      ⊢ oFl Pc Ic d L sem offS hS j := by
  subst hpay
  unfold oFl
  refine Transfers.Flight_mono countersEmb _ ?_
  rw [pointsTo_congr (chunk_val Pc Ic d L off h j hj hoff offS hS fO fs hfs),
    pointsTo_congr (ℓ := (slotM offS hS).view.loc (V d (cV L) (jV L))) (I := (slotM offS hS).view.set) (f := fs) (g := slotC Pc Ic d L j) hfs,
    ← chunk_conv d L off h _ j hoff]

/-- A chunk a copy out landed in is written. -/
theorem chunkP1_of (j : ℕ) (hj : j < 100)
    (off : Fin 4 → Nat) (h : ∀ a, off a + S1x1x64x128.size a ≤ S32x100x64x128.size a) (hoff : off = ![(widL L).val, j, 0, 0])
    (offS : Fin 3 → Nat) (hS : ∀ a, offS a + S1x64x128.size a ≤ S10x64x128.size a)
    (fO : Buf (Elt F) (oLoc d)) (fs : Buf (Elt F) ((V d (cV L) (jV L)).loc cc1_scratch1))
    (hfs : ∀ y ∈ (slotM offS hS).view.set, fs y = slotC Pc Ic d L j y)
    (pay : S64x128.Idx → Elt F .f32) (hpay : pay = ReadAs.same.apply ((slotM offS hS).view.read (Elt F) fs)) :
    ((chunkM off h).view.loc (V d (cV L) (jV L)) ↦[(chunkM off h).view.set]{fullShare}
        (chunkM off h).view.writes (Elt F) fO [⟨Rect.whole S64x128, pay⟩] : sProp 𝕄)
      ⊢ chunkP1 Pc Ic d L j := by
  subst hpay
  unfold chunkP1
  rw [pointsTo_congr (chunk_val Pc Ic d L off h j hj hoff offS hS fO fs hfs), ← chunk_conv d L off h _ j hoff]

/-- A row of the ids' scratch a gather hands back. -/
theorem rowP_of (j : ℕ) (offR : Fin 2 → Nat) (hR : ∀ a, offR a + S1x64.size a ≤ S100x64.size a) (hoffR : offR = ![j, 0]) :
    ((rowM offR hR).view.loc (V d (cV L) (jV L)) ↦[(rowM offR hR).view.set]{fullShare} idxC Ic d L : sProp 𝕄) ⊢ rowP Ic d L j := by
  unfold rowP
  rw [← row_conv d L offR hR j hoffR]

omit [FloatOps F] [CountersIn U] in
/-- One more wait at the default index keeps the recorded waits admissible. -/
theorem waits_ok {W W' : Waits sig (HIx 1)} (h : ∀ p ∈ W', p ∈ W ∨ p.2 = none) (sm : SemLoc sig) :
    ∀ p ∈ insert (sm, (default : HIx 1)) W', p ∈ W ∨ p.2 = none :=
  fun p hp => (Finset.mem_insert.mp hp).elim (fun e => .inr (e ▸ rfl)) (h p)

omit [FloatOps F] [CountersIn U] in
/-- The read shares in the order a trip leaves them with the slots: the same ten. -/
theorem TokJoin_rot {q0 q1 q2 q3 q4 q5 q6 q7 q8 q9 : PosShare TreeShare}
    (h : TokJoin (F := F) (U := U) d L q0 q1 q2 q3 q4 q5 q6 q7 q8 q9) : TokJoin (F := F) (U := U) d L q4 q5 q0 q1 q2 q3 q6 q7 q8 q9 := by
  intro f
  refine BIBase.Entails.trans ?_ (h f)
  iintro ⟨H4, H5, H0, H1, H2, H3, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

variable (O : CellTallies nD τ sig (HIx 1)) (W : Waits sig (HIx 1))

set_option maxHeartbeats 16000000 in
/-- One trip of the loop. -/
theorem trip (hIc : ∀ (d : Dev nD) (j : S32x100x64.Idx), (Ic d j).toNat < 100000)
    (k : Fin k1_t1_loop.trips) (acc : Unit) :
    inv (U := U) m Pc Ic d L O W k.val acc
      ⊢ wp frame (wpE (defs₀ (F := F)) 𝒱₀ (V d (cV L) (jV L)) none) Set.univ
          (k1_t1_body L tV (Memref.isWhole_whole _) iV (Memref.isWhole_whole _) oV (Memref.isWhole_whole _)
              xV (Memref.isWhole_whole _) bV (Memref.isWhole_whole _)
              cc1_scratch2 cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scratch19 cc1_scratch20 cc1_scratch21 cc1_scoped0 k acc)
          (inv (U := U) m Pc Ic d L O W (k.val + 1)) := by
  have hk : k.val < 8 := k.isLt
  have hin := hin_of (F := F) Ic d L hIc
  generalize hQ : inv (U := U) m Pc Ic d L O W (k.val + 1) = Q
  unfold k1_t1_body
  unfold inv gFl oFl tkRest tkWhole
  rw [bigSep_Ico_take10 (rowP (U := U) Ic d L) (a := 10 * k.val + 16) (c := 100) (by omega),
    bigSep_Ico_take10 (chunkP0 (U := U) m d L) (a := 10 * k.val + 10) (c := 100) (by omega)]
  unfold rowP chunkP0
  iintro ⟨%q0, %q1, %q2, %q3, %q4, %q5, %q6, %q7, %q8, %q9, %hJ, #Hmw, Hg0, Hg1, Hg2, Hg3, Hg4, Hg5, Hr6, Hr7, Hr8, Hr9, Hr10, Hr11, Ht12, Ht13, Ht14, Ht15, Ho6, Ho7, Ho8, Ho9,
    Hs8, Hs9, Hs10, Hs11, Hs12, Hs13, Hs14, Hs15, Hs16, Hs17,
    ⟨Hx0, Hx1, Hx2, Hx3, Hx4, Hx5, Hx6, Hx7, Hx8, Hx9, Hxs⟩, Hxd, ⟨Hc0, Hc1, Hc2, Hc3, Hc4, Hc5, Hc6, Hc7, Hc8, Hc9, Hcs⟩, Hcd, %W', %hW', HO⟩
  -- the ten rows and the ten chunks this trip lends, as its transfers address them
  ihave Hx0 := (Entails.of_eq (row_conv (F := F) (U := U) d L (k1_off15 k 0#32) (k1_off15_inb k 0) _ (off15_at k 0) _)) $$ Hx0
  ihave Hx1 := (Entails.of_eq (row_conv (F := F) (U := U) d L (k1_off15 k 1#32) (k1_off15_inb k 1) _ (off15_at k 1) _)) $$ Hx1
  ihave Hx2 := (Entails.of_eq (row_conv (F := F) (U := U) d L (k1_off15 k 2#32) (k1_off15_inb k 2) _ (off15_at k 2) _)) $$ Hx2
  ihave Hx3 := (Entails.of_eq (row_conv (F := F) (U := U) d L (k1_off15 k 3#32) (k1_off15_inb k 3) _ (off15_at k 3) _)) $$ Hx3
  ihave Hx4 := (Entails.of_eq (row_conv (F := F) (U := U) d L (k1_off15 k 4#32) (k1_off15_inb k 4) _ (off15_at k 4) _)) $$ Hx4
  ihave Hx5 := (Entails.of_eq (row_conv (F := F) (U := U) d L (k1_off15 k 5#32) (k1_off15_inb k 5) _ (off15_at k 5) _)) $$ Hx5
  ihave Hx6 := (Entails.of_eq (row_conv (F := F) (U := U) d L (k1_off15 k 6#32) (k1_off15_inb k 6) _ (off15_at k 6) _)) $$ Hx6
  ihave Hx7 := (Entails.of_eq (row_conv (F := F) (U := U) d L (k1_off15 k 7#32) (k1_off15_inb k 7) _ (off15_at k 7) _)) $$ Hx7
  ihave Hx8 := (Entails.of_eq (row_conv (F := F) (U := U) d L (k1_off15 k 8#32) (k1_off15_inb k 8) _ (off15_at k 8) _)) $$ Hx8
  ihave Hx9 := (Entails.of_eq (row_conv (F := F) (U := U) d L (k1_off15 k 9#32) (k1_off15_inb k 9) _ (off15_at k 9) _)) $$ Hx9
  ihave Hc0 := (Entails.of_eq (chunk_conv (F := F) (U := U) d L (k1_off13 L k 0#32) (k1_off13_inb L k 0) _ _ (off13_at L k 0) _)) $$ Hc0
  ihave Hc1 := (Entails.of_eq (chunk_conv (F := F) (U := U) d L (k1_off13 L k 1#32) (k1_off13_inb L k 1) _ _ (off13_at L k 1) _)) $$ Hc1
  ihave Hc2 := (Entails.of_eq (chunk_conv (F := F) (U := U) d L (k1_off13 L k 2#32) (k1_off13_inb L k 2) _ _ (off13_at L k 2) _)) $$ Hc2
  ihave Hc3 := (Entails.of_eq (chunk_conv (F := F) (U := U) d L (k1_off13 L k 3#32) (k1_off13_inb L k 3) _ _ (off13_at L k 3) _)) $$ Hc3
  ihave Hc4 := (Entails.of_eq (chunk_conv (F := F) (U := U) d L (k1_off13 L k 4#32) (k1_off13_inb L k 4) _ _ (off13_at L k 4) _)) $$ Hc4
  ihave Hc5 := (Entails.of_eq (chunk_conv (F := F) (U := U) d L (k1_off13 L k 5#32) (k1_off13_inb L k 5) _ _ (off13_at L k 5) _)) $$ Hc5
  ihave Hc6 := (Entails.of_eq (chunk_conv (F := F) (U := U) d L (k1_off13 L k 6#32) (k1_off13_inb L k 6) _ _ (off13_at L k 6) _)) $$ Hc6
  ihave Hc7 := (Entails.of_eq (chunk_conv (F := F) (U := U) d L (k1_off13 L k 7#32) (k1_off13_inb L k 7) _ _ (off13_at L k 7) _)) $$ Hc7
  ihave Hc8 := (Entails.of_eq (chunk_conv (F := F) (U := U) d L (k1_off13 L k 8#32) (k1_off13_inb L k 8) _ _ (off13_at L k 8) _)) $$ Hc8
  ihave Hc9 := (Entails.of_eq (chunk_conv (F := F) (U := U) d L (k1_off13 L k 9#32) (k1_off13_inb L k 9) _ _ (off13_at L k 9) _)) $$ Hc9
  sl_exec
  sl_step
  -- what the run left, as the invariant after the trip states it
  ihave Hg0 := (gFl_of Pc Ic d L _ ![0, 0, 0] inb_S10x64x128_S1x64x128_0_0_0 q4 (10 * (k.val + 1) + 10) (by omega) (k1_off15 k 4#32) (k1_off15_inb k 4)
      ((off15_at k 4).trans (vec2_congr (by show 10 * k.val + 16 + 4 = _; omega))) (slotC Pc Ic d L (10 * k.val + 10)) _ _
      (trip.sl.gather9 Pc Ic d L k hin) rfl []) $$ Hg0
  ihave Hg1 := (gFl_of Pc Ic d L _ ![1, 0, 0] inb_S10x64x128_S1x64x128_1_0_0 q5 (10 * (k.val + 1) + 10 + 1) (by omega) (k1_off15 k 5#32) (k1_off15_inb k 5)
      ((off15_at k 5).trans (vec2_congr (by show 10 * k.val + 16 + 5 = _; omega))) (slotC Pc Ic d L (10 * k.val + 10 + 1)) _ _
      (trip.sl.gather11 Pc Ic d L k hin) rfl []) $$ Hg1
  ihave Hg2 := (gFl_of Pc Ic d L _ ![2, 0, 0] inb_S10x64x128_S1x64x128_2_0_0 q0 (10 * (k.val + 1) + 10 + 2) (by omega) (k1_off15 k 6#32) (k1_off15_inb k 6)
      ((off15_at k 6).trans (vec2_congr (by show 10 * k.val + 16 + 6 = _; omega))) (slotC Pc Ic d L (10 * k.val + 10 + 2)) _ _
      (trip.sl.gather13 Pc Ic d L k hin) rfl []) $$ Hg2
  ihave Hg3 := (gFl_of Pc Ic d L _ ![3, 0, 0] inb_S10x64x128_S1x64x128_3_0_0 q1 (10 * (k.val + 1) + 10 + 3) (by omega) (k1_off15 k 7#32) (k1_off15_inb k 7)
      ((off15_at k 7).trans (vec2_congr (by show 10 * k.val + 16 + 7 = _; omega))) (slotC Pc Ic d L (10 * k.val + 10 + 3)) _ _
      (trip.sl.gather15 Pc Ic d L k hin) rfl []) $$ Hg3
  ihave Hg4 := (gFl_of Pc Ic d L _ ![4, 0, 0] inb_S10x64x128_S1x64x128_4_0_0 q2 (10 * (k.val + 1) + 10 + 4) (by omega) (k1_off15 k 8#32) (k1_off15_inb k 8)
      ((off15_at k 8).trans (vec2_congr (by show 10 * k.val + 16 + 8 = _; omega))) (slotC Pc Ic d L (10 * k.val + 10 + 4)) _ _
      (trip.sl.gather17 Pc Ic d L k hin) rfl []) $$ Hg4
  ihave Hg5 := (gFl_of Pc Ic d L _ ![5, 0, 0] inb_S10x64x128_S1x64x128_5_0_0 q3 (10 * (k.val + 1) + 10 + 5) (by omega) (k1_off15 k 9#32) (k1_off15_inb k 9)
      ((off15_at k 9).trans (vec2_congr (by show 10 * k.val + 16 + 9 = _; omega))) (slotC Pc Ic d L (10 * k.val + 10 + 5)) _ _
      (trip.sl.gather19 Pc Ic d L k hin) rfl []) $$ Hg5
  ihave Ho6 := (oFl_of Pc Ic d L _ ![6, 0, 0] inb_S10x64x128_S1x64x128_6_0_0 (10 * (k.val + 1) + 6) (by omega) (k1_off13 L k 6#32) (k1_off13_inb L k 6)
      ((off13_at L k 6).trans (vec4_congr (by show 10 * k.val + 10 + 6 = _; omega))) (m (oLoc d))
      ((slotM ![6, 0, 0] inb_S10x64x128_S1x64x128_6_0_0).view.writes (Elt F) (slotC Pc Ic d L (10 * k.val + 6)) [⟨Rect.whole S64x128, trip.sl.gather1 Pc Ic d L k hin⟩])
      (slot_valP Pc Ic d L _ _ (k1_off15 k 0#32) (k1_off15_inb k 0) (10 * (k.val + 1) + 6) (by omega)
        ((off15_at k 0).trans (vec2_congr (by show 10 * k.val + 16 + 0 = _; omega))) (slotC Pc Ic d L (10 * k.val + 6)) _ _ (trip.sl.gather1 Pc Ic d L k hin) rfl [])
      (trip.sl.dma0_6 Pc Ic d L k hin) rfl) $$ Ho6
  ihave Ho7 := (oFl_of Pc Ic d L _ ![7, 0, 0] inb_S10x64x128_S1x64x128_7_0_0 (10 * (k.val + 1) + 6 + 1) (by omega) (k1_off13 L k 7#32) (k1_off13_inb L k 7)
      ((off13_at L k 7).trans (vec4_congr (by show 10 * k.val + 10 + 7 = _; omega))) (m (oLoc d))
      ((slotM ![7, 0, 0] inb_S10x64x128_S1x64x128_7_0_0).view.writes (Elt F) (slotC Pc Ic d L (10 * k.val + 6 + 1)) [⟨Rect.whole S64x128, trip.sl.gather3 Pc Ic d L k hin⟩])
      (slot_valP Pc Ic d L _ _ (k1_off15 k 1#32) (k1_off15_inb k 1) (10 * (k.val + 1) + 6 + 1) (by omega)
        ((off15_at k 1).trans (vec2_congr (by show 10 * k.val + 16 + 1 = _; omega))) (slotC Pc Ic d L (10 * k.val + 6 + 1)) _ _ (trip.sl.gather3 Pc Ic d L k hin) rfl [])
      (trip.sl.dma0_7 Pc Ic d L k hin) rfl) $$ Ho7
  ihave Ho8 := (oFl_of Pc Ic d L _ ![8, 0, 0] inb_S10x64x128_S1x64x128_8_0_0 (10 * (k.val + 1) + 6 + 2) (by omega) (k1_off13 L k 8#32) (k1_off13_inb L k 8)
      ((off13_at L k 8).trans (vec4_congr (by show 10 * k.val + 10 + 8 = _; omega))) (m (oLoc d))
      ((slotM ![8, 0, 0] inb_S10x64x128_S1x64x128_8_0_0).view.writes (Elt F) (slotC Pc Ic d L (10 * k.val + 6 + 2)) [⟨Rect.whole S64x128, trip.sl.gather5 Pc Ic d L k hin⟩])
      (slot_valP Pc Ic d L _ _ (k1_off15 k 2#32) (k1_off15_inb k 2) (10 * (k.val + 1) + 6 + 2) (by omega)
        ((off15_at k 2).trans (vec2_congr (by show 10 * k.val + 16 + 2 = _; omega))) (slotC Pc Ic d L (10 * k.val + 6 + 2)) _ _ (trip.sl.gather5 Pc Ic d L k hin) rfl [])
      (trip.sl.dma0_8 Pc Ic d L k hin) rfl) $$ Ho8
  ihave Ho9 := (oFl_of Pc Ic d L _ ![9, 0, 0] inb_S10x64x128_S1x64x128_9_0_0 (10 * (k.val + 1) + 6 + 3) (by omega) (k1_off13 L k 9#32) (k1_off13_inb L k 9)
      ((off13_at L k 9).trans (vec4_congr (by show 10 * k.val + 10 + 9 = _; omega))) (m (oLoc d))
      ((slotM ![9, 0, 0] inb_S10x64x128_S1x64x128_9_0_0).view.writes (Elt F) (slotC Pc Ic d L (10 * k.val + 6 + 3)) [⟨Rect.whole S64x128, trip.sl.gather7 Pc Ic d L k hin⟩])
      (slot_valP Pc Ic d L _ _ (k1_off15 k 3#32) (k1_off15_inb k 3) (10 * (k.val + 1) + 6 + 3) (by omega)
        ((off15_at k 3).trans (vec2_congr (by show 10 * k.val + 16 + 3 = _; omega))) (slotC Pc Ic d L (10 * k.val + 6 + 3)) _ _ (trip.sl.gather7 Pc Ic d L k hin) rfl [])
      (trip.sl.dma0_9 Pc Ic d L k hin) rfl) $$ Ho9
  ihave Hc0 := (chunkP1_of Pc Ic d L (10 * k.val + 6 + 4) (by omega) (k1_off13 L k 0#32) (k1_off13_inb L k 0)
      ((off13_at L k 0).trans (vec4_congr (by show 10 * k.val + 10 + 0 = _; omega))) ![0, 0, 0] inb_S10x64x128_S1x64x128_0_0_0 (m (oLoc d)) (slotC Pc Ic d L (10 * k.val + 10))
      (fun y _ => congrFun (congrArg (slotC Pc Ic d L) (by omega)) y) (trip.sl.dma0 Pc Ic d L k) rfl) $$ Hc0
  ihave Hc1 := (chunkP1_of Pc Ic d L (10 * k.val + 6 + 5) (by omega) (k1_off13 L k 1#32) (k1_off13_inb L k 1)
      ((off13_at L k 1).trans (vec4_congr (by show 10 * k.val + 10 + 1 = _; omega))) ![1, 0, 0] inb_S10x64x128_S1x64x128_1_0_0 (m (oLoc d)) (slotC Pc Ic d L (10 * k.val + 10 + 1))
      (fun y _ => congrFun (congrArg (slotC Pc Ic d L) (by omega)) y) (trip.sl.dma0_1 Pc Ic d L k) rfl) $$ Hc1
  ihave Hc2 := (chunkP1_of Pc Ic d L (10 * k.val + 6 + 6) (by omega) (k1_off13 L k 2#32) (k1_off13_inb L k 2)
      ((off13_at L k 2).trans (vec4_congr (by show 10 * k.val + 10 + 2 = _; omega))) ![2, 0, 0] inb_S10x64x128_S1x64x128_2_0_0 (m (oLoc d)) (slotC Pc Ic d L (10 * k.val + 10 + 2))
      (fun y _ => congrFun (congrArg (slotC Pc Ic d L) (by omega)) y) (trip.sl.dma0_2 Pc Ic d L k) rfl) $$ Hc2
  ihave Hc3 := (chunkP1_of Pc Ic d L (10 * k.val + 6 + 7) (by omega) (k1_off13 L k 3#32) (k1_off13_inb L k 3)
      ((off13_at L k 3).trans (vec4_congr (by show 10 * k.val + 10 + 3 = _; omega))) ![3, 0, 0] inb_S10x64x128_S1x64x128_3_0_0 (m (oLoc d)) (slotC Pc Ic d L (10 * k.val + 10 + 3))
      (fun y _ => congrFun (congrArg (slotC Pc Ic d L) (by omega)) y) (trip.sl.dma0_3 Pc Ic d L k) rfl) $$ Hc3
  ihave Hc4 := (chunkP1_of Pc Ic d L (10 * k.val + 6 + 8) (by omega) (k1_off13 L k 4#32) (k1_off13_inb L k 4)
      ((off13_at L k 4).trans (vec4_congr (by show 10 * k.val + 10 + 4 = _; omega))) ![4, 0, 0] inb_S10x64x128_S1x64x128_4_0_0 (m (oLoc d)) (slotC Pc Ic d L (10 * k.val + 10 + 4))
      (fun y _ => congrFun (congrArg (slotC Pc Ic d L) (by omega)) y) (trip.sl.dma0_4 Pc Ic d L k) rfl) $$ Hc4
  ihave Hc5 := (chunkP1_of Pc Ic d L (10 * k.val + 6 + 9) (by omega) (k1_off13 L k 5#32) (k1_off13_inb L k 5)
      ((off13_at L k 5).trans (vec4_congr (by show 10 * k.val + 10 + 5 = _; omega))) ![5, 0, 0] inb_S10x64x128_S1x64x128_5_0_0 (m (oLoc d)) (slotC Pc Ic d L (10 * k.val + 10 + 5))
      (fun y _ => congrFun (congrArg (slotC Pc Ic d L) (by omega)) y) (trip.sl.dma0_5 Pc Ic d L k) rfl) $$ Hc5
  ihave Hx0 := (rowP_of Ic d L (10 * k.val + 10 + 6) (k1_off15 k 0#32) (k1_off15_inb k 0)
      ((off15_at k 0).trans (vec2_congr (by show 10 * k.val + 16 + 0 = _; omega)))) $$ Hx0
  ihave Hx1 := (rowP_of Ic d L (10 * k.val + 10 + 7) (k1_off15 k 1#32) (k1_off15_inb k 1)
      ((off15_at k 1).trans (vec2_congr (by show 10 * k.val + 16 + 1 = _; omega)))) $$ Hx1
  ihave Hx2 := (rowP_of Ic d L (10 * k.val + 10 + 8) (k1_off15 k 2#32) (k1_off15_inb k 2)
      ((off15_at k 2).trans (vec2_congr (by show 10 * k.val + 16 + 2 = _; omega)))) $$ Hx2
  ihave Hx3 := (rowP_of Ic d L (10 * k.val + 10 + 9) (k1_off15 k 3#32) (k1_off15_inb k 3)
      ((off15_at k 3).trans (vec2_congr (by show 10 * k.val + 16 + 3 = _; omega)))) $$ Hx3
  subst hQ
  unfold inv
  iexists q4; iexists q5; iexists q0; iexists q1; iexists q2; iexists q3; iexists q6; iexists q7; iexists q8; iexists q9
  isplitl []
  · ipureintro; exact TokJoin_rot d L hJ
  isplitl []
  · iexact Hmw
  isplitl [Hg0]
  · iexact Hg0
  isplitl [Hg1]
  · iexact Hg1
  isplitl [Hg2]
  · iexact Hg2
  isplitl [Hg3]
  · iexact Hg3
  isplitl [Hg4]
  · iexact Hg4
  isplitl [Hg5]
  · iexact Hg5
  isplitl [Hr10]
  · unfold tkRest; iexact Hr10
  isplitl [Hr11]
  · unfold tkRest; iexact Hr11
  isplitl [Hr6]
  · unfold tkRest; iexact Hr6
  isplitl [Hr7]
  · unfold tkRest; iexact Hr7
  isplitl [Hr8]
  · unfold tkRest; iexact Hr8
  isplitl [Hr9]
  · unfold tkRest; iexact Hr9
  isplitl [Ht12]
  · unfold tkWhole; iexact Ht12
  isplitl [Ht13]
  · unfold tkWhole; iexact Ht13
  isplitl [Ht14]
  · unfold tkWhole; iexact Ht14
  isplitl [Ht15]
  · unfold tkWhole; iexact Ht15
  isplitl [Ho6]
  · iexact Ho6
  isplitl [Ho7]
  · iexact Ho7
  isplitl [Ho8]
  · iexact Ho8
  isplitl [Ho9]
  · iexact Ho9
  isplitl [Hs8]
  · iexact Hs8
  isplitl [Hs9]
  · iexact Hs9
  isplitl [Hs10]
  · iexact Hs10
  isplitl [Hs11]
  · iexact Hs11
  isplitl [Hs12]
  · iexact Hs12
  isplitl [Hs13]
  · iexact Hs13
  isplitl [Hs14]
  · iexact Hs14
  isplitl [Hs15]
  · iexact Hs15
  isplitl [Hs16]
  · iexact Hs16
  isplitl [Hs17]
  · iexact Hs17
  isplitl [Hxs]
  · iapply (Entails.of_eq (run_fresh_step (rowP (U := U) Ic d L) (10 * k.val + 16 + 10) (10 * (k.val + 1) + 16) 100 (by omega)))
    unfold rowP; iexact Hxs
  isplitl [Hx0 Hx1 Hx2 Hx3 Hg0_dst_and Hg1_dst_and Hg2_dst_and Hg3_dst_and Hg4_dst_and Hg5_dst_and Hxd]
  · iapply (Entails.of_eq (run_done_step (rowP (U := U) Ic d L) (10 * k.val + 10) (10 * (k.val + 1) + 10) (by omega)))
    isplitl [Hx3]
    · iexact Hx3
    isplitl [Hx2]
    · iexact Hx2
    isplitl [Hx1]
    · iexact Hx1
    isplitl [Hx0]
    · iexact Hx0
    isplitl [Hg5_dst_and]
    · unfold rowP; iexact Hg5_dst_and
    isplitl [Hg4_dst_and]
    · unfold rowP; iexact Hg4_dst_and
    isplitl [Hg3_dst_and]
    · unfold rowP; iexact Hg3_dst_and
    isplitl [Hg2_dst_and]
    · unfold rowP; iexact Hg2_dst_and
    isplitl [Hg1_dst_and]
    · unfold rowP; iexact Hg1_dst_and
    isplitl [Hg0_dst_and]
    · unfold rowP; iexact Hg0_dst_and
    unfold rowP; iexact Hxd
  isplitl [Hcs]
  · iapply (Entails.of_eq (run_fresh_step (chunkP0 (U := U) m d L) (10 * k.val + 10 + 10) (10 * (k.val + 1) + 10) 100 (by omega)))
    unfold chunkP0; iexact Hcs
  isplitl [Hc0 Hc1 Hc2 Hc3 Hc4 Hc5 Ho6_dst Ho7_dst Ho8_dst Ho9_dst Hcd]
  · iapply (Entails.of_eq (run_done_step (chunkP1 (U := U) Pc Ic d L) (10 * k.val + 6) (10 * (k.val + 1) + 6) (by omega)))
    isplitl [Hc5]
    · iexact Hc5
    isplitl [Hc4]
    · iexact Hc4
    isplitl [Hc3]
    · iexact Hc3
    isplitl [Hc2]
    · iexact Hc2
    isplitl [Hc1]
    · iexact Hc1
    isplitl [Hc0]
    · iexact Hc0
    isplitl [Ho9_dst]
    · unfold chunkP1; iexact Ho9_dst
    isplitl [Ho8_dst]
    · unfold chunkP1; iexact Ho8_dst
    isplitl [Ho7_dst]
    · unfold chunkP1; iexact Ho7_dst
    isplitl [Ho6_dst]
    · unfold chunkP1; iexact Ho6_dst
    iexact Hcd
  iexists _; isplitr
  swap; · iexact HO
  ipureintro
  iterate 20 (refine waits_ok ?_ _)
  exact hW'

end Cert.Proof.KI.Tile

end
-- ==== Proof.KI.TileBody.lean ====
/-
  The task of one vector subcore: the worker's row of the ids fetched into the ids' scratch, then the ring of ten slots run over
  the worker's hundred chunks, six gathers ahead of the copies out.

  The program is stepped through in three stretches (up to the loop, one trip, after the loop). What is written here is the
  bookkeeping around them: the task's operands and scratch cut into the pieces the transfers address (rows, slots, chunks, read tokens), the loop
  entered at its invariant, and at the end every piece back and the hundred chunks of the worker's block of the result joined
  at the one whole-array function outArr.
-/
import proofs.«207285_g25512105738892_cont_9to1_353_29_alg».proof.Proof.KI.TileSetup
import proofs.«207285_g25512105738892_cont_9to1_353_29_alg».proof.Proof.KI.TileTrip

noncomputable section

namespace Cert.Proof.KI.Tile

open Cert.KernelIdeal Cert.KernelIdeal.Gen
open Cert.Proof.KI.Res

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]
variable {U : Type} [URA U] [CountersIn U]

local notation "𝕄" => MT nD τ sig (HIx 1) (Elt F) ℕ U ℕ

/-! ## Small bookkeeping -/

omit [FloatOps F] [CountersIn U] in
/-- A slot of the ring, as the memref at an offset function that names it. -/
theorem slot_conv (d : Dev nD) (L : grid1.Coords) (off : Fin 3 → Nat) (h : ∀ a, off a + S1x64x128.size a ≤ S10x64x128.size a) (b : ℕ) (hb : off = ![b, 0, 0])
    (f : Buf (Elt F) ((V d (cV L) (jV L)).loc cc1_scratch1)) :
    ((V d (cV L) (jV L)).loc cc1_scratch1 ↦[slotSet b]{fullShare} f : sProp 𝕄)
      = (slotM off h).view.loc (V d (cV L) (jV L)) ↦[(slotM off h).view.set]{fullShare} f := by
  rw [set_slotM off h b hb]

omit [FloatOps F] [CountersIn U] in
theorem bigSep_Ico_take6 (R : ℕ → sProp 𝕄) {a c : ℕ} (h : a + 6 ≤ c) :
    bigSep (Finset.Ico a c) R = iprop(R a ∗ R (a + 1) ∗ R (a + 2) ∗ R (a + 3) ∗ R (a + 4) ∗ R (a + 5) ∗ bigSep (Finset.Ico (a + 6) c) R) := by
  rw [bigSep_Ico_take R (a := a) (by omega), bigSep_Ico_take R (a := a + 1) (by omega), bigSep_Ico_take R (a := a + 2) (by omega),
    bigSep_Ico_take R (a := a + 3) (by omega), bigSep_Ico_take R (a := a + 4) (by omega), bigSep_Ico_take R (a := a + 5) (by omega)]

omit [FloatOps F] [CountersIn U] in
theorem bigSep_Ico_take4 (R : ℕ → sProp 𝕄) {a c : ℕ} (h : a + 4 ≤ c) :
    bigSep (Finset.Ico a c) R = iprop(R a ∗ R (a + 1) ∗ R (a + 2) ∗ R (a + 3) ∗ bigSep (Finset.Ico (a + 4) c) R) := by
  rw [bigSep_Ico_take R (a := a) (by omega), bigSep_Ico_take R (a := a + 1) (by omega), bigSep_Ico_take R (a := a + 2) (by omega),
    bigSep_Ico_take R (a := a + 3) (by omega)]

omit [FloatOps F] [CountersIn U] in
theorem run_done_step4 (R : ℕ → sProp 𝕄) (a a' : ℕ) (h : a' = a + 4) :
    iprop(R (a + 3) ∗ R (a + 2) ∗ R (a + 1) ∗ R a ∗ bigSep (Finset.range a) R) = bigSep (Finset.range a') R := by
  subst h
  rw [bigSep_range_put R (a + 3), bigSep_range_put R (a + 2), bigSep_range_put R (a + 1), bigSep_range_put R a]

omit [FloatOps F] [CountersIn U] in
theorem run_done_step6 (R : ℕ → sProp 𝕄) (a a' : ℕ) (h : a' = a + 6) :
    iprop(R (a + 5) ∗ R (a + 4) ∗ R (a + 3) ∗ R (a + 2) ∗ R (a + 1) ∗ R a ∗ bigSep (Finset.range a) R) = bigSep (Finset.range a') R := by
  subst h
  rw [bigSep_range_put R (a + 5), bigSep_range_put R (a + 4), bigSep_range_put R (a + 3), bigSep_range_put R (a + 2), bigSep_range_put R (a + 1), bigSep_range_put R a]

omit [FloatOps F] [CountersIn U] in
theorem vec3_congr {a b : ℕ} (h : a = b) : (![a, 0, 0] : Fin 3 → ℕ) = ![b, 0, 0] := by rw [h]

omit [FloatOps F] [CountersIn U] in
/-- The first ten of a hundred pieces. -/
theorem range_take10 (R : ℕ → sProp 𝕄) :
    bigSep (Finset.range 100) R = iprop(R 0 ∗ R (0 + 1) ∗ R (0 + 2) ∗ R (0 + 3) ∗ R (0 + 4) ∗ R (0 + 5) ∗ R (0 + 6) ∗ R (0 + 7) ∗ R (0 + 8) ∗ R (0 + 9)
      ∗ bigSep (Finset.Ico (0 + 10) 100) R) := by
  rw [Finset.range_eq_Ico, bigSep_Ico_take10 R (a := 0) (c := 100) (by omega)]

omit [FloatOps F] [CountersIn U] in
/-- The first sixteen of a hundred pieces. -/
theorem range_take16 (R : ℕ → sProp 𝕄) :
    bigSep (Finset.range 100) R = iprop(R 0 ∗ R (0 + 1) ∗ R (0 + 2) ∗ R (0 + 3) ∗ R (0 + 4) ∗ R (0 + 5) ∗ R (0 + 6) ∗ R (0 + 7) ∗ R (0 + 8) ∗ R (0 + 9)
      ∗ R (0 + 10) ∗ R (0 + 10 + 1) ∗ R (0 + 10 + 2) ∗ R (0 + 10 + 3) ∗ R (0 + 10 + 4) ∗ R (0 + 10 + 5)
      ∗ bigSep (Finset.Ico (0 + 10 + 6) 100) R) := by
  rw [range_take10 R, bigSep_Ico_take6 R (a := 0 + 10) (c := 100) (by omega)]

omit [FloatOps F] [CountersIn U] in
theorem bigSep_range_zero (R : ℕ → sProp 𝕄) : bigSep (Finset.range 0) R = iprop(emp) := by
  rw [Finset.range_zero, bigSep_empty]
  rfl

omit [FloatOps F] [CountersIn U] in
theorem bigSep_Ico_empty (R : ℕ → sProp 𝕄) (a c : ℕ) (h : c ≤ a) : bigSep (Finset.Ico a c) R = iprop(emp) := by
  rw [Finset.Ico_eq_empty (by omega), bigSep_empty]
  rfl

set_option maxHeartbeats 32000000 in
set_option maxRecDepth 65536 in
/-- The task on vector subcore (L 0, L 1) of device d. -/
theorem tile_body (hF : (K (F := F)).Facts) (m : (ℓ : Loc nD τ sig) → Buf (Elt F) ℓ)
    (Pc : (d : Dev nD) → Buf (Elt F) (tLoc d)) (Ic : (d : Dev nD) → Buf (Elt F) (iLoc d))
    (hIc : ∀ (d : Dev nD) (j : S32x100x64.Idx), (Ic d j).toNat < 100000)
    (d : Dev nD) (L : grid1.Coords) (O : CellTallies nD τ sig (HIx 1)) (W : Waits sig (HIx 1)) (hO : ∀ g, O g none = 0) :
    iprop(levAts (K (F := F)).L (K (F := F)).lev ∗ emp ∗ tileGo (U := U) m Pc Ic d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L (Memref.whole main_v1_scv) (Memref.isWhole_whole _) (Memref.whole main_v2_scv) (Memref.isWhole_whole _) (Memref.whole main_v3_scv) (Memref.isWhole_whole _)
            (Memref.whole cc1_scratch0) (Memref.isWhole_whole _) (Memref.whole cc1_scratch1) (Memref.isWhole_whole _)
            cc1_scratch2 cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scratch19 cc1_scratch20 cc1_scratch21 cc1_scoped0)
          fun _ => iprop(tileTd (U := U) Pc Ic d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V d L, ownBufs_V d L]
  iintro ⟨#Hlv, -, ⟨Hi, Ht, Ho⟩, ⟨⟨%fI, Hx⟩, ⟨%fB, Hb⟩, Hbufs⟩,
    ⟨Hsc, Hs6, Hs7, Hs8, Hs9, Hs10, Hs11, Hs12, Hs13, Hs14, Hs15, Hs16, Hs17, Hs18, Hs19, Hs20, Hs21, Hs22, Hs23, Hs24, Hs25, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the worker's row of the ids and the ids' scratch, as the fetch addresses them
  ihave Hi := (Entails.of_eq (pts_iRowK (F := F) (U := U) d L _).symm) $$ Hi
  ihave Hx := (Entails.of_eq (show ((V d (cV L) (jV L)).loc cc1_scratch0 ↦{fullShare} fI : sProp 𝕄)
      = ((xV).view.loc (V d (cV L) (jV L)) ↦{fullShare} fI) from rfl)) $$ Hx
  -- the worker's token of the table, one read token per cell
  ihave Ht := (tok_split (F := F) (U := U) d (widL L) (Pc d)).1 $$ Ht
  icases Ht with ⟨Htd, Htl, Ht6, Ht7, Ht8, Ht9, Ht10, Ht11, Ht12, Ht13, Ht14, Ht15⟩
  ihave Ht6 := (Entails.of_eq (show (tLoc d ↦{shareTokN (tq (widL L)) 6} Pc d : sProp 𝕄) = ((tV).view.loc (V d (cV L) (jV L)) ↦{shareTokN (tq (widL L)) 6} Pc d) from rfl)) $$ Ht6
  ihave Ht7 := (Entails.of_eq (show (tLoc d ↦{shareTokN (tq (widL L)) 7} Pc d : sProp 𝕄) = ((tV).view.loc (V d (cV L) (jV L)) ↦{shareTokN (tq (widL L)) 7} Pc d) from rfl)) $$ Ht7
  ihave Ht8 := (Entails.of_eq (show (tLoc d ↦{shareTokN (tq (widL L)) 8} Pc d : sProp 𝕄) = ((tV).view.loc (V d (cV L) (jV L)) ↦{shareTokN (tq (widL L)) 8} Pc d) from rfl)) $$ Ht8
  ihave Ht9 := (Entails.of_eq (show (tLoc d ↦{shareTokN (tq (widL L)) 9} Pc d : sProp 𝕄) = ((tV).view.loc (V d (cV L) (jV L)) ↦{shareTokN (tq (widL L)) 9} Pc d) from rfl)) $$ Ht9
  ihave Ht10 := (Entails.of_eq (show (tLoc d ↦{shareTokN (tq (widL L)) 10} Pc d : sProp 𝕄) = ((tV).view.loc (V d (cV L) (jV L)) ↦{shareTokN (tq (widL L)) 10} Pc d) from rfl)) $$ Ht10
  ihave Ht11 := (Entails.of_eq (show (tLoc d ↦{shareTokN (tq (widL L)) 11} Pc d : sProp 𝕄) = ((tV).view.loc (V d (cV L) (jV L)) ↦{shareTokN (tq (widL L)) 11} Pc d) from rfl)) $$ Ht11
  ihave Ht12 := (Entails.of_eq (show (tLoc d ↦{shareTokN (tq (widL L)) 12} Pc d : sProp 𝕄) = ((tV).view.loc (V d (cV L) (jV L)) ↦{shareTokN (tq (widL L)) 12} Pc d) from rfl)) $$ Ht12
  ihave Ht13 := (Entails.of_eq (show (tLoc d ↦{shareTokN (tq (widL L)) 13} Pc d : sProp 𝕄) = ((tV).view.loc (V d (cV L) (jV L)) ↦{shareTokN (tq (widL L)) 13} Pc d) from rfl)) $$ Ht13
  ihave Ht14 := (Entails.of_eq (show (tLoc d ↦{shareTokN (tq (widL L)) 14} Pc d : sProp 𝕄) = ((tV).view.loc (V d (cV L) (jV L)) ↦{shareTokN (tq (widL L)) 14} Pc d) from rfl)) $$ Ht14
  ihave Ht15 := (Entails.of_eq (show (tLoc d ↦{shareTokN (tq (widL L)) 15} Pc d : sProp 𝕄) = ((tV).view.loc (V d (cV L) (jV L)) ↦{shareTokN (tq (widL L)) 15} Pc d) from rfl)) $$ Ht15
  -- the ring by slots
  ihave Hb := (Entails.of_eq (bPts_slots10 (F := F) (U := U) d L fB)) $$ Hb
  icases Hb with ⟨Hb0, Hb1, Hb2, Hb3, Hb4, Hb5, Hb6, Hb7, Hb8, Hb9⟩
  ihave Hb0 := (Entails.of_eq (slot_conv (F := F) (U := U) d L ![0, 0, 0] inb_S10x64x128_S1x64x128_0_0_0 0 rfl fB)) $$ Hb0
  ihave Hb1 := (Entails.of_eq (slot_conv (F := F) (U := U) d L ![1, 0, 0] inb_S10x64x128_S1x64x128_1_0_0 1 rfl fB)) $$ Hb1
  ihave Hb2 := (Entails.of_eq (slot_conv (F := F) (U := U) d L ![2, 0, 0] inb_S10x64x128_S1x64x128_2_0_0 2 rfl fB)) $$ Hb2
  ihave Hb3 := (Entails.of_eq (slot_conv (F := F) (U := U) d L ![3, 0, 0] inb_S10x64x128_S1x64x128_3_0_0 3 rfl fB)) $$ Hb3
  ihave Hb4 := (Entails.of_eq (slot_conv (F := F) (U := U) d L ![4, 0, 0] inb_S10x64x128_S1x64x128_4_0_0 4 rfl fB)) $$ Hb4
  ihave Hb5 := (Entails.of_eq (slot_conv (F := F) (U := U) d L ![5, 0, 0] inb_S10x64x128_S1x64x128_5_0_0 5 rfl fB)) $$ Hb5
  ihave Hb6 := (Entails.of_eq (slot_conv (F := F) (U := U) d L ![6, 0, 0] inb_S10x64x128_S1x64x128_6_0_0 6 rfl fB)) $$ Hb6
  ihave Hb7 := (Entails.of_eq (slot_conv (F := F) (U := U) d L ![7, 0, 0] inb_S10x64x128_S1x64x128_7_0_0 7 rfl fB)) $$ Hb7
  ihave Hb8 := (Entails.of_eq (slot_conv (F := F) (U := U) d L ![8, 0, 0] inb_S10x64x128_S1x64x128_8_0_0 8 rfl fB)) $$ Hb8
  ihave Hb9 := (Entails.of_eq (slot_conv (F := F) (U := U) d L ![9, 0, 0] inb_S10x64x128_S1x64x128_9_0_0 9 rfl fB)) $$ Hb9
  -- the worker's block of the result by chunks: the first ten for the first round
  ihave Ho := (Entails.of_eq ((oRow_chunksN (F := F) (U := U) d (widL L) (m (oLoc d))).trans (range_take10 (chunkP0 (U := U) m d L)))) $$ Ho
  icases Ho with ⟨Hc0, Hc1, Hc2, Hc3, Hc4, Hc5, Hc6, Hc7, Hc8, Hc9, Hcs⟩
  unfold chunkP0
  ihave Hc0 := (Entails.of_eq (chunk_conv (F := F) (U := U) d L (k1_off2 L) (k1_off2_inb L) (widL L).val (0) (k1_off2_eq L) (m (oLoc d)))) $$ Hc0
  ihave Hc1 := (Entails.of_eq (chunk_conv (F := F) (U := U) d L (k1_off3 L) (k1_off3_inb L) (widL L).val (0 + 1) (k1_off3_eq L) (m (oLoc d)))) $$ Hc1
  ihave Hc2 := (Entails.of_eq (chunk_conv (F := F) (U := U) d L (k1_off4 L) (k1_off4_inb L) (widL L).val (0 + 2) (k1_off4_eq L) (m (oLoc d)))) $$ Hc2
  ihave Hc3 := (Entails.of_eq (chunk_conv (F := F) (U := U) d L (k1_off5 L) (k1_off5_inb L) (widL L).val (0 + 3) (k1_off5_eq L) (m (oLoc d)))) $$ Hc3
  ihave Hc4 := (Entails.of_eq (chunk_conv (F := F) (U := U) d L (k1_off6 L) (k1_off6_inb L) (widL L).val (0 + 4) (k1_off6_eq L) (m (oLoc d)))) $$ Hc4
  ihave Hc5 := (Entails.of_eq (chunk_conv (F := F) (U := U) d L (k1_off7 L) (k1_off7_inb L) (widL L).val (0 + 5) (k1_off7_eq L) (m (oLoc d)))) $$ Hc5
  ihave Hc6 := (Entails.of_eq (chunk_conv (F := F) (U := U) d L (k1_off8 L) (k1_off8_inb L) (widL L).val (0 + 6) (k1_off8_eq L) (m (oLoc d)))) $$ Hc6
  ihave Hc7 := (Entails.of_eq (chunk_conv (F := F) (U := U) d L (k1_off9 L) (k1_off9_inb L) (widL L).val (0 + 7) (k1_off9_eq L) (m (oLoc d)))) $$ Hc7
  ihave Hc8 := (Entails.of_eq (chunk_conv (F := F) (U := U) d L (k1_off10 L) (k1_off10_inb L) (widL L).val (0 + 8) (k1_off10_eq L) (m (oLoc d)))) $$ Hc8
  ihave Hc9 := (Entails.of_eq (chunk_conv (F := F) (U := U) d L (k1_off11 L) (k1_off11_inb L) (widL L).val (0 + 9) (k1_off11_eq L) (m (oLoc d)))) $$ Hc9
  -- the fetch of the ids and its wait
  sl_exec
  -- the ids' scratch now holds the worker's row of the ids: by rows, the first sixteen for the first round
  ihave Hx := (Entails.of_eq (show ((xV).view.loc (V d (cV L) (jV L)) ↦{fullShare}
        View.write (Elt F) (Memref.whole cc1_scratch0).view fI (tile_body.sl.dma0 Ic d L) Finset.univ : sProp 𝕄)
      = ((V d (cV L) (jV L)).loc cc1_scratch0 ↦{fullShare} idxC Ic d L) from by rw [← idx_val Ic d L fI]; rfl)) $$ Hx
  ihave Hx := (Entails.of_eq ((xPts_rowsN (F := F) (U := U) d L (idxC Ic d L)).trans (range_take16 (rowP (U := U) Ic d L)))) $$ Hx
  icases Hx with ⟨Hx0, Hx1, Hx2, Hx3, Hx4, Hx5, Hx6, Hx7, Hx8, Hx9, Hx10, Hx11, Hx12, Hx13, Hx14, Hx15, Hxs⟩
  unfold rowP

  ihave Hx0 := (Entails.of_eq (row_conv (F := F) (U := U) d L ![0, 0] inb_S100x64_S1x64_0_0 (0) rfl (idxC Ic d L))) $$ Hx0
  ihave Hx1 := (Entails.of_eq (row_conv (F := F) (U := U) d L ![1, 0] inb_S100x64_S1x64_1_0 (0 + 1) rfl (idxC Ic d L))) $$ Hx1
  ihave Hx2 := (Entails.of_eq (row_conv (F := F) (U := U) d L ![2, 0] inb_S100x64_S1x64_2_0 (0 + 2) rfl (idxC Ic d L))) $$ Hx2
  ihave Hx3 := (Entails.of_eq (row_conv (F := F) (U := U) d L ![3, 0] inb_S100x64_S1x64_3_0 (0 + 3) rfl (idxC Ic d L))) $$ Hx3
  ihave Hx4 := (Entails.of_eq (row_conv (F := F) (U := U) d L ![4, 0] inb_S100x64_S1x64_4_0 (0 + 4) rfl (idxC Ic d L))) $$ Hx4
  ihave Hx5 := (Entails.of_eq (row_conv (F := F) (U := U) d L ![5, 0] inb_S100x64_S1x64_5_0 (0 + 5) rfl (idxC Ic d L))) $$ Hx5
  ihave Hx6 := (Entails.of_eq (row_conv (F := F) (U := U) d L ![6, 0] inb_S100x64_S1x64_6_0 (0 + 6) rfl (idxC Ic d L))) $$ Hx6
  ihave Hx7 := (Entails.of_eq (row_conv (F := F) (U := U) d L ![7, 0] inb_S100x64_S1x64_7_0 (0 + 7) rfl (idxC Ic d L))) $$ Hx7
  ihave Hx8 := (Entails.of_eq (row_conv (F := F) (U := U) d L ![8, 0] inb_S100x64_S1x64_8_0 (0 + 8) rfl (idxC Ic d L))) $$ Hx8
  ihave Hx9 := (Entails.of_eq (row_conv (F := F) (U := U) d L ![9, 0] inb_S100x64_S1x64_9_0 (0 + 9) rfl (idxC Ic d L))) $$ Hx9
  ihave Hx10 := (Entails.of_eq (row_conv (F := F) (U := U) d L ![10, 0] inb_S100x64_S1x64_10_0 (0 + 10) rfl (idxC Ic d L))) $$ Hx10
  ihave Hx11 := (Entails.of_eq (row_conv (F := F) (U := U) d L ![11, 0] inb_S100x64_S1x64_11_0 (0 + 10 + 1) rfl (idxC Ic d L))) $$ Hx11
  ihave Hx12 := (Entails.of_eq (row_conv (F := F) (U := U) d L ![12, 0] inb_S100x64_S1x64_12_0 (0 + 10 + 2) rfl (idxC Ic d L))) $$ Hx12
  ihave Hx13 := (Entails.of_eq (row_conv (F := F) (U := U) d L ![13, 0] inb_S100x64_S1x64_13_0 (0 + 10 + 3) rfl (idxC Ic d L))) $$ Hx13
  ihave Hx14 := (Entails.of_eq (row_conv (F := F) (U := U) d L ![14, 0] inb_S100x64_S1x64_14_0 (0 + 10 + 4) rfl (idxC Ic d L))) $$ Hx14
  ihave Hx15 := (Entails.of_eq (row_conv (F := F) (U := U) d L ![15, 0] inb_S100x64_S1x64_15_0 (0 + 10 + 5) rfl (idxC Ic d L))) $$ Hx15
  have hin := hin_of (F := F) Ic d L hIc
  -- the first round, up to the loop
  sl_exec
  -- what the first round left, as the loop's invariant before its first trip states it
  ihave Hs6 := (gFl_of Pc Ic d L _ ![0, 0, 0] inb_S10x64x128_S1x64x128_0_0_0 (shareTokN (tq (widL L)) 6) (10 * 0 + 10) (by omega) ![10, 0] inb_S100x64_S1x64_10_0
      (vec2_congr (by omega)) fB _ _ (tile_body.sl.gather15 Pc Ic d L hin) rfl [⟨Rect.whole S64x128, tile_body.sl.gather0 Pc Ic d L hin⟩]) $$ Hs6
  ihave Hs7 := (gFl_of Pc Ic d L _ ![1, 0, 0] inb_S10x64x128_S1x64x128_1_0_0 (shareTokN (tq (widL L)) 7) (10 * 0 + 10 + 1) (by omega) ![11, 0] inb_S100x64_S1x64_11_0
      (vec2_congr (by omega)) fB _ _ (tile_body.sl.gather17 Pc Ic d L hin) rfl [⟨Rect.whole S64x128, tile_body.sl.gather1 Pc Ic d L hin⟩]) $$ Hs7
  ihave Hs8 := (gFl_of Pc Ic d L _ ![2, 0, 0] inb_S10x64x128_S1x64x128_2_0_0 (shareTokN (tq (widL L)) 8) (10 * 0 + 10 + 2) (by omega) ![12, 0] inb_S100x64_S1x64_12_0
      (vec2_congr (by omega)) fB _ _ (tile_body.sl.gather19 Pc Ic d L hin) rfl [⟨Rect.whole S64x128, tile_body.sl.gather2 Pc Ic d L hin⟩]) $$ Hs8
  ihave Hs9 := (gFl_of Pc Ic d L _ ![3, 0, 0] inb_S10x64x128_S1x64x128_3_0_0 (shareTokN (tq (widL L)) 9) (10 * 0 + 10 + 3) (by omega) ![13, 0] inb_S100x64_S1x64_13_0
      (vec2_congr (by omega)) fB _ _ (tile_body.sl.gather21 Pc Ic d L hin) rfl [⟨Rect.whole S64x128, tile_body.sl.gather3 Pc Ic d L hin⟩]) $$ Hs9
  ihave Hs10 := (gFl_of Pc Ic d L _ ![4, 0, 0] inb_S10x64x128_S1x64x128_4_0_0 (shareTokN (tq (widL L)) 10) (10 * 0 + 10 + 4) (by omega) ![14, 0] inb_S100x64_S1x64_14_0
      (vec2_congr (by omega)) fB _ _ (tile_body.sl.gather23 Pc Ic d L hin) rfl [⟨Rect.whole S64x128, tile_body.sl.gather4 Pc Ic d L hin⟩]) $$ Hs10
  ihave Hs11 := (gFl_of Pc Ic d L _ ![5, 0, 0] inb_S10x64x128_S1x64x128_5_0_0 (shareTokN (tq (widL L)) 11) (10 * 0 + 10 + 5) (by omega) ![15, 0] inb_S100x64_S1x64_15_0
      (vec2_congr (by omega)) fB _ _ (tile_body.sl.gather25 Pc Ic d L hin) rfl [⟨Rect.whole S64x128, tile_body.sl.gather5 Pc Ic d L hin⟩]) $$ Hs11
  ihave Hs22 := (oFl_of Pc Ic d L _ ![6, 0, 0] inb_S10x64x128_S1x64x128_6_0_0 (10 * 0 + 6) (by omega) (k1_off8 L) (k1_off8_inb L) (k1_off8_eq L) (m (oLoc d))
      ((slotM ![6, 0, 0] inb_S10x64x128_S1x64x128_6_0_0).view.writes (Elt F) fB [⟨Rect.whole S64x128, tile_body.sl.gather7 Pc Ic d L hin⟩])
      (slot_valP Pc Ic d L _ _ ![6, 0] inb_S100x64_S1x64_6_0 (10 * 0 + 6) (by omega) (vec2_congr (by omega)) fB _ _ (tile_body.sl.gather7 Pc Ic d L hin) rfl [])
      (tile_body.sl.dma0_7 Pc Ic d L fB hin) rfl) $$ Hs22
  ihave Hs23 := (oFl_of Pc Ic d L _ ![7, 0, 0] inb_S10x64x128_S1x64x128_7_0_0 (10 * 0 + 6 + 1) (by omega) (k1_off9 L) (k1_off9_inb L) (k1_off9_eq L) (m (oLoc d))
      ((slotM ![7, 0, 0] inb_S10x64x128_S1x64x128_7_0_0).view.writes (Elt F) fB [⟨Rect.whole S64x128, tile_body.sl.gather9 Pc Ic d L hin⟩])
      (slot_valP Pc Ic d L _ _ ![7, 0] inb_S100x64_S1x64_7_0 (10 * 0 + 6 + 1) (by omega) (vec2_congr (by omega)) fB _ _ (tile_body.sl.gather9 Pc Ic d L hin) rfl [])
      (tile_body.sl.dma0_8 Pc Ic d L fB hin) rfl) $$ Hs23
  ihave Hs24 := (oFl_of Pc Ic d L _ ![8, 0, 0] inb_S10x64x128_S1x64x128_8_0_0 (10 * 0 + 6 + 2) (by omega) (k1_off10 L) (k1_off10_inb L) (k1_off10_eq L) (m (oLoc d))
      ((slotM ![8, 0, 0] inb_S10x64x128_S1x64x128_8_0_0).view.writes (Elt F) fB [⟨Rect.whole S64x128, tile_body.sl.gather11 Pc Ic d L hin⟩])
      (slot_valP Pc Ic d L _ _ ![8, 0] inb_S100x64_S1x64_8_0 (10 * 0 + 6 + 2) (by omega) (vec2_congr (by omega)) fB _ _ (tile_body.sl.gather11 Pc Ic d L hin) rfl [])
      (tile_body.sl.dma0_9 Pc Ic d L fB hin) rfl) $$ Hs24
  ihave Hs25 := (oFl_of Pc Ic d L _ ![9, 0, 0] inb_S10x64x128_S1x64x128_9_0_0 (10 * 0 + 6 + 3) (by omega) (k1_off11 L) (k1_off11_inb L) (k1_off11_eq L) (m (oLoc d))
      ((slotM ![9, 0, 0] inb_S10x64x128_S1x64x128_9_0_0).view.writes (Elt F) fB [⟨Rect.whole S64x128, tile_body.sl.gather13 Pc Ic d L hin⟩])
      (slot_valP Pc Ic d L _ _ ![9, 0] inb_S100x64_S1x64_9_0 (10 * 0 + 6 + 3) (by omega) (vec2_congr (by omega)) fB _ _ (tile_body.sl.gather13 Pc Ic d L hin) rfl [])
      (tile_body.sl.dma0_10 Pc Ic d L fB hin) rfl) $$ Hs25
  ihave Hc0 := (chunkP1_of Pc Ic d L (0) (by omega) (k1_off2 L) (k1_off2_inb L) (k1_off2_eq L) ![0, 0, 0] inb_S10x64x128_S1x64x128_0_0_0 _
      ((slotM ![0, 0, 0] inb_S10x64x128_S1x64x128_0_0_0).view.writes (Elt F) fB [⟨Rect.whole S64x128, tile_body.sl.gather0 Pc Ic d L hin⟩])
      (slot_valP Pc Ic d L _ _ ![0, 0] inb_S100x64_S1x64_0_0 (0) (by omega) (vec2_congr (by omega)) fB _ _ (tile_body.sl.gather0 Pc Ic d L hin) rfl [])
      (tile_body.sl.dma0_1 Pc Ic d L fB hin) rfl) $$ Hc0
  ihave Hc1 := (chunkP1_of Pc Ic d L (0 + 1) (by omega) (k1_off3 L) (k1_off3_inb L) (k1_off3_eq L) ![1, 0, 0] inb_S10x64x128_S1x64x128_1_0_0 _
      ((slotM ![1, 0, 0] inb_S10x64x128_S1x64x128_1_0_0).view.writes (Elt F) fB [⟨Rect.whole S64x128, tile_body.sl.gather1 Pc Ic d L hin⟩])
      (slot_valP Pc Ic d L _ _ ![1, 0] inb_S100x64_S1x64_1_0 (0 + 1) (by omega) (vec2_congr (by omega)) fB _ _ (tile_body.sl.gather1 Pc Ic d L hin) rfl [])
      (tile_body.sl.dma0_2 Pc Ic d L fB hin) rfl) $$ Hc1
  ihave Hc2 := (chunkP1_of Pc Ic d L (0 + 2) (by omega) (k1_off4 L) (k1_off4_inb L) (k1_off4_eq L) ![2, 0, 0] inb_S10x64x128_S1x64x128_2_0_0 _
      ((slotM ![2, 0, 0] inb_S10x64x128_S1x64x128_2_0_0).view.writes (Elt F) fB [⟨Rect.whole S64x128, tile_body.sl.gather2 Pc Ic d L hin⟩])
      (slot_valP Pc Ic d L _ _ ![2, 0] inb_S100x64_S1x64_2_0 (0 + 2) (by omega) (vec2_congr (by omega)) fB _ _ (tile_body.sl.gather2 Pc Ic d L hin) rfl [])
      (tile_body.sl.dma0_3 Pc Ic d L fB hin) rfl) $$ Hc2
  ihave Hc3 := (chunkP1_of Pc Ic d L (0 + 3) (by omega) (k1_off5 L) (k1_off5_inb L) (k1_off5_eq L) ![3, 0, 0] inb_S10x64x128_S1x64x128_3_0_0 _
      ((slotM ![3, 0, 0] inb_S10x64x128_S1x64x128_3_0_0).view.writes (Elt F) fB [⟨Rect.whole S64x128, tile_body.sl.gather3 Pc Ic d L hin⟩])
      (slot_valP Pc Ic d L _ _ ![3, 0] inb_S100x64_S1x64_3_0 (0 + 3) (by omega) (vec2_congr (by omega)) fB _ _ (tile_body.sl.gather3 Pc Ic d L hin) rfl [])
      (tile_body.sl.dma0_4 Pc Ic d L fB hin) rfl) $$ Hc3
  ihave Hc4 := (chunkP1_of Pc Ic d L (0 + 4) (by omega) (k1_off6 L) (k1_off6_inb L) (k1_off6_eq L) ![4, 0, 0] inb_S10x64x128_S1x64x128_4_0_0 _
      ((slotM ![4, 0, 0] inb_S10x64x128_S1x64x128_4_0_0).view.writes (Elt F) fB [⟨Rect.whole S64x128, tile_body.sl.gather4 Pc Ic d L hin⟩])
      (slot_valP Pc Ic d L _ _ ![4, 0] inb_S100x64_S1x64_4_0 (0 + 4) (by omega) (vec2_congr (by omega)) fB _ _ (tile_body.sl.gather4 Pc Ic d L hin) rfl [])
      (tile_body.sl.dma0_5 Pc Ic d L fB hin) rfl) $$ Hc4
  ihave Hc5 := (chunkP1_of Pc Ic d L (0 + 5) (by omega) (k1_off7 L) (k1_off7_inb L) (k1_off7_eq L) ![5, 0, 0] inb_S10x64x128_S1x64x128_5_0_0 _
      ((slotM ![5, 0, 0] inb_S10x64x128_S1x64x128_5_0_0).view.writes (Elt F) fB [⟨Rect.whole S64x128, tile_body.sl.gather5 Pc Ic d L hin⟩])
      (slot_valP Pc Ic d L _ _ ![5, 0] inb_S100x64_S1x64_5_0 (0 + 5) (by omega) (vec2_congr (by omega)) fB _ _ (tile_body.sl.gather5 Pc Ic d L hin) rfl [])
      (tile_body.sl.dma0_6 Pc Ic d L fB hin) rfl) $$ Hc5
  ihave Hx0 := (rowP_of Ic d L (0) ![0, 0] inb_S100x64_S1x64_0_0 (vec2_congr (by omega))) $$ Hx0
  ihave Hx1 := (rowP_of Ic d L (0 + 1) ![1, 0] inb_S100x64_S1x64_1_0 (vec2_congr (by omega))) $$ Hx1
  ihave Hx2 := (rowP_of Ic d L (0 + 2) ![2, 0] inb_S100x64_S1x64_2_0 (vec2_congr (by omega))) $$ Hx2
  ihave Hx3 := (rowP_of Ic d L (0 + 3) ![3, 0] inb_S100x64_S1x64_3_0 (vec2_congr (by omega))) $$ Hx3
  ihave Hx4 := (rowP_of Ic d L (0 + 4) ![4, 0] inb_S100x64_S1x64_4_0 (vec2_congr (by omega))) $$ Hx4
  ihave Hx5 := (rowP_of Ic d L (0 + 5) ![5, 0] inb_S100x64_S1x64_5_0 (vec2_congr (by omega))) $$ Hx5
  ihave Hx6 := (rowP_of Ic d L (0 + 6) ![6, 0] inb_S100x64_S1x64_6_0 (vec2_congr (by omega))) $$ Hx6
  ihave Hx7 := (rowP_of Ic d L (0 + 7) ![7, 0] inb_S100x64_S1x64_7_0 (vec2_congr (by omega))) $$ Hx7
  ihave Hx8 := (rowP_of Ic d L (0 + 8) ![8, 0] inb_S100x64_S1x64_8_0 (vec2_congr (by omega))) $$ Hx8
  ihave Hx9 := (rowP_of Ic d L (0 + 9) ![9, 0] inb_S100x64_S1x64_9_0 (vec2_congr (by omega))) $$ Hx9
  sl_for (inv (U := U) m Pc Ic d L O W) $$ [Hmw Hs6 Hs7 Hs8 Hs9 Hs10 Hs11 Ht6 Ht7 Ht8 Ht9 Ht10 Ht11 Ht12 Ht13 Ht14 Ht15 Hs22 Hs23 Hs24 Hs25 Hs12 Hs13 Hs14 Hs15 Hs16 Hs17 Hs18 Hs19 Hs20 Hs21 Hxs Hx0 Hx1 Hx2 Hx3 Hx4 Hx5 Hx6 Hx7 Hx8 Hx9 Hcs Hc0 Hc1 Hc2 Hc3 Hc4 Hc5 HO]
  case region => exact fun k acc => trip m Pc Ic d L O W hIc k acc
  · unfold inv
    iexists (shareTokN (tq (widL L)) 6)
    iexists (shareTokN (tq (widL L)) 7)
    iexists (shareTokN (tq (widL L)) 8)
    iexists (shareTokN (tq (widL L)) 9)
    iexists (shareTokN (tq (widL L)) 10)
    iexists (shareTokN (tq (widL L)) 11)
    iexists (shareTokN (tq (widL L)) 12)
    iexists (shareTokN (tq (widL L)) 13)
    iexists (shareTokN (tq (widL L)) 14)
    iexists (shareTokN (tq (widL L)) 15)
    isplitl []
    · ipureintro; exact fun f => .rfl
    isplitl []
    · iexact Hmw
    isplitl [Hs6]
    · iexact Hs6
    isplitl [Hs7]
    · iexact Hs7
    isplitl [Hs8]
    · iexact Hs8
    isplitl [Hs9]
    · iexact Hs9
    isplitl [Hs10]
    · iexact Hs10
    isplitl [Hs11]
    · iexact Hs11
    isplitl [Ht6]
    · unfold tkRest; iexact Ht6
    isplitl [Ht7]
    · unfold tkRest; iexact Ht7
    isplitl [Ht8]
    · unfold tkRest; iexact Ht8
    isplitl [Ht9]
    · unfold tkRest; iexact Ht9
    isplitl [Ht10]
    · unfold tkRest; iexact Ht10
    isplitl [Ht11]
    · unfold tkRest; iexact Ht11
    isplitl [Ht12]
    · unfold tkWhole; iexact Ht12
    isplitl [Ht13]
    · unfold tkWhole; iexact Ht13
    isplitl [Ht14]
    · unfold tkWhole; iexact Ht14
    isplitl [Ht15]
    · unfold tkWhole; iexact Ht15
    isplitl [Hs22]
    · iexact Hs22
    isplitl [Hs23]
    · iexact Hs23
    isplitl [Hs24]
    · iexact Hs24
    isplitl [Hs25]
    · iexact Hs25
    isplitl [Hs12]
    · iexact Hs12
    isplitl [Hs13]
    · iexact Hs13
    isplitl [Hs14]
    · iexact Hs14
    isplitl [Hs15]
    · iexact Hs15
    isplitl [Hs16]
    · iexact Hs16
    isplitl [Hs17]
    · iexact Hs17
    isplitl [Hs18]
    · iexact Hs18
    isplitl [Hs19]
    · iexact Hs19
    isplitl [Hs20]
    · iexact Hs20
    isplitl [Hs21]
    · iexact Hs21
    isplitl [Hxs]
    · iapply (Entails.of_eq (run_fresh_step (rowP (U := U) Ic d L) (0 + 10 + 6) (10 * 0 + 16) 100 (by omega)))
      unfold rowP; iexact Hxs
    isplitl [Hx0 Hx1 Hx2 Hx3 Hx4 Hx5 Hx6 Hx7 Hx8 Hx9]
    · iapply (Entails.of_eq (run_done_step (rowP (U := U) Ic d L) 0 (10 * 0 + 10) (by omega)))
      isplitl [Hx9]
      · iexact Hx9
      isplitl [Hx8]
      · iexact Hx8
      isplitl [Hx7]
      · iexact Hx7
      isplitl [Hx6]
      · iexact Hx6
      isplitl [Hx5]
      · iexact Hx5
      isplitl [Hx4]
      · iexact Hx4
      isplitl [Hx3]
      · iexact Hx3
      isplitl [Hx2]
      · iexact Hx2
      isplitl [Hx1]
      · iexact Hx1
      isplitl [Hx0]
      · iexact Hx0
      iapply (Entails.of_eq (bigSep_range_zero (rowP (U := U) Ic d L)).symm); iempintro
    isplitl [Hcs]
    · iapply (Entails.of_eq (run_fresh_step (chunkP0 (U := U) m d L) (0 + 10) (10 * 0 + 10) 100 (by omega)))
      unfold chunkP0; iexact Hcs
    isplitl [Hc0 Hc1 Hc2 Hc3 Hc4 Hc5]
    · iapply (Entails.of_eq (run_done_step6 (chunkP1 (U := U) Pc Ic d L) 0 (10 * 0 + 6) (by omega)))
      isplitl [Hc5]
      · iexact Hc5
      isplitl [Hc4]
      · iexact Hc4
      isplitl [Hc3]
      · iexact Hc3
      isplitl [Hc2]
      · iexact Hc2
      isplitl [Hc1]
      · iexact Hc1
      isplitl [Hc0]
      · iexact Hc0
      iapply (Entails.of_eq (bigSep_range_zero (chunkP1 (U := U) Pc Ic d L)).symm); iempintro
    iexists _; isplitr
    swap; · iexact HO
    ipureintro
    iterate 17 (refine waits_ok ?_ _)
    exact fun p hp => .inl hp
  iintro %acc HI
  -- after the loop: the invariant at the last trip's end
  ihave HI := (Entails.of_eq (show inv (U := U) m Pc Ic d L O W (Scf.trips k1_t1_loop.lb k1_t1_loop.ub k1_t1_loop.st) acc
      = inv (U := U) m Pc Ic d L O W 8 acc from rfl)) $$ HI
  unfold inv gFl oFl tkRest tkWhole
  icases HI with ⟨%q0, %q1, %q2, %q3, %q4, %q5, %q6, %q7, %q8, %q9, %hJ, -, Hg0, Hg1, Hg2, Hg3, Hg4, Hg5, Hr6, Hr7, Hr8, Hr9, Hr10, Hr11, Ht12, Ht13, Ht14, Ht15, Ho6, Ho7, Ho8, Ho9,
    Hs8, Hs9, Hs10, Hs11, Hs12, Hs13, Hs14, Hs15, Hs16, Hs17, Hxs, Hxd, Hcs, Hcd, %W', %hW', HO⟩
  -- the last four rows and the last ten chunks, as the last round's transfers address them
  ihave Hxs := (Entails.of_eq (bigSep_Ico_take4 (rowP (U := U) Ic d L) (a := 10 * 8 + 16) (c := 100) (by omega))) $$ Hxs
  icases Hxs with ⟨Hx6, Hx7, Hx8, Hx9, Hxe⟩
  ihave Hcs := (Entails.of_eq (bigSep_Ico_take10 (chunkP0 (U := U) m d L) (a := 10 * 8 + 10) (c := 100) (by omega))) $$ Hcs
  icases Hcs with ⟨Hc0, Hc1, Hc2, Hc3, Hc4, Hc5, Hc6, Hc7, Hc8, Hc9, Hce⟩
  ihave Hxe := (Entails.of_eq (bigSep_Ico_empty (rowP (U := U) Ic d L) (10 * 8 + 16 + 4) 100 (by omega))) $$ Hxe
  icases Hxe with -
  ihave Hce := (Entails.of_eq (bigSep_Ico_empty (chunkP0 (U := U) m d L) (10 * 8 + 10 + 10) 100 (by omega))) $$ Hce
  icases Hce with -
  unfold rowP chunkP0
  ihave Hx6 := (Entails.of_eq (row_conv (F := F) (U := U) d L ![96, 0] inb_S100x64_S1x64_96_0 (10 * 8 + 16) (vec2_congr (by omega)) (idxC Ic d L))) $$ Hx6
  ihave Hx7 := (Entails.of_eq (row_conv (F := F) (U := U) d L ![97, 0] inb_S100x64_S1x64_97_0 (10 * 8 + 16 + 1) (vec2_congr (by omega)) (idxC Ic d L))) $$ Hx7
  ihave Hx8 := (Entails.of_eq (row_conv (F := F) (U := U) d L ![98, 0] inb_S100x64_S1x64_98_0 (10 * 8 + 16 + 2) (vec2_congr (by omega)) (idxC Ic d L))) $$ Hx8
  ihave Hx9 := (Entails.of_eq (row_conv (F := F) (U := U) d L ![99, 0] inb_S100x64_S1x64_99_0 (10 * 8 + 16 + 3) (vec2_congr (by omega)) (idxC Ic d L))) $$ Hx9
  ihave Hc0 := (Entails.of_eq (chunk_conv (F := F) (U := U) d L (k1_off16 L) (k1_off16_inb L) (widL L).val (10 * 8 + 10) (k1_off16_eq L) (m (oLoc d)))) $$ Hc0
  ihave Hc1 := (Entails.of_eq (chunk_conv (F := F) (U := U) d L (k1_off18 L) (k1_off18_inb L) (widL L).val (10 * 8 + 10 + 1) (k1_off18_eq L) (m (oLoc d)))) $$ Hc1
  ihave Hc2 := (Entails.of_eq (chunk_conv (F := F) (U := U) d L (k1_off20 L) (k1_off20_inb L) (widL L).val (10 * 8 + 10 + 2) (k1_off20_eq L) (m (oLoc d)))) $$ Hc2
  ihave Hc3 := (Entails.of_eq (chunk_conv (F := F) (U := U) d L (k1_off22 L) (k1_off22_inb L) (widL L).val (10 * 8 + 10 + 3) (k1_off22_eq L) (m (oLoc d)))) $$ Hc3
  ihave Hc4 := (Entails.of_eq (chunk_conv (F := F) (U := U) d L (k1_off24 L) (k1_off24_inb L) (widL L).val (10 * 8 + 10 + 4) (k1_off24_eq L) (m (oLoc d)))) $$ Hc4
  ihave Hc5 := (Entails.of_eq (chunk_conv (F := F) (U := U) d L (k1_off25 L) (k1_off25_inb L) (widL L).val (10 * 8 + 10 + 5) (k1_off25_eq L) (m (oLoc d)))) $$ Hc5
  ihave Hc6 := (Entails.of_eq (chunk_conv (F := F) (U := U) d L (k1_off26 L) (k1_off26_inb L) (widL L).val (10 * 8 + 10 + 6) (k1_off26_eq L) (m (oLoc d)))) $$ Hc6
  ihave Hc7 := (Entails.of_eq (chunk_conv (F := F) (U := U) d L (k1_off27 L) (k1_off27_inb L) (widL L).val (10 * 8 + 10 + 7) (k1_off27_eq L) (m (oLoc d)))) $$ Hc7
  ihave Hc8 := (Entails.of_eq (chunk_conv (F := F) (U := U) d L (k1_off28 L) (k1_off28_inb L) (widL L).val (10 * 8 + 10 + 8) (k1_off28_eq L) (m (oLoc d)))) $$ Hc8
  ihave Hc9 := (Entails.of_eq (chunk_conv (F := F) (U := U) d L (k1_off29 L) (k1_off29_inb L) (widL L).val (10 * 8 + 10 + 9) (k1_off29_eq L) (m (oLoc d)))) $$ Hc9
  -- the last round and the last waits
  sl_exec
  sl_step
  -- every piece back: the last ten chunks written, the last four rows handed back
  ihave Hc0 := (chunkP1_of Pc Ic d L (10 * 8 + 6 + 4) (by omega) (k1_off16 L) (k1_off16_inb L) (k1_off16_eq L) ![0, 0, 0] inb_S10x64x128_S1x64x128_0_0_0 _
      (slotC Pc Ic d L (10 * 8 + 10)) (fun y _ => congrFun (congrArg (slotC Pc Ic d L) (by omega)) y) (tile_body.sl.dma0_11 Pc Ic d L) rfl) $$ Hc0
  ihave Hc1 := (chunkP1_of Pc Ic d L (10 * 8 + 6 + 5) (by omega) (k1_off18 L) (k1_off18_inb L) (k1_off18_eq L) ![1, 0, 0] inb_S10x64x128_S1x64x128_1_0_0 _
      (slotC Pc Ic d L (10 * 8 + 10 + 1)) (fun y _ => congrFun (congrArg (slotC Pc Ic d L) (by omega)) y) (tile_body.sl.dma0_12 Pc Ic d L) rfl) $$ Hc1
  ihave Hc2 := (chunkP1_of Pc Ic d L (10 * 8 + 6 + 6) (by omega) (k1_off20 L) (k1_off20_inb L) (k1_off20_eq L) ![2, 0, 0] inb_S10x64x128_S1x64x128_2_0_0 _
      (slotC Pc Ic d L (10 * 8 + 10 + 2)) (fun y _ => congrFun (congrArg (slotC Pc Ic d L) (by omega)) y) (tile_body.sl.dma0_13 Pc Ic d L) rfl) $$ Hc2
  ihave Hc3 := (chunkP1_of Pc Ic d L (10 * 8 + 6 + 7) (by omega) (k1_off22 L) (k1_off22_inb L) (k1_off22_eq L) ![3, 0, 0] inb_S10x64x128_S1x64x128_3_0_0 _
      (slotC Pc Ic d L (10 * 8 + 10 + 3)) (fun y _ => congrFun (congrArg (slotC Pc Ic d L) (by omega)) y) (tile_body.sl.dma0_14 Pc Ic d L) rfl) $$ Hc3
  ihave Hc4 := (chunkP1_of Pc Ic d L (10 * 8 + 6 + 8) (by omega) (k1_off24 L) (k1_off24_inb L) (k1_off24_eq L) ![4, 0, 0] inb_S10x64x128_S1x64x128_4_0_0 _
      (slotC Pc Ic d L (10 * 8 + 10 + 4)) (fun y _ => congrFun (congrArg (slotC Pc Ic d L) (by omega)) y) (tile_body.sl.dma0_15 Pc Ic d L) rfl) $$ Hc4
  ihave Hc5 := (chunkP1_of Pc Ic d L (10 * 8 + 6 + 9) (by omega) (k1_off25 L) (k1_off25_inb L) (k1_off25_eq L) ![5, 0, 0] inb_S10x64x128_S1x64x128_5_0_0 _
      (slotC Pc Ic d L (10 * 8 + 10 + 5)) (fun y _ => congrFun (congrArg (slotC Pc Ic d L) (by omega)) y) (tile_body.sl.dma0_16 Pc Ic d L) rfl) $$ Hc5
  ihave Hc6 := (chunkP1_of Pc Ic d L (10 * 8 + 6 + 10) (by omega) (k1_off26 L) (k1_off26_inb L) (k1_off26_eq L) ![6, 0, 0] inb_S10x64x128_S1x64x128_6_0_0 _
      ((slotM ![6, 0, 0] inb_S10x64x128_S1x64x128_6_0_0).view.writes (Elt F) (slotC Pc Ic d L (10 * 8 + 6)) [⟨Rect.whole S64x128, tile_body.sl.gather1_1 Pc Ic d L hin⟩])
      (slot_valP Pc Ic d L _ _ ![96, 0] inb_S100x64_S1x64_96_0 (10 * 8 + 6 + 10) (by omega) (vec2_congr (by omega)) (slotC Pc Ic d L (10 * 8 + 6)) _ _ (tile_body.sl.gather1_1 Pc Ic d L hin) rfl [])
      (tile_body.sl.dma0_17 Pc Ic d L hin) rfl) $$ Hc6
  ihave Hc7 := (chunkP1_of Pc Ic d L (10 * 8 + 6 + 10 + 1) (by omega) (k1_off27 L) (k1_off27_inb L) (k1_off27_eq L) ![7, 0, 0] inb_S10x64x128_S1x64x128_7_0_0 _
      ((slotM ![7, 0, 0] inb_S10x64x128_S1x64x128_7_0_0).view.writes (Elt F) (slotC Pc Ic d L (10 * 8 + 6 + 1)) [⟨Rect.whole S64x128, tile_body.sl.gather3_1 Pc Ic d L hin⟩])
      (slot_valP Pc Ic d L _ _ ![97, 0] inb_S100x64_S1x64_97_0 (10 * 8 + 6 + 10 + 1) (by omega) (vec2_congr (by omega)) (slotC Pc Ic d L (10 * 8 + 6 + 1)) _ _ (tile_body.sl.gather3_1 Pc Ic d L hin) rfl [])
      (tile_body.sl.dma0_18 Pc Ic d L hin) rfl) $$ Hc7
  ihave Hc8 := (chunkP1_of Pc Ic d L (10 * 8 + 6 + 10 + 2) (by omega) (k1_off28 L) (k1_off28_inb L) (k1_off28_eq L) ![8, 0, 0] inb_S10x64x128_S1x64x128_8_0_0 _
      ((slotM ![8, 0, 0] inb_S10x64x128_S1x64x128_8_0_0).view.writes (Elt F) (slotC Pc Ic d L (10 * 8 + 6 + 2)) [⟨Rect.whole S64x128, tile_body.sl.gather5_1 Pc Ic d L hin⟩])
      (slot_valP Pc Ic d L _ _ ![98, 0] inb_S100x64_S1x64_98_0 (10 * 8 + 6 + 10 + 2) (by omega) (vec2_congr (by omega)) (slotC Pc Ic d L (10 * 8 + 6 + 2)) _ _ (tile_body.sl.gather5_1 Pc Ic d L hin) rfl [])
      (tile_body.sl.dma0_19 Pc Ic d L hin) rfl) $$ Hc8
  ihave Hc9 := (chunkP1_of Pc Ic d L (10 * 8 + 6 + 10 + 3) (by omega) (k1_off29 L) (k1_off29_inb L) (k1_off29_eq L) ![9, 0, 0] inb_S10x64x128_S1x64x128_9_0_0 _
      ((slotM ![9, 0, 0] inb_S10x64x128_S1x64x128_9_0_0).view.writes (Elt F) (slotC Pc Ic d L (10 * 8 + 6 + 3)) [⟨Rect.whole S64x128, tile_body.sl.gather7_1 Pc Ic d L hin⟩])
      (slot_valP Pc Ic d L _ _ ![99, 0] inb_S100x64_S1x64_99_0 (10 * 8 + 6 + 10 + 3) (by omega) (vec2_congr (by omega)) (slotC Pc Ic d L (10 * 8 + 6 + 3)) _ _ (tile_body.sl.gather7_1 Pc Ic d L hin) rfl [])
      (tile_body.sl.dma0_20 Pc Ic d L hin) rfl) $$ Hc9
  ihave Hx6 := (rowP_of Ic d L (10 * 8 + 10 + 6) ![96, 0] inb_S100x64_S1x64_96_0 (vec2_congr (by omega))) $$ Hx6
  ihave Hx7 := (rowP_of Ic d L (10 * 8 + 10 + 7) ![97, 0] inb_S100x64_S1x64_97_0 (vec2_congr (by omega))) $$ Hx7
  ihave Hx8 := (rowP_of Ic d L (10 * 8 + 10 + 8) ![98, 0] inb_S100x64_S1x64_98_0 (vec2_congr (by omega))) $$ Hx8
  ihave Hx9 := (rowP_of Ic d L (10 * 8 + 10 + 9) ![99, 0] inb_S100x64_S1x64_99_0 (vec2_congr (by omega))) $$ Hx9
  -- the worker's pieces handed back
  isplitl [Hi Htd Htl Ht12 Ht13 Ht14 Ht15 Hr6 Hr7 Hr8 Hr9 Hr10 Hr11 Hcd Ho6_dst Ho7_dst Ho8_dst Ho9_dst Hc0 Hc1 Hc2 Hc3 Hc4 Hc5 Hc6 Hc7 Hc8 Hc9]
  · isplitl [Hi]
    · iapply (Entails.of_eq (pts_iRowK (F := F) (U := U) d L _)); iexact Hi
    isplitl [Htd Htl Ht12 Ht13 Ht14 Ht15 Hr6 Hr7 Hr8 Hr9 Hr10 Hr11]
    · iapply (tok_split (F := F) (U := U) d (widL L) (Pc d)).2
      isplitl [Htd]; · iexact Htd
      isplitl [Htl]; · iexact Htl
      iapply (hJ (Pc d))
      isplitl [Hr6]; · iexact Hr6
      isplitl [Hr7]; · iexact Hr7
      isplitl [Hr8]; · iexact Hr8
      isplitl [Hr9]; · iexact Hr9
      isplitl [Hr10]; · iexact Hr10
      isplitl [Hr11]; · iexact Hr11
      isplitl [Ht12]; · iexact Ht12
      isplitl [Ht13]; · iexact Ht13
      isplitl [Ht14]; · iexact Ht14
      iexact Ht15
    · iapply (Entails.of_eq (oRow_chunksN (F := F) (U := U) d (widL L) (outArr (Pc d) (Ic d))).symm)
      iapply (Entails.of_eq (run_done_step4 (chunkP1 (U := U) Pc Ic d L) (10 * 8 + 6 + 10) 100 (by omega)))
      isplitl [Hc9]; · iexact Hc9
      isplitl [Hc8]; · iexact Hc8
      isplitl [Hc7]; · iexact Hc7
      isplitl [Hc6]; · iexact Hc6
      iapply (Entails.of_eq (run_done_step (chunkP1 (U := U) Pc Ic d L) (10 * 8 + 6) (10 * 8 + 6 + 10) rfl))
      isplitl [Hc5]; · iexact Hc5
      isplitl [Hc4]; · iexact Hc4
      isplitl [Hc3]; · iexact Hc3
      isplitl [Hc2]; · iexact Hc2
      isplitl [Hc1]; · iexact Hc1
      isplitl [Hc0]; · iexact Hc0
      isplitl [Ho9_dst]; · unfold chunkP1; iexact Ho9_dst
      isplitl [Ho8_dst]; · unfold chunkP1; iexact Ho8_dst
      isplitl [Ho7_dst]; · unfold chunkP1; iexact Ho7_dst
      isplitl [Ho6_dst]; · unfold chunkP1; iexact Ho6_dst
      iexact Hcd
  -- the subcore's scratch whole again
  isplitl [Hxd Hg0_dst_and Hg1_dst_and Hg2_dst_and Hg3_dst_and Hg4_dst_and Hg5_dst_and Hx6 Hx7 Hx8 Hx9 Hg0_dst Hg1_dst Hg2_dst Hg3_dst Hg4_dst Hg5_dst Ho6_src Ho7_src Ho8_src Ho9_src Hbufs]
  · isplitl [Hxd Hg0_dst_and Hg1_dst_and Hg2_dst_and Hg3_dst_and Hg4_dst_and Hg5_dst_and Hx6 Hx7 Hx8 Hx9]
    · iexists (idxC Ic d L)
      iapply (Entails.of_eq (xPts_rowsN (F := F) (U := U) d L (idxC Ic d L)).symm)
      iapply (Entails.of_eq (run_done_step (rowP (U := U) Ic d L) (10 * 8 + 10) 100 (by omega)))
      isplitl [Hx9]; · iexact Hx9
      isplitl [Hx8]; · iexact Hx8
      isplitl [Hx7]; · iexact Hx7
      isplitl [Hx6]; · iexact Hx6
      isplitl [Hg5_dst_and]; · unfold rowP; iexact Hg5_dst_and
      isplitl [Hg4_dst_and]; · unfold rowP; iexact Hg4_dst_and
      isplitl [Hg3_dst_and]; · unfold rowP; iexact Hg3_dst_and
      isplitl [Hg2_dst_and]; · unfold rowP; iexact Hg2_dst_and
      isplitl [Hg1_dst_and]; · unfold rowP; iexact Hg1_dst_and
      isplitl [Hg0_dst_and]; · unfold rowP; iexact Hg0_dst_and
      unfold rowP; iexact Hxd
    isplitl [Hg0_dst Hg1_dst Hg2_dst Hg3_dst Hg4_dst Hg5_dst Ho6_src Ho7_src Ho8_src Ho9_src]
    · iapply (slots_join (F := F) (U := U) d L _ _ _ _ _ _ _ _ _ _)
      isplitl [Hg0_dst]; · iapply (Entails.of_eq (slot_conv (F := F) (U := U) d L ![0, 0, 0] inb_S10x64x128_S1x64x128_0_0_0 0 rfl _).symm); iexact Hg0_dst
      isplitl [Hg1_dst]; · iapply (Entails.of_eq (slot_conv (F := F) (U := U) d L ![1, 0, 0] inb_S10x64x128_S1x64x128_1_0_0 1 rfl _).symm); iexact Hg1_dst
      isplitl [Hg2_dst]; · iapply (Entails.of_eq (slot_conv (F := F) (U := U) d L ![2, 0, 0] inb_S10x64x128_S1x64x128_2_0_0 2 rfl _).symm); iexact Hg2_dst
      isplitl [Hg3_dst]; · iapply (Entails.of_eq (slot_conv (F := F) (U := U) d L ![3, 0, 0] inb_S10x64x128_S1x64x128_3_0_0 3 rfl _).symm); iexact Hg3_dst
      isplitl [Hg4_dst]; · iapply (Entails.of_eq (slot_conv (F := F) (U := U) d L ![4, 0, 0] inb_S10x64x128_S1x64x128_4_0_0 4 rfl _).symm); iexact Hg4_dst
      isplitl [Hg5_dst]; · iapply (Entails.of_eq (slot_conv (F := F) (U := U) d L ![5, 0, 0] inb_S10x64x128_S1x64x128_5_0_0 5 rfl _).symm); iexact Hg5_dst
      isplitl [Ho6_src]; · iapply (Entails.of_eq (slot_conv (F := F) (U := U) d L ![6, 0, 0] inb_S10x64x128_S1x64x128_6_0_0 6 rfl _).symm); iexact Ho6_src
      isplitl [Ho7_src]; · iapply (Entails.of_eq (slot_conv (F := F) (U := U) d L ![7, 0, 0] inb_S10x64x128_S1x64x128_7_0_0 7 rfl _).symm); iexact Ho7_src
      isplitl [Ho8_src]; · iapply (Entails.of_eq (slot_conv (F := F) (U := U) d L ![8, 0, 0] inb_S10x64x128_S1x64x128_8_0_0 8 rfl _).symm); iexact Ho8_src
      iapply (Entails.of_eq (slot_conv (F := F) (U := U) d L ![9, 0, 0] inb_S10x64x128_S1x64x128_9_0_0 9 rfl _).symm); iexact Ho9_src
    iexact Hbufs
  -- its semaphores at zero again
  isplitl [Hsc Hg0 Hg1 Hg2 Hg3 Hg4 Hg5 Hs8 Hs9 Hs10 Hs11 Hs12 Hs13 Hs14 Hs15 Hs16 Hs17 Ho6 Ho7 Ho8 Ho9 Hsems]
  · isplitl [Hsc]; · iexact Hsc
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Ho6]; · iexact Ho6
    isplitl [Ho7]; · iexact Ho7
    isplitl [Ho8]; · iexact Ho8
    isplitl [Ho9]; · iexact Ho9
    iexact Hsems
  iexists _; isplitr
  swap; · iexact HO
  ipureintro
  iterate 24 (refine waits_ok ?_ _)
  exact hW'

end Cert.Proof.KI.Tile

end
-- ==== Proof.KB.TileViews.lean ====
/-
  The pieces a vector subcore's task addresses, spelt as its program slices them, and the element sets they are.

  The task keeps the ids' scratch (100 rows of 64 words) by rows, the ring (10 slots of 64 x 128) by slots, and its block of
  the result (100 chunks of 64 x 128) by chunks. Each piece is named here twice: as the memref the program forms (a unit
  rectangle of the whole array at an offset function, squeezed), which is what a transfer's rule reads, and as a set of
  indices picked out by its leading coordinates, which is what the pieces are split and joined by.
-/
import proofs.«207285_g25512105738892_cont_9to1_353_29_alg».proof.Proof.KB.Res
import proofs.«207285_g25512105738892_cont_9to1_353_29_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.Tactic

noncomputable section

namespace Cert.Proof.KB.Tile

open Cert.Kernel Cert.Kernel.Gen
open Cert.Proof.KB.Res

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type}

/-! ## The arrays and the pieces, as the program addresses them -/

abbrev tV : Memref sig .scVector .hbm S100000x128 .f32 := Memref.whole main_v1_scv
abbrev iV : Memref sig .scVector .hbm S32x100x64 .i32 := Memref.whole main_v2_scv
abbrev oV : Memref sig .scVector .hbm S32x100x64x128 .f32 := Memref.whole main_v3_scv
abbrev xV : Memref sig .scVector .vmem S100x64 .i32 := Memref.whole cc1_scratch0
abbrev bV : Memref sig .scVector .vmem S10x64x128 .f32 := Memref.whole cc1_scratch1

/-- The whole table, as every gather names its source. -/
abbrev tAll : Memref sig .scVector .hbm S100000x128 .f32 :=
  (tV).slice (Rect.unit (s := S100000x128) ![0, 0] S100000x128.size inb_S100000x128_S100000x128_0_0) (fun _ => rfl)
/-- The worker's row of the ids. -/
abbrev iRowK (L : grid1.Coords) : Memref sig .scVector .hbm S100x64 .i32 :=
  ((iV).slice (Rect.unit (s := S32x100x64) (k1_off1 L) S1x100x64.size (k1_off1_inb L)) (fun _ => rfl)).squeeze S100x64 squeezes_S1x100x64_S100x64
/-- A row of the ids' scratch at an offset function. -/
abbrev rowM (off : Fin 2 → Nat) (h : ∀ a, off a + S1x64.size a ≤ S100x64.size a) : Memref sig .scVector .vmem S64 .i32 :=
  ((xV).slice (Rect.unit (s := S100x64) off S1x64.size h) (fun _ => rfl)).squeeze S64 squeezes_S1x64_S64
/-- A slot of the ring at an offset function. -/
abbrev slotM (off : Fin 3 → Nat) (h : ∀ a, off a + S1x64x128.size a ≤ S10x64x128.size a) : Memref sig .scVector .vmem S64x128 .f32 :=
  ((bV).slice (Rect.unit (s := S10x64x128) off S1x64x128.size h) (fun _ => rfl)).squeeze S64x128 squeezes_S1x64x128_S64x128
/-- A chunk of the result at an offset function. -/
abbrev chunkM (off : Fin 4 → Nat) (h : ∀ a, off a + S1x1x64x128.size a ≤ S32x100x64x128.size a) : Memref sig .scVector .hbm S64x128 .f32 :=
  ((oV).slice (Rect.unit (s := S32x100x64x128) off S1x1x64x128.size h) (fun _ => rfl)).squeeze S64x128 squeezes_S1x1x64x128_S64x128

/-! ## The same pieces as sets of indices -/

/-- A row of the ids' scratch, by its number. -/
def rowSet (j : ℕ) : Finset S100x64.Idx := Finset.univ.filter fun x => (x 0).val = j
/-- A slot of the ring, by its number. -/
def slotSet (b : ℕ) : Finset S10x64x128.Idx := Finset.univ.filter fun x => (x 0).val = b
/-- A chunk of a worker's block of the result, by the worker's and the chunk's numbers. -/
def chunkSet (w j : ℕ) : Finset S32x100x64x128.Idx := Finset.univ.filter fun x => (x 0).val = w ∧ (x 1).val = j

theorem set_rowM (off : Fin 2 → Nat) (h : ∀ a, off a + S1x64.size a ≤ S100x64.size a) (j : ℕ) (hoff : off = ![j, 0]) :
    (rowM off h).view.set = rowSet j := by
  subst hoff
  show (((View.whole (cc1_scratch0 : Ref sig .scVector)).slice (Rect.unit (s := S100x64) ![j, 0] S1x64.size h)).reshape S64 squeezes_S1x64_S64.numel_eq).set = _
  rw [View.set_reshape, View.set_slice_whole]
  ext x
  simp only [Rect.mem_set_unit, rowSet, Finset.mem_filter, Finset.mem_univ, true_and]
  have h1 : (x 1 : ℕ) < 64 := (x 1).isLt
  constructor
  · intro hx
    have h0 := hx (0 : Fin 2)
    have a' : j ≤ (x 0 : ℕ) := h0.1
    have b' : (x 0 : ℕ) < j + 1 := h0.2
    omega
  · intro e a
    match a with
    | (0 : Fin 2) => exact ⟨show j ≤ (x 0 : ℕ) by omega, show (x 0 : ℕ) < j + 1 by omega⟩
    | (1 : Fin 2) => exact ⟨Nat.zero_le _, show (x 1 : ℕ) < 0 + 64 by omega⟩

theorem set_slotM (off : Fin 3 → Nat) (h : ∀ a, off a + S1x64x128.size a ≤ S10x64x128.size a) (b : ℕ) (hoff : off = ![b, 0, 0]) :
    (slotM off h).view.set = slotSet b := by
  subst hoff
  show (((View.whole (cc1_scratch1 : Ref sig .scVector)).slice (Rect.unit (s := S10x64x128) ![b, 0, 0] S1x64x128.size h)).reshape S64x128 squeezes_S1x64x128_S64x128.numel_eq).set = _
  rw [View.set_reshape, View.set_slice_whole]
  ext x
  simp only [Rect.mem_set_unit, slotSet, Finset.mem_filter, Finset.mem_univ, true_and]
  have h1 : (x 1 : ℕ) < 64 := (x 1).isLt
  have h2 : (x 2 : ℕ) < 128 := (x 2).isLt
  constructor
  · intro hx
    have h0 := hx (0 : Fin 3)
    have a' : b ≤ (x 0 : ℕ) := h0.1
    have c' : (x 0 : ℕ) < b + 1 := h0.2
    omega
  · intro e a
    match a with
    | (0 : Fin 3) => exact ⟨show b ≤ (x 0 : ℕ) by omega, show (x 0 : ℕ) < b + 1 by omega⟩
    | (1 : Fin 3) => exact ⟨Nat.zero_le _, show (x 1 : ℕ) < 0 + 64 by omega⟩
    | (2 : Fin 3) => exact ⟨Nat.zero_le _, show (x 2 : ℕ) < 0 + 128 by omega⟩

theorem set_chunkM (off : Fin 4 → Nat) (h : ∀ a, off a + S1x1x64x128.size a ≤ S32x100x64x128.size a) (w j : ℕ) (hoff : off = ![w, j, 0, 0]) :
    (chunkM off h).view.set = chunkSet w j := by
  subst hoff
  show (((View.whole (main_v3_scv : Ref sig .scVector)).slice (Rect.unit (s := S32x100x64x128) ![w, j, 0, 0] S1x1x64x128.size h)).reshape S64x128 squeezes_S1x1x64x128_S64x128.numel_eq).set = _
  rw [View.set_reshape, View.set_slice_whole]
  ext x
  simp only [Rect.mem_set_unit, chunkSet, Finset.mem_filter, Finset.mem_univ, true_and]
  have h2 : (x 2 : ℕ) < 64 := (x 2).isLt
  have h3 : (x 3 : ℕ) < 128 := (x 3).isLt
  constructor
  · intro hx
    have h0 := hx (0 : Fin 4)
    have h1 := hx (1 : Fin 4)
    have a' : w ≤ (x 0 : ℕ) := h0.1
    have c' : (x 0 : ℕ) < w + 1 := h0.2
    have a2' : j ≤ (x 1 : ℕ) := h1.1
    have c2' : (x 1 : ℕ) < j + 1 := h1.2
    omega
  · rintro ⟨e, e2⟩ a
    match a with
    | (0 : Fin 4) => exact ⟨show w ≤ (x 0 : ℕ) by omega, show (x 0 : ℕ) < w + 1 by omega⟩
    | (1 : Fin 4) => exact ⟨show j ≤ (x 1 : ℕ) by omega, show (x 1 : ℕ) < j + 1 by omega⟩
    | (2 : Fin 4) => exact ⟨Nat.zero_le _, show (x 2 : ℕ) < 0 + 64 by omega⟩
    | (3 : Fin 4) => exact ⟨Nat.zero_le _, show (x 3 : ℕ) < 0 + 128 by omega⟩

end Cert.Proof.KB.Tile

end
-- ==== Proof.KB.TileInv.lean ====
/-
  What a vector subcore's task holds between two trips of its counted loop, and the canonical contents of its pieces.

  The contents are functions of the table's contents Pc and the ids' contents Ic alone:
  the ids' scratch holds the worker's row of the ids (idxC); a slot that chunk j was gathered into holds, at (l, p), entry p of
  the table's row named by id (w, j, l) (slotC j); a chunk of the result that was copied out holds outArr.
  Before trip n of the loop (n = 0 .. 8), with g = n + 1:
    six gathers are in flight, chunks 10 g .. 10 g + 5 into slots 0 .. 5 (each holding its slot, its row of the ids' scratch
    and its read token of the table), four copies out are in flight, chunks 10 g - 4 .. 10 g - 1 from slots 6 .. 9 (each holding
    its chunk and its slot); rows 10 g + 6 .. 99 of the ids' scratch are still to be lent and rows 0 .. 10 g - 1 are back;
    chunks 10 g .. 99 of the result are untouched and chunks 0 .. 10 g - 5 are written.
-/
import proofs.«207285_g25512105738892_cont_9to1_353_29_alg».proof.Proof.KB.TileViews

noncomputable section

namespace Cert.Proof.KB.Tile

open Cert.Kernel Cert.Kernel.Gen
open Cert.Proof.KB.Res

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]
variable {U : Type} [URA U] [CountersIn U]

local notation "𝕄" => MT nD τ sig (HIx 1) (Elt F) ℕ U ℕ

/-! ## Canonical contents -/

/-- Chunk number j as an index of the chunk axis (total in j). -/
def jF (j : ℕ) : Fin 100 := ⟨j % 100, Nat.mod_lt _ (by decide)⟩

variable (m : (ℓ : Loc nD τ sig) → Buf (Elt F) ℓ)
variable (Pc : (d : Dev nD) → Buf (Elt F) (tLoc d)) (Ic : (d : Dev nD) → Buf (Elt F) (iLoc d))
variable (d : Dev nD) (L : grid1.Coords)

/-- The ids' scratch once the worker's row of the ids has landed in it. -/
def idxC : Buf (Elt F) ((V d (cV L) (jV L)).loc cc1_scratch0) :=
  fun (x : S100x64.Idx) => Ic d (ix3 (widL L) (x 0) (x 1))

/-- A slot of the ring once chunk j has been gathered into it (the slot's number does not matter). -/
def slotC (j : ℕ) : Buf (Elt F) ((V d (cV L) (jV L)).loc cc1_scratch1) :=
  fun (y : S10x64x128.Idx) => Pc d (ix2 (Cert.Proof.Spec.row (Ic d (ix3 (widL L) (jF j) (y 1)))) (y 2))

/-! ## The pieces -/

/-- Row j of the ids' scratch. -/
def rowP (j : ℕ) : sProp 𝕄 := (V d (cV L) (jV L)).loc cc1_scratch0 ↦[rowSet j]{fullShare} idxC Ic d L
/-- Chunk j of the worker's block of the result, untouched. -/
def chunkP0 (j : ℕ) : sProp 𝕄 := oLoc d ↦[chunkSet (widL L).val j]{fullShare} m (oLoc d)
/-- Chunk j of the worker's block of the result, written. -/
def chunkP1 (j : ℕ) : sProp 𝕄 := oLoc d ↦[chunkSet (widL L).val j]{fullShare} outArr (Pc d) (Ic d)

/-- A gather in flight on a cell: chunk j into the slot at offS, by row j of the ids' scratch, reading the table at the read share q. -/
def gFl (sem : DmaSem sig) (offS : Fin 3 → Nat) (hS : ∀ a, offS a + S1x64x128.size a ≤ S10x64x128.size a) (q : PosShare TreeShare) (j : ℕ) : sProp 𝕄 :=
  Transfers.Flight countersEmb (V d (cV L) (jV L)) (SemLoc.dma sem) (default : HIx 1) 262144
    iprop((((slotM offS hS).view.loc (V d (cV L) (jV L)) ↦[(slotM offS hS).view.set]{fullShare} slotC Pc Ic d L j)
        ∗ ((xV).view.loc (V d (cV L) (jV L)) ↦[rowSet j]{fullShare} idxC Ic d L))
      ∗ ((tAll).view.loc (V d (cV L) (jV L)) ↦[(tAll).view.set]{q} Pc d))

/-- What a read share leaves behind while its gather flies: nothing of the table, under that share. -/
def tkRest (q : PosShare TreeShare) : sProp 𝕄 := (tV).view.loc (V d (cV L) (jV L)) ↦[Finset.univ \ (tAll).view.set]{q} Pc d
/-- A read share of the table, whole. -/
def tkWhole (q : PosShare TreeShare) : sProp 𝕄 := (tV).view.loc (V d (cV L) (jV L)) ↦{q} Pc d

/-- A copy out in flight on a cell: the slot at offS, holding chunk j gathered, into chunk j of the result. -/
def oFl (sem : DmaSem sig) (offS : Fin 3 → Nat) (hS : ∀ a, offS a + S1x64x128.size a ≤ S10x64x128.size a) (j : ℕ) : sProp 𝕄 :=
  Transfers.Flight countersEmb (V d (cV L) (jV L)) (SemLoc.dma sem) (default : HIx 1) 262144
    iprop((oLoc d ↦[chunkSet (widL L).val j]{fullShare} outArr (Pc d) (Ic d))
      ∗ ((slotM offS hS).view.loc (V d (cV L) (jV L)) ↦[(slotM offS hS).view.set]{fullShare} slotC Pc Ic d L j))

/-- Ten read shares of the table that together are the worker's read tokens 6 .. 15 (which share flies with which slot changes
    from trip to trip; only their sum matters). -/
def TokJoin (q0 q1 q2 q3 q4 q5 q6 q7 q8 q9 : PosShare TreeShare) : Prop :=
  ∀ f : Buf (Elt F) (tLoc d),
    (iprop((tLoc d ↦{q0} f) ∗ (tLoc d ↦{q1} f) ∗ (tLoc d ↦{q2} f) ∗ (tLoc d ↦{q3} f) ∗ (tLoc d ↦{q4} f) ∗ (tLoc d ↦{q5} f)
        ∗ (tLoc d ↦{q6} f) ∗ (tLoc d ↦{q7} f) ∗ (tLoc d ↦{q8} f) ∗ (tLoc d ↦{q9} f)) : sProp 𝕄)
      ⊢ iprop((tLoc d ↦{shareTokN (tq (widL L)) 6} f) ∗ (tLoc d ↦{shareTokN (tq (widL L)) 7} f) ∗ (tLoc d ↦{shareTokN (tq (widL L)) 8} f)
        ∗ (tLoc d ↦{shareTokN (tq (widL L)) 9} f) ∗ (tLoc d ↦{shareTokN (tq (widL L)) 10} f) ∗ (tLoc d ↦{shareTokN (tq (widL L)) 11} f)
        ∗ (tLoc d ↦{shareTokN (tq (widL L)) 12} f) ∗ (tLoc d ↦{shareTokN (tq (widL L)) 13} f) ∗ (tLoc d ↦{shareTokN (tq (widL L)) 14} f)
        ∗ (tLoc d ↦{shareTokN (tq (widL L)) 15} f))

variable (O : CellTallies nD τ sig (HIx 1)) (W : Waits sig (HIx 1))

/-- The loop's invariant before trip n. -/
def inv (n : ℕ) (_ : Unit) : sProp 𝕄 :=
  iprop(∃ q0 q1 q2 q3 q4 q5 q6 q7 q8 q9 : PosShare TreeShare, ⌜TokJoin (F := F) (U := U) d L q0 q1 q2 q3 q4 q5 q6 q7 q8 q9⌝
    ∗ Transfers.MayWaits (V d (cV L) (jV L)) (default : HIx 1) O
    ∗ gFl Pc Ic d L cc1_scratch2.sem ![0, 0, 0] inb_S10x64x128_S1x64x128_0_0_0 q0 (10 * n + 10)
    ∗ gFl Pc Ic d L cc1_scratch3.sem ![1, 0, 0] inb_S10x64x128_S1x64x128_1_0_0 q1 (10 * n + 10 + 1)
    ∗ gFl Pc Ic d L cc1_scratch4.sem ![2, 0, 0] inb_S10x64x128_S1x64x128_2_0_0 q2 (10 * n + 10 + 2)
    ∗ gFl Pc Ic d L cc1_scratch5.sem ![3, 0, 0] inb_S10x64x128_S1x64x128_3_0_0 q3 (10 * n + 10 + 3)
    ∗ gFl Pc Ic d L cc1_scratch6.sem ![4, 0, 0] inb_S10x64x128_S1x64x128_4_0_0 q4 (10 * n + 10 + 4)
    ∗ gFl Pc Ic d L cc1_scratch7.sem ![5, 0, 0] inb_S10x64x128_S1x64x128_5_0_0 q5 (10 * n + 10 + 5)
    ∗ tkRest Pc d L q0 ∗ tkRest Pc d L q1 ∗ tkRest Pc d L q2 ∗ tkRest Pc d L q3 ∗ tkRest Pc d L q4 ∗ tkRest Pc d L q5
    ∗ tkWhole Pc d L q6 ∗ tkWhole Pc d L q7 ∗ tkWhole Pc d L q8 ∗ tkWhole Pc d L q9
    ∗ oFl Pc Ic d L cc1_scratch18.sem ![6, 0, 0] inb_S10x64x128_S1x64x128_6_0_0 (10 * n + 6)
    ∗ oFl Pc Ic d L cc1_scratch19.sem ![7, 0, 0] inb_S10x64x128_S1x64x128_7_0_0 (10 * n + 6 + 1)
    ∗ oFl Pc Ic d L cc1_scratch20.sem ![8, 0, 0] inb_S10x64x128_S1x64x128_8_0_0 (10 * n + 6 + 2)
    ∗ oFl Pc Ic d L cc1_scratch21.sem ![9, 0, 0] inb_S10x64x128_S1x64x128_9_0_0 (10 * n + 6 + 3)
    ∗ semVal (V d (cV L) (jV L), SemLoc.dma cc1_scratch8.sem) 0 ∗ semVal (V d (cV L) (jV L), SemLoc.dma cc1_scratch9.sem) 0
    ∗ semVal (V d (cV L) (jV L), SemLoc.dma cc1_scratch10.sem) 0 ∗ semVal (V d (cV L) (jV L), SemLoc.dma cc1_scratch11.sem) 0
    ∗ semVal (V d (cV L) (jV L), SemLoc.dma cc1_scratch12.sem) 0 ∗ semVal (V d (cV L) (jV L), SemLoc.dma cc1_scratch13.sem) 0
    ∗ semVal (V d (cV L) (jV L), SemLoc.dma cc1_scratch14.sem) 0 ∗ semVal (V d (cV L) (jV L), SemLoc.dma cc1_scratch15.sem) 0
    ∗ semVal (V d (cV L) (jV L), SemLoc.dma cc1_scratch16.sem) 0 ∗ semVal (V d (cV L) (jV L), SemLoc.dma cc1_scratch17.sem) 0
    ∗ bigSep (Finset.Ico (10 * n + 16) 100) (rowP Ic d L) ∗ bigSep (Finset.range (10 * n + 10)) (rowP Ic d L)
    ∗ bigSep (Finset.Ico (10 * n + 10) 100) (chunkP0 m d L) ∗ bigSep (Finset.range (10 * n + 6)) (chunkP1 Pc Ic d L)
    ∗ ∃ W', ⌜∀ p ∈ W', p ∈ W ∨ p.2 = none⌝ ∗ owes (V d (cV L) (jV L)) O W')

/-! ## Taking pieces out of a run of consecutive pieces, and putting them back -/

omit [FloatOps F] [CountersIn U] in
theorem bigSep_Ico_take (R : ℕ → sProp 𝕄) {a c : ℕ} (h : a < c) :
    bigSep (Finset.Ico a c) R = iprop(R a ∗ bigSep (Finset.Ico (a + 1) c) R) := by
  have e : Finset.Ico a c = insert a (Finset.Ico (a + 1) c) := by
    ext x; simp only [Finset.mem_Ico, Finset.mem_insert]; omega
  rw [e, bigSep_insert (by simp)]
  rfl

omit [FloatOps F] [CountersIn U] in
theorem bigSep_range_put (R : ℕ → sProp 𝕄) (a : ℕ) :
    bigSep (Finset.range (a + 1)) R = iprop(R a ∗ bigSep (Finset.range a) R) := by
  rw [Finset.range_add_one, bigSep_insert Finset.notMem_range_self]
  rfl

omit [FloatOps F] [CountersIn U] in
/-- Ten consecutive pieces out of a run. -/
theorem bigSep_Ico_take10 (R : ℕ → sProp 𝕄) {a c : ℕ} (h : a + 10 ≤ c) :
    bigSep (Finset.Ico a c) R = iprop(R a ∗ R (a + 1) ∗ R (a + 2) ∗ R (a + 3) ∗ R (a + 4) ∗ R (a + 5) ∗ R (a + 6) ∗ R (a + 7) ∗ R (a + 8) ∗ R (a + 9)
      ∗ bigSep (Finset.Ico (a + 10) c) R) := by
  rw [bigSep_Ico_take R (a := a) (by omega), bigSep_Ico_take R (a := a + 1) (by omega), bigSep_Ico_take R (a := a + 2) (by omega),
    bigSep_Ico_take R (a := a + 3) (by omega), bigSep_Ico_take R (a := a + 4) (by omega), bigSep_Ico_take R (a := a + 5) (by omega),
    bigSep_Ico_take R (a := a + 6) (by omega), bigSep_Ico_take R (a := a + 7) (by omega), bigSep_Ico_take R (a := a + 8) (by omega),
    bigSep_Ico_take R (a := a + 9) (by omega)]

omit [FloatOps F] [CountersIn U] in
/-- Ten consecutive pieces onto a run from zero. -/
theorem bigSep_range_put10 (R : ℕ → sProp 𝕄) (a : ℕ) :
    bigSep (Finset.range (a + 10)) R = iprop(R (a + 9) ∗ R (a + 8) ∗ R (a + 7) ∗ R (a + 6) ∗ R (a + 5) ∗ R (a + 4) ∗ R (a + 3) ∗ R (a + 2) ∗ R (a + 1) ∗ R a
      ∗ bigSep (Finset.range a) R) := by
  rw [bigSep_range_put R (a + 9), bigSep_range_put R (a + 8), bigSep_range_put R (a + 7), bigSep_range_put R (a + 6), bigSep_range_put R (a + 5),
    bigSep_range_put R (a + 4), bigSep_range_put R (a + 3), bigSep_range_put R (a + 2), bigSep_range_put R (a + 1), bigSep_range_put R a]

/-! ## A trip's bookkeeping of the runs -/

omit [FloatOps F] [CountersIn U] in
theorem run_done_step (R : ℕ → sProp 𝕄) (a a' : ℕ) (h : a' = a + 10) :
    iprop(R (a + 9) ∗ R (a + 8) ∗ R (a + 7) ∗ R (a + 6) ∗ R (a + 5) ∗ R (a + 4) ∗ R (a + 3) ∗ R (a + 2) ∗ R (a + 1) ∗ R a
      ∗ bigSep (Finset.range a) R) = bigSep (Finset.range a') R := by
  subst h; rw [bigSep_range_put10]

omit [FloatOps F] [CountersIn U] in
theorem run_fresh_step (R : ℕ → sProp 𝕄) (a a' c : ℕ) (h : a' = a) :
    bigSep (Finset.Ico a c) R = bigSep (Finset.Ico a' c) R := by
  subst h; rfl

omit [FloatOps F] [CountersIn U] in
theorem vec2_congr {a b : ℕ} (h : a = b) : (![a, 0] : Fin 2 → ℕ) = ![b, 0] := by rw [h]
omit [FloatOps F] [CountersIn U] in
theorem vec4_congr {w a b : ℕ} (h : a = b) : (![w, a, 0, 0] : Fin 4 → ℕ) = ![w, b, 0, 0] := by rw [h]

/-! ## The pieces in the program's spelling -/

omit [FloatOps F] [CountersIn U] in
/-- A row of the ids' scratch, as the memref at an offset function that names it. -/
theorem row_conv (off : Fin 2 → Nat) (h : ∀ a, off a + S1x64.size a ≤ S100x64.size a) (j : ℕ) (hj : off = ![j, 0])
    (f : Buf (Elt F) ((V d (cV L) (jV L)).loc cc1_scratch0)) :
    ((V d (cV L) (jV L)).loc cc1_scratch0 ↦[rowSet j]{fullShare} f : sProp 𝕄)
      = (rowM off h).view.loc (V d (cV L) (jV L)) ↦[(rowM off h).view.set]{fullShare} f := by
  rw [set_rowM off h j hj]

omit [FloatOps F] [CountersIn U] in
/-- A chunk of the result, as the memref at an offset function that names it. -/
theorem chunk_conv (off : Fin 4 → Nat) (h : ∀ a, off a + S1x1x64x128.size a ≤ S32x100x64x128.size a) (w j : ℕ) (hj : off = ![w, j, 0, 0])
    (f : Buf (Elt F) (oLoc d)) :
    (oLoc d ↦[chunkSet w j]{fullShare} f : sProp 𝕄)
      = (chunkM off h).view.loc (V d (cV L) (jV L)) ↦[(chunkM off h).view.set]{fullShare} f := by
  rw [set_chunkM off h w j hj]

omit [FloatOps F] in
theorem off15_at (k : Fin k1_t1_loop.trips) (r : Fin 10) : k1_off15 k (BitVec.ofNat 32 r.val) = ![10 * k.val + 16 + r.val, 0] := by
  rw [k1_off15_eq]; congr 1; omega
omit [FloatOps F] in
theorem off13_at (k : Fin k1_t1_loop.trips) (r : Fin 10) :
    k1_off13 L k (BitVec.ofNat 32 r.val) = ![(widL L).val, 10 * k.val + 10 + r.val, 0, 0] := by
  rw [k1_off13_eq, widL_val]; congr 2; omega

/-! ## The ids are rows of the table -/

/-- Every word a gather reads off a row of the ids' scratch names a row of the table. -/
theorem hin_of (hIc : ∀ (d : Dev nD) (j : S32x100x64.Idx), (Ic d j).toNat < 100000)
    (off : Fin 2 → Nat) (h : ∀ a, off a + S1x64.size a ≤ S100x64.size a) (x : S64.Idx) :
    ((rowM off h).view.read (Elt F) (idxC Ic d L) x).toNat < S100000x128.size gathers_S100000x128_S64x128.axis := by
  rw [show (rowM off h).view.read (Elt F) (idxC Ic d L) x = idxC Ic d L ((rowM off h).view.emb x) from (View.read_apply _ _).trans (cast_eq _ _)]
  exact hIc d _

end Cert.Proof.KB.Tile

end
-- ==== Proof.KB.TilePieces.lean ====
/-
  A worker's pieces split and joined: its block of the result is its 100 chunks, the ids' scratch its 100 rows, the ring its
  10 slots — each a disjoint cover by the leading coordinates.
-/
import proofs.«207285_g25512105738892_cont_9to1_353_29_alg».proof.Proof.KB.TileViews
import proofs.«207285_g25512105738892_cont_9to1_353_29_alg».proof.Proof.KB.Split

noncomputable section

namespace Cert.Proof.KB.Tile

open Cert.Kernel Cert.Kernel.Gen Cert.Proof.KB.Res

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} {U : Type} [URA U]

local notation "𝕄" => MT nD τ sig (HIx 1) (Elt F) ℕ U ℕ

/-- A worker's block of the result is the entries whose first coordinate is the worker. -/
theorem mem_oRowSet (w : Fin 32) (x : S32x100x64x128.Idx) : x ∈ oRowSet w ↔ (x 0).val = w.val := by
  rw [Cert.Proof.KB.Split.oRowSet_eq]
  unfold orow Rect.part Rect.block
  rw [Rect.mem_set_unit]
  have h1 : (x 1 : ℕ) < 100 := (x 1).isLt
  have h2 : (x 2 : ℕ) < 64 := (x 2).isLt
  have h3 : (x 3 : ℕ) < 128 := (x 3).isLt
  constructor
  · intro hx
    have h0 := hx (0 : Fin 4)
    simp [Shape.partIx, Shape.partSize] at h0
    omega
  · intro e a
    match a with
    | (0 : Fin 4) => simp [Shape.partIx, Shape.partSize]; omega
    | (1 : Fin 4) => simp [Shape.partIx, Shape.partSize]; omega
    | (2 : Fin 4) => simp [Shape.partIx, Shape.partSize]; omega
    | (3 : Fin 4) => simp [Shape.partIx, Shape.partSize]; omega

theorem chunks_cover (w : Fin 32) : (Finset.univ : Finset (Fin 100)).biUnion (fun j => chunkSet w.val j.val) = oRowSet w := by
  ext x
  simp only [Finset.mem_biUnion, Finset.mem_univ, true_and, chunkSet, Finset.mem_filter, mem_oRowSet]
  constructor
  · rintro ⟨j, h, -⟩; exact h
  · intro h; exact ⟨⟨(x 1).val, (x 1).isLt⟩, h, rfl⟩
theorem chunks_disjoint (w : ℕ) : ∀ i ∈ (Finset.univ : Finset (Fin 100)), ∀ j ∈ (Finset.univ : Finset (Fin 100)), i ≠ j → Disjoint (chunkSet w i.val) (chunkSet w j.val) := by
  intro i _ j _ hij
  rw [Finset.disjoint_left]
  intro x hx hx'
  simp only [chunkSet, Finset.mem_filter, Finset.mem_univ, true_and] at hx hx'
  exact hij (Fin.ext (hx.2.symm.trans hx'.2))

theorem rows_cover : (Finset.univ : Finset (Fin 100)).biUnion (fun j => rowSet j.val) = Finset.univ := by
  ext x
  simp only [Finset.mem_biUnion, Finset.mem_univ, true_and, rowSet, Finset.mem_filter, iff_true]
  exact ⟨⟨(x 0).val, (x 0).isLt⟩, rfl⟩
theorem rows_disjoint : ∀ i ∈ (Finset.univ : Finset (Fin 100)), ∀ j ∈ (Finset.univ : Finset (Fin 100)), i ≠ j → Disjoint (rowSet i.val) (rowSet j.val) := by
  intro i _ j _ hij
  rw [Finset.disjoint_left]
  intro x hx hx'
  simp only [rowSet, Finset.mem_filter, Finset.mem_univ, true_and] at hx hx'
  exact hij (Fin.ext (hx.symm.trans hx'))

theorem slots_cover : (Finset.univ : Finset (Fin 10)).biUnion (fun b => slotSet b.val) = Finset.univ := by
  ext x
  simp only [Finset.mem_biUnion, Finset.mem_univ, true_and, slotSet, Finset.mem_filter, iff_true]
  exact ⟨⟨(x 0).val, (x 0).isLt⟩, rfl⟩
theorem slots_disjoint : ∀ i ∈ (Finset.univ : Finset (Fin 10)), ∀ j ∈ (Finset.univ : Finset (Fin 10)), i ≠ j → Disjoint (slotSet i.val) (slotSet j.val) := by
  intro i _ j _ hij
  rw [Finset.disjoint_left]
  intro x hx hx'
  simp only [slotSet, Finset.mem_filter, Finset.mem_univ, true_and] at hx hx'
  exact hij (Fin.ext (hx.symm.trans hx'))

/-- A worker's block of the result, held at one whole-array function, is its 100 chunks held at it. -/
theorem oRow_chunks (d : Dev nD) (w : Fin 32) (f : Buf (Elt F) (oLoc d)) :
    (oLoc d ↦[oRowSet w]{fullShare} f : sProp 𝕄) = bigSep Finset.univ fun j : Fin 100 => oLoc d ↦[chunkSet w.val j.val]{fullShare} f := by
  rw [← pointsTo_biUnion Finset.univ (ℓ := oLoc d) (fun j : Fin 100 => chunkSet w.val j.val) (chunks_disjoint w.val), chunks_cover]

/-- The ids' scratch of a subcore is its 100 rows, -/
theorem xPts_rows (d : Dev nD) (c : Fin τ.nSC) (i : Fin τ.nSub) (f : Buf (Elt F) ((V d c i).loc cc1_scratch0)) :
    ((V d c i).loc cc1_scratch0 ↦{fullShare} f : sProp 𝕄)
      = bigSep Finset.univ fun j : Fin 100 => (V d c i).loc cc1_scratch0 ↦[rowSet j.val]{fullShare} f := by
  rw [← pointsTo_biUnion Finset.univ (ℓ := (V d c i).loc cc1_scratch0) (fun j : Fin 100 => rowSet j.val) rows_disjoint, rows_cover]; try rfl
/-- and its ring the 10 slots. -/
theorem bPts_slots (d : Dev nD) (c : Fin τ.nSC) (i : Fin τ.nSub) (f : Buf (Elt F) ((V d c i).loc cc1_scratch1)) :
    ((V d c i).loc cc1_scratch1 ↦{fullShare} f : sProp 𝕄)
      = bigSep Finset.univ fun b : Fin 10 => (V d c i).loc cc1_scratch1 ↦[slotSet b.val]{fullShare} f := by
  rw [← pointsTo_biUnion Finset.univ (ℓ := (V d c i).loc cc1_scratch1) (fun b : Fin 10 => slotSet b.val) slots_disjoint, slots_cover]; try rfl

end Cert.Proof.KB.Tile

end
-- ==== Proof.KB.TileSetup.lean ====
/-
  A vector subcore's scoped storage, named piece by piece, and the task's arrays cut into the pieces it lends to its transfers.

  The subcore's scoped semaphores are the task's twenty-one DMA semaphores (the one of the opening copy, then the ten of the
  gathers and the ten of the copies out) and the rest; its scoped buffers are the ids' scratch, the ring and the rest. The ids'
  scratch is its hundred rows, the ring its ten slots, the worker's block of the result its hundred chunks, and the worker's
  read token of the table a remainder and sixteen smaller tokens.
-/
import proofs.«207285_g25512105738892_cont_9to1_353_29_alg».proof.Proof.KB.TileInv
import proofs.«207285_g25512105738892_cont_9to1_353_29_alg».proof.Proof.KB.TilePieces
import Idealize.ShloMosaic.Lib.Pipeline.Kit
import Idealize.ShloMosaic.Lib.Transfers

noncomputable section

namespace Cert.Proof.KB.Tile

open Cert.Kernel Cert.Kernel.Gen
open Cert.Proof.KB.Res

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} {U : Type} [URA U]

local notation "𝕄" => MT nD τ sig (HIx 1) (Elt F) ℕ U ℕ

/-! ## Listed elements out of a set -/

/-- The elements of a list without repetition, all in `S`, come out of a `bigSep` over `S` one by one, in the list's order. -/
theorem bigSep_take_list {M : Type} [URA M] {I : Type} [DecidableEq I] (l : List I) :
    ∀ (S : Finset I), l.Nodup → (∀ i ∈ l, i ∈ S) → ∀ (Φ : I → sProp M),
      bigSep S Φ = l.foldr (fun i acc => iprop(Φ i ∗ acc)) (bigSep (S \ l.toFinset) Φ) := by
  induction l with
  | nil => intro S _ _ Φ; rw [List.toFinset_nil, Finset.sdiff_empty]; rfl
  | cons i l ih =>
    intro S hl hsub Φ
    obtain ⟨hi, hl'⟩ := List.nodup_cons.mp hl
    rw [SparseCore.bigSep_erase' (hsub i (List.mem_cons_self ..)),
      ih (S.erase i) hl' (fun j hj => Finset.mem_erase.mpr ⟨fun e => hi (e ▸ hj), hsub j (List.mem_cons_of_mem _ hj)⟩) Φ]
    have e : S.erase i \ l.toFinset = S \ (i :: l).toFinset := by
      ext x; simp only [Finset.mem_sdiff, Finset.mem_erase, List.toFinset_cons, Finset.mem_insert, List.mem_toFinset]; tauto
    rw [e]; rfl

/-- A `bigSep` over the numbers below `n` as a type is the `bigSep` over them as a range. -/
theorem bigSep_fin_range {M : Type} [URA M] (n : ℕ) (R : ℕ → sProp M) :
    bigSep (Finset.univ : Finset (Fin n)) (fun j => R j.val) = bigSep (Finset.range n) R := by
  rw [← Nat.Iio_eq_range, ← Fin.map_valEmbedding_univ, BI.bigSep_map]; rfl

variable (d : Dev nD) (L : grid1.Coords)

/-! ## The subcore's scoped semaphores -/

/-- The task's DMA semaphores: the opening copy's, the ten gathers', the ten copies' out. -/
def semL : List (DmaSem sig) :=
  [cc1_scoped0.sem, cc1_scratch2.sem, cc1_scratch3.sem, cc1_scratch4.sem, cc1_scratch5.sem, cc1_scratch6.sem, cc1_scratch7.sem, cc1_scratch8.sem, cc1_scratch9.sem, cc1_scratch10.sem, cc1_scratch11.sem, cc1_scratch12.sem, cc1_scratch13.sem, cc1_scratch14.sem, cc1_scratch15.sem, cc1_scratch16.sem, cc1_scratch17.sem, cc1_scratch18.sem, cc1_scratch19.sem, cc1_scratch20.sem, cc1_scratch21.sem]

/-- The same as cells of the subcore. -/
def cellL : List (GSem nD τ sig) := semL.map fun s => (V d (cV L) (jV L), SemLoc.dma s)

/-- The subcore's other scoped cells. -/
def restCells : Finset (GSem nD τ sig) := ownCells (V d (cV L) (jV L)) \ (cellL d L).toFinset

theorem semL_nodup : semL.Nodup := by decide
theorem semL_scoped : ∀ s ∈ semL, (SemLoc.dma s : SemLoc sig).isScoped .scVector = true := by decide

theorem cellL_nodup : (cellL d L).Nodup :=
  semL_nodup.map fun a b h => SemLoc.dma.inj (Prod.mk.inj h).2

theorem cellL_sub : ∀ g ∈ cellL d L, g ∈ ownCells (V d (cV L) (jV L)) := by
  intro g hg
  obtain ⟨s, hs, rfl⟩ := List.mem_map.mp hg
  exact mem_ownCells.mpr ⟨rfl, semL_scoped s hs⟩

/-- The subcore's scoped semaphores at zero are the task's twenty-one at zero and the rest at zero. -/
theorem ownSems0_V :
    (ownSems0 (V d (cV L) (jV L)) : sProp 𝕄)
      = iprop(semVal (V d (cV L) (jV L), SemLoc.dma cc1_scoped0.sem) 0
          ∗ semVal (V d (cV L) (jV L), SemLoc.dma cc1_scratch2.sem) 0
          ∗ semVal (V d (cV L) (jV L), SemLoc.dma cc1_scratch3.sem) 0
          ∗ semVal (V d (cV L) (jV L), SemLoc.dma cc1_scratch4.sem) 0
          ∗ semVal (V d (cV L) (jV L), SemLoc.dma cc1_scratch5.sem) 0
          ∗ semVal (V d (cV L) (jV L), SemLoc.dma cc1_scratch6.sem) 0
          ∗ semVal (V d (cV L) (jV L), SemLoc.dma cc1_scratch7.sem) 0
          ∗ semVal (V d (cV L) (jV L), SemLoc.dma cc1_scratch8.sem) 0
          ∗ semVal (V d (cV L) (jV L), SemLoc.dma cc1_scratch9.sem) 0
          ∗ semVal (V d (cV L) (jV L), SemLoc.dma cc1_scratch10.sem) 0
          ∗ semVal (V d (cV L) (jV L), SemLoc.dma cc1_scratch11.sem) 0
          ∗ semVal (V d (cV L) (jV L), SemLoc.dma cc1_scratch12.sem) 0
          ∗ semVal (V d (cV L) (jV L), SemLoc.dma cc1_scratch13.sem) 0
          ∗ semVal (V d (cV L) (jV L), SemLoc.dma cc1_scratch14.sem) 0
          ∗ semVal (V d (cV L) (jV L), SemLoc.dma cc1_scratch15.sem) 0
          ∗ semVal (V d (cV L) (jV L), SemLoc.dma cc1_scratch16.sem) 0
          ∗ semVal (V d (cV L) (jV L), SemLoc.dma cc1_scratch17.sem) 0
          ∗ semVal (V d (cV L) (jV L), SemLoc.dma cc1_scratch18.sem) 0
          ∗ semVal (V d (cV L) (jV L), SemLoc.dma cc1_scratch19.sem) 0
          ∗ semVal (V d (cV L) (jV L), SemLoc.dma cc1_scratch20.sem) 0
          ∗ semVal (V d (cV L) (jV L), SemLoc.dma cc1_scratch21.sem) 0
          ∗ bigSep (restCells d L) fun g => semVal g 0) := by
  unfold SparseCore.Cfg.ownSems0
  rw [bigSep_take_list (cellL d L) _ (cellL_nodup d L) (cellL_sub d L)]
  unfold restCells
  simp only [cellL, semL, List.map_cons, List.map_nil, List.foldr_cons, List.foldr_nil]

/-! ## The subcore's scoped buffers -/

/-- The subcore's other scoped buffers. -/
def restRefs : Finset (DevRef τ sig) :=
  ((ownRefs (τ := τ) (.scVector (cV L) (jV L))).erase ((Proc.scVector (cV L) (jV L)).devRef cc1_scratch0)).erase
    ((Proc.scVector (cV L) (jV L)).devRef cc1_scratch1)

/-- The ids' scratch and the ring are among the subcore's own buffers: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The arrays in pieces, by runs of natural numbers -/

/-- The ids' scratch is its hundred rows. -/
theorem xPts_rowsN (f : Buf (Elt F) ((V d (cV L) (jV L)).loc cc1_scratch0)) :
    ((V d (cV L) (jV L)).loc cc1_scratch0 ↦{fullShare} f : sProp 𝕄)
      = bigSep (Finset.range 100) (fun j => (V d (cV L) (jV L)).loc cc1_scratch0 ↦[rowSet j]{fullShare} f) := by
  rw [xPts_rows d (cV L) (jV L) f]
  exact bigSep_fin_range 100 (fun j => ((V d (cV L) (jV L)).loc cc1_scratch0 ↦[rowSet j]{fullShare} f : sProp 𝕄))

/-- A worker's block of the result is its hundred chunks. -/
theorem oRow_chunksN (w : Fin 32) (f : Buf (Elt F) (oLoc d)) :
    (oLoc d ↦[oRowSet w]{fullShare} f : sProp 𝕄) = bigSep (Finset.range 100) (fun j => oLoc d ↦[chunkSet w.val j]{fullShare} f) := by
  rw [oRow_chunks d w f]
  exact bigSep_fin_range 100 (fun j => (oLoc d ↦[chunkSet w.val j]{fullShare} f : sProp 𝕄))

/-- The ring is its ten slots. -/
theorem bPts_slots10 (f : Buf (Elt F) ((V d (cV L) (jV L)).loc cc1_scratch1)) :
    ((V d (cV L) (jV L)).loc cc1_scratch1 ↦{fullShare} f : sProp 𝕄)
      = iprop(((V d (cV L) (jV L)).loc cc1_scratch1 ↦[slotSet 0]{fullShare} f)
          ∗ ((V d (cV L) (jV L)).loc cc1_scratch1 ↦[slotSet 1]{fullShare} f)
          ∗ ((V d (cV L) (jV L)).loc cc1_scratch1 ↦[slotSet 2]{fullShare} f)
          ∗ ((V d (cV L) (jV L)).loc cc1_scratch1 ↦[slotSet 3]{fullShare} f)
          ∗ ((V d (cV L) (jV L)).loc cc1_scratch1 ↦[slotSet 4]{fullShare} f)
          ∗ ((V d (cV L) (jV L)).loc cc1_scratch1 ↦[slotSet 5]{fullShare} f)
          ∗ ((V d (cV L) (jV L)).loc cc1_scratch1 ↦[slotSet 6]{fullShare} f)
          ∗ ((V d (cV L) (jV L)).loc cc1_scratch1 ↦[slotSet 7]{fullShare} f)
          ∗ ((V d (cV L) (jV L)).loc cc1_scratch1 ↦[slotSet 8]{fullShare} f)
          ∗ ((V d (cV L) (jV L)).loc cc1_scratch1 ↦[slotSet 9]{fullShare} f)) := by
  rw [bPts_slots d (cV L) (jV L) f,
    bigSep_univ_eq_bigSepL [(0 : Fin 10), 1, 2, 3, 4, 5, 6, 7, 8, 9] (by decide) (by decide)]
  rfl

/-- The worker's read token of the table is a remainder, six tokens as a run and ten more one by one. -/
theorem tok_split (w : Fin 32) (f : Buf (Elt F) (tLoc d)) :
    (tLoc d ↦{tq w} f : sProp 𝕄) ⊣⊢ iprop((tLoc d ↦{shareDrop (tq w) 16} f)
      ∗ bigSep (Finset.range 6) (fun i => tLoc d ↦{shareTokN (tq w) i} f)
      ∗ (tLoc d ↦{shareTokN (tq w) 6} f) ∗ (tLoc d ↦{shareTokN (tq w) 7} f) ∗ (tLoc d ↦{shareTokN (tq w) 8} f) ∗ (tLoc d ↦{shareTokN (tq w) 9} f) ∗ (tLoc d ↦{shareTokN (tq w) 10} f) ∗ (tLoc d ↦{shareTokN (tq w) 11} f) ∗ (tLoc d ↦{shareTokN (tq w) 12} f) ∗ (tLoc d ↦{shareTokN (tq w) 13} f) ∗ (tLoc d ↦{shareTokN (tq w) 14} f) ∗ (tLoc d ↦{shareTokN (tq w) 15} f)) := by
  have h := Transfers.pointsTo_toks_range (ℓ := tLoc d) (S := Finset.univ) (f := f) (nD := nD) (τ := τ) (sig := sig) (Ix := HIx 1) (Val := Elt F) (Name := ℕ) (U := U) (Lvl := ℕ) (tq w) 16
  rw [bigSep_range_put10 (fun i => (tLoc d ↦{shareTokN (tq w) i} f : sProp 𝕄)) 6] at h
  constructor
  · refine h.1.trans ?_
    iintro ⟨H0, H15, H14, H13, H12, H11, H10, H9, H8, H7, H6, Hr⟩
    isplitl [H0]; · iexact H0
    isplitl [Hr]; · iexact Hr
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · refine BIBase.Entails.trans ?_ h.2
    iintro ⟨H0, Hr, H6, H7, H8, H9, H10, H11, H12, H13, H14, H15⟩
    isplitl [H0]; · iexact H0
    isplitl [H15]; · iexact H15
    isplitl [H14]; · iexact H14
    isplitl [H13]; · iexact H13
    isplitl [H12]; · iexact H12
    isplitl [H11]; · iexact H11
    isplitl [H10]; · iexact H10
    isplitl [H9]; · iexact H9
    isplitl [H8]; · iexact H8
    isplitl [H7]; · iexact H7
    isplitl [H6]; · iexact H6
    iexact Hr

/-! ## The ring back from its slots -/

/-- The ten slots, each at contents of its own, are the ring whole at some contents: those that are slot `b`'s on slot `b`. -/
theorem slots_join (f0 f1 f2 f3 f4 f5 f6 f7 f8 f9 : Buf (Elt F) ((V d (cV L) (jV L)).loc cc1_scratch1)) :
    iprop(((V d (cV L) (jV L)).loc cc1_scratch1 ↦[slotSet 0]{fullShare} f0)
        ∗ ((V d (cV L) (jV L)).loc cc1_scratch1 ↦[slotSet 1]{fullShare} f1)
        ∗ ((V d (cV L) (jV L)).loc cc1_scratch1 ↦[slotSet 2]{fullShare} f2)
        ∗ ((V d (cV L) (jV L)).loc cc1_scratch1 ↦[slotSet 3]{fullShare} f3)
        ∗ ((V d (cV L) (jV L)).loc cc1_scratch1 ↦[slotSet 4]{fullShare} f4)
        ∗ ((V d (cV L) (jV L)).loc cc1_scratch1 ↦[slotSet 5]{fullShare} f5)
        ∗ ((V d (cV L) (jV L)).loc cc1_scratch1 ↦[slotSet 6]{fullShare} f6)
        ∗ ((V d (cV L) (jV L)).loc cc1_scratch1 ↦[slotSet 7]{fullShare} f7)
        ∗ ((V d (cV L) (jV L)).loc cc1_scratch1 ↦[slotSet 8]{fullShare} f8)
        ∗ ((V d (cV L) (jV L)).loc cc1_scratch1 ↦[slotSet 9]{fullShare} f9))
      ⊢ (∃ f, (V d (cV L) (jV L)).loc cc1_scratch1 ↦{fullShare} f : sProp 𝕄) := by
  let f : Buf (Elt F) ((V d (cV L) (jV L)).loc cc1_scratch1) := fun (y : S10x64x128.Idx) =>
    match (y 0).val with
    | 0 => f0 y
    | 1 => f1 y
    | 2 => f2 y
    | 3 => f3 y
    | 4 => f4 y
    | 5 => f5 y
    | 6 => f6 y
    | 7 => f7 y
    | 8 => f8 y
    | _ => f9 y
  have hmem : ∀ (b : ℕ) (y : S10x64x128.Idx), y ∈ slotSet b → (y 0).val = b := fun b y hy => (Finset.mem_filter.mp hy).2
  have h0 : ((V d (cV L) (jV L)).loc cc1_scratch1 ↦[slotSet 0]{fullShare} f0 : sProp 𝕄) = (V d (cV L) (jV L)).loc cc1_scratch1 ↦[slotSet 0]{fullShare} f :=
    pointsTo_congr fun y hy => by
      have e := hmem 0 y hy
      show f0 y = (match (y 0).val with | 0 => f0 y | 1 => f1 y | 2 => f2 y | 3 => f3 y | 4 => f4 y | 5 => f5 y | 6 => f6 y | 7 => f7 y | 8 => f8 y | _ => f9 y)
      rw [e]; rfl
  have h1 : ((V d (cV L) (jV L)).loc cc1_scratch1 ↦[slotSet 1]{fullShare} f1 : sProp 𝕄) = (V d (cV L) (jV L)).loc cc1_scratch1 ↦[slotSet 1]{fullShare} f :=
    pointsTo_congr fun y hy => by
      have e := hmem 1 y hy
      show f1 y = (match (y 0).val with | 0 => f0 y | 1 => f1 y | 2 => f2 y | 3 => f3 y | 4 => f4 y | 5 => f5 y | 6 => f6 y | 7 => f7 y | 8 => f8 y | _ => f9 y)
      rw [e]; rfl
  have h2 : ((V d (cV L) (jV L)).loc cc1_scratch1 ↦[slotSet 2]{fullShare} f2 : sProp 𝕄) = (V d (cV L) (jV L)).loc cc1_scratch1 ↦[slotSet 2]{fullShare} f :=
    pointsTo_congr fun y hy => by
      have e := hmem 2 y hy
      show f2 y = (match (y 0).val with | 0 => f0 y | 1 => f1 y | 2 => f2 y | 3 => f3 y | 4 => f4 y | 5 => f5 y | 6 => f6 y | 7 => f7 y | 8 => f8 y | _ => f9 y)
      rw [e]; rfl
  have h3 : ((V d (cV L) (jV L)).loc cc1_scratch1 ↦[slotSet 3]{fullShare} f3 : sProp 𝕄) = (V d (cV L) (jV L)).loc cc1_scratch1 ↦[slotSet 3]{fullShare} f :=
    pointsTo_congr fun y hy => by
      have e := hmem 3 y hy
      show f3 y = (match (y 0).val with | 0 => f0 y | 1 => f1 y | 2 => f2 y | 3 => f3 y | 4 => f4 y | 5 => f5 y | 6 => f6 y | 7 => f7 y | 8 => f8 y | _ => f9 y)
      rw [e]; rfl
  have h4 : ((V d (cV L) (jV L)).loc cc1_scratch1 ↦[slotSet 4]{fullShare} f4 : sProp 𝕄) = (V d (cV L) (jV L)).loc cc1_scratch1 ↦[slotSet 4]{fullShare} f :=
    pointsTo_congr fun y hy => by
      have e := hmem 4 y hy
      show f4 y = (match (y 0).val with | 0 => f0 y | 1 => f1 y | 2 => f2 y | 3 => f3 y | 4 => f4 y | 5 => f5 y | 6 => f6 y | 7 => f7 y | 8 => f8 y | _ => f9 y)
      rw [e]; rfl
  have h5 : ((V d (cV L) (jV L)).loc cc1_scratch1 ↦[slotSet 5]{fullShare} f5 : sProp 𝕄) = (V d (cV L) (jV L)).loc cc1_scratch1 ↦[slotSet 5]{fullShare} f :=
    pointsTo_congr fun y hy => by
      have e := hmem 5 y hy
      show f5 y = (match (y 0).val with | 0 => f0 y | 1 => f1 y | 2 => f2 y | 3 => f3 y | 4 => f4 y | 5 => f5 y | 6 => f6 y | 7 => f7 y | 8 => f8 y | _ => f9 y)
      rw [e]; rfl
  have h6 : ((V d (cV L) (jV L)).loc cc1_scratch1 ↦[slotSet 6]{fullShare} f6 : sProp 𝕄) = (V d (cV L) (jV L)).loc cc1_scratch1 ↦[slotSet 6]{fullShare} f :=
    pointsTo_congr fun y hy => by
      have e := hmem 6 y hy
      show f6 y = (match (y 0).val with | 0 => f0 y | 1 => f1 y | 2 => f2 y | 3 => f3 y | 4 => f4 y | 5 => f5 y | 6 => f6 y | 7 => f7 y | 8 => f8 y | _ => f9 y)
      rw [e]; rfl
  have h7 : ((V d (cV L) (jV L)).loc cc1_scratch1 ↦[slotSet 7]{fullShare} f7 : sProp 𝕄) = (V d (cV L) (jV L)).loc cc1_scratch1 ↦[slotSet 7]{fullShare} f :=
    pointsTo_congr fun y hy => by
      have e := hmem 7 y hy
      show f7 y = (match (y 0).val with | 0 => f0 y | 1 => f1 y | 2 => f2 y | 3 => f3 y | 4 => f4 y | 5 => f5 y | 6 => f6 y | 7 => f7 y | 8 => f8 y | _ => f9 y)
      rw [e]; rfl
  have h8 : ((V d (cV L) (jV L)).loc cc1_scratch1 ↦[slotSet 8]{fullShare} f8 : sProp 𝕄) = (V d (cV L) (jV L)).loc cc1_scratch1 ↦[slotSet 8]{fullShare} f :=
    pointsTo_congr fun y hy => by
      have e := hmem 8 y hy
      show f8 y = (match (y 0).val with | 0 => f0 y | 1 => f1 y | 2 => f2 y | 3 => f3 y | 4 => f4 y | 5 => f5 y | 6 => f6 y | 7 => f7 y | 8 => f8 y | _ => f9 y)
      rw [e]; rfl
  have h9 : ((V d (cV L) (jV L)).loc cc1_scratch1 ↦[slotSet 9]{fullShare} f9 : sProp 𝕄) = (V d (cV L) (jV L)).loc cc1_scratch1 ↦[slotSet 9]{fullShare} f :=
    pointsTo_congr fun y hy => by
      have e := hmem 9 y hy
      show f9 y = (match (y 0).val with | 0 => f0 y | 1 => f1 y | 2 => f2 y | 3 => f3 y | 4 => f4 y | 5 => f5 y | 6 => f6 y | 7 => f7 y | 8 => f8 y | _ => f9 y)
      rw [e]; rfl
  rw [h0, h1, h2, h3, h4, h5, h6, h7, h8, h9]
  iintro H
  iexists f
  rw [bPts_slots10]
  iexact H

/-! ## The worker's row of the ids, as the program slices it -/

/-- A worker's row of the ids is the entries whose first coordinate is the worker. -/
theorem mem_iRowSet (w : Fin 32) (x : S32x100x64.Idx) : x ∈ iRowSet w ↔ (x 0).val = w.val := by
  rw [Cert.Proof.KB.Split.iRowSet_eq]
  unfold irow Rect.part Rect.block
  rw [Rect.mem_set_unit]
  have h1 : (x 1 : ℕ) < 100 := (x 1).isLt
  have h2 : (x 2 : ℕ) < 64 := (x 2).isLt
  constructor
  · intro hx
    have h0 := hx (0 : Fin 3)
    simp [Shape.partIx, Shape.partSize] at h0
    omega
  · intro e a
    match a with
    | (0 : Fin 3) => simp [Shape.partIx, Shape.partSize]; omega
    | (1 : Fin 3) => simp [Shape.partIx, Shape.partSize]; omega
    | (2 : Fin 3) => simp [Shape.partIx, Shape.partSize]; omega

/-- The row of the ids the program slices for the task is the worker's. -/
theorem set_iRowK (L : grid1.Coords) : (iRowK L).view.set = iRowSet (widL L) := by
  show (((View.whole (main_v2_scv : Ref sig .scVector)).slice (Rect.unit (s := S32x100x64) (k1_off1 L) S1x100x64.size (k1_off1_inb L))).reshape S100x64 squeezes_S1x100x64_S100x64.numel_eq).set = _
  rw [View.set_reshape, View.set_slice_whole]
  ext x
  rw [mem_iRowSet, Rect.mem_set_unit, widL_val]
  have h0 : k1_off1 L 0 = 2 * (L 1).val + (L 0).val := by rw [k1_off1_eq L]; rfl
  have h1 : k1_off1 L 1 = 0 := by rw [k1_off1_eq L]; rfl
  have h2 : k1_off1 L 2 = 0 := by rw [k1_off1_eq L]; rfl
  have hx1 : (x 1 : ℕ) < 100 := (x 1).isLt
  have hx2 : (x 2 : ℕ) < 64 := (x 2).isLt
  constructor
  · intro hx
    have h := hx (0 : Fin 3)
    have a' : k1_off1 L 0 ≤ (x 0 : ℕ) := h.1
    have b' : (x 0 : ℕ) < k1_off1 L 0 + 1 := h.2
    omega
  · intro e a
    match a with
    | (0 : Fin 3) => exact ⟨show k1_off1 L 0 ≤ (x 0 : ℕ) by omega, show (x 0 : ℕ) < k1_off1 L 0 + 1 by omega⟩
    | (1 : Fin 3) => exact ⟨show k1_off1 L 1 ≤ (x 1 : ℕ) by omega, show (x 1 : ℕ) < k1_off1 L 1 + 100 by omega⟩
    | (2 : Fin 3) => exact ⟨show k1_off1 L 2 ≤ (x 2 : ℕ) by omega, show (x 2 : ℕ) < k1_off1 L 2 + 64 by omega⟩

/-- The same of the points-to. -/
theorem pts_iRowK (f : Buf (Elt F) (iLoc d)) :
    ((iRowK L).view.loc (V d (cV L) (jV L)) ↦[(iRowK L).view.set]{fullShare} f : sProp 𝕄) = iLoc d ↦[iRowSet (widL L)]{fullShare} f := by
  rw [set_iRowK]

end Cert.Proof.KB.Tile

end
-- ==== Proof.KB.TileEmb.lean ====
/-
  Which entry of the whole array an entry of a piece is: the program forms each piece as a unit rectangle of the whole array at
  an offset, with the leading unit axes dropped; entry (l, p) of chunk j of worker w's block of the result is entry (w, j, l, p)
  of the result, and likewise for a worker's row of the ids, a row of the ids' scratch and a slot of the ring.
-/
import proofs.«207285_g25512105738892_cont_9to1_353_29_alg».proof.Proof.KB.TileViews

noncomputable section

namespace Cert.Proof.KB.Tile

open Cert.Kernel Cert.Kernel.Gen Cert.Proof.KB.Res
open Idealize.ShloMosaic Idealize.ShloMosaic.ValueIdx

theorem chunkM_emb (off : Fin 4 → Nat) (h : ∀ a, off a + S1x1x64x128.size a ≤ S32x100x64x128.size a) (w : Fin 32) (j : Fin 100)
    (hoff : off = ![w.val, j.val, 0, 0]) (l : Fin 64) (p : Fin 128) : (chunkM off h).view.emb (ix2 l p) = ix4 w j l p := by
  subst hoff
  show (Rect.unit (s := S32x100x64x128) ![w.val, j.val, 0, 0] S1x1x64x128.size h).emb (Shape.reshapeEquiv squeezes_S1x1x64x128_S64x128.numel_eq (ix2 l p)) = _
  have e : Shape.reshapeEquiv squeezes_S1x1x64x128_S64x128.numel_eq (ix2 l p) = (ix4 (0 : Fin 1) (0 : Fin 1) l p : S1x1x64x128.Idx) :=
    Shape.reshapeEquiv_eq_of_rowMajor _ (by
      rw [Shape.rowMajor_val_four, Shape.rowMajor_val_two]
      show ((0 * 1 + 0) * 64 + l.val) * 128 + p.val = l.val * 128 + p.val
      omega)
  rw [e]
  funext a
  refine Fin.ext ?_
  rw [Rect.emb_apply]
  match a with
  | (0 : Fin 4) => show w.val + 1 * 0 = w.val; omega
  | (1 : Fin 4) => show j.val + 1 * 0 = j.val; omega
  | (2 : Fin 4) => show 0 + 1 * l.val = l.val; omega
  | (3 : Fin 4) => show 0 + 1 * p.val = p.val; omega

theorem slotM_emb (off : Fin 3 → Nat) (h : ∀ a, off a + S1x64x128.size a ≤ S10x64x128.size a) (b : Fin 10)
    (hoff : off = ![b.val, 0, 0]) (l : Fin 64) (p : Fin 128) : (slotM off h).view.emb (ix2 l p) = ix3 b l p := by
  subst hoff
  show (Rect.unit (s := S10x64x128) ![b.val, 0, 0] S1x64x128.size h).emb (Shape.reshapeEquiv squeezes_S1x64x128_S64x128.numel_eq (ix2 l p)) = _
  have e : Shape.reshapeEquiv squeezes_S1x64x128_S64x128.numel_eq (ix2 l p) = (ix3 (0 : Fin 1) l p : S1x64x128.Idx) :=
    Shape.reshapeEquiv_eq_of_rowMajor _ (by
      rw [Shape.rowMajor_val_three, Shape.rowMajor_val_two]
      show (0 * 64 + l.val) * 128 + p.val = l.val * 128 + p.val
      omega)
  rw [e]
  funext a
  refine Fin.ext ?_
  rw [Rect.emb_apply]
  match a with
  | (0 : Fin 3) => show b.val + 1 * 0 = b.val; omega
  | (1 : Fin 3) => show 0 + 1 * l.val = l.val; omega
  | (2 : Fin 3) => show 0 + 1 * p.val = p.val; omega

theorem rowM_emb (off : Fin 2 → Nat) (h : ∀ a, off a + S1x64.size a ≤ S100x64.size a) (j : Fin 100)
    (hoff : off = ![j.val, 0]) (l : Fin 64) : (rowM off h).view.emb (ix1 l) = ix2 j l := by
  subst hoff
  show (Rect.unit (s := S100x64) ![j.val, 0] S1x64.size h).emb (Shape.reshapeEquiv squeezes_S1x64_S64.numel_eq (ix1 l)) = _
  have e : Shape.reshapeEquiv squeezes_S1x64_S64.numel_eq (ix1 l) = (ix2 (0 : Fin 1) l : S1x64.Idx) :=
    Shape.reshapeEquiv_eq_of_rowMajor _ (by
      rw [Shape.rowMajor_val_two, Shape.rowMajor_val_one]
      show 0 * 64 + l.val = l.val
      omega)
  rw [e]
  funext a
  refine Fin.ext ?_
  rw [Rect.emb_apply]
  match a with
  | (0 : Fin 2) => show j.val + 1 * 0 = j.val; omega
  | (1 : Fin 2) => show 0 + 1 * l.val = l.val; omega

theorem iRowK_emb (L : grid1.Coords) (j : Fin 100) (l : Fin 64) : (iRowK L).view.emb (ix2 j l) = ix3 (widL L) j l := by
  show (Rect.unit (s := S32x100x64) (k1_off1 L) S1x100x64.size (k1_off1_inb L)).emb (Shape.reshapeEquiv squeezes_S1x100x64_S100x64.numel_eq (ix2 j l)) = _
  have e : Shape.reshapeEquiv squeezes_S1x100x64_S100x64.numel_eq (ix2 j l) = (ix3 (0 : Fin 1) j l : S1x100x64.Idx) :=
    Shape.reshapeEquiv_eq_of_rowMajor _ (by
      rw [Shape.rowMajor_val_three, Shape.rowMajor_val_two]
      show (0 * 100 + j.val) * 64 + l.val = j.val * 64 + l.val
      omega)
  rw [e]
  funext a
  refine Fin.ext ?_
  rw [Rect.emb_apply]
  have h0 : k1_off1 L 0 = 2 * (L 1).val + (L 0).val := by rw [k1_off1_eq L]; rfl
  have h1 : k1_off1 L 1 = 0 := by rw [k1_off1_eq L]; rfl
  have h2 : k1_off1 L 2 = 0 := by rw [k1_off1_eq L]; rfl
  match a with
  | (0 : Fin 3) => show k1_off1 L 0 + 1 * 0 = 2 * (L 1).val + (L 0).val; omega
  | (1 : Fin 3) => show k1_off1 L 1 + 1 * j.val = j.val; omega
  | (2 : Fin 3) => show k1_off1 L 2 + 1 * l.val = l.val; omega

end Cert.Proof.KB.Tile

end
-- ==== Proof.KB.TileValue.lean ====
/-
  What an indirect row gather delivers, read at an entry: the destination's entry (l, p) is the source's entry (r l, p), r l the
  row the l-th word of the offset list names; and the l-th word of a list that is row j of the ids' scratch is the scratch's
  entry (j, l).
-/
import proofs.«207285_g25512105738892_cont_9to1_353_29_alg».proof.Proof.KB.TileEmb
import Idealize.ShloMosaic.Lib.SparseCore.Stream

noncomputable section

namespace Cert.Proof.KB.Tile

open Cert.Kernel Cert.Kernel.Gen Cert.Proof.KB.Res
open Idealize.ShloMosaic Idealize.ShloMosaic.ValueIdx

variable {F : FTy → Type}

/-- The source index of the destination's entry (l, p): the named row, the same column. -/
theorem gathers_idx (r : Fin (S64x128.size gathers_S100000x128_S64x128.axis') → Fin (S100000x128.size gathers_S100000x128_S64x128.axis))
    (l : Fin 64) (p : Fin 128) :
    gathers_S100000x128_S64x128.idx r (ix2 l p) = (ix2 (r l) p : S100000x128.Idx) := by
  funext b
  match b with
  | (0 : Fin 2) =>
    have := Shape.Gathers.idx_axis gathers_S100000x128_S64x128 r (ix2 l p)
    exact this
  | (1 : Fin 2) =>
    refine Fin.ext ?_
    exact Shape.Gathers.idx_of_ne gathers_S100000x128_S64x128 r (ix2 l p) (1 : Fin 2) (by decide)

theorem gatherPayload_apply (g : S100000x128.Idx → Elt F .f32)
    (r : Fin (S64x128.size gathers_S100000x128_S64x128.axis') → Fin (S100000x128.size gathers_S100000x128_S64x128.axis)) (l : Fin 64) (p : Fin 128) :
    SparseCore.gatherPayload (F := F) gathers_S100000x128_S64x128 g r (ix2 l p) = g (ix2 (r l) p) := by
  unfold SparseCore.gatherPayload
  rw [gathers_idx]

/-- The l-th row an offset list of 64 words names is the l-th word, read as a natural number. -/
theorem rows_val (idx : S64.Idx → Elt F .i32) (hn : S64.numel = S64x128.size gathers_S100000x128_S64x128.axis')
    (h : ∀ x, (idx x).toNat < S100000x128.size gathers_S100000x128_S64x128.axis) (l : Fin 64) :
    (SparseCore.rows (F := F) idx hn h l).val = (idx (ix1 l)).toNat := by
  unfold SparseCore.rows
  show (idx (S64.rowMajor.symm (Fin.cast hn.symm l))).toNat = _
  congr 2
  apply S64.rowMajor.injective
  rw [Equiv.apply_symm_apply]
  refine Fin.ext ?_
  rw [Shape.rowMajor_val_one]
  rfl

end Cert.Proof.KB.Tile

end
-- ==== Proof.KB.TileVals.lean ====
/-
  What the three kinds of transfer of a worker's task leave, as the one whole-array function each piece is held at.
  The worker's row of the ids copied into the ids' scratch: entry (j, l) of the scratch is the id at (w, j, l). Chunk j gathered
  into a slot: the slot's entry (l, p) is the table's entry (r, p), r the row the l-th word of row j of the scratch names — below
  100000, so it is that id's row — : the same for every slot. A slot holding chunk j copied out to chunk (w, j) of the result: the
  result's entry (w, j, l, p) is the slot's entry (l, p), which is what the result array is to hold there.
-/
import proofs.«207285_g25512105738892_cont_9to1_353_29_alg».proof.Proof.KB.TileInv
import proofs.«207285_g25512105738892_cont_9to1_353_29_alg».proof.Proof.KB.TileValue
import Idealize.ShloMosaic.Lib.Writes
import Idealize.ShloMosaic.Lib.Pipeline.Value

noncomputable section

namespace Cert.Proof.KB.Tile

open Cert.Kernel Cert.Kernel.Gen
open Cert.Proof.KB.Res
open Idealize.ShloMosaic Idealize.ShloMosaic.ValueIdx
open Idealize.ShloMosaic.SparseCore (S V T)
open Idealize.SL Idealize.SL.RA Idealize.SL.BI

variable {F : FTy → Type} [FloatOps F]
variable (Pc : (d : Dev nD) → Buf (Elt F) (tLoc d)) (Ic : (d : Dev nD) → Buf (Elt F) (iLoc d))
variable (d : Dev nD) (L : grid1.Coords)

omit [FloatOps F] in
/-- Reading through a view is reading the buffer at the view's placement. -/
theorem read_at {sg : RefSig} {κ : Kind} {sp : Space} {s : Shape} {e : EltTy} (v : View sg κ sp s e) (hE : v.ty.elt = e := by rfl)
    (f : v.ty.Contents (Elt F)) (x : s.Idx) : HEq (v.read (Elt F) f x) (f (v.emb x)) := by
  rw [View.read_apply]; exact cast_heq _ _

omit [FloatOps F] in
/-- The table named whole is the table. -/
theorem tAll_emb (z : S100000x128.Idx) : (tAll).view.emb z = z := by
  show (Rect.unit (s := S100000x128) ![0, 0] S100000x128.size inb_S100000x128_S100000x128_0_0).emb z = z
  funext a
  refine Fin.ext ?_
  rw [Rect.emb_apply]
  match a with
  | (0 : Fin 2) => show 0 + 1 * (z 0).val = (z 0).val; omega
  | (1 : Fin 2) => show 0 + 1 * (z 1).val = (z 1).val; omega

omit [FloatOps F] in
/-- An entry of a slot, whichever slot: its row and column within the slot. -/
theorem slotM_emb12 (offS : Fin 3 → Nat) (hS : ∀ a, offS a + S1x64x128.size a ≤ S10x64x128.size a) (l : Fin 64) (p : Fin 128) :
    (((slotM offS hS).view.emb (ix2 l p)) 1).val = l.val ∧ (((slotM offS hS).view.emb (ix2 l p)) 2).val = p.val := by
  have e : Shape.reshapeEquiv squeezes_S1x64x128_S64x128.numel_eq (ix2 l p) = (ix3 (0 : Fin 1) l p : S1x64x128.Idx) :=
    Shape.reshapeEquiv_eq_of_rowMajor _ (by
      rw [Shape.rowMajor_val_three, Shape.rowMajor_val_two]
      show (0 * 64 + l.val) * 128 + p.val = l.val * 128 + p.val
      omega)
  have h1 := hS 1
  have h2 := hS 2
  have h1' : offS 1 + 64 ≤ 64 := h1
  have h2' : offS 2 + 128 ≤ 128 := h2
  constructor
  · show ((Rect.unit (s := S10x64x128) offS S1x64x128.size hS).emb (Shape.reshapeEquiv squeezes_S1x64x128_S64x128.numel_eq (ix2 l p)) 1).val = _
    rw [e, Rect.emb_apply]
    show offS 1 + 1 * l.val = l.val
    omega
  · show ((Rect.unit (s := S10x64x128) offS S1x64x128.size hS).emb (Shape.reshapeEquiv squeezes_S1x64x128_S64x128.numel_eq (ix2 l p)) 2).val = _
    rw [e, Rect.emb_apply]
    show offS 2 + 1 * p.val = p.val
    omega

/-- The ids' scratch after the worker's row of the ids was copied into it whole. -/
theorem idx_val (fI : Buf (Elt F) ((V d (cV L) (jV L)).loc cc1_scratch0)) :
    View.write (Elt F) (xV).view fI (ReadAs.same.apply ((iRowK L).view.read (Elt F) (Ic d))) Finset.univ = idxC Ic d L := by
  rw [ReadAs.apply_same]
  show (View.whole (cc1_scratch0 : Ref sig .scVector)).write (Elt F) fI _ Finset.univ = _
  rw [View.write_whole_univ]
  funext x
  have hr : (iRowK L).view.read (Elt F) (Ic d) x = Ic d ((iRowK L).view.emb x) := (View.read_apply _ _).trans (cast_eq _ _)
  have he : (iRowK L).view.emb x = ix3 (widL L) (x 0) (x 1) :=
    (congrArg (iRowK L).view.emb (eq_ix2 x)).trans (iRowK_emb L (x 0) (x 1))
  rw [hr, he]
  rfl

/-- A slot after the gather of chunk j by row j of the ids' scratch. -/
theorem slot_val (offS : Fin 3 → Nat) (hS : ∀ a, offS a + S1x64x128.size a ≤ S10x64x128.size a)
    (offR : Fin 2 → Nat) (hR : ∀ a, offR a + S1x64.size a ≤ S100x64.size a) (j : ℕ) (hj : j < 100) (hoffR : offR = ![j, 0])
    (fprev : Buf (Elt F) ((V d (cV L) (jV L)).loc cc1_scratch1))
    (hn : S64.numel = S64x128.size (gathers_S100000x128_S64x128).axis')
    (hin' : ∀ x, ((rowM offR hR).view.read (Elt F) (idxC Ic d L) x).toNat < S100000x128.size (gathers_S100000x128_S64x128).axis) :
    ∀ y ∈ (slotM offS hS).view.set,
      (slotM offS hS).view.writes (Elt F) fprev
        [⟨Rect.whole S64x128, SparseCore.gatherPayload gathers_S100000x128_S64x128 ((tAll).view.read (Elt F) (Pc d))
            (SparseCore.rows ((rowM offR hR).view.read (Elt F) (idxC Ic d L)) hn hin')⟩] y = slotC Pc Ic d L j y := by
  intro y hy
  obtain ⟨y', -, rfl⟩ := Finset.mem_map.mp hy
  obtain ⟨l, p, rfl⟩ : ∃ (l : Fin 64) (p : Fin 128), y' = ix2 l p := ⟨y' 0, y' 1, eq_ix2 y'⟩
  -- what the one write left at this entry is the payload there
  have hw := View.read_writes_cons_emb (Val := Elt F) (slotM offS hS).view fprev (Rect.whole S64x128)
    (SparseCore.gatherPayload gathers_S100000x128_S64x128 ((tAll).view.read (Elt F) (Pc d))
      (SparseCore.rows ((rowM offR hR).view.read (Elt F) (idxC Ic d L)) hn hin')) [] (ix2 l p)
  rw [Rect.emb_whole_apply] at hw
  have hrd : ∀ g : Buf (Elt F) ((V d (cV L) (jV L)).loc cc1_scratch1), (slotM offS hS).view.read (Elt F) g (ix2 l p) = g ((slotM offS hS).view.emb (ix2 l p)) :=
    fun g => (View.read_apply _ _).trans (cast_eq _ _)
  rw [hrd] at hw
  rw [hw, gatherPayload_apply]
  -- the payload: the table at the named row
  have ht : (tAll).view.read (Elt F) (Pc d) (ix2 (SparseCore.rows ((rowM offR hR).view.read (Elt F) (idxC Ic d L)) hn hin' l) p)
      = Pc d (ix2 (SparseCore.rows ((rowM offR hR).view.read (Elt F) (idxC Ic d L)) hn hin' l) p) := by
    refine ((View.read_apply _ _).trans (cast_eq _ _)).trans ?_
    rw [tAll_emb]
  refine ht.trans ?_
  -- the named row is the id's
  have hrow : (rowM offR hR).view.read (Elt F) (idxC Ic d L) (ix1 l) = Ic d (ix3 (widL L) (⟨j, hj⟩ : Fin 100) l) := by
    refine ((View.read_apply _ _).trans (cast_eq _ _)).trans ?_
    rw [rowM_emb offR hR (⟨j, hj⟩ : Fin 100) hoffR l]
    rfl
  have hv := rows_val (F := F) ((rowM offR hR).view.read (Elt F) (idxC Ic d L)) hn hin' l
  have hlt := hin' (ix1 l)
  rw [hrow] at hv hlt
  obtain ⟨e1, e2⟩ := slotM_emb12 offS hS l p
  unfold slotC
  have hj' : jF j = (⟨j, hj⟩ : Fin 100) := Fin.ext (Nat.mod_eq_of_lt hj)
  have ea : ((slotM offS hS).view.emb (ix2 l p)) 1 = l := Fin.ext e1
  have eb : ((slotM offS hS).view.emb (ix2 l p)) 2 = p := Fin.ext e2
  rw [hj', ea, eb]
  congr 2
  refine Fin.ext ?_
  exact hv.trans (Cert.Proof.Spec.row_val_of_lt hlt).symm

/-- A chunk of the result after the copy out of a slot holding chunk j gathered. -/
theorem chunk_val (off : Fin 4 → Nat) (h : ∀ a, off a + S1x1x64x128.size a ≤ S32x100x64x128.size a) (j : ℕ) (hj : j < 100)
    (hoff : off = ![(widL L).val, j, 0, 0])
    (offS : Fin 3 → Nat) (hS : ∀ a, offS a + S1x64x128.size a ≤ S10x64x128.size a)
    (fO : Buf (Elt F) (oLoc d)) (fs : Buf (Elt F) ((V d (cV L) (jV L)).loc cc1_scratch1))
    (hfs : ∀ y ∈ (slotM offS hS).view.set, fs y = slotC Pc Ic d L j y) :
    ∀ z ∈ (chunkM off h).view.set,
      (chunkM off h).view.writes (Elt F) fO [⟨Rect.whole S64x128, ReadAs.same.apply ((slotM offS hS).view.read (Elt F) fs)⟩] z
        = outArr (Pc d) (Ic d) z := by
  intro z hz
  obtain ⟨z', -, rfl⟩ := Finset.mem_map.mp hz
  obtain ⟨l, p, rfl⟩ : ∃ (l : Fin 64) (p : Fin 128), z' = ix2 l p := ⟨z' 0, z' 1, eq_ix2 z'⟩
  have hw := View.read_writes_cons_emb (Val := Elt F) (chunkM off h).view fO (Rect.whole S64x128)
    (ReadAs.same.apply ((slotM offS hS).view.read (Elt F) fs)) [] (ix2 l p)
  rw [Rect.emb_whole_apply] at hw
  have hrd : ∀ g : Buf (Elt F) (oLoc d), (chunkM off h).view.read (Elt F) g (ix2 l p) = g ((chunkM off h).view.emb (ix2 l p)) :=
    fun g => (View.read_apply _ _).trans (cast_eq _ _)
  rw [hrd] at hw
  rw [hw, ReadAs.apply_same]
  have hs : (slotM offS hS).view.read (Elt F) fs (ix2 l p) = fs ((slotM offS hS).view.emb (ix2 l p)) := (View.read_apply _ _).trans (cast_eq _ _)
  rw [hs, hfs _ (View.emb_mem_set _ _)]
  obtain ⟨e1, e2⟩ := slotM_emb12 offS hS l p
  have ea : ((slotM offS hS).view.emb (ix2 l p)) 1 = l := Fin.ext e1
  have eb : ((slotM offS hS).view.emb (ix2 l p)) 2 = p := Fin.ext e2
  have hj' : jF j = (⟨j, hj⟩ : Fin 100) := Fin.ext (Nat.mod_eq_of_lt hj)
  rw [chunkM_emb off h (widL L) (⟨j, hj⟩ : Fin 100) hoff l p]
  unfold slotC outArr
  rw [hj', ea, eb]

end Cert.Proof.KB.Tile

end
-- ==== Proof.KB.TileTrip.lean ====
/-
  One trip of the task's counted loop, from the invariant before it to the invariant after it.

  The trip waits for the ten gathers of chunks 10 g .. 10 g + 9 (g the trip's number plus one), copies each slot out to its chunk,
  waits for the copy out of the slot six ahead and gathers the chunk ten after that slot's into it. Stepping through the
  trip's transfers is mechanical; what is written here is how each transfer left in flight, and each piece a wait hands back, is
  the invariant's canonical one: a slot a gather landed in holds slotC, a chunk a copy landed in holds outArr.
-/
import proofs.«207285_g25512105738892_cont_9to1_353_29_alg».proof.Proof.KB.TileInv
import proofs.«207285_g25512105738892_cont_9to1_353_29_alg».proof.Proof.KB.TileVals

noncomputable section

namespace Cert.Proof.KB.Tile

open Cert.Kernel Cert.Kernel.Gen
open Cert.Proof.KB.Res

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]
variable {U : Type} [URA U] [CountersIn U]

local notation "𝕄" => MT nD τ sig (HIx 1) (Elt F) ℕ U ℕ

variable (m : (ℓ : Loc nD τ sig) → Buf (Elt F) ℓ)
variable (Pc : (d : Dev nD) → Buf (Elt F) (tLoc d)) (Ic : (d : Dev nD) → Buf (Elt F) (iLoc d))
variable (d : Dev nD) (L : grid1.Coords)

/-! ## What the run leaves, as the invariant states it -/

/-- The value a gather lands in a slot, the payload under any name. -/
theorem slot_valP (offS : Fin 3 → Nat) (hS : ∀ a, offS a + S1x64x128.size a ≤ S10x64x128.size a)
    (offR : Fin 2 → Nat) (hR : ∀ a, offR a + S1x64.size a ≤ S100x64.size a) (j : ℕ) (hj : j < 100) (hoffR : offR = ![j, 0])
    (fprev : Buf (Elt F) ((V d (cV L) (jV L)).loc cc1_scratch1))
    (hn : S64.numel = S64x128.size (gathers_S100000x128_S64x128).axis')
    (hin' : ∀ x, ((rowM offR hR).view.read (Elt F) (idxC Ic d L) x).toNat < S100000x128.size (gathers_S100000x128_S64x128).axis)
    (pay : S64x128.Idx → Elt F .f32)
    (hpay : pay = SparseCore.gatherPayload gathers_S100000x128_S64x128 ((tAll).view.read (Elt F) (Pc d))
        (SparseCore.rows ((rowM offR hR).view.read (Elt F) (idxC Ic d L)) hn hin'))
    (rest : List (View.Piece (Elt F) S64x128 .f32)) :
    ∀ y ∈ (slotM offS hS).view.set, (slotM offS hS).view.writes (Elt F) fprev (⟨Rect.whole S64x128, pay⟩ :: rest) y = slotC Pc Ic d L j y := by
  subst hpay
  exact slot_val Pc Ic d L offS hS offR hR j hj hoffR ((slotM offS hS).view.writes (Elt F) fprev rest) hn hin'

/-- A gather the run left in flight is the invariant's: the slot will hold the chunk gathered. -/
theorem gFl_of (sem : DmaSem sig) (offS : Fin 3 → Nat) (hS : ∀ a, offS a + S1x64x128.size a ≤ S10x64x128.size a) (q : PosShare TreeShare) (j : ℕ) (hj : j < 100)
    (offR : Fin 2 → Nat) (hR : ∀ a, offR a + S1x64.size a ≤ S100x64.size a) (hoffR : offR = ![j, 0])
    (fprev : Buf (Elt F) ((V d (cV L) (jV L)).loc cc1_scratch1))
    (hn : S64.numel = S64x128.size (gathers_S100000x128_S64x128).axis')
    (hin' : ∀ x, ((rowM offR hR).view.read (Elt F) (idxC Ic d L) x).toNat < S100000x128.size (gathers_S100000x128_S64x128).axis)
    (pay : S64x128.Idx → Elt F .f32)
    (hpay : pay = SparseCore.gatherPayload gathers_S100000x128_S64x128 ((tAll).view.read (Elt F) (Pc d))
        (SparseCore.rows ((rowM offR hR).view.read (Elt F) (idxC Ic d L)) hn hin'))
    (rest : List (View.Piece (Elt F) S64x128 .f32)) :
    (Transfers.Flight countersEmb (V d (cV L) (jV L)) (SemLoc.dma sem) (default : HIx 1) 262144
      iprop((((slotM offS hS).view.loc (V d (cV L) (jV L)) ↦[(slotM offS hS).view.set]{fullShare}
            (slotM offS hS).view.writes (Elt F) fprev (⟨Rect.whole S64x128, pay⟩ :: rest))
          ∗ ((rowM offR hR).view.loc (V d (cV L) (jV L)) ↦[(rowM offR hR).view.set]{fullShare} idxC Ic d L))
        ∗ ((tAll).view.loc (V d (cV L) (jV L)) ↦[(tAll).view.set]{q} Pc d)) : sProp 𝕄)
      ⊢ gFl Pc Ic d L sem offS hS q j := by
  unfold gFl
  refine Transfers.Flight_mono countersEmb _ ?_
  rw [pointsTo_congr (slot_valP Pc Ic d L offS hS offR hR j hj hoffR fprev hn hin' pay hpay rest), ← row_conv d L offR hR j hoffR]

/-- A copy out the run left in flight is the invariant's: the chunk will hold the result. -/
theorem oFl_of (sem : DmaSem sig) (offS : Fin 3 → Nat) (hS : ∀ a, offS a + S1x64x128.size a ≤ S10x64x128.size a) (j : ℕ) (hj : j < 100)
    (off : Fin 4 → Nat) (h : ∀ a, off a + S1x1x64x128.size a ≤ S32x100x64x128.size a) (hoff : off = ![(widL L).val, j, 0, 0])
    (fO : Buf (Elt F) (oLoc d)) (fs : Buf (Elt F) ((V d (cV L) (jV L)).loc cc1_scratch1))
    (hfs : ∀ y ∈ (slotM offS hS).view.set, fs y = slotC Pc Ic d L j y)
    (pay : S64x128.Idx → Elt F .f32) (hpay : pay = ReadAs.same.apply ((slotM offS hS).view.read (Elt F) fs)) :
    (Transfers.Flight countersEmb (V d (cV L) (jV L)) (SemLoc.dma sem) (default : HIx 1) 262144
      iprop(((chunkM off h).view.loc (V d (cV L) (jV L)) ↦[(chunkM off h).view.set]{fullShare}
            (chunkM off h).view.writes (Elt F) fO [⟨Rect.whole S64x128, pay⟩])
        ∗ ((slotM offS hS).view.loc (V d (cV L) (jV L)) ↦[(slotM offS hS).view.set]{fullShare} fs)) : sProp 𝕄)
      ⊢ oFl Pc Ic d L sem offS hS j := by
  subst hpay
  unfold oFl
  refine Transfers.Flight_mono countersEmb _ ?_
  rw [pointsTo_congr (chunk_val Pc Ic d L off h j hj hoff offS hS fO fs hfs),
    pointsTo_congr (ℓ := (slotM offS hS).view.loc (V d (cV L) (jV L))) (I := (slotM offS hS).view.set) (f := fs) (g := slotC Pc Ic d L j) hfs,
    ← chunk_conv d L off h _ j hoff]

/-- A chunk a copy out landed in is written. -/
theorem chunkP1_of (j : ℕ) (hj : j < 100)
    (off : Fin 4 → Nat) (h : ∀ a, off a + S1x1x64x128.size a ≤ S32x100x64x128.size a) (hoff : off = ![(widL L).val, j, 0, 0])
    (offS : Fin 3 → Nat) (hS : ∀ a, offS a + S1x64x128.size a ≤ S10x64x128.size a)
    (fO : Buf (Elt F) (oLoc d)) (fs : Buf (Elt F) ((V d (cV L) (jV L)).loc cc1_scratch1))
    (hfs : ∀ y ∈ (slotM offS hS).view.set, fs y = slotC Pc Ic d L j y)
    (pay : S64x128.Idx → Elt F .f32) (hpay : pay = ReadAs.same.apply ((slotM offS hS).view.read (Elt F) fs)) :
    ((chunkM off h).view.loc (V d (cV L) (jV L)) ↦[(chunkM off h).view.set]{fullShare}
        (chunkM off h).view.writes (Elt F) fO [⟨Rect.whole S64x128, pay⟩] : sProp 𝕄)
      ⊢ chunkP1 Pc Ic d L j := by
  subst hpay
  unfold chunkP1
  rw [pointsTo_congr (chunk_val Pc Ic d L off h j hj hoff offS hS fO fs hfs), ← chunk_conv d L off h _ j hoff]

/-- A row of the ids' scratch a gather hands back. -/
theorem rowP_of (j : ℕ) (offR : Fin 2 → Nat) (hR : ∀ a, offR a + S1x64.size a ≤ S100x64.size a) (hoffR : offR = ![j, 0]) :
    ((rowM offR hR).view.loc (V d (cV L) (jV L)) ↦[(rowM offR hR).view.set]{fullShare} idxC Ic d L : sProp 𝕄) ⊢ rowP Ic d L j := by
  unfold rowP
  rw [← row_conv d L offR hR j hoffR]

omit [FloatOps F] [CountersIn U] in
/-- One more wait at the default index keeps the recorded waits admissible. -/
theorem waits_ok {W W' : Waits sig (HIx 1)} (h : ∀ p ∈ W', p ∈ W ∨ p.2 = none) (sm : SemLoc sig) :
    ∀ p ∈ insert (sm, (default : HIx 1)) W', p ∈ W ∨ p.2 = none :=
  fun p hp => (Finset.mem_insert.mp hp).elim (fun e => .inr (e ▸ rfl)) (h p)

omit [FloatOps F] [CountersIn U] in
/-- The read shares in the order a trip leaves them with the slots: the same ten. -/
theorem TokJoin_rot {q0 q1 q2 q3 q4 q5 q6 q7 q8 q9 : PosShare TreeShare}
    (h : TokJoin (F := F) (U := U) d L q0 q1 q2 q3 q4 q5 q6 q7 q8 q9) : TokJoin (F := F) (U := U) d L q4 q5 q0 q1 q2 q3 q6 q7 q8 q9 := by
  intro f
  refine BIBase.Entails.trans ?_ (h f)
  iintro ⟨H4, H5, H0, H1, H2, H3, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

variable (O : CellTallies nD τ sig (HIx 1)) (W : Waits sig (HIx 1))

set_option maxHeartbeats 16000000 in
/-- One trip of the loop. -/
theorem trip (hIc : ∀ (d : Dev nD) (j : S32x100x64.Idx), (Ic d j).toNat < 100000)
    (k : Fin k1_t1_loop.trips) (acc : Unit) :
    inv (U := U) m Pc Ic d L O W k.val acc
      ⊢ wp frame (wpE (defs₀ (F := F)) 𝒱₀ (V d (cV L) (jV L)) none) Set.univ
          (k1_t1_body L tV (Memref.isWhole_whole _) iV (Memref.isWhole_whole _) oV (Memref.isWhole_whole _)
              xV (Memref.isWhole_whole _) bV (Memref.isWhole_whole _)
              cc1_scratch2 cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scratch19 cc1_scratch20 cc1_scratch21 cc1_scoped0 k acc)
          (inv (U := U) m Pc Ic d L O W (k.val + 1)) := by
  have hk : k.val < 8 := k.isLt
  have hin := hin_of (F := F) Ic d L hIc
  generalize hQ : inv (U := U) m Pc Ic d L O W (k.val + 1) = Q
  unfold k1_t1_body
  unfold inv gFl oFl tkRest tkWhole
  rw [bigSep_Ico_take10 (rowP (U := U) Ic d L) (a := 10 * k.val + 16) (c := 100) (by omega),
    bigSep_Ico_take10 (chunkP0 (U := U) m d L) (a := 10 * k.val + 10) (c := 100) (by omega)]
  unfold rowP chunkP0
  iintro ⟨%q0, %q1, %q2, %q3, %q4, %q5, %q6, %q7, %q8, %q9, %hJ, #Hmw, Hg0, Hg1, Hg2, Hg3, Hg4, Hg5, Hr6, Hr7, Hr8, Hr9, Hr10, Hr11, Ht12, Ht13, Ht14, Ht15, Ho6, Ho7, Ho8, Ho9,
    Hs8, Hs9, Hs10, Hs11, Hs12, Hs13, Hs14, Hs15, Hs16, Hs17,
    ⟨Hx0, Hx1, Hx2, Hx3, Hx4, Hx5, Hx6, Hx7, Hx8, Hx9, Hxs⟩, Hxd, ⟨Hc0, Hc1, Hc2, Hc3, Hc4, Hc5, Hc6, Hc7, Hc8, Hc9, Hcs⟩, Hcd, %W', %hW', HO⟩
  -- the ten rows and the ten chunks this trip lends, as its transfers address them
  ihave Hx0 := (Entails.of_eq (row_conv (F := F) (U := U) d L (k1_off15 k 0#32) (k1_off15_inb k 0) _ (off15_at k 0) _)) $$ Hx0
  ihave Hx1 := (Entails.of_eq (row_conv (F := F) (U := U) d L (k1_off15 k 1#32) (k1_off15_inb k 1) _ (off15_at k 1) _)) $$ Hx1
  ihave Hx2 := (Entails.of_eq (row_conv (F := F) (U := U) d L (k1_off15 k 2#32) (k1_off15_inb k 2) _ (off15_at k 2) _)) $$ Hx2
  ihave Hx3 := (Entails.of_eq (row_conv (F := F) (U := U) d L (k1_off15 k 3#32) (k1_off15_inb k 3) _ (off15_at k 3) _)) $$ Hx3
  ihave Hx4 := (Entails.of_eq (row_conv (F := F) (U := U) d L (k1_off15 k 4#32) (k1_off15_inb k 4) _ (off15_at k 4) _)) $$ Hx4
  ihave Hx5 := (Entails.of_eq (row_conv (F := F) (U := U) d L (k1_off15 k 5#32) (k1_off15_inb k 5) _ (off15_at k 5) _)) $$ Hx5
  ihave Hx6 := (Entails.of_eq (row_conv (F := F) (U := U) d L (k1_off15 k 6#32) (k1_off15_inb k 6) _ (off15_at k 6) _)) $$ Hx6
  ihave Hx7 := (Entails.of_eq (row_conv (F := F) (U := U) d L (k1_off15 k 7#32) (k1_off15_inb k 7) _ (off15_at k 7) _)) $$ Hx7
  ihave Hx8 := (Entails.of_eq (row_conv (F := F) (U := U) d L (k1_off15 k 8#32) (k1_off15_inb k 8) _ (off15_at k 8) _)) $$ Hx8
  ihave Hx9 := (Entails.of_eq (row_conv (F := F) (U := U) d L (k1_off15 k 9#32) (k1_off15_inb k 9) _ (off15_at k 9) _)) $$ Hx9
  ihave Hc0 := (Entails.of_eq (chunk_conv (F := F) (U := U) d L (k1_off13 L k 0#32) (k1_off13_inb L k 0) _ _ (off13_at L k 0) _)) $$ Hc0
  ihave Hc1 := (Entails.of_eq (chunk_conv (F := F) (U := U) d L (k1_off13 L k 1#32) (k1_off13_inb L k 1) _ _ (off13_at L k 1) _)) $$ Hc1
  ihave Hc2 := (Entails.of_eq (chunk_conv (F := F) (U := U) d L (k1_off13 L k 2#32) (k1_off13_inb L k 2) _ _ (off13_at L k 2) _)) $$ Hc2
  ihave Hc3 := (Entails.of_eq (chunk_conv (F := F) (U := U) d L (k1_off13 L k 3#32) (k1_off13_inb L k 3) _ _ (off13_at L k 3) _)) $$ Hc3
  ihave Hc4 := (Entails.of_eq (chunk_conv (F := F) (U := U) d L (k1_off13 L k 4#32) (k1_off13_inb L k 4) _ _ (off13_at L k 4) _)) $$ Hc4
  ihave Hc5 := (Entails.of_eq (chunk_conv (F := F) (U := U) d L (k1_off13 L k 5#32) (k1_off13_inb L k 5) _ _ (off13_at L k 5) _)) $$ Hc5
  ihave Hc6 := (Entails.of_eq (chunk_conv (F := F) (U := U) d L (k1_off13 L k 6#32) (k1_off13_inb L k 6) _ _ (off13_at L k 6) _)) $$ Hc6
  ihave Hc7 := (Entails.of_eq (chunk_conv (F := F) (U := U) d L (k1_off13 L k 7#32) (k1_off13_inb L k 7) _ _ (off13_at L k 7) _)) $$ Hc7
  ihave Hc8 := (Entails.of_eq (chunk_conv (F := F) (U := U) d L (k1_off13 L k 8#32) (k1_off13_inb L k 8) _ _ (off13_at L k 8) _)) $$ Hc8
  ihave Hc9 := (Entails.of_eq (chunk_conv (F := F) (U := U) d L (k1_off13 L k 9#32) (k1_off13_inb L k 9) _ _ (off13_at L k 9) _)) $$ Hc9
  sl_exec
  sl_step
  -- what the run left, as the invariant after the trip states it
  ihave Hg0 := (gFl_of Pc Ic d L _ ![0, 0, 0] inb_S10x64x128_S1x64x128_0_0_0 q4 (10 * (k.val + 1) + 10) (by omega) (k1_off15 k 4#32) (k1_off15_inb k 4)
      ((off15_at k 4).trans (vec2_congr (by show 10 * k.val + 16 + 4 = _; omega))) (slotC Pc Ic d L (10 * k.val + 10)) _ _
      (trip.sl.gather9 Pc Ic d L k hin) rfl []) $$ Hg0
  ihave Hg1 := (gFl_of Pc Ic d L _ ![1, 0, 0] inb_S10x64x128_S1x64x128_1_0_0 q5 (10 * (k.val + 1) + 10 + 1) (by omega) (k1_off15 k 5#32) (k1_off15_inb k 5)
      ((off15_at k 5).trans (vec2_congr (by show 10 * k.val + 16 + 5 = _; omega))) (slotC Pc Ic d L (10 * k.val + 10 + 1)) _ _
      (trip.sl.gather11 Pc Ic d L k hin) rfl []) $$ Hg1
  ihave Hg2 := (gFl_of Pc Ic d L _ ![2, 0, 0] inb_S10x64x128_S1x64x128_2_0_0 q0 (10 * (k.val + 1) + 10 + 2) (by omega) (k1_off15 k 6#32) (k1_off15_inb k 6)
      ((off15_at k 6).trans (vec2_congr (by show 10 * k.val + 16 + 6 = _; omega))) (slotC Pc Ic d L (10 * k.val + 10 + 2)) _ _
      (trip.sl.gather13 Pc Ic d L k hin) rfl []) $$ Hg2
  ihave Hg3 := (gFl_of Pc Ic d L _ ![3, 0, 0] inb_S10x64x128_S1x64x128_3_0_0 q1 (10 * (k.val + 1) + 10 + 3) (by omega) (k1_off15 k 7#32) (k1_off15_inb k 7)
      ((off15_at k 7).trans (vec2_congr (by show 10 * k.val + 16 + 7 = _; omega))) (slotC Pc Ic d L (10 * k.val + 10 + 3)) _ _
      (trip.sl.gather15 Pc Ic d L k hin) rfl []) $$ Hg3
  ihave Hg4 := (gFl_of Pc Ic d L _ ![4, 0, 0] inb_S10x64x128_S1x64x128_4_0_0 q2 (10 * (k.val + 1) + 10 + 4) (by omega) (k1_off15 k 8#32) (k1_off15_inb k 8)
      ((off15_at k 8).trans (vec2_congr (by show 10 * k.val + 16 + 8 = _; omega))) (slotC Pc Ic d L (10 * k.val + 10 + 4)) _ _
      (trip.sl.gather17 Pc Ic d L k hin) rfl []) $$ Hg4
  ihave Hg5 := (gFl_of Pc Ic d L _ ![5, 0, 0] inb_S10x64x128_S1x64x128_5_0_0 q3 (10 * (k.val + 1) + 10 + 5) (by omega) (k1_off15 k 9#32) (k1_off15_inb k 9)
      ((off15_at k 9).trans (vec2_congr (by show 10 * k.val + 16 + 9 = _; omega))) (slotC Pc Ic d L (10 * k.val + 10 + 5)) _ _
      (trip.sl.gather19 Pc Ic d L k hin) rfl []) $$ Hg5
  ihave Ho6 := (oFl_of Pc Ic d L _ ![6, 0, 0] inb_S10x64x128_S1x64x128_6_0_0 (10 * (k.val + 1) + 6) (by omega) (k1_off13 L k 6#32) (k1_off13_inb L k 6)
      ((off13_at L k 6).trans (vec4_congr (by show 10 * k.val + 10 + 6 = _; omega))) (m (oLoc d))
      ((slotM ![6, 0, 0] inb_S10x64x128_S1x64x128_6_0_0).view.writes (Elt F) (slotC Pc Ic d L (10 * k.val + 6)) [⟨Rect.whole S64x128, trip.sl.gather1 Pc Ic d L k hin⟩])
      (slot_valP Pc Ic d L _ _ (k1_off15 k 0#32) (k1_off15_inb k 0) (10 * (k.val + 1) + 6) (by omega)
        ((off15_at k 0).trans (vec2_congr (by show 10 * k.val + 16 + 0 = _; omega))) (slotC Pc Ic d L (10 * k.val + 6)) _ _ (trip.sl.gather1 Pc Ic d L k hin) rfl [])
      (trip.sl.dma0_6 Pc Ic d L k hin) rfl) $$ Ho6
  ihave Ho7 := (oFl_of Pc Ic d L _ ![7, 0, 0] inb_S10x64x128_S1x64x128_7_0_0 (10 * (k.val + 1) + 6 + 1) (by omega) (k1_off13 L k 7#32) (k1_off13_inb L k 7)
      ((off13_at L k 7).trans (vec4_congr (by show 10 * k.val + 10 + 7 = _; omega))) (m (oLoc d))
      ((slotM ![7, 0, 0] inb_S10x64x128_S1x64x128_7_0_0).view.writes (Elt F) (slotC Pc Ic d L (10 * k.val + 6 + 1)) [⟨Rect.whole S64x128, trip.sl.gather3 Pc Ic d L k hin⟩])
      (slot_valP Pc Ic d L _ _ (k1_off15 k 1#32) (k1_off15_inb k 1) (10 * (k.val + 1) + 6 + 1) (by omega)
        ((off15_at k 1).trans (vec2_congr (by show 10 * k.val + 16 + 1 = _; omega))) (slotC Pc Ic d L (10 * k.val + 6 + 1)) _ _ (trip.sl.gather3 Pc Ic d L k hin) rfl [])
      (trip.sl.dma0_7 Pc Ic d L k hin) rfl) $$ Ho7
  ihave Ho8 := (oFl_of Pc Ic d L _ ![8, 0, 0] inb_S10x64x128_S1x64x128_8_0_0 (10 * (k.val + 1) + 6 + 2) (by omega) (k1_off13 L k 8#32) (k1_off13_inb L k 8)
      ((off13_at L k 8).trans (vec4_congr (by show 10 * k.val + 10 + 8 = _; omega))) (m (oLoc d))
      ((slotM ![8, 0, 0] inb_S10x64x128_S1x64x128_8_0_0).view.writes (Elt F) (slotC Pc Ic d L (10 * k.val + 6 + 2)) [⟨Rect.whole S64x128, trip.sl.gather5 Pc Ic d L k hin⟩])
      (slot_valP Pc Ic d L _ _ (k1_off15 k 2#32) (k1_off15_inb k 2) (10 * (k.val + 1) + 6 + 2) (by omega)
        ((off15_at k 2).trans (vec2_congr (by show 10 * k.val + 16 + 2 = _; omega))) (slotC Pc Ic d L (10 * k.val + 6 + 2)) _ _ (trip.sl.gather5 Pc Ic d L k hin) rfl [])
      (trip.sl.dma0_8 Pc Ic d L k hin) rfl) $$ Ho8
  ihave Ho9 := (oFl_of Pc Ic d L _ ![9, 0, 0] inb_S10x64x128_S1x64x128_9_0_0 (10 * (k.val + 1) + 6 + 3) (by omega) (k1_off13 L k 9#32) (k1_off13_inb L k 9)
      ((off13_at L k 9).trans (vec4_congr (by show 10 * k.val + 10 + 9 = _; omega))) (m (oLoc d))
      ((slotM ![9, 0, 0] inb_S10x64x128_S1x64x128_9_0_0).view.writes (Elt F) (slotC Pc Ic d L (10 * k.val + 6 + 3)) [⟨Rect.whole S64x128, trip.sl.gather7 Pc Ic d L k hin⟩])
      (slot_valP Pc Ic d L _ _ (k1_off15 k 3#32) (k1_off15_inb k 3) (10 * (k.val + 1) + 6 + 3) (by omega)
        ((off15_at k 3).trans (vec2_congr (by show 10 * k.val + 16 + 3 = _; omega))) (slotC Pc Ic d L (10 * k.val + 6 + 3)) _ _ (trip.sl.gather7 Pc Ic d L k hin) rfl [])
      (trip.sl.dma0_9 Pc Ic d L k hin) rfl) $$ Ho9
  ihave Hc0 := (chunkP1_of Pc Ic d L (10 * k.val + 6 + 4) (by omega) (k1_off13 L k 0#32) (k1_off13_inb L k 0)
      ((off13_at L k 0).trans (vec4_congr (by show 10 * k.val + 10 + 0 = _; omega))) ![0, 0, 0] inb_S10x64x128_S1x64x128_0_0_0 (m (oLoc d)) (slotC Pc Ic d L (10 * k.val + 10))
      (fun y _ => congrFun (congrArg (slotC Pc Ic d L) (by omega)) y) (trip.sl.dma0 Pc Ic d L k) rfl) $$ Hc0
  ihave Hc1 := (chunkP1_of Pc Ic d L (10 * k.val + 6 + 5) (by omega) (k1_off13 L k 1#32) (k1_off13_inb L k 1)
      ((off13_at L k 1).trans (vec4_congr (by show 10 * k.val + 10 + 1 = _; omega))) ![1, 0, 0] inb_S10x64x128_S1x64x128_1_0_0 (m (oLoc d)) (slotC Pc Ic d L (10 * k.val + 10 + 1))
      (fun y _ => congrFun (congrArg (slotC Pc Ic d L) (by omega)) y) (trip.sl.dma0_1 Pc Ic d L k) rfl) $$ Hc1
  ihave Hc2 := (chunkP1_of Pc Ic d L (10 * k.val + 6 + 6) (by omega) (k1_off13 L k 2#32) (k1_off13_inb L k 2)
      ((off13_at L k 2).trans (vec4_congr (by show 10 * k.val + 10 + 2 = _; omega))) ![2, 0, 0] inb_S10x64x128_S1x64x128_2_0_0 (m (oLoc d)) (slotC Pc Ic d L (10 * k.val + 10 + 2))
      (fun y _ => congrFun (congrArg (slotC Pc Ic d L) (by omega)) y) (trip.sl.dma0_2 Pc Ic d L k) rfl) $$ Hc2
  ihave Hc3 := (chunkP1_of Pc Ic d L (10 * k.val + 6 + 7) (by omega) (k1_off13 L k 3#32) (k1_off13_inb L k 3)
      ((off13_at L k 3).trans (vec4_congr (by show 10 * k.val + 10 + 3 = _; omega))) ![3, 0, 0] inb_S10x64x128_S1x64x128_3_0_0 (m (oLoc d)) (slotC Pc Ic d L (10 * k.val + 10 + 3))
      (fun y _ => congrFun (congrArg (slotC Pc Ic d L) (by omega)) y) (trip.sl.dma0_3 Pc Ic d L k) rfl) $$ Hc3
  ihave Hc4 := (chunkP1_of Pc Ic d L (10 * k.val + 6 + 8) (by omega) (k1_off13 L k 4#32) (k1_off13_inb L k 4)
      ((off13_at L k 4).trans (vec4_congr (by show 10 * k.val + 10 + 4 = _; omega))) ![4, 0, 0] inb_S10x64x128_S1x64x128_4_0_0 (m (oLoc d)) (slotC Pc Ic d L (10 * k.val + 10 + 4))
      (fun y _ => congrFun (congrArg (slotC Pc Ic d L) (by omega)) y) (trip.sl.dma0_4 Pc Ic d L k) rfl) $$ Hc4
  ihave Hc5 := (chunkP1_of Pc Ic d L (10 * k.val + 6 + 9) (by omega) (k1_off13 L k 5#32) (k1_off13_inb L k 5)
      ((off13_at L k 5).trans (vec4_congr (by show 10 * k.val + 10 + 5 = _; omega))) ![5, 0, 0] inb_S10x64x128_S1x64x128_5_0_0 (m (oLoc d)) (slotC Pc Ic d L (10 * k.val + 10 + 5))
      (fun y _ => congrFun (congrArg (slotC Pc Ic d L) (by omega)) y) (trip.sl.dma0_5 Pc Ic d L k) rfl) $$ Hc5
  ihave Hx0 := (rowP_of Ic d L (10 * k.val + 10 + 6) (k1_off15 k 0#32) (k1_off15_inb k 0)
      ((off15_at k 0).trans (vec2_congr (by show 10 * k.val + 16 + 0 = _; omega)))) $$ Hx0
  ihave Hx1 := (rowP_of Ic d L (10 * k.val + 10 + 7) (k1_off15 k 1#32) (k1_off15_inb k 1)
      ((off15_at k 1).trans (vec2_congr (by show 10 * k.val + 16 + 1 = _; omega)))) $$ Hx1
  ihave Hx2 := (rowP_of Ic d L (10 * k.val + 10 + 8) (k1_off15 k 2#32) (k1_off15_inb k 2)
      ((off15_at k 2).trans (vec2_congr (by show 10 * k.val + 16 + 2 = _; omega)))) $$ Hx2
  ihave Hx3 := (rowP_of Ic d L (10 * k.val + 10 + 9) (k1_off15 k 3#32) (k1_off15_inb k 3)
      ((off15_at k 3).trans (vec2_congr (by show 10 * k.val + 16 + 3 = _; omega)))) $$ Hx3
  subst hQ
  unfold inv
  iexists q4; iexists q5; iexists q0; iexists q1; iexists q2; iexists q3; iexists q6; iexists q7; iexists q8; iexists q9
  isplitl []
  · ipureintro; exact TokJoin_rot d L hJ
  isplitl []
  · iexact Hmw
  isplitl [Hg0]
  · iexact Hg0
  isplitl [Hg1]
  · iexact Hg1
  isplitl [Hg2]
  · iexact Hg2
  isplitl [Hg3]
  · iexact Hg3
  isplitl [Hg4]
  · iexact Hg4
  isplitl [Hg5]
  · iexact Hg5
  isplitl [Hr10]
  · unfold tkRest; iexact Hr10
  isplitl [Hr11]
  · unfold tkRest; iexact Hr11
  isplitl [Hr6]
  · unfold tkRest; iexact Hr6
  isplitl [Hr7]
  · unfold tkRest; iexact Hr7
  isplitl [Hr8]
  · unfold tkRest; iexact Hr8
  isplitl [Hr9]
  · unfold tkRest; iexact Hr9
  isplitl [Ht12]
  · unfold tkWhole; iexact Ht12
  isplitl [Ht13]
  · unfold tkWhole; iexact Ht13
  isplitl [Ht14]
  · unfold tkWhole; iexact Ht14
  isplitl [Ht15]
  · unfold tkWhole; iexact Ht15
  isplitl [Ho6]
  · iexact Ho6
  isplitl [Ho7]
  · iexact Ho7
  isplitl [Ho8]
  · iexact Ho8
  isplitl [Ho9]
  · iexact Ho9
  isplitl [Hs8]
  · iexact Hs8
  isplitl [Hs9]
  · iexact Hs9
  isplitl [Hs10]
  · iexact Hs10
  isplitl [Hs11]
  · iexact Hs11
  isplitl [Hs12]
  · iexact Hs12
  isplitl [Hs13]
  · iexact Hs13
  isplitl [Hs14]
  · iexact Hs14
  isplitl [Hs15]
  · iexact Hs15
  isplitl [Hs16]
  · iexact Hs16
  isplitl [Hs17]
  · iexact Hs17
  isplitl [Hxs]
  · iapply (Entails.of_eq (run_fresh_step (rowP (U := U) Ic d L) (10 * k.val + 16 + 10) (10 * (k.val + 1) + 16) 100 (by omega)))
    unfold rowP; iexact Hxs
  isplitl [Hx0 Hx1 Hx2 Hx3 Hg0_dst_and Hg1_dst_and Hg2_dst_and Hg3_dst_and Hg4_dst_and Hg5_dst_and Hxd]
  · iapply (Entails.of_eq (run_done_step (rowP (U := U) Ic d L) (10 * k.val + 10) (10 * (k.val + 1) + 10) (by omega)))
    isplitl [Hx3]
    · iexact Hx3
    isplitl [Hx2]
    · iexact Hx2
    isplitl [Hx1]
    · iexact Hx1
    isplitl [Hx0]
    · iexact Hx0
    isplitl [Hg5_dst_and]
    · unfold rowP; iexact Hg5_dst_and
    isplitl [Hg4_dst_and]
    · unfold rowP; iexact Hg4_dst_and
    isplitl [Hg3_dst_and]
    · unfold rowP; iexact Hg3_dst_and
    isplitl [Hg2_dst_and]
    · unfold rowP; iexact Hg2_dst_and
    isplitl [Hg1_dst_and]
    · unfold rowP; iexact Hg1_dst_and
    isplitl [Hg0_dst_and]
    · unfold rowP; iexact Hg0_dst_and
    unfold rowP; iexact Hxd
  isplitl [Hcs]
  · iapply (Entails.of_eq (run_fresh_step (chunkP0 (U := U) m d L) (10 * k.val + 10 + 10) (10 * (k.val + 1) + 10) 100 (by omega)))
    unfold chunkP0; iexact Hcs
  isplitl [Hc0 Hc1 Hc2 Hc3 Hc4 Hc5 Ho6_dst Ho7_dst Ho8_dst Ho9_dst Hcd]
  · iapply (Entails.of_eq (run_done_step (chunkP1 (U := U) Pc Ic d L) (10 * k.val + 6) (10 * (k.val + 1) + 6) (by omega)))
    isplitl [Hc5]
    · iexact Hc5
    isplitl [Hc4]
    · iexact Hc4
    isplitl [Hc3]
    · iexact Hc3
    isplitl [Hc2]
    · iexact Hc2
    isplitl [Hc1]
    · iexact Hc1
    isplitl [Hc0]
    · iexact Hc0
    isplitl [Ho9_dst]
    · unfold chunkP1; iexact Ho9_dst
    isplitl [Ho8_dst]
    · unfold chunkP1; iexact Ho8_dst
    isplitl [Ho7_dst]
    · unfold chunkP1; iexact Ho7_dst
    isplitl [Ho6_dst]
    · unfold chunkP1; iexact Ho6_dst
    iexact Hcd
  iexists _; isplitr
  swap; · iexact HO
  ipureintro
  iterate 20 (refine waits_ok ?_ _)
  exact hW'

end Cert.Proof.KB.Tile

end
-- ==== Proof.KB.TileBody.lean ====
/-
  The task of one vector subcore: the worker's row of the ids fetched into the ids' scratch, then the ring of ten slots run over
  the worker's hundred chunks, six gathers ahead of the copies out.

  The program is stepped through in three stretches (up to the loop, one trip, after the loop). What is written here is the
  bookkeeping around them: the task's operands and scratch cut into the pieces the transfers address (rows, slots, chunks, read tokens), the loop
  entered at its invariant, and at the end every piece back and the hundred chunks of the worker's block of the result joined
  at the one whole-array function outArr.
-/
import proofs.«207285_g25512105738892_cont_9to1_353_29_alg».proof.Proof.KB.TileSetup
import proofs.«207285_g25512105738892_cont_9to1_353_29_alg».proof.Proof.KB.TileTrip

noncomputable section

namespace Cert.Proof.KB.Tile

open Cert.Kernel Cert.Kernel.Gen
open Cert.Proof.KB.Res

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]
variable {U : Type} [URA U] [CountersIn U]

local notation "𝕄" => MT nD τ sig (HIx 1) (Elt F) ℕ U ℕ

/-! ## Small bookkeeping -/

omit [FloatOps F] [CountersIn U] in
/-- A slot of the ring, as the memref at an offset function that names it. -/
theorem slot_conv (d : Dev nD) (L : grid1.Coords) (off : Fin 3 → Nat) (h : ∀ a, off a + S1x64x128.size a ≤ S10x64x128.size a) (b : ℕ) (hb : off = ![b, 0, 0])
    (f : Buf (Elt F) ((V d (cV L) (jV L)).loc cc1_scratch1)) :
    ((V d (cV L) (jV L)).loc cc1_scratch1 ↦[slotSet b]{fullShare} f : sProp 𝕄)
      = (slotM off h).view.loc (V d (cV L) (jV L)) ↦[(slotM off h).view.set]{fullShare} f := by
  rw [set_slotM off h b hb]

omit [FloatOps F] [CountersIn U] in
theorem bigSep_Ico_take6 (R : ℕ → sProp 𝕄) {a c : ℕ} (h : a + 6 ≤ c) :
    bigSep (Finset.Ico a c) R = iprop(R a ∗ R (a + 1) ∗ R (a + 2) ∗ R (a + 3) ∗ R (a + 4) ∗ R (a + 5) ∗ bigSep (Finset.Ico (a + 6) c) R) := by
  rw [bigSep_Ico_take R (a := a) (by omega), bigSep_Ico_take R (a := a + 1) (by omega), bigSep_Ico_take R (a := a + 2) (by omega),
    bigSep_Ico_take R (a := a + 3) (by omega), bigSep_Ico_take R (a := a + 4) (by omega), bigSep_Ico_take R (a := a + 5) (by omega)]

omit [FloatOps F] [CountersIn U] in
theorem bigSep_Ico_take4 (R : ℕ → sProp 𝕄) {a c : ℕ} (h : a + 4 ≤ c) :
    bigSep (Finset.Ico a c) R = iprop(R a ∗ R (a + 1) ∗ R (a + 2) ∗ R (a + 3) ∗ bigSep (Finset.Ico (a + 4) c) R) := by
  rw [bigSep_Ico_take R (a := a) (by omega), bigSep_Ico_take R (a := a + 1) (by omega), bigSep_Ico_take R (a := a + 2) (by omega),
    bigSep_Ico_take R (a := a + 3) (by omega)]

omit [FloatOps F] [CountersIn U] in
theorem run_done_step4 (R : ℕ → sProp 𝕄) (a a' : ℕ) (h : a' = a + 4) :
    iprop(R (a + 3) ∗ R (a + 2) ∗ R (a + 1) ∗ R a ∗ bigSep (Finset.range a) R) = bigSep (Finset.range a') R := by
  subst h
  rw [bigSep_range_put R (a + 3), bigSep_range_put R (a + 2), bigSep_range_put R (a + 1), bigSep_range_put R a]

omit [FloatOps F] [CountersIn U] in
theorem run_done_step6 (R : ℕ → sProp 𝕄) (a a' : ℕ) (h : a' = a + 6) :
    iprop(R (a + 5) ∗ R (a + 4) ∗ R (a + 3) ∗ R (a + 2) ∗ R (a + 1) ∗ R a ∗ bigSep (Finset.range a) R) = bigSep (Finset.range a') R := by
  subst h
  rw [bigSep_range_put R (a + 5), bigSep_range_put R (a + 4), bigSep_range_put R (a + 3), bigSep_range_put R (a + 2), bigSep_range_put R (a + 1), bigSep_range_put R a]

omit [FloatOps F] [CountersIn U] in
theorem vec3_congr {a b : ℕ} (h : a = b) : (![a, 0, 0] : Fin 3 → ℕ) = ![b, 0, 0] := by rw [h]

omit [FloatOps F] [CountersIn U] in
/-- The first ten of a hundred pieces. -/
theorem range_take10 (R : ℕ → sProp 𝕄) :
    bigSep (Finset.range 100) R = iprop(R 0 ∗ R (0 + 1) ∗ R (0 + 2) ∗ R (0 + 3) ∗ R (0 + 4) ∗ R (0 + 5) ∗ R (0 + 6) ∗ R (0 + 7) ∗ R (0 + 8) ∗ R (0 + 9)
      ∗ bigSep (Finset.Ico (0 + 10) 100) R) := by
  rw [Finset.range_eq_Ico, bigSep_Ico_take10 R (a := 0) (c := 100) (by omega)]

omit [FloatOps F] [CountersIn U] in
/-- The first sixteen of a hundred pieces. -/
theorem range_take16 (R : ℕ → sProp 𝕄) :
    bigSep (Finset.range 100) R = iprop(R 0 ∗ R (0 + 1) ∗ R (0 + 2) ∗ R (0 + 3) ∗ R (0 + 4) ∗ R (0 + 5) ∗ R (0 + 6) ∗ R (0 + 7) ∗ R (0 + 8) ∗ R (0 + 9)
      ∗ R (0 + 10) ∗ R (0 + 10 + 1) ∗ R (0 + 10 + 2) ∗ R (0 + 10 + 3) ∗ R (0 + 10 + 4) ∗ R (0 + 10 + 5)
      ∗ bigSep (Finset.Ico (0 + 10 + 6) 100) R) := by
  rw [range_take10 R, bigSep_Ico_take6 R (a := 0 + 10) (c := 100) (by omega)]

omit [FloatOps F] [CountersIn U] in
theorem bigSep_range_zero (R : ℕ → sProp 𝕄) : bigSep (Finset.range 0) R = iprop(emp) := by
  rw [Finset.range_zero, bigSep_empty]
  rfl

omit [FloatOps F] [CountersIn U] in
theorem bigSep_Ico_empty (R : ℕ → sProp 𝕄) (a c : ℕ) (h : c ≤ a) : bigSep (Finset.Ico a c) R = iprop(emp) := by
  rw [Finset.Ico_eq_empty (by omega), bigSep_empty]
  rfl

set_option maxHeartbeats 32000000 in
set_option maxRecDepth 65536 in
/-- The task on vector subcore (L 0, L 1) of device d. -/
theorem tile_body (hF : (K (F := F)).Facts) (m : (ℓ : Loc nD τ sig) → Buf (Elt F) ℓ)
    (Pc : (d : Dev nD) → Buf (Elt F) (tLoc d)) (Ic : (d : Dev nD) → Buf (Elt F) (iLoc d))
    (hIc : ∀ (d : Dev nD) (j : S32x100x64.Idx), (Ic d j).toNat < 100000)
    (d : Dev nD) (L : grid1.Coords) (O : CellTallies nD τ sig (HIx 1)) (W : Waits sig (HIx 1)) (hO : ∀ g, O g none = 0) :
    iprop(levAts (K (F := F)).L (K (F := F)).lev ∗ emp ∗ tileGo (U := U) m Pc Ic d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L (Memref.whole main_v1_scv) (Memref.isWhole_whole _) (Memref.whole main_v2_scv) (Memref.isWhole_whole _) (Memref.whole main_v3_scv) (Memref.isWhole_whole _)
            (Memref.whole cc1_scratch0) (Memref.isWhole_whole _) (Memref.whole cc1_scratch1) (Memref.isWhole_whole _)
            cc1_scratch2 cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scratch19 cc1_scratch20 cc1_scratch21 cc1_scoped0)
          fun _ => iprop(tileTd (U := U) Pc Ic d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V d L, ownBufs_V d L]
  iintro ⟨#Hlv, -, ⟨Hi, Ht, Ho⟩, ⟨⟨%fI, Hx⟩, ⟨%fB, Hb⟩, Hbufs⟩,
    ⟨Hsc, Hs6, Hs7, Hs8, Hs9, Hs10, Hs11, Hs12, Hs13, Hs14, Hs15, Hs16, Hs17, Hs18, Hs19, Hs20, Hs21, Hs22, Hs23, Hs24, Hs25, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the worker's row of the ids and the ids' scratch, as the fetch addresses them
  ihave Hi := (Entails.of_eq (pts_iRowK (F := F) (U := U) d L _).symm) $$ Hi
  ihave Hx := (Entails.of_eq (show ((V d (cV L) (jV L)).loc cc1_scratch0 ↦{fullShare} fI : sProp 𝕄)
      = ((xV).view.loc (V d (cV L) (jV L)) ↦{fullShare} fI) from rfl)) $$ Hx
  -- the worker's token of the table, one read token per cell
  ihave Ht := (tok_split (F := F) (U := U) d (widL L) (Pc d)).1 $$ Ht
  icases Ht with ⟨Htd, Htl, Ht6, Ht7, Ht8, Ht9, Ht10, Ht11, Ht12, Ht13, Ht14, Ht15⟩
  ihave Ht6 := (Entails.of_eq (show (tLoc d ↦{shareTokN (tq (widL L)) 6} Pc d : sProp 𝕄) = ((tV).view.loc (V d (cV L) (jV L)) ↦{shareTokN (tq (widL L)) 6} Pc d) from rfl)) $$ Ht6
  ihave Ht7 := (Entails.of_eq (show (tLoc d ↦{shareTokN (tq (widL L)) 7} Pc d : sProp 𝕄) = ((tV).view.loc (V d (cV L) (jV L)) ↦{shareTokN (tq (widL L)) 7} Pc d) from rfl)) $$ Ht7
  ihave Ht8 := (Entails.of_eq (show (tLoc d ↦{shareTokN (tq (widL L)) 8} Pc d : sProp 𝕄) = ((tV).view.loc (V d (cV L) (jV L)) ↦{shareTokN (tq (widL L)) 8} Pc d) from rfl)) $$ Ht8
  ihave Ht9 := (Entails.of_eq (show (tLoc d ↦{shareTokN (tq (widL L)) 9} Pc d : sProp 𝕄) = ((tV).view.loc (V d (cV L) (jV L)) ↦{shareTokN (tq (widL L)) 9} Pc d) from rfl)) $$ Ht9
  ihave Ht10 := (Entails.of_eq (show (tLoc d ↦{shareTokN (tq (widL L)) 10} Pc d : sProp 𝕄) = ((tV).view.loc (V d (cV L) (jV L)) ↦{shareTokN (tq (widL L)) 10} Pc d) from rfl)) $$ Ht10
  ihave Ht11 := (Entails.of_eq (show (tLoc d ↦{shareTokN (tq (widL L)) 11} Pc d : sProp 𝕄) = ((tV).view.loc (V d (cV L) (jV L)) ↦{shareTokN (tq (widL L)) 11} Pc d) from rfl)) $$ Ht11
  ihave Ht12 := (Entails.of_eq (show (tLoc d ↦{shareTokN (tq (widL L)) 12} Pc d : sProp 𝕄) = ((tV).view.loc (V d (cV L) (jV L)) ↦{shareTokN (tq (widL L)) 12} Pc d) from rfl)) $$ Ht12
  ihave Ht13 := (Entails.of_eq (show (tLoc d ↦{shareTokN (tq (widL L)) 13} Pc d : sProp 𝕄) = ((tV).view.loc (V d (cV L) (jV L)) ↦{shareTokN (tq (widL L)) 13} Pc d) from rfl)) $$ Ht13
  ihave Ht14 := (Entails.of_eq (show (tLoc d ↦{shareTokN (tq (widL L)) 14} Pc d : sProp 𝕄) = ((tV).view.loc (V d (cV L) (jV L)) ↦{shareTokN (tq (widL L)) 14} Pc d) from rfl)) $$ Ht14
  ihave Ht15 := (Entails.of_eq (show (tLoc d ↦{shareTokN (tq (widL L)) 15} Pc d : sProp 𝕄) = ((tV).view.loc (V d (cV L) (jV L)) ↦{shareTokN (tq (widL L)) 15} Pc d) from rfl)) $$ Ht15
  -- the ring by slots
  ihave Hb := (Entails.of_eq (bPts_slots10 (F := F) (U := U) d L fB)) $$ Hb
  icases Hb with ⟨Hb0, Hb1, Hb2, Hb3, Hb4, Hb5, Hb6, Hb7, Hb8, Hb9⟩
  ihave Hb0 := (Entails.of_eq (slot_conv (F := F) (U := U) d L ![0, 0, 0] inb_S10x64x128_S1x64x128_0_0_0 0 rfl fB)) $$ Hb0
  ihave Hb1 := (Entails.of_eq (slot_conv (F := F) (U := U) d L ![1, 0, 0] inb_S10x64x128_S1x64x128_1_0_0 1 rfl fB)) $$ Hb1
  ihave Hb2 := (Entails.of_eq (slot_conv (F := F) (U := U) d L ![2, 0, 0] inb_S10x64x128_S1x64x128_2_0_0 2 rfl fB)) $$ Hb2
  ihave Hb3 := (Entails.of_eq (slot_conv (F := F) (U := U) d L ![3, 0, 0] inb_S10x64x128_S1x64x128_3_0_0 3 rfl fB)) $$ Hb3
  ihave Hb4 := (Entails.of_eq (slot_conv (F := F) (U := U) d L ![4, 0, 0] inb_S10x64x128_S1x64x128_4_0_0 4 rfl fB)) $$ Hb4
  ihave Hb5 := (Entails.of_eq (slot_conv (F := F) (U := U) d L ![5, 0, 0] inb_S10x64x128_S1x64x128_5_0_0 5 rfl fB)) $$ Hb5
  ihave Hb6 := (Entails.of_eq (slot_conv (F := F) (U := U) d L ![6, 0, 0] inb_S10x64x128_S1x64x128_6_0_0 6 rfl fB)) $$ Hb6
  ihave Hb7 := (Entails.of_eq (slot_conv (F := F) (U := U) d L ![7, 0, 0] inb_S10x64x128_S1x64x128_7_0_0 7 rfl fB)) $$ Hb7
  ihave Hb8 := (Entails.of_eq (slot_conv (F := F) (U := U) d L ![8, 0, 0] inb_S10x64x128_S1x64x128_8_0_0 8 rfl fB)) $$ Hb8
  ihave Hb9 := (Entails.of_eq (slot_conv (F := F) (U := U) d L ![9, 0, 0] inb_S10x64x128_S1x64x128_9_0_0 9 rfl fB)) $$ Hb9
  -- the worker's block of the result by chunks: the first ten for the first round
  ihave Ho := (Entails.of_eq ((oRow_chunksN (F := F) (U := U) d (widL L) (m (oLoc d))).trans (range_take10 (chunkP0 (U := U) m d L)))) $$ Ho
  icases Ho with ⟨Hc0, Hc1, Hc2, Hc3, Hc4, Hc5, Hc6, Hc7, Hc8, Hc9, Hcs⟩
  unfold chunkP0
  ihave Hc0 := (Entails.of_eq (chunk_conv (F := F) (U := U) d L (k1_off2 L) (k1_off2_inb L) (widL L).val (0) (k1_off2_eq L) (m (oLoc d)))) $$ Hc0
  ihave Hc1 := (Entails.of_eq (chunk_conv (F := F) (U := U) d L (k1_off3 L) (k1_off3_inb L) (widL L).val (0 + 1) (k1_off3_eq L) (m (oLoc d)))) $$ Hc1
  ihave Hc2 := (Entails.of_eq (chunk_conv (F := F) (U := U) d L (k1_off4 L) (k1_off4_inb L) (widL L).val (0 + 2) (k1_off4_eq L) (m (oLoc d)))) $$ Hc2
  ihave Hc3 := (Entails.of_eq (chunk_conv (F := F) (U := U) d L (k1_off5 L) (k1_off5_inb L) (widL L).val (0 + 3) (k1_off5_eq L) (m (oLoc d)))) $$ Hc3
  ihave Hc4 := (Entails.of_eq (chunk_conv (F := F) (U := U) d L (k1_off6 L) (k1_off6_inb L) (widL L).val (0 + 4) (k1_off6_eq L) (m (oLoc d)))) $$ Hc4
  ihave Hc5 := (Entails.of_eq (chunk_conv (F := F) (U := U) d L (k1_off7 L) (k1_off7_inb L) (widL L).val (0 + 5) (k1_off7_eq L) (m (oLoc d)))) $$ Hc5
  ihave Hc6 := (Entails.of_eq (chunk_conv (F := F) (U := U) d L (k1_off8 L) (k1_off8_inb L) (widL L).val (0 + 6) (k1_off8_eq L) (m (oLoc d)))) $$ Hc6
  ihave Hc7 := (Entails.of_eq (chunk_conv (F := F) (U := U) d L (k1_off9 L) (k1_off9_inb L) (widL L).val (0 + 7) (k1_off9_eq L) (m (oLoc d)))) $$ Hc7
  ihave Hc8 := (Entails.of_eq (chunk_conv (F := F) (U := U) d L (k1_off10 L) (k1_off10_inb L) (widL L).val (0 + 8) (k1_off10_eq L) (m (oLoc d)))) $$ Hc8
  ihave Hc9 := (Entails.of_eq (chunk_conv (F := F) (U := U) d L (k1_off11 L) (k1_off11_inb L) (widL L).val (0 + 9) (k1_off11_eq L) (m (oLoc d)))) $$ Hc9
  -- the fetch of the ids and its wait
  sl_exec
  -- the ids' scratch now holds the worker's row of the ids: by rows, the first sixteen for the first round
  ihave Hx := (Entails.of_eq (show ((xV).view.loc (V d (cV L) (jV L)) ↦{fullShare}
        View.write (Elt F) (Memref.whole cc1_scratch0).view fI (tile_body.sl.dma0 Ic d L) Finset.univ : sProp 𝕄)
      = ((V d (cV L) (jV L)).loc cc1_scratch0 ↦{fullShare} idxC Ic d L) from by rw [← idx_val Ic d L fI]; rfl)) $$ Hx
  ihave Hx := (Entails.of_eq ((xPts_rowsN (F := F) (U := U) d L (idxC Ic d L)).trans (range_take16 (rowP (U := U) Ic d L)))) $$ Hx
  icases Hx with ⟨Hx0, Hx1, Hx2, Hx3, Hx4, Hx5, Hx6, Hx7, Hx8, Hx9, Hx10, Hx11, Hx12, Hx13, Hx14, Hx15, Hxs⟩
  unfold rowP

  ihave Hx0 := (Entails.of_eq (row_conv (F := F) (U := U) d L ![0, 0] inb_S100x64_S1x64_0_0 (0) rfl (idxC Ic d L))) $$ Hx0
  ihave Hx1 := (Entails.of_eq (row_conv (F := F) (U := U) d L ![1, 0] inb_S100x64_S1x64_1_0 (0 + 1) rfl (idxC Ic d L))) $$ Hx1
  ihave Hx2 := (Entails.of_eq (row_conv (F := F) (U := U) d L ![2, 0] inb_S100x64_S1x64_2_0 (0 + 2) rfl (idxC Ic d L))) $$ Hx2
  ihave Hx3 := (Entails.of_eq (row_conv (F := F) (U := U) d L ![3, 0] inb_S100x64_S1x64_3_0 (0 + 3) rfl (idxC Ic d L))) $$ Hx3
  ihave Hx4 := (Entails.of_eq (row_conv (F := F) (U := U) d L ![4, 0] inb_S100x64_S1x64_4_0 (0 + 4) rfl (idxC Ic d L))) $$ Hx4
  ihave Hx5 := (Entails.of_eq (row_conv (F := F) (U := U) d L ![5, 0] inb_S100x64_S1x64_5_0 (0 + 5) rfl (idxC Ic d L))) $$ Hx5
  ihave Hx6 := (Entails.of_eq (row_conv (F := F) (U := U) d L ![6, 0] inb_S100x64_S1x64_6_0 (0 + 6) rfl (idxC Ic d L))) $$ Hx6
  ihave Hx7 := (Entails.of_eq (row_conv (F := F) (U := U) d L ![7, 0] inb_S100x64_S1x64_7_0 (0 + 7) rfl (idxC Ic d L))) $$ Hx7
  ihave Hx8 := (Entails.of_eq (row_conv (F := F) (U := U) d L ![8, 0] inb_S100x64_S1x64_8_0 (0 + 8) rfl (idxC Ic d L))) $$ Hx8
  ihave Hx9 := (Entails.of_eq (row_conv (F := F) (U := U) d L ![9, 0] inb_S100x64_S1x64_9_0 (0 + 9) rfl (idxC Ic d L))) $$ Hx9
  ihave Hx10 := (Entails.of_eq (row_conv (F := F) (U := U) d L ![10, 0] inb_S100x64_S1x64_10_0 (0 + 10) rfl (idxC Ic d L))) $$ Hx10
  ihave Hx11 := (Entails.of_eq (row_conv (F := F) (U := U) d L ![11, 0] inb_S100x64_S1x64_11_0 (0 + 10 + 1) rfl (idxC Ic d L))) $$ Hx11
  ihave Hx12 := (Entails.of_eq (row_conv (F := F) (U := U) d L ![12, 0] inb_S100x64_S1x64_12_0 (0 + 10 + 2) rfl (idxC Ic d L))) $$ Hx12
  ihave Hx13 := (Entails.of_eq (row_conv (F := F) (U := U) d L ![13, 0] inb_S100x64_S1x64_13_0 (0 + 10 + 3) rfl (idxC Ic d L))) $$ Hx13
  ihave Hx14 := (Entails.of_eq (row_conv (F := F) (U := U) d L ![14, 0] inb_S100x64_S1x64_14_0 (0 + 10 + 4) rfl (idxC Ic d L))) $$ Hx14
  ihave Hx15 := (Entails.of_eq (row_conv (F := F) (U := U) d L ![15, 0] inb_S100x64_S1x64_15_0 (0 + 10 + 5) rfl (idxC Ic d L))) $$ Hx15
  have hin := hin_of (F := F) Ic d L hIc
  -- the first round, up to the loop
  sl_exec
  -- what the first round left, as the loop's invariant before its first trip states it
  ihave Hs6 := (gFl_of Pc Ic d L _ ![0, 0, 0] inb_S10x64x128_S1x64x128_0_0_0 (shareTokN (tq (widL L)) 6) (10 * 0 + 10) (by omega) ![10, 0] inb_S100x64_S1x64_10_0
      (vec2_congr (by omega)) fB _ _ (tile_body.sl.gather15 Pc Ic d L hin) rfl [⟨Rect.whole S64x128, tile_body.sl.gather0 Pc Ic d L hin⟩]) $$ Hs6
  ihave Hs7 := (gFl_of Pc Ic d L _ ![1, 0, 0] inb_S10x64x128_S1x64x128_1_0_0 (shareTokN (tq (widL L)) 7) (10 * 0 + 10 + 1) (by omega) ![11, 0] inb_S100x64_S1x64_11_0
      (vec2_congr (by omega)) fB _ _ (tile_body.sl.gather17 Pc Ic d L hin) rfl [⟨Rect.whole S64x128, tile_body.sl.gather1 Pc Ic d L hin⟩]) $$ Hs7
  ihave Hs8 := (gFl_of Pc Ic d L _ ![2, 0, 0] inb_S10x64x128_S1x64x128_2_0_0 (shareTokN (tq (widL L)) 8) (10 * 0 + 10 + 2) (by omega) ![12, 0] inb_S100x64_S1x64_12_0
      (vec2_congr (by omega)) fB _ _ (tile_body.sl.gather19 Pc Ic d L hin) rfl [⟨Rect.whole S64x128, tile_body.sl.gather2 Pc Ic d L hin⟩]) $$ Hs8
  ihave Hs9 := (gFl_of Pc Ic d L _ ![3, 0, 0] inb_S10x64x128_S1x64x128_3_0_0 (shareTokN (tq (widL L)) 9) (10 * 0 + 10 + 3) (by omega) ![13, 0] inb_S100x64_S1x64_13_0
      (vec2_congr (by omega)) fB _ _ (tile_body.sl.gather21 Pc Ic d L hin) rfl [⟨Rect.whole S64x128, tile_body.sl.gather3 Pc Ic d L hin⟩]) $$ Hs9
  ihave Hs10 := (gFl_of Pc Ic d L _ ![4, 0, 0] inb_S10x64x128_S1x64x128_4_0_0 (shareTokN (tq (widL L)) 10) (10 * 0 + 10 + 4) (by omega) ![14, 0] inb_S100x64_S1x64_14_0
      (vec2_congr (by omega)) fB _ _ (tile_body.sl.gather23 Pc Ic d L hin) rfl [⟨Rect.whole S64x128, tile_body.sl.gather4 Pc Ic d L hin⟩]) $$ Hs10
  ihave Hs11 := (gFl_of Pc Ic d L _ ![5, 0, 0] inb_S10x64x128_S1x64x128_5_0_0 (shareTokN (tq (widL L)) 11) (10 * 0 + 10 + 5) (by omega) ![15, 0] inb_S100x64_S1x64_15_0
      (vec2_congr (by omega)) fB _ _ (tile_body.sl.gather25 Pc Ic d L hin) rfl [⟨Rect.whole S64x128, tile_body.sl.gather5 Pc Ic d L hin⟩]) $$ Hs11
  ihave Hs22 := (oFl_of Pc Ic d L _ ![6, 0, 0] inb_S10x64x128_S1x64x128_6_0_0 (10 * 0 + 6) (by omega) (k1_off8 L) (k1_off8_inb L) (k1_off8_eq L) (m (oLoc d))
      ((slotM ![6, 0, 0] inb_S10x64x128_S1x64x128_6_0_0).view.writes (Elt F) fB [⟨Rect.whole S64x128, tile_body.sl.gather7 Pc Ic d L hin⟩])
      (slot_valP Pc Ic d L _ _ ![6, 0] inb_S100x64_S1x64_6_0 (10 * 0 + 6) (by omega) (vec2_congr (by omega)) fB _ _ (tile_body.sl.gather7 Pc Ic d L hin) rfl [])
      (tile_body.sl.dma0_7 Pc Ic d L fB hin) rfl) $$ Hs22
  ihave Hs23 := (oFl_of Pc Ic d L _ ![7, 0, 0] inb_S10x64x128_S1x64x128_7_0_0 (10 * 0 + 6 + 1) (by omega) (k1_off9 L) (k1_off9_inb L) (k1_off9_eq L) (m (oLoc d))
      ((slotM ![7, 0, 0] inb_S10x64x128_S1x64x128_7_0_0).view.writes (Elt F) fB [⟨Rect.whole S64x128, tile_body.sl.gather9 Pc Ic d L hin⟩])
      (slot_valP Pc Ic d L _ _ ![7, 0] inb_S100x64_S1x64_7_0 (10 * 0 + 6 + 1) (by omega) (vec2_congr (by omega)) fB _ _ (tile_body.sl.gather9 Pc Ic d L hin) rfl [])
      (tile_body.sl.dma0_8 Pc Ic d L fB hin) rfl) $$ Hs23
  ihave Hs24 := (oFl_of Pc Ic d L _ ![8, 0, 0] inb_S10x64x128_S1x64x128_8_0_0 (10 * 0 + 6 + 2) (by omega) (k1_off10 L) (k1_off10_inb L) (k1_off10_eq L) (m (oLoc d))
      ((slotM ![8, 0, 0] inb_S10x64x128_S1x64x128_8_0_0).view.writes (Elt F) fB [⟨Rect.whole S64x128, tile_body.sl.gather11 Pc Ic d L hin⟩])
      (slot_valP Pc Ic d L _ _ ![8, 0] inb_S100x64_S1x64_8_0 (10 * 0 + 6 + 2) (by omega) (vec2_congr (by omega)) fB _ _ (tile_body.sl.gather11 Pc Ic d L hin) rfl [])
      (tile_body.sl.dma0_9 Pc Ic d L fB hin) rfl) $$ Hs24
  ihave Hs25 := (oFl_of Pc Ic d L _ ![9, 0, 0] inb_S10x64x128_S1x64x128_9_0_0 (10 * 0 + 6 + 3) (by omega) (k1_off11 L) (k1_off11_inb L) (k1_off11_eq L) (m (oLoc d))
      ((slotM ![9, 0, 0] inb_S10x64x128_S1x64x128_9_0_0).view.writes (Elt F) fB [⟨Rect.whole S64x128, tile_body.sl.gather13 Pc Ic d L hin⟩])
      (slot_valP Pc Ic d L _ _ ![9, 0] inb_S100x64_S1x64_9_0 (10 * 0 + 6 + 3) (by omega) (vec2_congr (by omega)) fB _ _ (tile_body.sl.gather13 Pc Ic d L hin) rfl [])
      (tile_body.sl.dma0_10 Pc Ic d L fB hin) rfl) $$ Hs25
  ihave Hc0 := (chunkP1_of Pc Ic d L (0) (by omega) (k1_off2 L) (k1_off2_inb L) (k1_off2_eq L) ![0, 0, 0] inb_S10x64x128_S1x64x128_0_0_0 _
      ((slotM ![0, 0, 0] inb_S10x64x128_S1x64x128_0_0_0).view.writes (Elt F) fB [⟨Rect.whole S64x128, tile_body.sl.gather0 Pc Ic d L hin⟩])
      (slot_valP Pc Ic d L _ _ ![0, 0] inb_S100x64_S1x64_0_0 (0) (by omega) (vec2_congr (by omega)) fB _ _ (tile_body.sl.gather0 Pc Ic d L hin) rfl [])
      (tile_body.sl.dma0_1 Pc Ic d L fB hin) rfl) $$ Hc0
  ihave Hc1 := (chunkP1_of Pc Ic d L (0 + 1) (by omega) (k1_off3 L) (k1_off3_inb L) (k1_off3_eq L) ![1, 0, 0] inb_S10x64x128_S1x64x128_1_0_0 _
      ((slotM ![1, 0, 0] inb_S10x64x128_S1x64x128_1_0_0).view.writes (Elt F) fB [⟨Rect.whole S64x128, tile_body.sl.gather1 Pc Ic d L hin⟩])
      (slot_valP Pc Ic d L _ _ ![1, 0] inb_S100x64_S1x64_1_0 (0 + 1) (by omega) (vec2_congr (by omega)) fB _ _ (tile_body.sl.gather1 Pc Ic d L hin) rfl [])
      (tile_body.sl.dma0_2 Pc Ic d L fB hin) rfl) $$ Hc1
  ihave Hc2 := (chunkP1_of Pc Ic d L (0 + 2) (by omega) (k1_off4 L) (k1_off4_inb L) (k1_off4_eq L) ![2, 0, 0] inb_S10x64x128_S1x64x128_2_0_0 _
      ((slotM ![2, 0, 0] inb_S10x64x128_S1x64x128_2_0_0).view.writes (Elt F) fB [⟨Rect.whole S64x128, tile_body.sl.gather2 Pc Ic d L hin⟩])
      (slot_valP Pc Ic d L _ _ ![2, 0] inb_S100x64_S1x64_2_0 (0 + 2) (by omega) (vec2_congr (by omega)) fB _ _ (tile_body.sl.gather2 Pc Ic d L hin) rfl [])
      (tile_body.sl.dma0_3 Pc Ic d L fB hin) rfl) $$ Hc2
  ihave Hc3 := (chunkP1_of Pc Ic d L (0 + 3) (by omega) (k1_off5 L) (k1_off5_inb L) (k1_off5_eq L) ![3, 0, 0] inb_S10x64x128_S1x64x128_3_0_0 _
      ((slotM ![3, 0, 0] inb_S10x64x128_S1x64x128_3_0_0).view.writes (Elt F) fB [⟨Rect.whole S64x128, tile_body.sl.gather3 Pc Ic d L hin⟩])
      (slot_valP Pc Ic d L _ _ ![3, 0] inb_S100x64_S1x64_3_0 (0 + 3) (by omega) (vec2_congr (by omega)) fB _ _ (tile_body.sl.gather3 Pc Ic d L hin) rfl [])
      (tile_body.sl.dma0_4 Pc Ic d L fB hin) rfl) $$ Hc3
  ihave Hc4 := (chunkP1_of Pc Ic d L (0 + 4) (by omega) (k1_off6 L) (k1_off6_inb L) (k1_off6_eq L) ![4, 0, 0] inb_S10x64x128_S1x64x128_4_0_0 _
      ((slotM ![4, 0, 0] inb_S10x64x128_S1x64x128_4_0_0).view.writes (Elt F) fB [⟨Rect.whole S64x128, tile_body.sl.gather4 Pc Ic d L hin⟩])
      (slot_valP Pc Ic d L _ _ ![4, 0] inb_S100x64_S1x64_4_0 (0 + 4) (by omega) (vec2_congr (by omega)) fB _ _ (tile_body.sl.gather4 Pc Ic d L hin) rfl [])
      (tile_body.sl.dma0_5 Pc Ic d L fB hin) rfl) $$ Hc4
  ihave Hc5 := (chunkP1_of Pc Ic d L (0 + 5) (by omega) (k1_off7 L) (k1_off7_inb L) (k1_off7_eq L) ![5, 0, 0] inb_S10x64x128_S1x64x128_5_0_0 _
      ((slotM ![5, 0, 0] inb_S10x64x128_S1x64x128_5_0_0).view.writes (Elt F) fB [⟨Rect.whole S64x128, tile_body.sl.gather5 Pc Ic d L hin⟩])
      (slot_valP Pc Ic d L _ _ ![5, 0] inb_S100x64_S1x64_5_0 (0 + 5) (by omega) (vec2_congr (by omega)) fB _ _ (tile_body.sl.gather5 Pc Ic d L hin) rfl [])
      (tile_body.sl.dma0_6 Pc Ic d L fB hin) rfl) $$ Hc5
  ihave Hx0 := (rowP_of Ic d L (0) ![0, 0] inb_S100x64_S1x64_0_0 (vec2_congr (by omega))) $$ Hx0
  ihave Hx1 := (rowP_of Ic d L (0 + 1) ![1, 0] inb_S100x64_S1x64_1_0 (vec2_congr (by omega))) $$ Hx1
  ihave Hx2 := (rowP_of Ic d L (0 + 2) ![2, 0] inb_S100x64_S1x64_2_0 (vec2_congr (by omega))) $$ Hx2
  ihave Hx3 := (rowP_of Ic d L (0 + 3) ![3, 0] inb_S100x64_S1x64_3_0 (vec2_congr (by omega))) $$ Hx3
  ihave Hx4 := (rowP_of Ic d L (0 + 4) ![4, 0] inb_S100x64_S1x64_4_0 (vec2_congr (by omega))) $$ Hx4
  ihave Hx5 := (rowP_of Ic d L (0 + 5) ![5, 0] inb_S100x64_S1x64_5_0 (vec2_congr (by omega))) $$ Hx5
  ihave Hx6 := (rowP_of Ic d L (0 + 6) ![6, 0] inb_S100x64_S1x64_6_0 (vec2_congr (by omega))) $$ Hx6
  ihave Hx7 := (rowP_of Ic d L (0 + 7) ![7, 0] inb_S100x64_S1x64_7_0 (vec2_congr (by omega))) $$ Hx7
  ihave Hx8 := (rowP_of Ic d L (0 + 8) ![8, 0] inb_S100x64_S1x64_8_0 (vec2_congr (by omega))) $$ Hx8
  ihave Hx9 := (rowP_of Ic d L (0 + 9) ![9, 0] inb_S100x64_S1x64_9_0 (vec2_congr (by omega))) $$ Hx9
  sl_for (inv (U := U) m Pc Ic d L O W) $$ [Hmw Hs6 Hs7 Hs8 Hs9 Hs10 Hs11 Ht6 Ht7 Ht8 Ht9 Ht10 Ht11 Ht12 Ht13 Ht14 Ht15 Hs22 Hs23 Hs24 Hs25 Hs12 Hs13 Hs14 Hs15 Hs16 Hs17 Hs18 Hs19 Hs20 Hs21 Hxs Hx0 Hx1 Hx2 Hx3 Hx4 Hx5 Hx6 Hx7 Hx8 Hx9 Hcs Hc0 Hc1 Hc2 Hc3 Hc4 Hc5 HO]
  case region => exact fun k acc => trip m Pc Ic d L O W hIc k acc
  · unfold inv
    iexists (shareTokN (tq (widL L)) 6)
    iexists (shareTokN (tq (widL L)) 7)
    iexists (shareTokN (tq (widL L)) 8)
    iexists (shareTokN (tq (widL L)) 9)
    iexists (shareTokN (tq (widL L)) 10)
    iexists (shareTokN (tq (widL L)) 11)
    iexists (shareTokN (tq (widL L)) 12)
    iexists (shareTokN (tq (widL L)) 13)
    iexists (shareTokN (tq (widL L)) 14)
    iexists (shareTokN (tq (widL L)) 15)
    isplitl []
    · ipureintro; exact fun f => .rfl
    isplitl []
    · iexact Hmw
    isplitl [Hs6]
    · iexact Hs6
    isplitl [Hs7]
    · iexact Hs7
    isplitl [Hs8]
    · iexact Hs8
    isplitl [Hs9]
    · iexact Hs9
    isplitl [Hs10]
    · iexact Hs10
    isplitl [Hs11]
    · iexact Hs11
    isplitl [Ht6]
    · unfold tkRest; iexact Ht6
    isplitl [Ht7]
    · unfold tkRest; iexact Ht7
    isplitl [Ht8]
    · unfold tkRest; iexact Ht8
    isplitl [Ht9]
    · unfold tkRest; iexact Ht9
    isplitl [Ht10]
    · unfold tkRest; iexact Ht10
    isplitl [Ht11]
    · unfold tkRest; iexact Ht11
    isplitl [Ht12]
    · unfold tkWhole; iexact Ht12
    isplitl [Ht13]
    · unfold tkWhole; iexact Ht13
    isplitl [Ht14]
    · unfold tkWhole; iexact Ht14
    isplitl [Ht15]
    · unfold tkWhole; iexact Ht15
    isplitl [Hs22]
    · iexact Hs22
    isplitl [Hs23]
    · iexact Hs23
    isplitl [Hs24]
    · iexact Hs24
    isplitl [Hs25]
    · iexact Hs25
    isplitl [Hs12]
    · iexact Hs12
    isplitl [Hs13]
    · iexact Hs13
    isplitl [Hs14]
    · iexact Hs14
    isplitl [Hs15]
    · iexact Hs15
    isplitl [Hs16]
    · iexact Hs16
    isplitl [Hs17]
    · iexact Hs17
    isplitl [Hs18]
    · iexact Hs18
    isplitl [Hs19]
    · iexact Hs19
    isplitl [Hs20]
    · iexact Hs20
    isplitl [Hs21]
    · iexact Hs21
    isplitl [Hxs]
    · iapply (Entails.of_eq (run_fresh_step (rowP (U := U) Ic d L) (0 + 10 + 6) (10 * 0 + 16) 100 (by omega)))
      unfold rowP; iexact Hxs
    isplitl [Hx0 Hx1 Hx2 Hx3 Hx4 Hx5 Hx6 Hx7 Hx8 Hx9]
    · iapply (Entails.of_eq (run_done_step (rowP (U := U) Ic d L) 0 (10 * 0 + 10) (by omega)))
      isplitl [Hx9]
      · iexact Hx9
      isplitl [Hx8]
      · iexact Hx8
      isplitl [Hx7]
      · iexact Hx7
      isplitl [Hx6]
      · iexact Hx6
      isplitl [Hx5]
      · iexact Hx5
      isplitl [Hx4]
      · iexact Hx4
      isplitl [Hx3]
      · iexact Hx3
      isplitl [Hx2]
      · iexact Hx2
      isplitl [Hx1]
      · iexact Hx1
      isplitl [Hx0]
      · iexact Hx0
      iapply (Entails.of_eq (bigSep_range_zero (rowP (U := U) Ic d L)).symm); iempintro
    isplitl [Hcs]
    · iapply (Entails.of_eq (run_fresh_step (chunkP0 (U := U) m d L) (0 + 10) (10 * 0 + 10) 100 (by omega)))
      unfold chunkP0; iexact Hcs
    isplitl [Hc0 Hc1 Hc2 Hc3 Hc4 Hc5]
    · iapply (Entails.of_eq (run_done_step6 (chunkP1 (U := U) Pc Ic d L) 0 (10 * 0 + 6) (by omega)))
      isplitl [Hc5]
      · iexact Hc5
      isplitl [Hc4]
      · iexact Hc4
      isplitl [Hc3]
      · iexact Hc3
      isplitl [Hc2]
      · iexact Hc2
      isplitl [Hc1]
      · iexact Hc1
      isplitl [Hc0]
      · iexact Hc0
      iapply (Entails.of_eq (bigSep_range_zero (chunkP1 (U := U) Pc Ic d L)).symm); iempintro
    iexists _; isplitr
    swap; · iexact HO
    ipureintro
    iterate 17 (refine waits_ok ?_ _)
    exact fun p hp => .inl hp
  iintro %acc HI
  -- after the loop: the invariant at the last trip's end
  ihave HI := (Entails.of_eq (show inv (U := U) m Pc Ic d L O W (Scf.trips k1_t1_loop.lb k1_t1_loop.ub k1_t1_loop.st) acc
      = inv (U := U) m Pc Ic d L O W 8 acc from rfl)) $$ HI
  unfold inv gFl oFl tkRest tkWhole
  icases HI with ⟨%q0, %q1, %q2, %q3, %q4, %q5, %q6, %q7, %q8, %q9, %hJ, -, Hg0, Hg1, Hg2, Hg3, Hg4, Hg5, Hr6, Hr7, Hr8, Hr9, Hr10, Hr11, Ht12, Ht13, Ht14, Ht15, Ho6, Ho7, Ho8, Ho9,
    Hs8, Hs9, Hs10, Hs11, Hs12, Hs13, Hs14, Hs15, Hs16, Hs17, Hxs, Hxd, Hcs, Hcd, %W', %hW', HO⟩
  -- the last four rows and the last ten chunks, as the last round's transfers address them
  ihave Hxs := (Entails.of_eq (bigSep_Ico_take4 (rowP (U := U) Ic d L) (a := 10 * 8 + 16) (c := 100) (by omega))) $$ Hxs
  icases Hxs with ⟨Hx6, Hx7, Hx8, Hx9, Hxe⟩
  ihave Hcs := (Entails.of_eq (bigSep_Ico_take10 (chunkP0 (U := U) m d L) (a := 10 * 8 + 10) (c := 100) (by omega))) $$ Hcs
  icases Hcs with ⟨Hc0, Hc1, Hc2, Hc3, Hc4, Hc5, Hc6, Hc7, Hc8, Hc9, Hce⟩
  ihave Hxe := (Entails.of_eq (bigSep_Ico_empty (rowP (U := U) Ic d L) (10 * 8 + 16 + 4) 100 (by omega))) $$ Hxe
  icases Hxe with -
  ihave Hce := (Entails.of_eq (bigSep_Ico_empty (chunkP0 (U := U) m d L) (10 * 8 + 10 + 10) 100 (by omega))) $$ Hce
  icases Hce with -
  unfold rowP chunkP0
  ihave Hx6 := (Entails.of_eq (row_conv (F := F) (U := U) d L ![96, 0] inb_S100x64_S1x64_96_0 (10 * 8 + 16) (vec2_congr (by omega)) (idxC Ic d L))) $$ Hx6
  ihave Hx7 := (Entails.of_eq (row_conv (F := F) (U := U) d L ![97, 0] inb_S100x64_S1x64_97_0 (10 * 8 + 16 + 1) (vec2_congr (by omega)) (idxC Ic d L))) $$ Hx7
  ihave Hx8 := (Entails.of_eq (row_conv (F := F) (U := U) d L ![98, 0] inb_S100x64_S1x64_98_0 (10 * 8 + 16 + 2) (vec2_congr (by omega)) (idxC Ic d L))) $$ Hx8
  ihave Hx9 := (Entails.of_eq (row_conv (F := F) (U := U) d L ![99, 0] inb_S100x64_S1x64_99_0 (10 * 8 + 16 + 3) (vec2_congr (by omega)) (idxC Ic d L))) $$ Hx9
  ihave Hc0 := (Entails.of_eq (chunk_conv (F := F) (U := U) d L (k1_off16 L) (k1_off16_inb L) (widL L).val (10 * 8 + 10) (k1_off16_eq L) (m (oLoc d)))) $$ Hc0
  ihave Hc1 := (Entails.of_eq (chunk_conv (F := F) (U := U) d L (k1_off18 L) (k1_off18_inb L) (widL L).val (10 * 8 + 10 + 1) (k1_off18_eq L) (m (oLoc d)))) $$ Hc1
  ihave Hc2 := (Entails.of_eq (chunk_conv (F := F) (U := U) d L (k1_off20 L) (k1_off20_inb L) (widL L).val (10 * 8 + 10 + 2) (k1_off20_eq L) (m (oLoc d)))) $$ Hc2
  ihave Hc3 := (Entails.of_eq (chunk_conv (F := F) (U := U) d L (k1_off22 L) (k1_off22_inb L) (widL L).val (10 * 8 + 10 + 3) (k1_off22_eq L) (m (oLoc d)))) $$ Hc3
  ihave Hc4 := (Entails.of_eq (chunk_conv (F := F) (U := U) d L (k1_off24 L) (k1_off24_inb L) (widL L).val (10 * 8 + 10 + 4) (k1_off24_eq L) (m (oLoc d)))) $$ Hc4
  ihave Hc5 := (Entails.of_eq (chunk_conv (F := F) (U := U) d L (k1_off25 L) (k1_off25_inb L) (widL L).val (10 * 8 + 10 + 5) (k1_off25_eq L) (m (oLoc d)))) $$ Hc5
  ihave Hc6 := (Entails.of_eq (chunk_conv (F := F) (U := U) d L (k1_off26 L) (k1_off26_inb L) (widL L).val (10 * 8 + 10 + 6) (k1_off26_eq L) (m (oLoc d)))) $$ Hc6
  ihave Hc7 := (Entails.of_eq (chunk_conv (F := F) (U := U) d L (k1_off27 L) (k1_off27_inb L) (widL L).val (10 * 8 + 10 + 7) (k1_off27_eq L) (m (oLoc d)))) $$ Hc7
  ihave Hc8 := (Entails.of_eq (chunk_conv (F := F) (U := U) d L (k1_off28 L) (k1_off28_inb L) (widL L).val (10 * 8 + 10 + 8) (k1_off28_eq L) (m (oLoc d)))) $$ Hc8
  ihave Hc9 := (Entails.of_eq (chunk_conv (F := F) (U := U) d L (k1_off29 L) (k1_off29_inb L) (widL L).val (10 * 8 + 10 + 9) (k1_off29_eq L) (m (oLoc d)))) $$ Hc9
  -- the last round and the last waits
  sl_exec
  sl_step
  -- every piece back: the last ten chunks written, the last four rows handed back
  ihave Hc0 := (chunkP1_of Pc Ic d L (10 * 8 + 6 + 4) (by omega) (k1_off16 L) (k1_off16_inb L) (k1_off16_eq L) ![0, 0, 0] inb_S10x64x128_S1x64x128_0_0_0 _
      (slotC Pc Ic d L (10 * 8 + 10)) (fun y _ => congrFun (congrArg (slotC Pc Ic d L) (by omega)) y) (tile_body.sl.dma0_11 Pc Ic d L) rfl) $$ Hc0
  ihave Hc1 := (chunkP1_of Pc Ic d L (10 * 8 + 6 + 5) (by omega) (k1_off18 L) (k1_off18_inb L) (k1_off18_eq L) ![1, 0, 0] inb_S10x64x128_S1x64x128_1_0_0 _
      (slotC Pc Ic d L (10 * 8 + 10 + 1)) (fun y _ => congrFun (congrArg (slotC Pc Ic d L) (by omega)) y) (tile_body.sl.dma0_12 Pc Ic d L) rfl) $$ Hc1
  ihave Hc2 := (chunkP1_of Pc Ic d L (10 * 8 + 6 + 6) (by omega) (k1_off20 L) (k1_off20_inb L) (k1_off20_eq L) ![2, 0, 0] inb_S10x64x128_S1x64x128_2_0_0 _
      (slotC Pc Ic d L (10 * 8 + 10 + 2)) (fun y _ => congrFun (congrArg (slotC Pc Ic d L) (by omega)) y) (tile_body.sl.dma0_13 Pc Ic d L) rfl) $$ Hc2
  ihave Hc3 := (chunkP1_of Pc Ic d L (10 * 8 + 6 + 7) (by omega) (k1_off22 L) (k1_off22_inb L) (k1_off22_eq L) ![3, 0, 0] inb_S10x64x128_S1x64x128_3_0_0 _
      (slotC Pc Ic d L (10 * 8 + 10 + 3)) (fun y _ => congrFun (congrArg (slotC Pc Ic d L) (by omega)) y) (tile_body.sl.dma0_14 Pc Ic d L) rfl) $$ Hc3
  ihave Hc4 := (chunkP1_of Pc Ic d L (10 * 8 + 6 + 8) (by omega) (k1_off24 L) (k1_off24_inb L) (k1_off24_eq L) ![4, 0, 0] inb_S10x64x128_S1x64x128_4_0_0 _
      (slotC Pc Ic d L (10 * 8 + 10 + 4)) (fun y _ => congrFun (congrArg (slotC Pc Ic d L) (by omega)) y) (tile_body.sl.dma0_15 Pc Ic d L) rfl) $$ Hc4
  ihave Hc5 := (chunkP1_of Pc Ic d L (10 * 8 + 6 + 9) (by omega) (k1_off25 L) (k1_off25_inb L) (k1_off25_eq L) ![5, 0, 0] inb_S10x64x128_S1x64x128_5_0_0 _
      (slotC Pc Ic d L (10 * 8 + 10 + 5)) (fun y _ => congrFun (congrArg (slotC Pc Ic d L) (by omega)) y) (tile_body.sl.dma0_16 Pc Ic d L) rfl) $$ Hc5
  ihave Hc6 := (chunkP1_of Pc Ic d L (10 * 8 + 6 + 10) (by omega) (k1_off26 L) (k1_off26_inb L) (k1_off26_eq L) ![6, 0, 0] inb_S10x64x128_S1x64x128_6_0_0 _
      ((slotM ![6, 0, 0] inb_S10x64x128_S1x64x128_6_0_0).view.writes (Elt F) (slotC Pc Ic d L (10 * 8 + 6)) [⟨Rect.whole S64x128, tile_body.sl.gather1_1 Pc Ic d L hin⟩])
      (slot_valP Pc Ic d L _ _ ![96, 0] inb_S100x64_S1x64_96_0 (10 * 8 + 6 + 10) (by omega) (vec2_congr (by omega)) (slotC Pc Ic d L (10 * 8 + 6)) _ _ (tile_body.sl.gather1_1 Pc Ic d L hin) rfl [])
      (tile_body.sl.dma0_17 Pc Ic d L hin) rfl) $$ Hc6
  ihave Hc7 := (chunkP1_of Pc Ic d L (10 * 8 + 6 + 10 + 1) (by omega) (k1_off27 L) (k1_off27_inb L) (k1_off27_eq L) ![7, 0, 0] inb_S10x64x128_S1x64x128_7_0_0 _
      ((slotM ![7, 0, 0] inb_S10x64x128_S1x64x128_7_0_0).view.writes (Elt F) (slotC Pc Ic d L (10 * 8 + 6 + 1)) [⟨Rect.whole S64x128, tile_body.sl.gather3_1 Pc Ic d L hin⟩])
      (slot_valP Pc Ic d L _ _ ![97, 0] inb_S100x64_S1x64_97_0 (10 * 8 + 6 + 10 + 1) (by omega) (vec2_congr (by omega)) (slotC Pc Ic d L (10 * 8 + 6 + 1)) _ _ (tile_body.sl.gather3_1 Pc Ic d L hin) rfl [])
      (tile_body.sl.dma0_18 Pc Ic d L hin) rfl) $$ Hc7
  ihave Hc8 := (chunkP1_of Pc Ic d L (10 * 8 + 6 + 10 + 2) (by omega) (k1_off28 L) (k1_off28_inb L) (k1_off28_eq L) ![8, 0, 0] inb_S10x64x128_S1x64x128_8_0_0 _
      ((slotM ![8, 0, 0] inb_S10x64x128_S1x64x128_8_0_0).view.writes (Elt F) (slotC Pc Ic d L (10 * 8 + 6 + 2)) [⟨Rect.whole S64x128, tile_body.sl.gather5_1 Pc Ic d L hin⟩])
      (slot_valP Pc Ic d L _ _ ![98, 0] inb_S100x64_S1x64_98_0 (10 * 8 + 6 + 10 + 2) (by omega) (vec2_congr (by omega)) (slotC Pc Ic d L (10 * 8 + 6 + 2)) _ _ (tile_body.sl.gather5_1 Pc Ic d L hin) rfl [])
      (tile_body.sl.dma0_19 Pc Ic d L hin) rfl) $$ Hc8
  ihave Hc9 := (chunkP1_of Pc Ic d L (10 * 8 + 6 + 10 + 3) (by omega) (k1_off29 L) (k1_off29_inb L) (k1_off29_eq L) ![9, 0, 0] inb_S10x64x128_S1x64x128_9_0_0 _
      ((slotM ![9, 0, 0] inb_S10x64x128_S1x64x128_9_0_0).view.writes (Elt F) (slotC Pc Ic d L (10 * 8 + 6 + 3)) [⟨Rect.whole S64x128, tile_body.sl.gather7_1 Pc Ic d L hin⟩])
      (slot_valP Pc Ic d L _ _ ![99, 0] inb_S100x64_S1x64_99_0 (10 * 8 + 6 + 10 + 3) (by omega) (vec2_congr (by omega)) (slotC Pc Ic d L (10 * 8 + 6 + 3)) _ _ (tile_body.sl.gather7_1 Pc Ic d L hin) rfl [])
      (tile_body.sl.dma0_20 Pc Ic d L hin) rfl) $$ Hc9
  ihave Hx6 := (rowP_of Ic d L (10 * 8 + 10 + 6) ![96, 0] inb_S100x64_S1x64_96_0 (vec2_congr (by omega))) $$ Hx6
  ihave Hx7 := (rowP_of Ic d L (10 * 8 + 10 + 7) ![97, 0] inb_S100x64_S1x64_97_0 (vec2_congr (by omega))) $$ Hx7
  ihave Hx8 := (rowP_of Ic d L (10 * 8 + 10 + 8) ![98, 0] inb_S100x64_S1x64_98_0 (vec2_congr (by omega))) $$ Hx8
  ihave Hx9 := (rowP_of Ic d L (10 * 8 + 10 + 9) ![99, 0] inb_S100x64_S1x64_99_0 (vec2_congr (by omega))) $$ Hx9
  -- the worker's pieces handed back
  isplitl [Hi Htd Htl Ht12 Ht13 Ht14 Ht15 Hr6 Hr7 Hr8 Hr9 Hr10 Hr11 Hcd Ho6_dst Ho7_dst Ho8_dst Ho9_dst Hc0 Hc1 Hc2 Hc3 Hc4 Hc5 Hc6 Hc7 Hc8 Hc9]
  · isplitl [Hi]
    · iapply (Entails.of_eq (pts_iRowK (F := F) (U := U) d L _)); iexact Hi
    isplitl [Htd Htl Ht12 Ht13 Ht14 Ht15 Hr6 Hr7 Hr8 Hr9 Hr10 Hr11]
    · iapply (tok_split (F := F) (U := U) d (widL L) (Pc d)).2
      isplitl [Htd]; · iexact Htd
      isplitl [Htl]; · iexact Htl
      iapply (hJ (Pc d))
      isplitl [Hr6]; · iexact Hr6
      isplitl [Hr7]; · iexact Hr7
      isplitl [Hr8]; · iexact Hr8
      isplitl [Hr9]; · iexact Hr9
      isplitl [Hr10]; · iexact Hr10
      isplitl [Hr11]; · iexact Hr11
      isplitl [Ht12]; · iexact Ht12
      isplitl [Ht13]; · iexact Ht13
      isplitl [Ht14]; · iexact Ht14
      iexact Ht15
    · iapply (Entails.of_eq (oRow_chunksN (F := F) (U := U) d (widL L) (outArr (Pc d) (Ic d))).symm)
      iapply (Entails.of_eq (run_done_step4 (chunkP1 (U := U) Pc Ic d L) (10 * 8 + 6 + 10) 100 (by omega)))
      isplitl [Hc9]; · iexact Hc9
      isplitl [Hc8]; · iexact Hc8
      isplitl [Hc7]; · iexact Hc7
      isplitl [Hc6]; · iexact Hc6
      iapply (Entails.of_eq (run_done_step (chunkP1 (U := U) Pc Ic d L) (10 * 8 + 6) (10 * 8 + 6 + 10) rfl))
      isplitl [Hc5]; · iexact Hc5
      isplitl [Hc4]; · iexact Hc4
      isplitl [Hc3]; · iexact Hc3
      isplitl [Hc2]; · iexact Hc2
      isplitl [Hc1]; · iexact Hc1
      isplitl [Hc0]; · iexact Hc0
      isplitl [Ho9_dst]; · unfold chunkP1; iexact Ho9_dst
      isplitl [Ho8_dst]; · unfold chunkP1; iexact Ho8_dst
      isplitl [Ho7_dst]; · unfold chunkP1; iexact Ho7_dst
      isplitl [Ho6_dst]; · unfold chunkP1; iexact Ho6_dst
      iexact Hcd
  -- the subcore's scratch whole again
  isplitl [Hxd Hg0_dst_and Hg1_dst_and Hg2_dst_and Hg3_dst_and Hg4_dst_and Hg5_dst_and Hx6 Hx7 Hx8 Hx9 Hg0_dst Hg1_dst Hg2_dst Hg3_dst Hg4_dst Hg5_dst Ho6_src Ho7_src Ho8_src Ho9_src Hbufs]
  · isplitl [Hxd Hg0_dst_and Hg1_dst_and Hg2_dst_and Hg3_dst_and Hg4_dst_and Hg5_dst_and Hx6 Hx7 Hx8 Hx9]
    · iexists (idxC Ic d L)
      iapply (Entails.of_eq (xPts_rowsN (F := F) (U := U) d L (idxC Ic d L)).symm)
      iapply (Entails.of_eq (run_done_step (rowP (U := U) Ic d L) (10 * 8 + 10) 100 (by omega)))
      isplitl [Hx9]; · iexact Hx9
      isplitl [Hx8]; · iexact Hx8
      isplitl [Hx7]; · iexact Hx7
      isplitl [Hx6]; · iexact Hx6
      isplitl [Hg5_dst_and]; · unfold rowP; iexact Hg5_dst_and
      isplitl [Hg4_dst_and]; · unfold rowP; iexact Hg4_dst_and
      isplitl [Hg3_dst_and]; · unfold rowP; iexact Hg3_dst_and
      isplitl [Hg2_dst_and]; · unfold rowP; iexact Hg2_dst_and
      isplitl [Hg1_dst_and]; · unfold rowP; iexact Hg1_dst_and
      isplitl [Hg0_dst_and]; · unfold rowP; iexact Hg0_dst_and
      unfold rowP; iexact Hxd
    isplitl [Hg0_dst Hg1_dst Hg2_dst Hg3_dst Hg4_dst Hg5_dst Ho6_src Ho7_src Ho8_src Ho9_src]
    · iapply (slots_join (F := F) (U := U) d L _ _ _ _ _ _ _ _ _ _)
      isplitl [Hg0_dst]; · iapply (Entails.of_eq (slot_conv (F := F) (U := U) d L ![0, 0, 0] inb_S10x64x128_S1x64x128_0_0_0 0 rfl _).symm); iexact Hg0_dst
      isplitl [Hg1_dst]; · iapply (Entails.of_eq (slot_conv (F := F) (U := U) d L ![1, 0, 0] inb_S10x64x128_S1x64x128_1_0_0 1 rfl _).symm); iexact Hg1_dst
      isplitl [Hg2_dst]; · iapply (Entails.of_eq (slot_conv (F := F) (U := U) d L ![2, 0, 0] inb_S10x64x128_S1x64x128_2_0_0 2 rfl _).symm); iexact Hg2_dst
      isplitl [Hg3_dst]; · iapply (Entails.of_eq (slot_conv (F := F) (U := U) d L ![3, 0, 0] inb_S10x64x128_S1x64x128_3_0_0 3 rfl _).symm); iexact Hg3_dst
      isplitl [Hg4_dst]; · iapply (Entails.of_eq (slot_conv (F := F) (U := U) d L ![4, 0, 0] inb_S10x64x128_S1x64x128_4_0_0 4 rfl _).symm); iexact Hg4_dst
      isplitl [Hg5_dst]; · iapply (Entails.of_eq (slot_conv (F := F) (U := U) d L ![5, 0, 0] inb_S10x64x128_S1x64x128_5_0_0 5 rfl _).symm); iexact Hg5_dst
      isplitl [Ho6_src]; · iapply (Entails.of_eq (slot_conv (F := F) (U := U) d L ![6, 0, 0] inb_S10x64x128_S1x64x128_6_0_0 6 rfl _).symm); iexact Ho6_src
      isplitl [Ho7_src]; · iapply (Entails.of_eq (slot_conv (F := F) (U := U) d L ![7, 0, 0] inb_S10x64x128_S1x64x128_7_0_0 7 rfl _).symm); iexact Ho7_src
      isplitl [Ho8_src]; · iapply (Entails.of_eq (slot_conv (F := F) (U := U) d L ![8, 0, 0] inb_S10x64x128_S1x64x128_8_0_0 8 rfl _).symm); iexact Ho8_src
      iapply (Entails.of_eq (slot_conv (F := F) (U := U) d L ![9, 0, 0] inb_S10x64x128_S1x64x128_9_0_0 9 rfl _).symm); iexact Ho9_src
    iexact Hbufs
  -- its semaphores at zero again
  isplitl [Hsc Hg0 Hg1 Hg2 Hg3 Hg4 Hg5 Hs8 Hs9 Hs10 Hs11 Hs12 Hs13 Hs14 Hs15 Hs16 Hs17 Ho6 Ho7 Ho8 Ho9 Hsems]
  · isplitl [Hsc]; · iexact Hsc
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Ho6]; · iexact Ho6
    isplitl [Ho7]; · iexact Ho7
    isplitl [Ho8]; · iexact Ho8
    isplitl [Ho9]; · iexact Ho9
    iexact Hsems
  iexists _; isplitr
  swap; · iexact HO
  ipureintro
  iterate 24 (refine waits_ok ?_ _)
  exact hW'

end Cert.Proof.KB.Tile

end
-- ==== Proof.lean ====
/-
  The embedding projection: out (a, l, p) = (∑ k, table (id (a, l), k) · W (p, k)) + b p.

  The kernel projects every row of the table on the TensorCore (five blocks of 20000 rows: each block times Wᵀ, plus the bias row) and
  then, on the SparseCores, 32 workers move rows: worker w copies its 6400 ids into a scratch and streams its 100 chunks of 64
  projected rows through a ring of ten slots — a row gather from the projected table into a slot, a copy of the slot out to the
  result — each slot with its own two semaphores, so that a slot is read only after its gather has landed and overwritten only after
  its copy-out has left. The reference moves the rows of the table first and then projects them. Read at an entry, both are the sum
  of the same 128 products in the same order plus the same bias entry, the row being the one the id names: the two programs agree as
  they stand, over the extended reals, with no algebraic law and without using that the float inputs are finite. What the
  precondition is used for is the ids: each lies in [0, 99999], so each names a row of the table — the kernel's gathers ask it of
  their offset lists, and the reference's take-with-fill never fills.

  The frames: each program runs to its end, faults nowhere, and leaves its five arguments as they were. The kernel's is proved once,
  for any float instance, as a run whose final memory holds the five arguments unchanged and the result at one pure term of them;
  the word-level program and the idealized one are two printings of the same text, and each gets the proof at its own names.
  The idealized kernel is the kernel's own text read at the ideal instance: nothing was rewritten, and preserves has nothing to state.
-/
import proofs.«207285_g25512105738892_cont_9to1_353_29_alg».proof.Defs
import proofs.«207285_g25512105738892_cont_9to1_353_29_alg».proof.Proof.Gen.Kernel
import proofs.«207285_g25512105738892_cont_9to1_353_29_alg».proof.Proof.Gen.KernelIdeal
import proofs.«207285_g25512105738892_cont_9to1_353_29_alg».proof.Proof.Gen.ReferenceIdeal
import proofs.«207285_g25512105738892_cont_9to1_353_29_alg».proof.Proof.Gen.Pre_input_domain
import proofs.«207285_g25512105738892_cont_9to1_353_29_alg».proof.Proof.RefClaims
import proofs.«207285_g25512105738892_cont_9to1_353_29_alg».proof.Proof.RegionValue
import proofs.«207285_g25512105738892_cont_9to1_353_29_alg».proof.Proof.KernelClaims
import proofs.«207285_g25512105738892_cont_9to1_353_29_alg».proof.Proof.KernelClaimsB
import proofs.«207285_g25512105738892_cont_9to1_353_29_alg».proof.Proof.KI.TileBody
import proofs.«207285_g25512105738892_cont_9to1_353_29_alg».proof.Proof.KB.TileBody

noncomputable section

namespace Cert.Proof

open Idealize.ShloMosaic Idealize.SL.Sem

/-- One worker's task, at the idealized program's names and at the word-level program's. -/
theorem tile_ki : KernelClaims.TileStmt :=
  fun m Pc Ic hIc d L O W hO => Cert.Proof.KI.Tile.tile_body Cert.Proof.KI.LaunchSC.facts m Pc Ic hIc d L O W hO
theorem tile_kb : KernelClaimsB.TileStmt :=
  fun m Pc Ic hIc d L O W hO => Cert.Proof.KB.Tile.tile_body Cert.Proof.KB.LaunchSC.facts m Pc Ic hIc d L O W hO

theorem claim : Cert.Claim := ⟨Cert.Kernel.Gen.facts, Cert.KernelIdeal.Gen.facts, Cert.ReferenceIdeal.Gen.facts, Cert.Pre_input_domain.Gen.facts,
  KernelClaimsB.frame_k tile_kb,
  KernelClaims.frame_ki tile_ki,
  RefClaims.frame_ri,
  trivial,
  KernelClaims.algebraic tile_ki Cert.Proof.RegionValue.projArr_apply⟩

end Cert.Proof

end
